-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x7x7x11 : Shape := ⟨4, ![32768, 7, 7, 11]⟩
abbrev S_ : Shape := ⟨0, ![]⟩

class Facts : Prop where
  bcast_S_S32768x7x7x11 : S_.BroadcastsInDim S32768x7x7x11 (![] : Fin 0 → Fin S32768x7x7x11.rank)
  reducesTo_S32768x7x7x11_S_d0_1_2_3 : S32768x7x7x11.ReducesTo [0, 1, 2, 3] S_
  h_S_ : 0 < S_.numel

variable [Facts]

def fn {F : FTy → Type} [FloatOps F] (main_arg0 : FVec F S32768x7x7x11 .f32) (main_arg1 : FVec F S32768x7x7x11 .f32) : IVec S_ 1 :=
  let main_v0 : FVec F S32768x7x7x11 .f32 := Host.absf main_arg0
  let main_cst : FVec F S_ .f32 := constant S_ .f32 0x7F800000#32
  let main_v1 : FVec F S32768x7x7x11 .f32 := broadcastInDim S32768x7x7x11 ![] bcast_S_S32768x7x7x11 main_cst
  let main_v2 : IVec S32768x7x7x11 1 := cmpf .olt main_v0 main_v1
  let main_c : IVec S_ 1 := constantI S_ 1 1#1
  let main_v3 : IVec S_ 1 := (fun x v => Host.reduce IntOp.andi x v reducesTo_S32768x7x7x11_S_d0_1_2_3 h_S_) main_v2 main_c
  let main_v4 : FVec F S32768x7x7x11 .f32 := Host.absf main_arg1
  let main_cst_0 : FVec F S_ .f32 := constant S_ .f32 0x7F800000#32
  let main_v5 : FVec F S32768x7x7x11 .f32 := broadcastInDim S32768x7x7x11 ![] bcast_S_S32768x7x7x11 main_cst_0
  let main_v6 : IVec S32768x7x7x11 1 := cmpf .olt main_v4 main_v5
  let main_c_1 : IVec S_ 1 := constantI S_ 1 1#1
  let main_v7 : IVec S_ 1 := (fun x v => Host.reduce IntOp.andi x v reducesTo_S32768x7x7x11_S_d0_1_2_3 h_S_) main_v6 main_c_1
  let main_v8 : IVec S_ 1 := andi main_v3 main_v7
  main_v8
-- ==== Kernel.lean ====
abbrev S32768x7x7x11 : Shape := ⟨4, ![32768, 7, 7, 11]⟩
abbrev S2x802816x11 : Shape := ⟨3, ![2, 802816, 11]⟩
abbrev S2x1x1 : Shape := ⟨3, ![2, 1, 1]⟩
abbrev S1x4096x11 : Shape := ⟨3, ![1, 4096, 11]⟩
abbrev S1x1x1 : Shape := ⟨3, ![1, 1, 1]⟩
abbrev S1x1 : Shape := ⟨2, ![1, 1]⟩
abbrev S4096x11 : Shape := ⟨2, ![4096, 11]⟩
abbrev S4096x2 : Shape := ⟨2, ![4096, 2]⟩
abbrev S4096x1 : Shape := ⟨2, ![4096, 1]⟩
abbrev S1 : Shape := ⟨1, ![1]⟩
abbrev S4096 : Shape := ⟨1, ![4096]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32768x7x7x11, .f32⟩
  | .hbm, ⟨1, _⟩ => ⟨S32768x7x7x11, .f32⟩
  | .hbm, ⟨2, _⟩ => ⟨S2x802816x11, .f32⟩
  | .hbm, ⟨3, _⟩ => ⟨S2x802816x11, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x4096x11, .f32⟩
  | .local _ .vmem, ⟨1, _⟩ => ⟨S1x4096x11, .f32⟩
  | .local _ .vmem, ⟨2, _⟩ => ⟨S1x4096x11, .f32⟩
  | .local _ .vmem, ⟨3, _⟩ => ⟨S1x4096x11, .f32⟩
  | .local _ .vmem, ⟨4, _⟩ => ⟨S1x1x1, .f32⟩
  | .local _ .vmem, ⟨5, _⟩ => ⟨S1x1x1, .f32⟩
  | _, _ => ⟨S32768x7x7x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 196], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32768x7x7x11_S2x802816x11 : S32768x7x7x11.ShapeCasts S2x802816x11
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x4096x11_S1x4096x11_0_0_0 : ∀ a, (![0, 0, 0] : Fin 3 → Nat) a + S1x4096x11.size a ≤ S1x4096x11.size a
  h_S1x4096x11 : 0 < S1x4096x11.numel
  shapeCasts_S1x4096x11_S4096x11 : S1x4096x11.ShapeCasts S4096x11
  slices_S4096x11_o0_0_S4096x2 : S4096x11.Slices ![0, 0] S4096x2
  slices_S4096x11_o0_2_S4096x2 : S4096x11.Slices ![0, 2] S4096x2
  slices_S4096x11_o0_4_S4096x1 : S4096x11.Slices ![0, 4] S4096x1
  slices_S4096x11_o0_5_S4096x2 : S4096x11.Slices ![0, 5] S4096x2
  slices_S4096x11_o0_7_S4096x2 : S4096x11.Slices ![0, 7] S4096x2
  slices_S4096x11_o0_9_S4096x1 : S4096x11.Slices ![0, 9] S4096x1
  slices_S4096x11_o0_10_S4096x1 : S4096x11.Slices ![0, 10] S4096x1
  reduces_S4096x1_S1 : S4096x1.Reduces [0] S1
  shapeCasts_S1_S1x1 : S1.ShapeCasts S1x1
  slices_S4096x2_o0_0_S4096x1 : S4096x2.Slices ![0, 0] S4096x1
  slices_S4096x2_o0_1_S4096x1 : S4096x2.Slices ![0, 1] S4096x1
  reduces_S4096x2_S4096 : S4096x2.Reduces [1] S4096
  shapeCasts_S4096_S4096x1 : S4096.ShapeCasts S4096x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x11.size a ≤ S2x802816x11.size a
  hwx0_0 : ∀ i : grid0.Coords, EltTy.bits .f32 = 32 ∨ (Rect.block (s := S2x802816x11) S1x4096x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x11.size a ≤ S2x802816x11.size a
  hwx0_1 : ∀ i : grid0.Coords, EltTy.bits .f32 = 32 ∨ (Rect.block (s := S2x802816x11) S1x4096x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1x4096x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x7x7x11 : Shape := ⟨4, ![32768, 7, 7, 11]⟩
abbrev S32768x7x7x1 : Shape := ⟨4, ![32768, 7, 7, 1]⟩
abbrev S32768x7x7 : Shape := ⟨3, ![32768, 7, 7]⟩
abbrev S_ : Shape := ⟨0, ![]⟩
abbrev S32768x7x7x10 : Shape := ⟨4, ![32768, 7, 7, 10]⟩
abbrev S32768x7x7x2x5 : Shape := ⟨5, ![32768, 7, 7, 2, 5]⟩
abbrev S32768x7x7x5 : Shape := ⟨4, ![32768, 7, 7, 5]⟩
abbrev S32768x7x7x2x2 : Shape := ⟨5, ![32768, 7, 7, 2, 2]⟩
abbrev S32768x7x7x2x4 : Shape := ⟨5, ![32768, 7, 7, 2, 4]⟩
abbrev S32768x7x7x2 : Shape := ⟨4, ![32768, 7, 7, 2]⟩
abbrev S32768x7x7x4 : Shape := ⟨4, ![32768, 7, 7, 4]⟩
abbrev S32768x7x7x1x4 : Shape := ⟨5, ![32768, 7, 7, 1, 4]⟩
abbrev S32768x7x7x1x2 : Shape := ⟨5, ![32768, 7, 7, 1, 2]⟩
abbrev S32768x7x7x2x1 : Shape := ⟨5, ![32768, 7, 7, 2, 1]⟩
abbrev S32768x7x7x1x1 : Shape := ⟨5, ![32768, 7, 7, 1, 1]⟩

abbrev nBuf : Space → Nat
  | .hbm => 203
  | .vmem => 0
  | .smem => 0
  | _ => 0

abbrev hbmTy0_0 (i : Nat) : BufTy := match i % 128 with
  | 0 => ⟨S32768x7x7x11, .f32⟩
  | 1 => ⟨S32768x7x7x11, .f32⟩
  | 2 => ⟨S32768x7x7x1, .f32⟩
  | 3 => ⟨S32768x7x7, .f32⟩
  | 4 => ⟨S_, .f32⟩
  | 5 => ⟨S32768x7x7, .f32⟩
  | 6 => ⟨S32768x7x7, .i1⟩
  | 7 => ⟨S32768x7x7, .i1⟩
  | 8 => ⟨S32768x7x7x1, .f32⟩
  | 9 => ⟨S32768x7x7, .f32⟩
  | 10 => ⟨S32768x7x7x1, .f32⟩
  | 11 => ⟨S32768x7x7, .f32⟩
  | 12 => ⟨S32768x7x7, .f32⟩
  | 13 => ⟨S32768x7x7, .f32⟩
  | 14 => ⟨S32768x7x7x1, .f32⟩
  | 15 => ⟨S32768x7x7, .f32⟩
  | 16 => ⟨S32768x7x7x1, .f32⟩
  | 17 => ⟨S32768x7x7, .f32⟩
  | 18 => ⟨S32768x7x7, .f32⟩
  | 19 => ⟨S32768x7x7, .f32⟩
  | 20 => ⟨S32768x7x7, .f32⟩
  | 21 => ⟨S_, .f32⟩
  | 22 => ⟨S_, .f32⟩
  | 23 => ⟨S32768x7x7, .f32⟩
  | 24 => ⟨S32768x7x7, .f32⟩
  | 25 => ⟨S_, .f32⟩
  | 26 => ⟨S_, .f32⟩
  | 27 => ⟨S32768x7x7x10, .f32⟩
  | 28 => ⟨S32768x7x7x2x5, .f32⟩
  | 29 => ⟨S32768x7x7x10, .f32⟩
  | 30 => ⟨S32768x7x7x2x5, .f32⟩
  | 31 => ⟨S32768x7x7x5, .f32⟩
  | 32 => ⟨S32768x7x7x2x2, .f32⟩
  | 33 => ⟨S_, .f32⟩
  | 34 => ⟨S32768x7x7x2x2, .f32⟩
  | 35 => ⟨S32768x7x7x2x2, .f32⟩
  | 36 => ⟨S32768x7x7x2x2, .f32⟩
  | 37 => ⟨S_, .f32⟩
  | 38 => ⟨S32768x7x7x2x2, .f32⟩
  | 39 => ⟨S32768x7x7x2x2, .f32⟩
  | 40 => ⟨S_, .f32⟩
  | 41 => ⟨S32768x7x7x2x2, .f32⟩
  | 42 => ⟨S32768x7x7x2x2, .f32⟩
  | 43 => ⟨S32768x7x7x2x2, .f32⟩
  | 44 => ⟨S_, .f32⟩
  | 45 => ⟨S32768x7x7x2x2, .f32⟩
  | 46 => ⟨S32768x7x7x2x2, .f32⟩
  | 47 => ⟨S32768x7x7x2x2, .f32⟩
  | 48 => ⟨S32768x7x7x2x4, .f32⟩
  | 49 => ⟨S32768x7x7x2, .f32⟩
  | 50 => ⟨S_, .f32⟩
  | 51 => ⟨S32768x7x7x2, .f32⟩
  | 52 => ⟨S32768x7x7x2, .f32⟩
  | 53 => ⟨S32768x7x7x2, .f32⟩
  | 54 => ⟨S_, .f32⟩
  | 55 => ⟨S32768x7x7x2, .f32⟩
  | 56 => ⟨S32768x7x7x2, .f32⟩
  | 57 => ⟨S_, .f32⟩
  | 58 => ⟨S32768x7x7x2, .f32⟩
  | 59 => ⟨S32768x7x7x2, .f32⟩
  | 60 => ⟨S32768x7x7x2, .f32⟩
  | 61 => ⟨S_, .f32⟩
  | 62 => ⟨S32768x7x7x2, .f32⟩
  | 63 => ⟨S32768x7x7x2, .f32⟩
  | 64 => ⟨S32768x7x7x2, .f32⟩
  | 65 => ⟨S32768x7x7x4, .f32⟩
  | 66 => ⟨S32768x7x7x1x4, .f32⟩
  | 67 => ⟨S32768x7x7x2x2, .f32⟩
  | 68 => ⟨S32768x7x7x1x2, .f32⟩
  | 69 => ⟨S32768x7x7x2x2, .f32⟩
  | 70 => ⟨S32768x7x7x2x2, .f32⟩
  | 71 => ⟨S32768x7x7x2x2, .f32⟩
  | 72 => ⟨S32768x7x7x1x2, .f32⟩
  | 73 => ⟨S32768x7x7x2x2, .f32⟩
  | 74 => ⟨S32768x7x7x2x2, .f32⟩
  | 75 => ⟨S32768x7x7x2x1, .f32⟩
  | 76 => ⟨S32768x7x7x2, .f32⟩
  | 77 => ⟨S32768x7x7x2x1, .f32⟩
  | 78 => ⟨S32768x7x7x2, .f32⟩
  | 79 => ⟨S32768x7x7x2, .i1⟩
  | 80 => ⟨S32768x7x7x2x1, .f32⟩
  | 81 => ⟨S32768x7x7x2, .f32⟩
  | 82 => ⟨S32768x7x7x2x1, .f32⟩
  | 83 => ⟨S32768x7x7x2, .f32⟩
  | 84 => ⟨S32768x7x7x2, .i1⟩
  | 85 => ⟨S32768x7x7x2, .i1⟩
  | 86 => ⟨S32768x7x7x2x1, .f32⟩
  | 87 => ⟨S32768x7x7x2, .f32⟩
  | 88 => ⟨S32768x7x7x2x1, .f32⟩
  | 89 => ⟨S32768x7x7x2, .f32⟩
  | 90 => ⟨S32768x7x7x2, .f32⟩
  | 91 => ⟨S32768x7x7x2x1, .f32⟩
  | 92 => ⟨S32768x7x7x2, .f32⟩
  | 93 => ⟨S32768x7x7x2x1, .f32⟩
  | 94 => ⟨S32768x7x7x2, .f32⟩
  | 95 => ⟨S32768x7x7x2, .f32⟩
  | 96 => ⟨S32768x7x7x2, .f32⟩
  | 97 => ⟨S32768x7x7x2x1, .f32⟩
  | 98 => ⟨S32768x7x7x2, .f32⟩
  | 99 => ⟨S32768x7x7x2x1, .f32⟩
  | 100 => ⟨S32768x7x7x2, .f32⟩
  | 101 => ⟨S32768x7x7x2, .f32⟩
  | 102 => ⟨S32768x7x7x2x1, .f32⟩
  | 103 => ⟨S32768x7x7x2, .f32⟩
  | 104 => ⟨S32768x7x7x2x1, .f32⟩
  | 105 => ⟨S32768x7x7x2, .f32⟩
  | 106 => ⟨S32768x7x7x2, .f32⟩
  | 107 => ⟨S32768x7x7x2, .f32⟩
  | 108 => ⟨S32768x7x7x1x1, .f32⟩
  | 109 => ⟨S32768x7x7x1, .f32⟩
  | 110 => ⟨S32768x7x7x1x1, .f32⟩
  | 111 => ⟨S32768x7x7x1, .f32⟩
  | 112 => ⟨S32768x7x7x1, .f32⟩
  | 113 => ⟨S32768x7x7x1x1, .f32⟩
  | 114 => ⟨S32768x7x7x1, .f32⟩
  | 115 => ⟨S32768x7x7x1x1, .f32⟩
  | 116 => ⟨S32768x7x7x1, .f32⟩
  | 117 => ⟨S32768x7x7x1, .f32⟩
  | 118 => ⟨S32768x7x7x1, .f32⟩
  | 119 => ⟨S32768x7x7x2, .f32⟩
  | 120 => ⟨S32768x7x7x2, .f32⟩
  | 121 => ⟨S32768x7x7x2, .f32⟩
  | 122 => ⟨S32768x7x7x2, .f32⟩
  | 123 => ⟨S_, .f32⟩
  | 124 => ⟨S_, .f32⟩
  | 125 => ⟨S32768x7x7x2, .f32⟩
  | 126 => ⟨S32768x7x7x2, .f32⟩
  | 127 => ⟨S32768x7x7x1, .f32⟩
  | _ => ⟨S32768x7x7x11, .f32⟩

abbrev hbmTy0_1 (i : Nat) : BufTy := match i % 128 with
  | 0 => ⟨S32768x7x7, .f32⟩
  | 1 => ⟨S32768x7x7x1, .f32⟩
  | 2 => ⟨S32768x7x7, .f32⟩
  | 3 => ⟨S32768x7x7, .i1⟩
  | 4 => ⟨S32768x7x7, .i1⟩
  | 5 => ⟨S32768x7x7x1, .i1⟩
  | 6 => ⟨S32768x7x7x1, .i1⟩
  | 7 => ⟨S32768x7x7x2, .i1⟩
  | 8 => ⟨S_, .f32⟩
  | 9 => ⟨S32768x7x7, .f32⟩
  | 10 => ⟨S32768x7x7x1, .i1⟩
  | 11 => ⟨S32768x7x7x2, .i1⟩
  | 12 => ⟨S32768x7x7x2, .i1⟩
  | 13 => ⟨S32768x7x7x1, .i1⟩
  | 14 => ⟨S32768x7x7x2, .i1⟩
  | 15 => ⟨S32768x7x7x2, .i1⟩
  | 16 => ⟨S32768x7x7x2, .i1⟩
  | 17 => ⟨S32768x7x7x2x1, .f32⟩
  | 18 => ⟨S32768x7x7x2, .f32⟩
  | 19 => ⟨S32768x7x7x1, .f32⟩
  | 20 => ⟨S32768x7x7x2, .f32⟩
  | 21 => ⟨S32768x7x7x2, .f32⟩
  | 22 => ⟨S32768x7x7x2, .f32⟩
  | 23 => ⟨S_, .f32⟩
  | 24 => ⟨S_, .f32⟩
  | 25 => ⟨S32768x7x7x2, .f32⟩
  | 26 => ⟨S32768x7x7x2, .f32⟩
  | 27 => ⟨S_, .f32⟩
  | 28 => ⟨S_, .f32⟩
  | 29 => ⟨S32768x7x7x2, .f32⟩
  | 30 => ⟨S_, .f32⟩
  | 31 => ⟨S_, .f32⟩
  | 32 => ⟨S32768x7x7x2, .f32⟩
  | 33 => ⟨S32768x7x7x2, .f32⟩
  | 34 => ⟨S_, .f32⟩
  | 35 => ⟨S_, .f32⟩
  | 36 => ⟨S32768x7x7x2x2, .f32⟩
  | 37 => ⟨S32768x7x7x2x2, .f32⟩
  | 38 => ⟨S32768x7x7x2x2, .f32⟩
  | 39 => ⟨S32768x7x7x2x2, .f32⟩
  | 40 => ⟨S_, .f32⟩
  | 41 => ⟨S32768x7x7x2, .f32⟩
  | 42 => ⟨S32768x7x7x2x2, .f32⟩
  | 43 => ⟨S32768x7x7x2x2, .f32⟩
  | 44 => ⟨S32768x7x7x2x2, .f32⟩
  | 45 => ⟨S32768x7x7x2x2, .f32⟩
  | 46 => ⟨S32768x7x7x2x2, .f32⟩
  | 47 => ⟨S32768x7x7x2x2, .f32⟩
  | 48 => ⟨S_, .f32⟩
  | 49 => ⟨S32768x7x7x2, .f32⟩
  | 50 => ⟨S32768x7x7x2, .f32⟩
  | 51 => ⟨S_, .f32⟩
  | 52 => ⟨S_, .f32⟩
  | 53 => ⟨S32768x7x7x2, .f32⟩
  | 54 => ⟨S32768x7x7x2, .f32⟩
  | 55 => ⟨S_, .f32⟩
  | 56 => ⟨S_, .f32⟩
  | 57 => ⟨S32768x7x7x1, .f32⟩
  | 58 => ⟨S32768x7x7x1, .f32⟩
  | 59 => ⟨S32768x7x7x1, .f32⟩
  | 60 => ⟨S32768x7x7x1, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S32768x7x7x11, .f32⟩

abbrev hbmTy (i : Nat) : BufTy := match i / 128 with
  | 0 => hbmTy0_0 i
  | 1 => hbmTy0_1 i
  | _ => ⟨S32768x7x7x11, .f32⟩

abbrev bufTy : (tb : Table) → Fin (tcTables nBuf tb) → BufTy
  | .hbm, ⟨i, _⟩ => hbmTy i
  | _, _ => ⟨S32768x7x7x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_cst_10 : Ref sig .tc := ⟨.hbm, 123, rfl⟩
abbrev main_call1_v0 : Ref sig .tc := ⟨.hbm, 124, rfl⟩
abbrev main_call1_v1 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_11 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_cst_12 : Ref sig .tc := ⟨.hbm, 151, rfl⟩
abbrev main_call2_v0 : Ref sig .tc := ⟨.hbm, 152, rfl⟩
abbrev main_call2_v1 : Ref sig .tc := ⟨.hbm, 153, rfl⟩
abbrev main_v132 : Ref sig .tc := ⟨.hbm, 154, rfl⟩
abbrev main_cst_13 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_call3_v0 : Ref sig .tc := ⟨.hbm, 159, rfl⟩
abbrev main_call3_v1 : Ref sig .tc := ⟨.hbm, 160, rfl⟩
abbrev main_v135 : Ref sig .tc := ⟨.hbm, 161, rfl⟩
abbrev main_cst_15 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_17 : Ref sig .tc := ⟨.hbm, 176, rfl⟩
abbrev main_v148 : Ref sig .tc := ⟨.hbm, 177, rfl⟩
abbrev main_v149 : Ref sig .tc := ⟨.hbm, 178, rfl⟩
abbrev main_cst_18 : Ref sig .tc := ⟨.hbm, 179, rfl⟩
abbrev main_call4_v0 : Ref sig .tc := ⟨.hbm, 180, rfl⟩
abbrev main_call4_v1 : Ref sig .tc := ⟨.hbm, 181, rfl⟩
abbrev main_v150 : Ref sig .tc := ⟨.hbm, 182, rfl⟩
abbrev main_cst_19 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_20 : Ref sig .tc := ⟨.hbm, 189, rfl⟩
abbrev main_v156 : Ref sig .tc := ⟨.hbm, 190, rfl⟩
abbrev main_cst_21 : Ref sig .tc := ⟨.hbm, 191, rfl⟩
abbrev main_v157 : Ref sig .tc := ⟨.hbm, 192, rfl⟩
abbrev main_v158 : Ref sig .tc := ⟨.hbm, 193, rfl⟩
abbrev main_cst_22 : Ref sig .tc := ⟨.hbm, 194, rfl⟩
abbrev main_v159 : Ref sig .tc := ⟨.hbm, 195, rfl⟩
abbrev main_v160 : Ref sig .tc := ⟨.hbm, 196, rfl⟩
abbrev main_cst_23 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_24 : Ref sig .tc := ⟨.hbm, 201, rfl⟩
abbrev main_v164 : Ref sig .tc := ⟨.hbm, 202, rfl⟩

abbrev nD : Nat := 1
abbrev τ : Topo := Topo.v7x

variable {F : FTy → Type} [FloatOps F]

class Facts₀ : Prop where
  slices_S32768x7x7x11_S32768x7x7x1_0_0_0_4 : S32768x7x7x11.Slices ![0, 0, 0, 4] S32768x7x7x1
  shapeCasts_S32768x7x7x1_S32768x7x7 : S32768x7x7x1.ShapeCasts S32768x7x7
  bcast_S_S32768x7x7 : S_.BroadcastsInDim S32768x7x7 (![] : Fin 0 → Fin S32768x7x7.rank)
  slices_S32768x7x7x11_S32768x7x7x1_0_0_0_9 : S32768x7x7x11.Slices ![0, 0, 0, 9] S32768x7x7x1
  reducesTo_S32768x7x7_S_d0_1_2 : S32768x7x7.ReducesTo [0, 1, 2] S_
  h_S_ : 0 < S_.numel
  slices_S32768x7x7x11_S32768x7x7x10_0_0_0_0 : S32768x7x7x11.Slices ![0, 0, 0, 0] S32768x7x7x10
  shapeCasts_S32768x7x7x10_S32768x7x7x2x5 : S32768x7x7x10.ShapeCasts S32768x7x7x2x5
  slices_S32768x7x7x11_S32768x7x7x5_0_0_0_0 : S32768x7x7x11.Slices ![0, 0, 0, 0] S32768x7x7x5
  slices_S32768x7x7x2x5_S32768x7x7x2x2_0_0_0_0_0 : S32768x7x7x2x5.Slices ![0, 0, 0, 0, 0] S32768x7x7x2x2
  bcast_S_S32768x7x7x2x2 : S_.BroadcastsInDim S32768x7x7x2x2 (![] : Fin 0 → Fin S32768x7x7x2x2.rank)
  slices_S32768x7x7x2x5_S32768x7x7x2x2_0_0_0_0_2 : S32768x7x7x2x5.Slices ![0, 0, 0, 0, 2] S32768x7x7x2x2
  concatenates_S32768x7x7x2x2_S32768x7x7x2x2_S32768x7x7x2x4_d4 : Shape.Concatenates [S32768x7x7x2x2, S32768x7x7x2x2] S32768x7x7x2x4 4
  slices_S32768x7x7x5_S32768x7x7x2_0_0_0_0 : S32768x7x7x5.Slices ![0, 0, 0, 0] S32768x7x7x2
  bcast_S_S32768x7x7x2 : S_.BroadcastsInDim S32768x7x7x2 (![] : Fin 0 → Fin S32768x7x7x2.rank)
  slices_S32768x7x7x5_S32768x7x7x2_0_0_0_2 : S32768x7x7x5.Slices ![0, 0, 0, 2] S32768x7x7x2
  concatenates_S32768x7x7x2_S32768x7x7x2_S32768x7x7x4_d3 : Shape.Concatenates [S32768x7x7x2, S32768x7x7x2] S32768x7x7x4 3
  bcast_S32768x7x7x4_S32768x7x7x1x4_0_1_2_4 : S32768x7x7x4.BroadcastsInDim S32768x7x7x1x4 (![0, 1, 2, 4] : Fin 4 → Fin S32768x7x7x1x4.rank)
  slices_S32768x7x7x2x4_S32768x7x7x2x2_0_0_0_0_0 : S32768x7x7x2x4.Slices ![0, 0, 0, 0, 0] S32768x7x7x2x2
  slices_S32768x7x7x1x4_S32768x7x7x1x2_0_0_0_0_0 : S32768x7x7x1x4.Slices ![0, 0, 0, 0, 0] S32768x7x7x1x2
  bcast_S32768x7x7x1x2_S32768x7x7x2x2_0_1_2_3_4 : S32768x7x7x1x2.BroadcastsInDim S32768x7x7x2x2 (![0, 1, 2, 3, 4] : Fin 5 → Fin S32768x7x7x2x2.rank)
  slices_S32768x7x7x2x4_S32768x7x7x2x2_0_0_0_0_2 : S32768x7x7x2x4.Slices ![0, 0, 0, 0, 2] S32768x7x7x2x2
  slices_S32768x7x7x1x4_S32768x7x7x1x2_0_0_0_0_2 : S32768x7x7x1x4.Slices ![0, 0, 0, 0, 2] S32768x7x7x1x2
  slices_S32768x7x7x2x2_S32768x7x7x2x1_0_0_0_0_0 : S32768x7x7x2x2.Slices ![0, 0, 0, 0, 0] S32768x7x7x2x1
  shapeCasts_S32768x7x7x2x1_S32768x7x7x2 : S32768x7x7x2x1.ShapeCasts S32768x7x7x2
  slices_S32768x7x7x2x2_S32768x7x7x2x1_0_0_0_0_1 : S32768x7x7x2x2.Slices ![0, 0, 0, 0, 1] S32768x7x7x2x1
  slices_S32768x7x7x2x4_S32768x7x7x2x1_0_0_0_0_2 : S32768x7x7x2x4.Slices ![0, 0, 0, 0, 2] S32768x7x7x2x1
  slices_S32768x7x7x2x4_S32768x7x7x2x1_0_0_0_0_0 : S32768x7x7x2x4.Slices ![0, 0, 0, 0, 0] S32768x7x7x2x1
  slices_S32768x7x7x2x4_S32768x7x7x2x1_0_0_0_0_3 : S32768x7x7x2x4.Slices ![0, 0, 0, 0, 3] S32768x7x7x2x1
  slices_S32768x7x7x2x4_S32768x7x7x2x1_0_0_0_0_1 : S32768x7x7x2x4.Slices ![0, 0, 0, 0, 1] S32768x7x7x2x1
  slices_S32768x7x7x1x4_S32768x7x7x1x1_0_0_0_0_2 : S32768x7x7x1x4.Slices ![0, 0, 0, 0, 2] S32768x7x7x1x1
  shapeCasts_S32768x7x7x1x1_S32768x7x7x1 : S32768x7x7x1x1.ShapeCasts S32768x7x7x1
  slices_S32768x7x7x1x4_S32768x7x7x1x1_0_0_0_0_0 : S32768x7x7x1x4.Slices ![0, 0, 0, 0, 0] S32768x7x7x1x1
  slices_S32768x7x7x1x4_S32768x7x7x1x1_0_0_0_0_3 : S32768x7x7x1x4.Slices ![0, 0, 0, 0, 3] S32768x7x7x1x1
  slices_S32768x7x7x1x4_S32768x7x7x1x1_0_0_0_0_1 : S32768x7x7x1x4.Slices ![0, 0, 0, 0, 1] S32768x7x7x1x1
  bcast_S32768x7x7x1_S32768x7x7x2_0_1_2_3 : S32768x7x7x1.BroadcastsInDim S32768x7x7x2 (![0, 1, 2, 3] : Fin 4 → Fin S32768x7x7x2.rank)
  slices_S32768x7x7x2_S32768x7x7x1_0_0_0_0 : S32768x7x7x2.Slices ![0, 0, 0, 0] S32768x7x7x1
  slices_S32768x7x7x2_S32768x7x7x1_0_0_0_1 : S32768x7x7x2.Slices ![0, 0, 0, 1] S32768x7x7x1
  bcast_S32768x7x7_S32768x7x7x1_0_1_2 : S32768x7x7.BroadcastsInDim S32768x7x7x1 (![0, 1, 2] : Fin 3 → Fin S32768x7x7x1.rank)
  concatenates_S32768x7x7x1_S32768x7x7x1_S32768x7x7x2_d3 : Shape.Concatenates [S32768x7x7x1, S32768x7x7x1] S32768x7x7x2 3
  reducesTo_S32768x7x7x2_S32768x7x7_d3 : S32768x7x7x2.ReducesTo [3] S32768x7x7
  slices_S32768x7x7x2x5_S32768x7x7x2x1_0_0_0_0_4 : S32768x7x7x2x5.Slices ![0, 0, 0, 0, 4] S32768x7x7x2x1
  reducesTo_S32768x7x7x2_S_d0_1_2_3 : S32768x7x7x2.ReducesTo [0, 1, 2, 3] S_
  reducesTo_S32768x7x7x2x2_S32768x7x7x2_d4 : S32768x7x7x2x2.ReducesTo [4] S32768x7x7x2
  slices_S32768x7x7x11_S32768x7x7x1_0_0_0_10 : S32768x7x7x11.Slices ![0, 0, 0, 10] S32768x7x7x1
  reducesTo_S32768x7x7x1_S_d0_1_2_3 : S32768x7x7x1.ReducesTo [0, 1, 2, 3] S_

variable [Facts₀]

class Facts : Prop extends Facts₀ where

variable [Facts]
-- ==== Proof.Spec.lean ====
/-
  The loss both programs compute, as mathematics on the extended reals.

  A CELL is one row of eleven channels: two boxes of five channels each (centre x, y in cell units, width, height as
  fractions of the image, a confidence) and one class score.  For a predicted cell `p` and a target cell `t`:
  a box's corners are  centre · 64 ∓ ½ · (size · 448);  the overlap ratio of predicted box `k` is taken against the
  FIRST target box only (intersection over union, 0 unless the intersection is a proper rectangle);  the box with the
  strictly larger ratio is responsible (a tie goes to box 1).  The five terms of a cell:
    no-object   (cells whose target confidence is not positive): squared confidence errors of both boxes;
    contain     (object cells, responsible box): squared distance of its confidence from the larger ratio;
    not-contain (object cells, the other box): its squared confidence;
    localise    (object cells, responsible box): squared centre error plus squared error of the square-rooted sizes;
    class       squared error of the class score.
  The loss is  (5 · Σ localise + Σ contain + ½ · Σ not-contain + ½ · Σ no-object + Σ class) / 32768  over all
  32768 · 7 · 7 cells.  `total` writes it with each sum over the whole array at once; `totalBlocks` writes it as
  392 consecutive blocks of 4096 cells, each block combined with its own weights, the blocks of each half of the
  rows added up in order and the two halves added at the end.  That the two agree is proved elsewhere.
-/
import Idealize.ShloMosaic.PureOps.Ideal
import Idealize.ShloMosaic.PureOps.Ideal.Laws
import Idealize.ShloMosaic.Lib.ValueIdx

noncomputable section

open scoped BigOperators

namespace Cert.BoxLoss

open Idealize.ShloMosaic Idealize.ShloMosaic.ValueIdx

/-- The constants, as the extended reals their f32 words denote: 0, 64, 448, ½, 5, 32768. -/
abbrev z0 : Ideal .f32 := Ideal.ofBits .f32 0x00000000#32
abbrev c64 : Ideal .f32 := Ideal.ofBits .f32 0x42800000#32
abbrev c448 : Ideal .f32 := Ideal.ofBits .f32 0x43E00000#32
abbrev cHalf : Ideal .f32 := Ideal.ofBits .f32 0x3F000000#32
abbrev c5 : Ideal .f32 := Ideal.ofBits .f32 0x40A00000#32
abbrev cN : Ideal .f32 := Ideal.ofBits .f32 0x47000000#32

/-- One cell: eleven channels. -/
abbrev Cell : Type := Fin 11 → Ideal .f32

/-- Channel `j` of box `k`: a box is five consecutive channels. -/
def ch (k : Fin 2) (j : Fin 5) : Fin 11 := ⟨5 * k.val + j.val, by have := k.isLt; have := j.isLt; omega⟩

/-- A box's low and high corner along one axis, from its centre and its size on that axis. -/
def lo (xy wh : Ideal .f32) : Ideal .f32 := xy * c64 - cHalf * (wh * c448)
def hi (xy wh : Ideal .f32) : Ideal .f32 := xy * c64 + cHalf * (wh * c448)

/-- The square. -/
def sq (x : Ideal .f32) : Ideal .f32 := x * x

/-- Along the axis with centre channel `jc` and size channel `js`: the low edge of the intersection of predicted
    box `k` with the first target box (the larger of the two low corners), and its high edge (the smaller of the two
    high corners). -/
def ltC (p t : Cell) (k : Fin 2) (jc js : Fin 5) : Ideal .f32 :=
  max (lo (p (ch k jc)) (p (ch k js))) (lo (t (ch 0 jc)) (t (ch 0 js)))
def rbC (p t : Cell) (k : Fin 2) (jc js : Fin 5) : Ideal .f32 :=
  min (hi (p (ch k jc)) (p (ch k js))) (hi (t (ch 0 jc)) (t (ch 0 js)))
/-- The intersection's area (meaningful when both extents are positive). -/
def inter (p t : Cell) (k : Fin 2) : Ideal .f32 :=
  (rbC p t k 0 2 - ltC p t k 0 2) * (rbC p t k 1 3 - ltC p t k 1 3)
/-- The area of box `k` of a cell. -/
def area (q : Cell) (k : Fin 2) : Ideal .f32 :=
  (hi (q (ch k 0)) (q (ch k 2)) - lo (q (ch k 0)) (q (ch k 2)))
    * (hi (q (ch k 1)) (q (ch k 3)) - lo (q (ch k 1)) (q (ch k 3)))
/-- Intersection over union of predicted box `k` with the first target box; 0 unless they properly overlap. -/
def iou (p t : Cell) (k : Fin 2) : Ideal .f32 :=
  Scalar.select
    (IntOp.andi (FloatOps.cmpf (F := Ideal) .olt (ltC p t k 0 2) (rbC p t k 0 2))
      (FloatOps.cmpf (F := Ideal) .olt (ltC p t k 1 3) (rbC p t k 1 3)))
    (Ideal.div (inter p t k) (area p k + area t 0 - inter p t k))
    z0

/-- The cell holds an object: its target confidence is positive. -/
def coo (t : Cell) : BitVec 1 := FloatOps.cmpf (F := Ideal) .ogt (t 4) z0
/-- Box 0 has the strictly larger overlap ratio. -/
def wins (p t : Cell) : BitVec 1 := FloatOps.cmpf (F := Ideal) .ogt (iou p t 0) (iou p t 1)
/-- Box `k` is the responsible one: box 0 if it wins, else box 1. -/
def resp (p t : Cell) (k : Fin 2) : BitVec 1 := if k.val < 1 then wins p t else ~~~(wins p t)
/-- The larger of the two overlap ratios. -/
def best (p t : Cell) : Ideal .f32 := max (iou p t 0) (iou p t 1)

/-- The five terms of a cell (the three per-box ones for box `k`). -/
def nooT (p t : Cell) : Ideal .f32 := Scalar.select (~~~(coo t)) (sq (p 4 - t 4) + sq (p 9 - t 9)) z0
def contT (p t : Cell) (k : Fin 2) : Ideal .f32 :=
  Scalar.select (IntOp.andi (coo t) (resp p t k)) (sq (p (ch k 4) - best p t)) z0
def notcT (p t : Cell) (k : Fin 2) : Ideal .f32 :=
  Scalar.select (IntOp.andi (coo t) (~~~(resp p t k))) (sq (p (ch k 4))) z0
def locSq (p t : Cell) (k : Fin 2) : Ideal .f32 :=
  (∑ j : Fin 2, sq (p (ch k ⟨j.val, by have := j.isLt; omega⟩) - t (ch k ⟨j.val, by have := j.isLt; omega⟩)))
  + (∑ j : Fin 2, sq (Ideal.sqrt (p (ch k ⟨2 + j.val, by have := j.isLt; omega⟩))
      - Ideal.sqrt (t (ch k ⟨2 + j.val, by have := j.isLt; omega⟩))))
def locT (p t : Cell) (k : Fin 2) : Ideal .f32 := Scalar.select (IntOp.andi (coo t) (resp p t k)) (locSq p t k) z0
def clsT (p t : Cell) : Ideal .f32 := sq (p 10 - t 10)

/-- The argument arrays' shape, and the shapes the whole-array sums range over: (cell, box), cell, (cell, one). -/
abbrev SArg : Shape := ⟨4, ![32768, 7, 7, 11]⟩
abbrev SBox : Shape := ⟨4, ![32768, 7, 7, 2]⟩
abbrev SCell : Shape := ⟨3, ![32768, 7, 7]⟩
abbrev SCell1 : Shape := ⟨4, ![32768, 7, 7, 1]⟩
/-- The shape of the two half sums. -/
abbrev SOut : Shape := ⟨3, ![2, 1, 1]⟩

/-- The cell at image `n`, grid position `(u, v)` of an array. -/
def cell (a : SArg.Idx → Ideal .f32) (n : Fin 32768) (u v : Fin 7) : Cell := fun c => a (ix4 n u v c)

/-- THE LOSS, each sum over the whole array. -/
def total (a b : SArg.Idx → Ideal .f32) : Ideal .f32 :=
  Ideal.div
    ((((c5 * (∑ j : SBox.Idx, locT (cell a (j 0) (j 1) (j 2)) (cell b (j 0) (j 1) (j 2)) (j 3))
        + (∑ j : SBox.Idx, contT (cell a (j 0) (j 1) (j 2)) (cell b (j 0) (j 1) (j 2)) (j 3)))
        + cHalf * (∑ j : SBox.Idx, notcT (cell a (j 0) (j 1) (j 2)) (cell b (j 0) (j 1) (j 2)) (j 3)))
        + cHalf * (∑ j : SCell.Idx, nooT (cell a (j 0) (j 1) (j 2)) (cell b (j 0) (j 1) (j 2))))
        + (∑ j : SCell1.Idx, clsT (cell a (j 0) (j 1) (j 2)) (cell b (j 0) (j 1) (j 2))))
    cN

/-- The cell at flat row `ρ` (rows in row-major order of (image, u, v)). -/
def rowCell (a : SArg.Idx → Ideal .f32) (ρ : Fin 1605632) : Cell :=
  cell a ⟨ρ.val / 49, by have := ρ.isLt; omega⟩ ⟨ρ.val / 7 % 7, Nat.mod_lt _ (by decide)⟩ ⟨ρ.val % 7, Nat.mod_lt _ (by decide)⟩

/-- Row `r` of block `blk`: blocks are 4096 consecutive rows. -/
def blockRow (blk : Fin 392) (r : Fin 4096) : Fin 1605632 :=
  ⟨blk.val * 4096 + r.val, by have := blk.isLt; have := r.isLt; omega⟩

/-- One block's weighted contribution, from the block's 4096 predicted cells `P` and target cells `T`. -/
def blockTermOf (P T : Fin 4096 → Cell) : Ideal .f32 :=
  ((((c5 * ((∑ r : Fin 4096, locT (P r) (T r) 0) + (∑ r : Fin 4096, locT (P r) (T r) 1))
      + ((∑ r : Fin 4096, contT (P r) (T r) 0) + (∑ r : Fin 4096, contT (P r) (T r) 1)))
      + cHalf * ((∑ r : Fin 4096, notcT (P r) (T r) 0) + (∑ r : Fin 4096, notcT (P r) (T r) 1)))
      + cHalf * (∑ r : Fin 4096, nooT (P r) (T r)))
      + (∑ r : Fin 4096, clsT (P r) (T r)))

/-- Block `blk` of the arrays: its cells are rows `blk · 4096 + r`. -/
def blockTerm (a b : SArg.Idx → Ideal .f32) (blk : Fin 392) : Ideal .f32 :=
  blockTermOf (fun r => rowCell a (blockRow blk r)) (fun r => rowCell b (blockRow blk r))

/-- Block `n` of half `g`: each half is 196 consecutive blocks. -/
def halfBlock (g : Fin 2) (n : ℕ) (h : n < 196) : Fin 392 := ⟨g.val * 196 + n, by have := g.isLt; omega⟩

/-- The running sum of half `g` after its block `n`, the blocks added in order. -/
def chain (a b : SArg.Idx → Ideal .f32) (g : Fin 2) : (n : ℕ) → n < 196 → Ideal .f32
  | 0, h => blockTerm a b (halfBlock g 0 h)
  | n + 1, h => chain a b g n (Nat.lt_of_succ_lt h) + blockTerm a b (halfBlock g (n + 1) h)

/-- THE LOSS, block by block: the two half sums added, then divided. -/
def totalBlocks (a b : SArg.Idx → Ideal .f32) : Ideal .f32 :=
  Ideal.div (∑ j : SOut.Idx, chain a b (j 0) 195 (by decide)) cN

end Cert.BoxLoss

end
-- ==== Proof.LibBlockSum.lean ====
/-
  Regrouping a finite sum into consecutive blocks.

  A sum over `Fin (n * b)` is the sum, over the `n` blocks, of each block's `b` consecutive terms: entry
  `q + b * j` is term `q` of block `j`. Only commutativity and associativity of `+` are used, so the law
  holds in every additive commutative monoid — in particular on the extended reals, where regrouping a sum
  needs no finiteness of its terms.
-/
import Mathlib.Data.Fintype.BigOperators
import Mathlib.Logic.Equiv.Fin.Basic

namespace Cert.BlockSum

/-- A sum over `Fin (n * b)` split into `n` consecutive blocks of length `b`. -/
theorem sum_blocks {M : Type*} [AddCommMonoid M] (n b : ℕ) (f : Fin (n * b) → M) :
    ∑ k, f k = ∑ j : Fin n, ∑ q : Fin b, f (finProdFinEquiv (j, q)) := by
  rw [← Fintype.sum_prod_type' (fun j q => f (finProdFinEquiv (j, q)))]
  exact (Equiv.sum_comp finProdFinEquiv f).symm

/-- The position of term `q` of block `j`. -/
theorem finProdFinEquiv_val {n b : ℕ} (j : Fin n) (q : Fin b) :
    (finProdFinEquiv (j, q)).val = q.val + b * j.val := rfl

end Cert.BlockSum
-- ==== Proof.BlocksConsts.lean ====
/-
  The two weights of the loss as extended reals: the word 0x40A00000 denotes the real 5 and the word
  0x3F000000 denotes the real 1/2.  Both are nonnegative and finite, which is all that the regrouping of the
  loss into blocks needs of them: multiplication by such a constant distributes over every finite sum of
  extended reals, infinite summands included.
-/
import proofs.«158835_j66340064854039_2_alg».proof.Proof.Spec

noncomputable section

open scoped BigOperators

namespace Cert.BoxLoss

open Idealize.ShloMosaic

/-- The weight of the localisation term is the real number 5. -/
theorem c5_eq : c5 = ((5 : ℝ) : EReal) := by
  simp [Ideal.ofBits, Ideal.ieee, -EReal.coe_mul]; norm_num

/-- The weight of the not-contain and no-object terms is the real number 1/2. -/
theorem cHalf_eq : cHalf = (((1 / 2 : ℝ)) : EReal) := by
  simp [Ideal.ofBits, Ideal.ieee, -EReal.coe_mul]; norm_num

theorem c5_nonneg : (0 : EReal) ≤ c5 := by
  rw [c5_eq]; exact EReal.coe_nonneg.mpr (by norm_num)

theorem c5_ne_top : c5 ≠ (⊤ : EReal) := by
  rw [c5_eq]; exact EReal.coe_ne_top _

theorem cHalf_nonneg : (0 : EReal) ≤ cHalf := by
  rw [cHalf_eq]; exact EReal.coe_nonneg.mpr (by norm_num)

theorem cHalf_ne_top : cHalf ≠ (⊤ : EReal) := by
  rw [cHalf_eq]; exact EReal.coe_ne_top _

end Cert.BoxLoss

end
-- ==== Proof.Blocks.lean ====
/-
  The whole-array form of the loss equals its block form.

  The extended reals are an additive commutative monoid, so finite sums may be regrouped and re-indexed freely;
  they are not a semiring (a summand may be infinite), so a constant does not move through a sum in general.
  It does when the constant is a nonnegative finite real, and the two weights 5 and 1/2 are such constants.

  The steps.  (1) A nonnegative finite constant times a finite sum is the sum of the products.  (2) The
  1605632 rows are 392 blocks of 4096 consecutive rows, so a double sum over blocks and rows within a block
  is the sum over all rows; a block's two per-box sums added are its sum over rows of both boxes' terms.
  (3) Hence the block terms — each the weighted combination of the block's own sums — add up to the same
  weighted combination of the sums over all rows.  (4) Each whole-array sum is a sum over rows: a cell
  `(n, u, v)` is row `49 n + 7 u + v`, and row `ρ` is the cell `(ρ / 49, ρ / 7 % 7, ρ % 7)`.  (5) A
  half's running sum after its last block is the sum of its 196 blocks, the index set of the two half sums
  has exactly two elements, and the two halves of 196 blocks together are the 392 blocks.  Both forms of
  the loss divide by the same constant, so equality of the numerators is enough.

  The per-cell terms of the loss are never opened: every statement before the last is about arbitrary
  functions of a row (and a box).
-/
import Mathlib.Data.EReal.Operations
import Mathlib.Algebra.BigOperators.Fin
import proofs.«158835_j66340064854039_2_alg».proof.Proof.Spec
import proofs.«158835_j66340064854039_2_alg».proof.Proof.LibBlockSum
import proofs.«158835_j66340064854039_2_alg».proof.Proof.BlocksConsts

noncomputable section

open scoped BigOperators

namespace Cert.BoxLoss

open Idealize.ShloMosaic Idealize.ShloMosaic.ValueIdx

/-- Multiplication by a nonnegative finite constant distributes over every finite sum of extended reals,
    whatever the summands are (they may be infinite): the binary law holds for such a constant, and the
    empty sum is `0 = c * 0`. -/
theorem mul_sum_of_nonneg_of_ne_top {ι : Type*} (s : Finset ι) (c : EReal) (hc : 0 ≤ c) (hc' : c ≠ ⊤)
    (f : ι → EReal) : c * ∑ i ∈ s, f i = ∑ i ∈ s, c * f i := by
  classical
  induction s using Finset.induction_on with
  | empty => simp
  | insert i s hi ih =>
    rw [Finset.sum_insert hi, Finset.sum_insert hi, EReal.left_distrib_of_nonneg_of_ne_top hc hc', ih]

/-- The rows of the array are the 392 blocks of 4096 consecutive rows. -/
theorem sum_rows_eq_sum_blocks {M : Type*} [AddCommMonoid M] (Y : Fin 1605632 → M) :
    ∑ blk : Fin 392, ∑ r : Fin 4096, Y (blockRow blk r) = ∑ ρ : Fin 1605632, Y ρ := by
  refine ((Cert.BlockSum.sum_blocks 392 4096 Y).trans ?_).symm
  refine Fintype.sum_congr _ _ (fun blk => Fintype.sum_congr _ _ (fun r => ?_))
  refine congrArg Y (Fin.ext ?_)
  show (finProdFinEquiv (blk, r)).val = blk.val * 4096 + r.val
  rw [Cert.BlockSum.finProdFinEquiv_val]; omega

/-- Inside a block, the two per-box sums added are the sum over the block's rows of both boxes' terms. -/
theorem sum_pair_blocks {M : Type*} [AddCommMonoid M] (X : Fin 1605632 → Fin 2 → M) :
    ∑ blk : Fin 392, ((∑ r : Fin 4096, X (blockRow blk r) 0) + (∑ r : Fin 4096, X (blockRow blk r) 1))
      = ∑ ρ : Fin 1605632, ∑ k : Fin 2, X ρ k := by
  rw [← sum_rows_eq_sum_blocks (fun ρ => ∑ k : Fin 2, X ρ k)]
  refine Fintype.sum_congr _ _ (fun blk => ?_)
  rw [← Finset.sum_add_distrib]
  refine Fintype.sum_congr _ _ (fun r => ?_)
  rw [Fin.sum_univ_two]

/-- The weighted combination taken block by block and added over the blocks is the weighted combination of
    the whole-array sums: the sum over blocks splits term by term, the two nonnegative finite weights move
    out of the sums, and each double sum over blocks and rows is the sum over all rows. -/
theorem blocks_regroup (c d : EReal) (hc : 0 ≤ c) (hc' : c ≠ ⊤) (hd : 0 ≤ d) (hd' : d ≠ ⊤)
    (L C N : Fin 1605632 → Fin 2 → EReal) (O K : Fin 1605632 → EReal) :
    ∑ blk : Fin 392,
      ((((c * ((∑ r : Fin 4096, L (blockRow blk r) 0) + (∑ r : Fin 4096, L (blockRow blk r) 1))
        + ((∑ r : Fin 4096, C (blockRow blk r) 0) + (∑ r : Fin 4096, C (blockRow blk r) 1)))
        + d * ((∑ r : Fin 4096, N (blockRow blk r) 0) + (∑ r : Fin 4096, N (blockRow blk r) 1)))
        + d * (∑ r : Fin 4096, O (blockRow blk r)))
        + (∑ r : Fin 4096, K (blockRow blk r)))
    = ((((c * (∑ ρ : Fin 1605632, ∑ k : Fin 2, L ρ k)
        + (∑ ρ : Fin 1605632, ∑ k : Fin 2, C ρ k))
        + d * (∑ ρ : Fin 1605632, ∑ k : Fin 2, N ρ k))
        + d * (∑ ρ : Fin 1605632, O ρ))
        + (∑ ρ : Fin 1605632, K ρ)) := by
  rw [Finset.sum_add_distrib, Finset.sum_add_distrib, Finset.sum_add_distrib, Finset.sum_add_distrib,
    ← mul_sum_of_nonneg_of_ne_top Finset.univ c hc hc', ← mul_sum_of_nonneg_of_ne_top Finset.univ d hd hd',
    ← mul_sum_of_nonneg_of_ne_top Finset.univ d hd hd',
    sum_pair_blocks L, sum_pair_blocks C, sum_pair_blocks N, sum_rows_eq_sum_blocks O, sum_rows_eq_sum_blocks K]

end Cert.BoxLoss

namespace Cert.BoxLoss

open Idealize.ShloMosaic Idealize.ShloMosaic.ValueIdx

namespace Blocks

/-- A rank-4 index set is the product of its first three coordinate ranges with the last one. -/
def idxEquiv4 {n0 n1 n2 n3 : Nat} :
    (⟨4, ![n0, n1, n2, n3]⟩ : Shape).Idx ≃ (Fin n0 × Fin n1 × Fin n2) × Fin n3 where
  toFun i := ((i 0, i 1, i 2), i 3)
  invFun p := ix4 p.1.1 p.1.2.1 p.1.2.2 p.2
  left_inv i := (eq_ix4 i).symm
  right_inv _ := rfl

/-- A rank-3 index set is the product of its coordinate ranges. -/
def idxEquiv3 {n0 n1 n2 : Nat} :
    (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- Row-major numbering of the cells: row `ρ` is image `ρ / 49`, grid position `(ρ / 7 % 7, ρ % 7)`, and
    the cell `(n, u, v)` is row `49 n + 7 u + v`. -/
def rowEquiv : Fin 1605632 ≃ Fin 32768 × Fin 7 × Fin 7 where
  toFun ρ := (⟨ρ.val / 49, by have := ρ.isLt; omega⟩, ⟨ρ.val / 7 % 7, Nat.mod_lt _ (by decide)⟩,
    ⟨ρ.val % 7, Nat.mod_lt _ (by decide)⟩)
  invFun p := ⟨p.1.val * 49 + p.2.1.val * 7 + p.2.2.val, by
    have := p.1.isLt; have := p.2.1.isLt; have := p.2.2.isLt; omega⟩
  left_inv ρ := Fin.ext (by show ρ.val / 49 * 49 + ρ.val / 7 % 7 * 7 + ρ.val % 7 = ρ.val; omega)
  right_inv p := by
    obtain ⟨n, u, v⟩ := p
    have hn := n.isLt; have hu := u.isLt; have hv := v.isLt
    refine Prod.ext (Fin.ext ?_) (Prod.ext (Fin.ext ?_) (Fin.ext ?_))
    · show (n.val * 49 + u.val * 7 + v.val) / 49 = n.val; omega
    · show (n.val * 49 + u.val * 7 + v.val) / 7 % 7 = u.val; omega
    · show (n.val * 49 + u.val * 7 + v.val) % 7 = v.val; omega

end Blocks

/-- A sum over all (cell, box) pairs, of a quantity of the predicted cell, the target cell and the box, is the
    sum over the rows and the two boxes. -/
theorem sum_box_rows (a b : SArg.Idx → Ideal .f32) (T : Cell → Cell → Fin 2 → Ideal .f32) :
    ∑ j : SBox.Idx, T (cell a (j 0) (j 1) (j 2)) (cell b (j 0) (j 1) (j 2)) (j 3)
      = ∑ ρ : Fin 1605632, ∑ k : Fin 2, T (rowCell a ρ) (rowCell b ρ) k := by
  rw [← Equiv.sum_comp (Blocks.idxEquiv4 (n0 := 32768) (n1 := 7) (n2 := 7) (n3 := 2)).symm
    (fun j : SBox.Idx => T (cell a (j 0) (j 1) (j 2)) (cell b (j 0) (j 1) (j 2)) (j 3)),
    Fintype.sum_prod_type, ← Equiv.sum_comp Blocks.rowEquiv]
  exact Fintype.sum_congr _ _ (fun ρ => Fintype.sum_congr _ _ (fun k => rfl))

/-- A sum over all cells is the sum over the rows. -/
theorem sum_cell_rows (a b : SArg.Idx → Ideal .f32) (T : Cell → Cell → Ideal .f32) :
    ∑ j : SCell.Idx, T (cell a (j 0) (j 1) (j 2)) (cell b (j 0) (j 1) (j 2))
      = ∑ ρ : Fin 1605632, T (rowCell a ρ) (rowCell b ρ) := by
  rw [← Equiv.sum_comp (Blocks.idxEquiv3 (n0 := 32768) (n1 := 7) (n2 := 7)).symm
    (fun j : SCell.Idx => T (cell a (j 0) (j 1) (j 2)) (cell b (j 0) (j 1) (j 2))),
    ← Equiv.sum_comp Blocks.rowEquiv]
  exact Fintype.sum_congr _ _ (fun ρ => rfl)

/-- A sum over all cells with a trailing axis of extent one is the sum over the rows. -/
theorem sum_cell1_rows (a b : SArg.Idx → Ideal .f32) (T : Cell → Cell → Ideal .f32) :
    ∑ j : SCell1.Idx, T (cell a (j 0) (j 1) (j 2)) (cell b (j 0) (j 1) (j 2))
      = ∑ ρ : Fin 1605632, T (rowCell a ρ) (rowCell b ρ) := by
  rw [← Equiv.sum_comp (Blocks.idxEquiv4 (n0 := 32768) (n1 := 7) (n2 := 7) (n3 := 1)).symm
    (fun j : SCell1.Idx => T (cell a (j 0) (j 1) (j 2)) (cell b (j 0) (j 1) (j 2))),
    Fintype.sum_prod_type, ← Equiv.sum_comp Blocks.rowEquiv]
  refine Fintype.sum_congr _ _ (fun ρ => ?_)
  rw [Fin.sum_univ_one]
  rfl

end Cert.BoxLoss

namespace Cert.BoxLoss

open Idealize.ShloMosaic Idealize.ShloMosaic.ValueIdx

/-- The running sum of a half after its block `n` is the sum of its blocks `0 … n`. -/
theorem chain_eq_sum (a b : SArg.Idx → Ideal .f32) (g : Fin 2) : ∀ (n : ℕ) (h : n < 196),
    chain a b g n h
      = ∑ i : Fin (n + 1), blockTerm a b (halfBlock g i.val (lt_of_lt_of_le i.isLt (Nat.succ_le_of_lt h)))
  | 0, h => by
    rw [chain, Fin.sum_univ_one]
    rfl
  | n + 1, h => by
    rw [chain, chain_eq_sum a b g n (Nat.lt_of_succ_lt h)]
    refine Eq.trans ?_ (Fin.sum_univ_castSucc _).symm
    rfl

/-- A half's final running sum is the sum of its 196 blocks. -/
theorem chain_last (a b : SArg.Idx → Ideal .f32) (g : Fin 2) (h : 195 < 196) :
    chain a b g 195 h = ∑ n : Fin 196, blockTerm a b (halfBlock g n.val n.isLt) :=
  chain_eq_sum a b g 195 h

namespace Blocks

/-- The index set of the two half sums is its first coordinate: the other two axes have extent one. -/
def outEquiv : SOut.Idx ≃ Fin 2 where
  toFun j := j 0
  invFun g := ix3 g (0 : Fin 1) (0 : Fin 1)
  left_inv j := by
    refine Eq.trans ?_ (eq_ix3 j).symm
    have h1 : (j 1) = (0 : Fin 1) := Fin.eq_zero (j 1)
    have h2 : (j 2) = (0 : Fin 1) := Fin.eq_zero (j 2)
    rw [h1, h2]
    rfl
  right_inv _ := rfl

end Blocks

/-- A sum over the index set of the two half sums is the sum of the two halves. -/
theorem sum_out (F : Fin 2 → Ideal .f32) : ∑ j : SOut.Idx, F (j 0) = F 0 + F 1 := by
  rw [← Equiv.sum_comp Blocks.outEquiv.symm (fun j : SOut.Idx => F (j 0)), Fin.sum_univ_two]
  rfl

/-- The 392 blocks are the two halves of 196 consecutive blocks. -/
theorem sum_halves {M : Type*} [AddCommMonoid M] (B : Fin 392 → M) :
    (∑ n : Fin 196, B (halfBlock 0 n.val n.isLt)) + (∑ n : Fin 196, B (halfBlock 1 n.val n.isLt))
      = ∑ blk : Fin 392, B blk := by
  refine (Fin.sum_univ_two (fun g : Fin 2 => ∑ n : Fin 196, B (halfBlock g n.val n.isLt))).symm.trans ?_
  refine ((Cert.BlockSum.sum_blocks 2 196 B).trans ?_).symm
  refine Fintype.sum_congr _ _ (fun g => Fintype.sum_congr _ _ (fun n => congrArg B (Fin.ext ?_)))
  show (finProdFinEquiv (g, n)).val = g.val * 196 + n.val
  rw [Cert.BlockSum.finProdFinEquiv_val]; omega

/-- The block form's numerator is the sum of the 392 block terms. -/
theorem sum_out_chain (a b : SArg.Idx → Ideal .f32) :
    ∑ j : SOut.Idx, chain a b (j 0) 195 (by decide) = ∑ blk : Fin 392, blockTerm a b blk := by
  rw [sum_out (fun g => chain a b g 195 (by decide)), chain_last, chain_last]
  exact sum_halves (blockTerm a b)

end Cert.BoxLoss

namespace Cert.BoxLoss

open Idealize.ShloMosaic Idealize.ShloMosaic.ValueIdx

/-- THE WHOLE-ARRAY FORM OF THE LOSS IS ITS BLOCK FORM.  Both are a quotient by the same constant, so it is
    enough that the numerators agree.  The block form's numerator is the sum of the 392 block terms (each half's
    running sum is the sum of its 196 blocks, and the two halves together are all the blocks); each whole-array
    sum is a sum over the rows (and the two boxes); and the block terms, each a weighted combination of sums over
    the block's 4096 rows, add up to the same weighted combination of the sums over all rows, because the two
    weights are nonnegative finite reals. -/
theorem total_eq_totalBlocks (a b : SArg.Idx → Ideal .f32) : total a b = totalBlocks a b := by
  unfold total totalBlocks
  refine congrArg (fun x => Ideal.div x cN) ?_
  rw [sum_out_chain, sum_box_rows a b locT, sum_box_rows a b contT, sum_box_rows a b notcT,
    sum_cell_rows a b nooT, sum_cell1_rows a b clsT]
  exact (blocks_regroup c5 cHalf c5_nonneg c5_ne_top cHalf_nonneg cHalf_ne_top
    (fun ρ k => locT (rowCell a ρ) (rowCell b ρ) k) (fun ρ k => contT (rowCell a ρ) (rowCell b ρ) k)
    (fun ρ k => notcT (rowCell a ρ) (rowCell b ρ) k) (fun ρ => nooT (rowCell a ρ) (rowCell b ρ))
    (fun ρ => clsT (rowCell a ρ) (rowCell b ρ))).symm

end Cert.BoxLoss

end
-- ==== Proof.Body.lean ====
/-
  What one grid point adds: the block's weighted contribution as ONE pure function of the two loaded blocks
  (the predicted block and the target block, each 4096 rows of 11 channels).  The kernel's body is cut into many
  small payload functions; this is their composition, in the order the body feeds them to one another, ending
  in the 1×1 value that is added to the running sum.
-/
import proofs.«158835_j66340064854039_2_alg».proof.Proof.Gen.KernelIdeal.Skeleton

noncomputable section

namespace Cert.KernelIdeal.Body

open Cert.KernelIdeal Cert.KernelIdeal.Gen Idealize.ShloMosaic

variable {F : FTy → Type} [FloatOps F]

/-- The block's contribution, from the predicted block `v3` and the target block `v5`. -/
def bodyVal (v3 v5 : Vec F S1x4096x11 .f32) : FVec F S1x1 .f32 :=
  k0_pay65 (k0_pay5 v3) (k0_pay6 v3) (k0_pay8 v3) (k0_pay9 v3) (k0_pay11 v3) (k0_pay12 v5) (k0_pay13 v5)
    (k0_pay15 v5) (k0_pay16 v5) (k0_pay17 v5) (k0_pay19 v3 v5)
    (k0_pay60 (k0_pay18 v5) (k0_pay36 (k0_pay8 v3) (k0_pay9 v3)) (k0_pay37 (k0_pay8 v3) (k0_pay9 v3))
      (k0_pay38 (k0_pay8 v3) (k0_pay9 v3)) (k0_pay39 (k0_pay8 v3) (k0_pay9 v3))
      (k0_pay46 (k0_pay12 v5) (k0_pay13 v5)) (k0_pay47 (k0_pay12 v5) (k0_pay13 v5))
      (k0_pay48 (k0_pay12 v5) (k0_pay13 v5)) (k0_pay49 (k0_pay12 v5) (k0_pay13 v5))
      (k0_pay54 (k0_pay12 v5) (k0_pay13 v5) (k0_pay21 v3) (k0_pay22 v3) (k0_pay23 v3) (k0_pay24 v3))
      (k0_pay55 (k0_pay12 v5) (k0_pay13 v5) (k0_pay21 v3) (k0_pay22 v3) (k0_pay23 v3) (k0_pay24 v3))
      (k0_pay56 (F := F)))
    (k0_pay61 (k0_pay18 v5) (k0_pay36 (k0_pay8 v3) (k0_pay9 v3)) (k0_pay37 (k0_pay8 v3) (k0_pay9 v3))
      (k0_pay38 (k0_pay8 v3) (k0_pay9 v3)) (k0_pay39 (k0_pay8 v3) (k0_pay9 v3))
      (k0_pay46 (k0_pay12 v5) (k0_pay13 v5)) (k0_pay47 (k0_pay12 v5) (k0_pay13 v5))
      (k0_pay48 (k0_pay12 v5) (k0_pay13 v5)) (k0_pay49 (k0_pay12 v5) (k0_pay13 v5))
      (k0_pay54 (k0_pay12 v5) (k0_pay13 v5) (k0_pay21 v3) (k0_pay22 v3) (k0_pay23 v3) (k0_pay24 v3))
      (k0_pay55 (k0_pay12 v5) (k0_pay13 v5) (k0_pay21 v3) (k0_pay22 v3) (k0_pay23 v3) (k0_pay24 v3))
      (k0_pay56 (F := F)))
    (k0_pay62 (k0_pay7 v3) (k0_pay10 v3) (k0_pay18 v5) (k0_pay36 (k0_pay8 v3) (k0_pay9 v3))
      (k0_pay37 (k0_pay8 v3) (k0_pay9 v3)) (k0_pay38 (k0_pay8 v3) (k0_pay9 v3)) (k0_pay39 (k0_pay8 v3) (k0_pay9 v3))
      (k0_pay46 (k0_pay12 v5) (k0_pay13 v5)) (k0_pay47 (k0_pay12 v5) (k0_pay13 v5))
      (k0_pay48 (k0_pay12 v5) (k0_pay13 v5)) (k0_pay49 (k0_pay12 v5) (k0_pay13 v5))
      (k0_pay54 (k0_pay12 v5) (k0_pay13 v5) (k0_pay21 v3) (k0_pay22 v3) (k0_pay23 v3) (k0_pay24 v3))
      (k0_pay55 (k0_pay12 v5) (k0_pay13 v5) (k0_pay21 v3) (k0_pay22 v3) (k0_pay23 v3) (k0_pay24 v3))
      (k0_pay56 (F := F)))
    (k0_pay63 (k0_pay7 v3) (k0_pay18 v5) (k0_pay36 (k0_pay8 v3) (k0_pay9 v3))
      (k0_pay37 (k0_pay8 v3) (k0_pay9 v3)) (k0_pay38 (k0_pay8 v3) (k0_pay9 v3)) (k0_pay39 (k0_pay8 v3) (k0_pay9 v3))
      (k0_pay46 (k0_pay12 v5) (k0_pay13 v5)) (k0_pay47 (k0_pay12 v5) (k0_pay13 v5))
      (k0_pay48 (k0_pay12 v5) (k0_pay13 v5)) (k0_pay49 (k0_pay12 v5) (k0_pay13 v5))
      (k0_pay54 (k0_pay12 v5) (k0_pay13 v5) (k0_pay21 v3) (k0_pay22 v3) (k0_pay23 v3) (k0_pay24 v3))
      (k0_pay55 (k0_pay12 v5) (k0_pay13 v5) (k0_pay21 v3) (k0_pay22 v3) (k0_pay23 v3) (k0_pay24 v3))
      (k0_pay56 (F := F)))
    (k0_pay64 (k0_pay10 v3) (k0_pay18 v5) (k0_pay36 (k0_pay8 v3) (k0_pay9 v3))
      (k0_pay37 (k0_pay8 v3) (k0_pay9 v3)) (k0_pay38 (k0_pay8 v3) (k0_pay9 v3)) (k0_pay39 (k0_pay8 v3) (k0_pay9 v3))
      (k0_pay46 (k0_pay12 v5) (k0_pay13 v5)) (k0_pay47 (k0_pay12 v5) (k0_pay13 v5))
      (k0_pay48 (k0_pay12 v5) (k0_pay13 v5)) (k0_pay49 (k0_pay12 v5) (k0_pay13 v5))
      (k0_pay54 (k0_pay12 v5) (k0_pay13 v5) (k0_pay21 v3) (k0_pay22 v3) (k0_pay23 v3) (k0_pay24 v3))
      (k0_pay55 (k0_pay12 v5) (k0_pay13 v5) (k0_pay21 v3) (k0_pay22 v3) (k0_pay23 v3) (k0_pay24 v3))
      (k0_pay56 (F := F)))

end Cert.KernelIdeal.Body

end
-- ==== Proof.Pieces.lean ====
/-
  What one grid point leaves in the output's one-element staging buffer.

  At the first point of a half (second grid coordinate 0) the body stores 0, reads it back and stores
  0 + (the block's contribution); at every other point it reads what the point before left, `xo`, and stores
  xo + (the block's contribution).  The contribution is `Body.bodyVal` of the two input blocks.
-/
import proofs.«158835_j66340064854039_2_alg».proof.Proof.Gen.KernelIdeal.Frame
import proofs.«158835_j66340064854039_2_alg».proof.Proof.Body
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body

variable {F : FTy → Type} [FloatOps F]

theorem hz3 : (![0, 0, 0] : Fin 3 → Nat) = fun _ => 0 := funext fun a => by fin_cases a <;> rfl

/-- A later point of a half: the buffer held `xo`, it ends holding `xo` plus the block's contribution. -/
theorem out_B (c : Dev nD) (i : grid0.Coords) (a2 : Memref sig .tc .vmem S1x4096x11 .f32) (h2 : a2.IsWhole)
    (a3 : Memref sig .tc .vmem S1x4096x11 .f32) (h3 : a3.IsWhole) (a4 : Memref sig .tc .vmem S1x1x1 .f32) (h4 : a4.IsWhole)
    (hc : ¬cond0_0 i) (x0 x1 : Vec F S1x4096x11 .f32) (xo : Vec F S1x1x1 .f32) :
    out0_B_2 c i a2 h2 a3 h3 a4 h4 hc x0 x1 xo = k0_pay1 (bodyVal x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x4096x11) hz3,
    View.ld_unit_zero (S := S1x1x1) hz3]
  rfl

/-- The first point of a half: the buffer is reset to 0, and ends holding 0 plus the block's contribution. -/
theorem out_A (c : Dev nD) (i : grid0.Coords) (a2 : Memref sig .tc .vmem S1x4096x11 .f32) (h2 : a2.IsWhole)
    (a3 : Memref sig .tc .vmem S1x4096x11 .f32) (h3 : a3.IsWhole) (a4 : Memref sig .tc .vmem S1x1x1 .f32) (h4 : a4.IsWhole)
    (hc : cond0_0 i) (x0 x1 : Vec F S1x4096x11 .f32) :
    out0_A_2 c i a2 h2 a3 h3 a4 h4 hc x0 x1 = k0_pay1 (bodyVal x0 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S1x4096x11) hz3]
  rfl

end Cert.KernelIdeal.Acc

end
-- ==== Proof.BodyAtLayout.lean ====
/-
  Reading the block's layout operations at one row.

  A block is 4096 rows of 11 channels, loaded with a leading unit axis.  The kernel body views it as a
  4096 × 11 matrix, cuts columns (or pairs of columns) out of it, cuts single columns out of those pairs,
  and adds up either the 4096 entries of a one-column matrix or the two entries of each row of a two-column
  matrix.  Each lemma here reads one of these at a row, as an entry of the loaded block or as a finite sum.
-/
import proofs.«158835_j66340064854039_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BodyAt

open Cert.KernelIdeal Cert.KernelIdeal.Gen Idealize.ShloMosaic Idealize.ShloMosaic.ValueIdx

/-- The loaded block viewed as a matrix: entry (r, c) is entry (0, r, c) of the block. -/
theorem cast_at (x : Vec Ideal S1x4096x11 .f32) (h : S1x4096x11.ShapeCasts S4096x11) (r : Fin 4096) (c : Fin 11) :
    shapeCast S4096x11 x h (ix2 r c) = x (ix3 0 r c) := by
  refine shapeCast_apply x h (ix2 r c) (ix3 0 r c) ?_
  rw [Shape.rowMajor_val_three, Shape.rowMajor_val_two]
  show ((0 : Fin 1).val * 4096 + r.val) * 11 + c.val = r.val * 11 + c.val
  simp

/-- Two adjacent columns of the matrix, starting at column `o`: entry (r, k) is channel `o + k` of row `r`. -/
theorem pair_at (x : Vec Ideal S1x4096x11 .f32) (h : S1x4096x11.ShapeCasts S4096x11) (o : Nat)
    (hs : S4096x11.Slices ![0, o] S4096x2) (r : Fin 4096) (k : Fin 2) (c : Fin 11) (hc : c.val = o + k.val) :
    extractStridedSlice S4096x2 ![0, o] (shapeCast S4096x11 x h) hs (ix2 r k) = x (ix3 0 r c) := by
  have h1 : extractStridedSlice S4096x2 ![0, o] (shapeCast S4096x11 x h) hs (ix2 r k) = shapeCast S4096x11 x h (ix2 r c) :=
    extractStridedSlice_apply (s := S4096x11) (t := S4096x2) ![0, o] (shapeCast S4096x11 x h) hs (ix2 r k) (ix2 r c) fun a =>
      match a with
      | ⟨0, _⟩ => (Nat.zero_add r.val).symm
      | ⟨1, _⟩ => hc
  exact h1.trans (cast_at x h r c)

/-- One column of the matrix: entry (r, 0) is channel `o` of row `r`. -/
theorem chan_at (x : Vec Ideal S1x4096x11 .f32) (h : S1x4096x11.ShapeCasts S4096x11) (o : Nat)
    (hs : S4096x11.Slices ![0, o] S4096x1) (r : Fin 4096) (c : Fin 11) (hc : c.val = o) :
    extractStridedSlice S4096x1 ![0, o] (shapeCast S4096x11 x h) hs (ix2 r 0) = x (ix3 0 r c) := by
  have h1 : extractStridedSlice S4096x1 ![0, o] (shapeCast S4096x11 x h) hs (ix2 r 0) = shapeCast S4096x11 x h (ix2 r c) :=
    extractStridedSlice_apply (s := S4096x11) (t := S4096x1) ![0, o] (shapeCast S4096x11 x h) hs (ix2 r 0) (ix2 r c) fun a =>
      match a with
      | ⟨0, _⟩ => (Nat.zero_add r.val).symm
      | ⟨1, _⟩ => hc
  exact h1.trans (cast_at x h r c)

/-- One column of a two-column matrix: entry (r, 0) of column `k` is entry (r, k). -/
theorem col_at {α : Type} (y : S4096x2.Idx → α) (o : Nat) (hs : S4096x2.Slices ![0, o] S4096x1) (r : Fin 4096)
    (k : Fin 2) (hk : k.val = o) :
    extractStridedSlice S4096x1 ![0, o] y hs (ix2 r 0) = y (ix2 r k) := by
  refine extractStridedSlice_apply ![0, o] y hs (ix2 r 0) (ix2 r k) fun a => ?_
  match a with
  | ⟨0, _⟩ => show r.val = 0 + r.val; omega
  | ⟨1, _⟩ => show k.val = o + 0; omega

/-- The sum of a one-column matrix's 4096 entries, kept as a 1 × 1 matrix. -/
theorem colsum_at (w : FVec Ideal S4096x1 .f32) (h : S4096x1.Reduces [0] S1) (hφ : FKind.Formats .f32)
    (hacc : (0x00000000#32 : BitVec 32) = FKind.add.neutral .f32 hφ) (hc : S1.ShapeCasts S1x1) :
    shapeCast S1x1 (multiReduction .add [0] S1 w 0x00000000#32 h hφ hacc) hc (ix2 0 0)
      = ∑ r : Fin 4096, w (ix2 r 0) := by
  refine (shapeCast_apply _ hc (ix2 0 0) (ix1 0) ?_).trans ?_
  · rw [Shape.rowMajor_val_one, Shape.rowMajor_val_two]; rfl
  refine (Ideal.multiReduction_add_single w 0x00000000#32 h hφ hacc (ix1 0)).trans ?_
  refine Finset.sum_congr rfl fun r _ => congrArg w ?_
  funext a
  match a with
  | ⟨0, _⟩ => rfl
  | ⟨1, _⟩ => rfl

/-- The sum of each row's two entries of a two-column matrix, kept as a one-column matrix. -/
theorem rowsum_at (w : FVec Ideal S4096x2 .f32) (h : S4096x2.Reduces [1] S4096) (hφ : FKind.Formats .f32)
    (hacc : (0x00000000#32 : BitVec 32) = FKind.add.neutral .f32 hφ) (hc : S4096.ShapeCasts S4096x1) (r : Fin 4096) :
    shapeCast S4096x1 (multiReduction .add [1] S4096 w 0x00000000#32 h hφ hacc) hc (ix2 r 0)
      = ∑ j : Fin 2, w (ix2 r j) := by
  refine (shapeCast_apply _ hc (ix2 r 0) (ix1 r) ?_).trans ?_
  · rw [Shape.rowMajor_val_one, Shape.rowMajor_val_two]; show r.val = r.val * 1 + 0; omega
  refine (Ideal.multiReduction_add_single w 0x00000000#32 h hφ hacc (ix1 r)).trans ?_
  refine Finset.sum_congr rfl fun j _ => congrArg w ?_
  funext a
  match a with
  | ⟨0, _⟩ => rfl
  | ⟨1, _⟩ => rfl

/-- The body's column sum: a one-column matrix added up over its 4096 rows into a 1 × 1 matrix. -/
def colSum (w : FVec Ideal S4096x1 .f32) : FVec Ideal S1x1 .f32 :=
  shapeCast S1x1 (multiReduction .add [0] S1 w 0x00000000#32 reduces_S4096x1_S1 (.inl rfl) rfl) shapeCasts_S1_S1x1

theorem colSum_at (w : FVec Ideal S4096x1 .f32) : colSum w (ix2 0 0) = ∑ r : Fin 4096, w (ix2 r 0) :=
  colsum_at w _ _ _ _

/-- The body's row sum: each row of a two-column matrix added up, as a one-column matrix. -/
def rowSum (w : FVec Ideal S4096x2 .f32) : FVec Ideal S4096x1 .f32 :=
  shapeCast S4096x1 (multiReduction .add [1] S4096 w 0x00000000#32 reduces_S4096x2_S4096 (.inl rfl) rfl)
    shapeCasts_S4096_S4096x1

theorem rowSum_at (w : FVec Ideal S4096x2 .f32) (r : Fin 4096) : rowSum w (ix2 r 0) = ∑ j : Fin 2, w (ix2 r j) :=
  rowsum_at w _ _ _ _ r

end Cert.KernelIdeal.BodyAt

end
-- ==== Proof.BodyAtCols.lean ====
/-
  The kernel body's columns read at one row.

  Row `r` of the predicted block is a cell `p`, row `r` of the target block a cell `t`.  The body cuts the channels
  out of the two blocks, forms the corners of the two predicted boxes and of the first target box, the two overlap
  ratios, and the masks "object cell and box 0 responsible" / "object cell and box 1 responsible".  Each lemma here
  reads one of these columns at row `r` as the specification's function of `p` and `t`.  The only places where the
  two texts differ: the body multiplies (½ · size) · 448 where the specification has ½ · (size · 448)
  (associativity of the product), and the body complements a bit by exclusive-or with 1.
-/
import proofs.«158835_j66340064854039_2_alg».proof.Proof.Spec
import proofs.«158835_j66340064854039_2_alg».proof.Proof.BodyAtLayout

noncomputable section

open scoped BigOperators

namespace Cert.KernelIdeal.BodyAt

open Cert.KernelIdeal Cert.KernelIdeal.Gen Idealize.ShloMosaic Idealize.ShloMosaic.ValueIdx

/-- Row `r` of a loaded block, as a cell of eleven channels. -/
abbrev rowOf (x : Vec Ideal S1x4096x11 .f32) (r : Fin 4096) : BoxLoss.Cell := fun c => x (ix3 0 r c)

/-! ## The channels -/

theorem pay5_at (x : Vec Ideal S1x4096x11 .f32) (r : Fin 4096) (k : Fin 2) (c : Fin 11) (hc : c.val = 0 + k.val) :
    k0_pay5 (F := Ideal) x (ix2 r k) = x (ix3 0 r c) := pair_at x shapeCasts_S1x4096x11_S4096x11 0 slices_S4096x11_o0_0_S4096x2 r k c hc

theorem pay6_at (x : Vec Ideal S1x4096x11 .f32) (r : Fin 4096) (k : Fin 2) (c : Fin 11) (hc : c.val = 2 + k.val) :
    k0_pay6 (F := Ideal) x (ix2 r k) = x (ix3 0 r c) := pair_at x shapeCasts_S1x4096x11_S4096x11 2 slices_S4096x11_o0_2_S4096x2 r k c hc

theorem pay8_at (x : Vec Ideal S1x4096x11 .f32) (r : Fin 4096) (k : Fin 2) (c : Fin 11) (hc : c.val = 5 + k.val) :
    k0_pay8 (F := Ideal) x (ix2 r k) = x (ix3 0 r c) := pair_at x shapeCasts_S1x4096x11_S4096x11 5 slices_S4096x11_o0_5_S4096x2 r k c hc

theorem pay9_at (x : Vec Ideal S1x4096x11 .f32) (r : Fin 4096) (k : Fin 2) (c : Fin 11) (hc : c.val = 7 + k.val) :
    k0_pay9 (F := Ideal) x (ix2 r k) = x (ix3 0 r c) := pair_at x shapeCasts_S1x4096x11_S4096x11 7 slices_S4096x11_o0_7_S4096x2 r k c hc

theorem pay12_at (x : Vec Ideal S1x4096x11 .f32) (r : Fin 4096) (k : Fin 2) (c : Fin 11) (hc : c.val = 0 + k.val) :
    k0_pay12 (F := Ideal) x (ix2 r k) = x (ix3 0 r c) := pair_at x shapeCasts_S1x4096x11_S4096x11 0 slices_S4096x11_o0_0_S4096x2 r k c hc

theorem pay13_at (x : Vec Ideal S1x4096x11 .f32) (r : Fin 4096) (k : Fin 2) (c : Fin 11) (hc : c.val = 2 + k.val) :
    k0_pay13 (F := Ideal) x (ix2 r k) = x (ix3 0 r c) := pair_at x shapeCasts_S1x4096x11_S4096x11 2 slices_S4096x11_o0_2_S4096x2 r k c hc

theorem pay15_at (x : Vec Ideal S1x4096x11 .f32) (r : Fin 4096) (k : Fin 2) (c : Fin 11) (hc : c.val = 5 + k.val) :
    k0_pay15 (F := Ideal) x (ix2 r k) = x (ix3 0 r c) := pair_at x shapeCasts_S1x4096x11_S4096x11 5 slices_S4096x11_o0_5_S4096x2 r k c hc

theorem pay16_at (x : Vec Ideal S1x4096x11 .f32) (r : Fin 4096) (k : Fin 2) (c : Fin 11) (hc : c.val = 7 + k.val) :
    k0_pay16 (F := Ideal) x (ix2 r k) = x (ix3 0 r c) := pair_at x shapeCasts_S1x4096x11_S4096x11 7 slices_S4096x11_o0_7_S4096x2 r k c hc

theorem pay7_at (x : Vec Ideal S1x4096x11 .f32) (r : Fin 4096) :
    k0_pay7 (F := Ideal) x (ix2 r 0) = x (ix3 0 r 4) := chan_at x shapeCasts_S1x4096x11_S4096x11 4 slices_S4096x11_o0_4_S4096x1 r 4 rfl

theorem pay10_at (x : Vec Ideal S1x4096x11 .f32) (r : Fin 4096) :
    k0_pay10 (F := Ideal) x (ix2 r 0) = x (ix3 0 r 9) := chan_at x shapeCasts_S1x4096x11_S4096x11 9 slices_S4096x11_o0_9_S4096x1 r 9 rfl

theorem pay11_at (x : Vec Ideal S1x4096x11 .f32) (r : Fin 4096) :
    k0_pay11 (F := Ideal) x (ix2 r 0) = x (ix3 0 r 10) := chan_at x shapeCasts_S1x4096x11_S4096x11 10 slices_S4096x11_o0_10_S4096x1 r 10 rfl

theorem pay14_at (x : Vec Ideal S1x4096x11 .f32) (r : Fin 4096) :
    k0_pay14 (F := Ideal) x (ix2 r 0) = x (ix3 0 r 4) := chan_at x shapeCasts_S1x4096x11_S4096x11 4 slices_S4096x11_o0_4_S4096x1 r 4 rfl

theorem pay17_at (x : Vec Ideal S1x4096x11 .f32) (r : Fin 4096) :
    k0_pay17 (F := Ideal) x (ix2 r 0) = x (ix3 0 r 10) := chan_at x shapeCasts_S1x4096x11_S4096x11 10 slices_S4096x11_o0_10_S4096x1 r 10 rfl

/-! ## The corners -/

/-- The body's low corner is the specification's: the product is associative. -/
theorem lo_eq (c s : Ideal .f32) : c * BoxLoss.c64 - BoxLoss.cHalf * s * BoxLoss.c448 = BoxLoss.lo c s := by
  unfold BoxLoss.lo; rw [mul_assoc BoxLoss.cHalf s BoxLoss.c448]

/-- The body's high corner is the specification's. -/
theorem hi_eq (c s : Ideal .f32) : c * BoxLoss.c64 + BoxLoss.cHalf * s * BoxLoss.c448 = BoxLoss.hi c s := by
  unfold BoxLoss.hi; rw [mul_assoc BoxLoss.cHalf s BoxLoss.c448]

/-- Column `k` of one two-column matrix minus column `k` of another, at row `r`. -/
theorem corner_sub (A B : FVec Ideal S4096x2 .f32) (o : Nat) (hs : S4096x2.Slices ![0, o] S4096x1) (k : Fin 2)
    (hk : k.val = o) (r : Fin 4096) :
    subf (extractStridedSlice S4096x1 ![0, o] A hs) (extractStridedSlice S4096x1 ![0, o] B hs) (ix2 r 0)
      = A (ix2 r k) - B (ix2 r k) := by
  show extractStridedSlice S4096x1 ![0, o] A hs (ix2 r 0) - extractStridedSlice S4096x1 ![0, o] B hs (ix2 r 0) = _
  rw [col_at A o hs r k hk, col_at B o hs r k hk]

/-- Column `k` of one two-column matrix plus column `k` of another, at row `r`. -/
theorem corner_add (A B : FVec Ideal S4096x2 .f32) (o : Nat) (hs : S4096x2.Slices ![0, o] S4096x1) (k : Fin 2)
    (hk : k.val = o) (r : Fin 4096) :
    addf (extractStridedSlice S4096x1 ![0, o] A hs) (extractStridedSlice S4096x1 ![0, o] B hs) (ix2 r 0)
      = A (ix2 r k) + B (ix2 r k) := by
  show extractStridedSlice S4096x1 ![0, o] A hs (ix2 r 0) + extractStridedSlice S4096x1 ![0, o] B hs (ix2 r 0) = _
  rw [col_at A o hs r k hk, col_at B o hs r k hk]

/-- Predicted box 0, low corner on the first axis. -/
theorem p0x0_at (x : Vec Ideal S1x4096x11 .f32) (r : Fin 4096) :
    k0_pay26 (k0_pay22 x) (k0_pay24 x) (ix2 r 0) = BoxLoss.lo (x (ix3 0 r 0)) (x (ix3 0 r 2)) := by
  have h := (corner_sub (k0_pay20 x) (k0_pay21 x) 0 slices_S4096x2_o0_0_S4096x1 0 rfl r).trans
    (lo_eq (k0_pay5 x (ix2 r 0)) (k0_pay6 x (ix2 r 0)))
  rw [pay5_at x r 0 0 rfl, pay6_at x r 0 2 rfl] at h
  exact h

/-- Predicted box 0, low corner on the second axis. -/
theorem p0y0_at (x : Vec Ideal S1x4096x11 .f32) (r : Fin 4096) :
    k0_pay27 (k0_pay21 x) (k0_pay23 x) (ix2 r 0) = BoxLoss.lo (x (ix3 0 r 1)) (x (ix3 0 r 3)) := by
  have h := (corner_sub (k0_pay20 x) (k0_pay21 x) 1 slices_S4096x2_o0_1_S4096x1 1 rfl r).trans
    (lo_eq (k0_pay5 x (ix2 r 1)) (k0_pay6 x (ix2 r 1)))
  rw [pay5_at x r 1 1 rfl, pay6_at x r 1 3 rfl] at h
  exact h

/-- Predicted box 0, high corner on the first axis. -/
theorem p0x1_at (x : Vec Ideal S1x4096x11 .f32) (r : Fin 4096) :
    k0_pay28 (k0_pay22 x) (k0_pay24 x) (ix2 r 0) = BoxLoss.hi (x (ix3 0 r 0)) (x (ix3 0 r 2)) := by
  have h := (corner_add (k0_pay20 x) (k0_pay21 x) 0 slices_S4096x2_o0_0_S4096x1 0 rfl r).trans
    (hi_eq (k0_pay5 x (ix2 r 0)) (k0_pay6 x (ix2 r 0)))
  rw [pay5_at x r 0 0 rfl, pay6_at x r 0 2 rfl] at h
  exact h

/-- Predicted box 0, high corner on the second axis. -/
theorem p0y1_at (x : Vec Ideal S1x4096x11 .f32) (r : Fin 4096) :
    k0_pay29 (k0_pay21 x) (k0_pay23 x) (ix2 r 0) = BoxLoss.hi (x (ix3 0 r 1)) (x (ix3 0 r 3)) := by
  have h := (corner_add (k0_pay20 x) (k0_pay21 x) 1 slices_S4096x2_o0_1_S4096x1 1 rfl r).trans
    (hi_eq (k0_pay5 x (ix2 r 1)) (k0_pay6 x (ix2 r 1)))
  rw [pay5_at x r 1 1 rfl, pay6_at x r 1 3 rfl] at h
  exact h

/-- Predicted box 1, low corner on the first axis. -/
theorem p1x0_at (x : Vec Ideal S1x4096x11 .f32) (r : Fin 4096) :
    k0_pay36 (k0_pay8 x) (k0_pay9 x) (ix2 r 0) = BoxLoss.lo (x (ix3 0 r 5)) (x (ix3 0 r 7)) := by
  have h := (corner_sub (k0_pay30 (k0_pay8 x)) (k0_pay31 (k0_pay9 x)) 0 slices_S4096x2_o0_0_S4096x1 0 rfl r).trans
    (lo_eq (k0_pay8 x (ix2 r 0)) (k0_pay9 x (ix2 r 0)))
  rw [pay8_at x r 0 5 rfl, pay9_at x r 0 7 rfl] at h
  exact h

/-- Predicted box 1, low corner on the second axis. -/
theorem p1y0_at (x : Vec Ideal S1x4096x11 .f32) (r : Fin 4096) :
    k0_pay37 (k0_pay8 x) (k0_pay9 x) (ix2 r 0) = BoxLoss.lo (x (ix3 0 r 6)) (x (ix3 0 r 8)) := by
  have h := (corner_sub (k0_pay30 (k0_pay8 x)) (k0_pay31 (k0_pay9 x)) 1 slices_S4096x2_o0_1_S4096x1 1 rfl r).trans
    (lo_eq (k0_pay8 x (ix2 r 1)) (k0_pay9 x (ix2 r 1)))
  rw [pay8_at x r 1 6 rfl, pay9_at x r 1 8 rfl] at h
  exact h

/-- Predicted box 1, high corner on the first axis. -/
theorem p1x1_at (x : Vec Ideal S1x4096x11 .f32) (r : Fin 4096) :
    k0_pay38 (k0_pay8 x) (k0_pay9 x) (ix2 r 0) = BoxLoss.hi (x (ix3 0 r 5)) (x (ix3 0 r 7)) := by
  have h := (corner_add (k0_pay30 (k0_pay8 x)) (k0_pay31 (k0_pay9 x)) 0 slices_S4096x2_o0_0_S4096x1 0 rfl r).trans
    (hi_eq (k0_pay8 x (ix2 r 0)) (k0_pay9 x (ix2 r 0)))
  rw [pay8_at x r 0 5 rfl, pay9_at x r 0 7 rfl] at h
  exact h

/-- Predicted box 1, high corner on the second axis. -/
theorem p1y1_at (x : Vec Ideal S1x4096x11 .f32) (r : Fin 4096) :
    k0_pay39 (k0_pay8 x) (k0_pay9 x) (ix2 r 0) = BoxLoss.hi (x (ix3 0 r 6)) (x (ix3 0 r 8)) := by
  have h := (corner_add (k0_pay30 (k0_pay8 x)) (k0_pay31 (k0_pay9 x)) 1 slices_S4096x2_o0_1_S4096x1 1 rfl r).trans
    (hi_eq (k0_pay8 x (ix2 r 1)) (k0_pay9 x (ix2 r 1)))
  rw [pay8_at x r 1 6 rfl, pay9_at x r 1 8 rfl] at h
  exact h

/-- Target box 0, low corner on the first axis. -/
theorem tx0_at (x : Vec Ideal S1x4096x11 .f32) (r : Fin 4096) :
    k0_pay46 (k0_pay12 x) (k0_pay13 x) (ix2 r 0) = BoxLoss.lo (x (ix3 0 r 0)) (x (ix3 0 r 2)) := by
  have h := (corner_sub (k0_pay40 (k0_pay12 x)) (k0_pay41 (k0_pay13 x)) 0 slices_S4096x2_o0_0_S4096x1 0 rfl r).trans
    (lo_eq (k0_pay12 x (ix2 r 0)) (k0_pay13 x (ix2 r 0)))
  rw [pay12_at x r 0 0 rfl, pay13_at x r 0 2 rfl] at h
  exact h

/-- Target box 0, low corner on the second axis. -/
theorem ty0_at (x : Vec Ideal S1x4096x11 .f32) (r : Fin 4096) :
    k0_pay47 (k0_pay12 x) (k0_pay13 x) (ix2 r 0) = BoxLoss.lo (x (ix3 0 r 1)) (x (ix3 0 r 3)) := by
  have h := (corner_sub (k0_pay40 (k0_pay12 x)) (k0_pay41 (k0_pay13 x)) 1 slices_S4096x2_o0_1_S4096x1 1 rfl r).trans
    (lo_eq (k0_pay12 x (ix2 r 1)) (k0_pay13 x (ix2 r 1)))
  rw [pay12_at x r 1 1 rfl, pay13_at x r 1 3 rfl] at h
  exact h

/-- Target box 0, high corner on the first axis. -/
theorem tx1_at (x : Vec Ideal S1x4096x11 .f32) (r : Fin 4096) :
    k0_pay48 (k0_pay12 x) (k0_pay13 x) (ix2 r 0) = BoxLoss.hi (x (ix3 0 r 0)) (x (ix3 0 r 2)) := by
  have h := (corner_add (k0_pay40 (k0_pay12 x)) (k0_pay41 (k0_pay13 x)) 0 slices_S4096x2_o0_0_S4096x1 0 rfl r).trans
    (hi_eq (k0_pay12 x (ix2 r 0)) (k0_pay13 x (ix2 r 0)))
  rw [pay12_at x r 0 0 rfl, pay13_at x r 0 2 rfl] at h
  exact h

/-- Target box 0, high corner on the second axis. -/
theorem ty1_at (x : Vec Ideal S1x4096x11 .f32) (r : Fin 4096) :
    k0_pay49 (k0_pay12 x) (k0_pay13 x) (ix2 r 0) = BoxLoss.hi (x (ix3 0 r 1)) (x (ix3 0 r 3)) := by
  have h := (corner_add (k0_pay40 (k0_pay12 x)) (k0_pay41 (k0_pay13 x)) 1 slices_S4096x2_o0_1_S4096x1 1 rfl r).trans
    (hi_eq (k0_pay12 x (ix2 r 1)) (k0_pay13 x (ix2 r 1)))
  rw [pay12_at x r 1 1 rfl, pay13_at x r 1 3 rfl] at h
  exact h

/-! ## The overlap ratios -/

/-- Intersection over union from the eight corners (predicted low x, low y, high x, high y; the target's). -/
def iouC (px0 py0 px1 py1 tx0 ty0 tx1 ty1 : Ideal .f32) : Ideal .f32 :=
  Scalar.select
    (IntOp.andi (FloatOps.cmpf (F := Ideal) .olt (max px0 tx0) (min px1 tx1))
      (FloatOps.cmpf (F := Ideal) .olt (max py0 ty0) (min py1 ty1)))
    (Ideal.div ((min px1 tx1 - max px0 tx0) * (min py1 ty1 - max py0 ty0))
      ((px1 - px0) * (py1 - py0) + (tx1 - tx0) * (ty1 - ty0)
        - (min px1 tx1 - max px0 tx0) * (min py1 ty1 - max py0 ty0)))
    BoxLoss.z0

/-- The specification's ratio is that function of its corners. -/
theorem iou_eq (p t : BoxLoss.Cell) (k : Fin 2) :
    BoxLoss.iou p t k
      = iouC (BoxLoss.lo (p (BoxLoss.ch k 0)) (p (BoxLoss.ch k 2))) (BoxLoss.lo (p (BoxLoss.ch k 1)) (p (BoxLoss.ch k 3)))
          (BoxLoss.hi (p (BoxLoss.ch k 0)) (p (BoxLoss.ch k 2))) (BoxLoss.hi (p (BoxLoss.ch k 1)) (p (BoxLoss.ch k 3)))
          (BoxLoss.lo (t (BoxLoss.ch 0 0)) (t (BoxLoss.ch 0 2))) (BoxLoss.lo (t (BoxLoss.ch 0 1)) (t (BoxLoss.ch 0 3)))
          (BoxLoss.hi (t (BoxLoss.ch 0 0)) (t (BoxLoss.ch 0 2))) (BoxLoss.hi (t (BoxLoss.ch 0 1)) (t (BoxLoss.ch 0 3))) := rfl

/-- The body's ratio of box 1 is that function of the corner columns, at every row. -/
theorem pay58_eq (v57 v58 v59 v60 v71 v72 v73 v74 : FVec Ideal S4096x1 .f32) (i : S4096x1.Idx) :
    k0_pay58 v57 v58 v59 v60 v71 v72 v73 v74 i
      = iouC (v57 i) (v58 i) (v59 i) (v60 i) (v71 i) (v72 i) (v73 i) (v74 i) := rfl

/-- The body's ratio of box 0 likewise (its corner columns are formed inside the same payloads). -/
theorem pay57_eq (a b v38 : FVec Ideal S4096x2 .f32) (v39 v40 v41 : FVec Ideal S4096x1 .f32) (i : S4096x1.Idx) :
    k0_pay57 (k0_pay54 a b v38 v39 v40 v41) (k0_pay55 a b v38 v39 v40 v41) (k0_pay56 (F := Ideal)) i
      = iouC (k0_pay26 v39 v41 i) (k0_pay27 v38 v40 i) (k0_pay28 v39 v41 i) (k0_pay29 v38 v40 i)
          (k0_pay46 a b i) (k0_pay47 a b i) (k0_pay48 a b i) (k0_pay49 a b i) := rfl

/-- The column of box 0's overlap ratios. -/
abbrev IOU0 (x0 x1 : Vec Ideal S1x4096x11 .f32) : FVec Ideal S4096x1 .f32 :=
  k0_pay57 (k0_pay54 (k0_pay12 x1) (k0_pay13 x1) (k0_pay21 x0) (k0_pay22 x0) (k0_pay23 x0) (k0_pay24 x0))
    (k0_pay55 (k0_pay12 x1) (k0_pay13 x1) (k0_pay21 x0) (k0_pay22 x0) (k0_pay23 x0) (k0_pay24 x0)) (k0_pay56 (F := Ideal))

/-- The column of box 1's overlap ratios. -/
abbrev IOU1 (x0 x1 : Vec Ideal S1x4096x11 .f32) : FVec Ideal S4096x1 .f32 :=
  k0_pay58 (k0_pay36 (k0_pay8 x0) (k0_pay9 x0)) (k0_pay37 (k0_pay8 x0) (k0_pay9 x0))
    (k0_pay38 (k0_pay8 x0) (k0_pay9 x0)) (k0_pay39 (k0_pay8 x0) (k0_pay9 x0))
    (k0_pay46 (k0_pay12 x1) (k0_pay13 x1)) (k0_pay47 (k0_pay12 x1) (k0_pay13 x1))
    (k0_pay48 (k0_pay12 x1) (k0_pay13 x1)) (k0_pay49 (k0_pay12 x1) (k0_pay13 x1))

theorem iou0_at (x0 x1 : Vec Ideal S1x4096x11 .f32) (r : Fin 4096) :
    IOU0 x0 x1 (ix2 r 0) = BoxLoss.iou (rowOf x0 r) (rowOf x1 r) 0 := by
  refine (pay57_eq _ _ _ _ _ _ _).trans ?_
  rw [p0x0_at, p0y0_at, p0x1_at, p0y1_at, tx0_at, ty0_at, tx1_at, ty1_at]
  rfl

theorem iou1_at (x0 x1 : Vec Ideal S1x4096x11 .f32) (r : Fin 4096) :
    IOU1 x0 x1 (ix2 r 0) = BoxLoss.iou (rowOf x0 r) (rowOf x1 r) 1 := by
  refine (pay58_eq _ _ _ _ _ _ _ _ _).trans ?_
  rw [p1x0_at, p1y0_at, p1x1_at, p1y1_at, tx0_at, ty0_at, tx1_at, ty1_at]
  rfl

/-! ## The masks -/

/-- On one bit, exclusive-or with 1 is the complement. -/
theorem xor_one_eq_not : ∀ b : BitVec 1, IntOp.xori b 1#1 = ~~~b := by decide

/-- "The cell holds an object". -/
theorem coo_at (x1 : Vec Ideal S1x4096x11 .f32) (r : Fin 4096) :
    k0_pay18 (F := Ideal) x1 (ix2 r 0) = BoxLoss.coo (rowOf x1 r) := by
  show FloatOps.cmpf (F := Ideal) .ogt (k0_pay14 (F := Ideal) x1 (ix2 r 0)) BoxLoss.z0 = _
  rw [pay14_at]
  rfl

/-- The column "object cell and box 0 responsible". -/
abbrev M0 (x0 x1 : Vec Ideal S1x4096x11 .f32) : IVec S4096x1 1 :=
  k0_pay60 (k0_pay18 x1) (k0_pay36 (k0_pay8 x0) (k0_pay9 x0)) (k0_pay37 (k0_pay8 x0) (k0_pay9 x0))
    (k0_pay38 (k0_pay8 x0) (k0_pay9 x0)) (k0_pay39 (k0_pay8 x0) (k0_pay9 x0))
    (k0_pay46 (k0_pay12 x1) (k0_pay13 x1)) (k0_pay47 (k0_pay12 x1) (k0_pay13 x1))
    (k0_pay48 (k0_pay12 x1) (k0_pay13 x1)) (k0_pay49 (k0_pay12 x1) (k0_pay13 x1))
    (k0_pay54 (k0_pay12 x1) (k0_pay13 x1) (k0_pay21 x0) (k0_pay22 x0) (k0_pay23 x0) (k0_pay24 x0))
    (k0_pay55 (k0_pay12 x1) (k0_pay13 x1) (k0_pay21 x0) (k0_pay22 x0) (k0_pay23 x0) (k0_pay24 x0))
    (k0_pay56 (F := Ideal))

/-- The column "object cell and box 1 responsible". -/
abbrev M1 (x0 x1 : Vec Ideal S1x4096x11 .f32) : IVec S4096x1 1 :=
  k0_pay61 (k0_pay18 x1) (k0_pay36 (k0_pay8 x0) (k0_pay9 x0)) (k0_pay37 (k0_pay8 x0) (k0_pay9 x0))
    (k0_pay38 (k0_pay8 x0) (k0_pay9 x0)) (k0_pay39 (k0_pay8 x0) (k0_pay9 x0))
    (k0_pay46 (k0_pay12 x1) (k0_pay13 x1)) (k0_pay47 (k0_pay12 x1) (k0_pay13 x1))
    (k0_pay48 (k0_pay12 x1) (k0_pay13 x1)) (k0_pay49 (k0_pay12 x1) (k0_pay13 x1))
    (k0_pay54 (k0_pay12 x1) (k0_pay13 x1) (k0_pay21 x0) (k0_pay22 x0) (k0_pay23 x0) (k0_pay24 x0))
    (k0_pay55 (k0_pay12 x1) (k0_pay13 x1) (k0_pay21 x0) (k0_pay22 x0) (k0_pay23 x0) (k0_pay24 x0))
    (k0_pay56 (F := Ideal))

theorem m0_at (x0 x1 : Vec Ideal S1x4096x11 .f32) (r : Fin 4096) :
    M0 x0 x1 (ix2 r 0) = IntOp.andi (BoxLoss.coo (rowOf x1 r)) (BoxLoss.wins (rowOf x0 r) (rowOf x1 r)) := by
  show IntOp.andi (k0_pay18 (F := Ideal) x1 (ix2 r 0))
    (FloatOps.cmpf (F := Ideal) .ogt (IOU0 x0 x1 (ix2 r 0)) (IOU1 x0 x1 (ix2 r 0))) = _
  rw [coo_at, iou0_at, iou1_at]
  rfl

theorem m1_at (x0 x1 : Vec Ideal S1x4096x11 .f32) (r : Fin 4096) :
    M1 x0 x1 (ix2 r 0) = IntOp.andi (BoxLoss.coo (rowOf x1 r)) (~~~(BoxLoss.wins (rowOf x0 r) (rowOf x1 r))) := by
  show IntOp.andi (k0_pay18 (F := Ideal) x1 (ix2 r 0))
    (IntOp.xori (FloatOps.cmpf (F := Ideal) .ogt (IOU0 x0 x1 (ix2 r 0)) (IOU1 x0 x1 (ix2 r 0))) 1#1) = _
  rw [coo_at, iou0_at, iou1_at, xor_one_eq_not]
  rfl

/-- The larger of the two ratios. -/
theorem best_at (x0 x1 : Vec Ideal S1x4096x11 .f32) (r : Fin 4096) :
    maximumf (IOU0 x0 x1) (IOU1 x0 x1) (ix2 r 0) = BoxLoss.best (rowOf x0 r) (rowOf x1 r) := by
  show max (IOU0 x0 x1 (ix2 r 0)) (IOU1 x0 x1 (ix2 r 0)) = _
  rw [iou0_at, iou1_at]
  rfl

end Cert.KernelIdeal.BodyAt

end
-- ==== Proof.BodyAtSums.lean ====
/-
  The kernel body's five partial sums over the block's rows.

  Each of the body's reductions over the 4096 rows is the sum, over the rows, of the column it reduces; read at a
  row, that column is one of the specification's per-cell terms: the no-object term, the two contain terms, the two
  not-contain terms.  (The localisation and class terms are summed inside the body's last payload and are read in
  the next file.)  The body's mask for box 1's not-contain term is "object cell and box 0 wins"; the specification
  writes the same bit as the complement of the complement.
-/
import proofs.«158835_j66340064854039_2_alg».proof.Proof.BodyAtCols

noncomputable section

open scoped BigOperators

namespace Cert.KernelIdeal.BodyAt

open Cert.KernelIdeal Cert.KernelIdeal.Gen Idealize.ShloMosaic Idealize.ShloMosaic.ValueIdx

/-- Channel 9 of the target block, as the body cuts it for the no-object term. -/
theorem t9_at (x1 : Vec Ideal S1x4096x11 .f32) (r : Fin 4096) :
    extractStridedSlice S4096x1 ![0, 9] (k0_pay4 (F := Ideal) x1) slices_S4096x11_o0_9_S4096x1 (ix2 r 0)
      = x1 (ix3 0 r 9) := chan_at x1 shapeCasts_S1x4096x11_S4096x11 9 slices_S4096x11_o0_9_S4096x1 r 9 rfl

/-- The no-object sum. -/
theorem noo_at (x0 x1 : Vec Ideal S1x4096x11 .f32) :
    k0_pay19 (F := Ideal) x0 x1 (ix2 0 0) = ∑ r : Fin 4096, BoxLoss.nooT (rowOf x0 r) (rowOf x1 r) := by
  refine (colSum_at _).trans (Finset.sum_congr rfl fun r _ => ?_)
  show Scalar.select (IntOp.xori (k0_pay18 (F := Ideal) x1 (ix2 r 0)) 1#1)
      ((k0_pay7 (F := Ideal) x0 (ix2 r 0) - k0_pay14 (F := Ideal) x1 (ix2 r 0))
          * (k0_pay7 (F := Ideal) x0 (ix2 r 0) - k0_pay14 (F := Ideal) x1 (ix2 r 0))
        + (k0_pay10 (F := Ideal) x0 (ix2 r 0)
            - extractStridedSlice S4096x1 ![0, 9] (k0_pay4 (F := Ideal) x1) slices_S4096x11_o0_9_S4096x1 (ix2 r 0))
          * (k0_pay10 (F := Ideal) x0 (ix2 r 0)
            - extractStridedSlice S4096x1 ![0, 9] (k0_pay4 (F := Ideal) x1) slices_S4096x11_o0_9_S4096x1 (ix2 r 0)))
      BoxLoss.z0 = _
  rw [coo_at, xor_one_eq_not, pay7_at, pay14_at, pay10_at, t9_at]
  rfl

/-- The body's sum of the two contain terms. -/
abbrev CONT (x0 x1 : Vec Ideal S1x4096x11 .f32) : FVec Ideal S1x1 .f32 :=
  k0_pay62 (k0_pay7 x0) (k0_pay10 x0) (k0_pay18 x1) (k0_pay36 (k0_pay8 x0) (k0_pay9 x0)) (k0_pay37 (k0_pay8 x0) (k0_pay9 x0))
    (k0_pay38 (k0_pay8 x0) (k0_pay9 x0)) (k0_pay39 (k0_pay8 x0) (k0_pay9 x0))
    (k0_pay46 (k0_pay12 x1) (k0_pay13 x1)) (k0_pay47 (k0_pay12 x1) (k0_pay13 x1))
    (k0_pay48 (k0_pay12 x1) (k0_pay13 x1)) (k0_pay49 (k0_pay12 x1) (k0_pay13 x1))
    (k0_pay54 (k0_pay12 x1) (k0_pay13 x1) (k0_pay21 x0) (k0_pay22 x0) (k0_pay23 x0) (k0_pay24 x0))
    (k0_pay55 (k0_pay12 x1) (k0_pay13 x1) (k0_pay21 x0) (k0_pay22 x0) (k0_pay23 x0) (k0_pay24 x0))
    (k0_pay56 (F := Ideal))

/-- The body's not-contain sum of box 0. -/
abbrev NOTC0 (x0 x1 : Vec Ideal S1x4096x11 .f32) : FVec Ideal S1x1 .f32 :=
  k0_pay63 (k0_pay7 x0) (k0_pay18 x1) (k0_pay36 (k0_pay8 x0) (k0_pay9 x0)) (k0_pay37 (k0_pay8 x0) (k0_pay9 x0))
    (k0_pay38 (k0_pay8 x0) (k0_pay9 x0)) (k0_pay39 (k0_pay8 x0) (k0_pay9 x0))
    (k0_pay46 (k0_pay12 x1) (k0_pay13 x1)) (k0_pay47 (k0_pay12 x1) (k0_pay13 x1))
    (k0_pay48 (k0_pay12 x1) (k0_pay13 x1)) (k0_pay49 (k0_pay12 x1) (k0_pay13 x1))
    (k0_pay54 (k0_pay12 x1) (k0_pay13 x1) (k0_pay21 x0) (k0_pay22 x0) (k0_pay23 x0) (k0_pay24 x0))
    (k0_pay55 (k0_pay12 x1) (k0_pay13 x1) (k0_pay21 x0) (k0_pay22 x0) (k0_pay23 x0) (k0_pay24 x0))
    (k0_pay56 (F := Ideal))

/-- The body's not-contain sum of box 1. -/
abbrev NOTC1 (x0 x1 : Vec Ideal S1x4096x11 .f32) : FVec Ideal S1x1 .f32 :=
  k0_pay64 (k0_pay10 x0) (k0_pay18 x1) (k0_pay36 (k0_pay8 x0) (k0_pay9 x0)) (k0_pay37 (k0_pay8 x0) (k0_pay9 x0))
    (k0_pay38 (k0_pay8 x0) (k0_pay9 x0)) (k0_pay39 (k0_pay8 x0) (k0_pay9 x0))
    (k0_pay46 (k0_pay12 x1) (k0_pay13 x1)) (k0_pay47 (k0_pay12 x1) (k0_pay13 x1))
    (k0_pay48 (k0_pay12 x1) (k0_pay13 x1)) (k0_pay49 (k0_pay12 x1) (k0_pay13 x1))
    (k0_pay54 (k0_pay12 x1) (k0_pay13 x1) (k0_pay21 x0) (k0_pay22 x0) (k0_pay23 x0) (k0_pay24 x0))
    (k0_pay55 (k0_pay12 x1) (k0_pay13 x1) (k0_pay21 x0) (k0_pay22 x0) (k0_pay23 x0) (k0_pay24 x0))
    (k0_pay56 (F := Ideal))

theorem cont_at (x0 x1 : Vec Ideal S1x4096x11 .f32) :
    CONT x0 x1 (ix2 0 0)
      = (∑ r : Fin 4096, BoxLoss.contT (rowOf x0 r) (rowOf x1 r) 0)
        + (∑ r : Fin 4096, BoxLoss.contT (rowOf x0 r) (rowOf x1 r) 1) := by
  show colSum (select (M0 x0 x1)
        (mulf (subf (k0_pay7 (F := Ideal) x0) (maximumf (IOU0 x0 x1) (IOU1 x0 x1)))
          (subf (k0_pay7 (F := Ideal) x0) (maximumf (IOU0 x0 x1) (IOU1 x0 x1))))
        (broadcast S4096x1 BoxLoss.z0)) (ix2 0 0)
      + colSum (select (M1 x0 x1)
        (mulf (subf (k0_pay10 (F := Ideal) x0) (maximumf (IOU0 x0 x1) (IOU1 x0 x1)))
          (subf (k0_pay10 (F := Ideal) x0) (maximumf (IOU0 x0 x1) (IOU1 x0 x1))))
        (broadcast S4096x1 BoxLoss.z0)) (ix2 0 0) = _
  rw [colSum_at, colSum_at]
  refine congrArg₂ (· + ·) (Finset.sum_congr rfl fun r _ => ?_) (Finset.sum_congr rfl fun r _ => ?_)
  · show Scalar.select (M0 x0 x1 (ix2 r 0))
        ((k0_pay7 (F := Ideal) x0 (ix2 r 0) - maximumf (IOU0 x0 x1) (IOU1 x0 x1) (ix2 r 0))
          * (k0_pay7 (F := Ideal) x0 (ix2 r 0) - maximumf (IOU0 x0 x1) (IOU1 x0 x1) (ix2 r 0))) BoxLoss.z0 = _
    rw [m0_at, pay7_at, best_at]
    rfl
  · show Scalar.select (M1 x0 x1 (ix2 r 0))
        ((k0_pay10 (F := Ideal) x0 (ix2 r 0) - maximumf (IOU0 x0 x1) (IOU1 x0 x1) (ix2 r 0))
          * (k0_pay10 (F := Ideal) x0 (ix2 r 0) - maximumf (IOU0 x0 x1) (IOU1 x0 x1) (ix2 r 0))) BoxLoss.z0 = _
    rw [m1_at, pay10_at, best_at]
    rfl

theorem notc0_at (x0 x1 : Vec Ideal S1x4096x11 .f32) :
    NOTC0 x0 x1 (ix2 0 0) = ∑ r : Fin 4096, BoxLoss.notcT (rowOf x0 r) (rowOf x1 r) 0 := by
  show colSum (select (M1 x0 x1) (mulf (k0_pay7 (F := Ideal) x0) (k0_pay7 (F := Ideal) x0))
        (broadcast S4096x1 BoxLoss.z0)) (ix2 0 0) = _
  refine (colSum_at _).trans (Finset.sum_congr rfl fun r _ => ?_)
  show Scalar.select (M1 x0 x1 (ix2 r 0))
      (k0_pay7 (F := Ideal) x0 (ix2 r 0) * k0_pay7 (F := Ideal) x0 (ix2 r 0)) BoxLoss.z0 = _
  rw [m1_at, pay7_at]
  rfl

theorem notc1_at (x0 x1 : Vec Ideal S1x4096x11 .f32) :
    NOTC1 x0 x1 (ix2 0 0) = ∑ r : Fin 4096, BoxLoss.notcT (rowOf x0 r) (rowOf x1 r) 1 := by
  show colSum (select (M0 x0 x1) (mulf (k0_pay10 (F := Ideal) x0) (k0_pay10 (F := Ideal) x0))
        (broadcast S4096x1 BoxLoss.z0)) (ix2 0 0) = _
  refine (colSum_at _).trans (Finset.sum_congr rfl fun r _ => ?_)
  show Scalar.select (M0 x0 x1 (ix2 r 0))
      (k0_pay10 (F := Ideal) x0 (ix2 r 0) * k0_pay10 (F := Ideal) x0 (ix2 r 0)) BoxLoss.z0
    = Scalar.select (IntOp.andi (BoxLoss.coo (rowOf x1 r)) (~~~(~~~(BoxLoss.wins (rowOf x0 r) (rowOf x1 r)))))
        (BoxLoss.sq (rowOf x0 r 9)) BoxLoss.z0
  rw [m0_at, pay10_at, BitVec.not_not]
  rfl

end Cert.KernelIdeal.BodyAt

end
-- ==== Proof.BodyAt.lean ====
/-
  The kernel body's value at its one index is the block term.

  The body's last payload adds up the two localisation columns and the class column over the rows and combines the
  five partial sums with the weights 5, 1, ½, ½, 1.  Read at a row, a localisation column is the specification's
  localisation term: its two inner sums run over the two centre channels and the two size channels of the box, which
  are channels 5·k + j and 5·k + 2 + j of the cell.  With the five sums read, the combination is the block term
  as the specification writes it.
-/
import proofs.«158835_j66340064854039_2_alg».proof.Proof.Body
import proofs.«158835_j66340064854039_2_alg».proof.Proof.BodyAtSums

noncomputable section

open scoped BigOperators

namespace Cert.KernelIdeal.BodyAt

open Cert.KernelIdeal Cert.KernelIdeal.Gen Idealize.ShloMosaic Idealize.ShloMosaic.ValueIdx

/-- The squared distance of two boxes as the body forms it at row `r`: over the two centre columns `A`, `B` and,
    square-rooted, the two size columns `C`, `D`. -/
def locK (A B C D : FVec Ideal S4096x2 .f32) (r : Fin 4096) : Ideal .f32 :=
  (∑ j : Fin 2, (A (ix2 r j) - B (ix2 r j)) * (A (ix2 r j) - B (ix2 r j)))
  + (∑ j : Fin 2, (Ideal.sqrt (C (ix2 r j)) - Ideal.sqrt (D (ix2 r j)))
      * (Ideal.sqrt (C (ix2 r j)) - Ideal.sqrt (D (ix2 r j))))

/-- The last payload at its one index, for any columns and partial sums it is given. -/
theorem pay65_at (v7 v8 v10 v11 : FVec Ideal S4096x2 .f32) (v13 : FVec Ideal S4096x1 .f32)
    (v14 v15 v17 v18 : FVec Ideal S4096x2 .f32) (v20 : FVec Ideal S4096x1 .f32) (v32 : FVec Ideal S1x1 .f32)
    (v119 v121 : IVec S4096x1 1) (v134 v139 v144 : FVec Ideal S1x1 .f32) :
    k0_pay65 v7 v8 v10 v11 v13 v14 v15 v17 v18 v20 v32 v119 v121 v134 v139 v144 (ix2 0 0)
      = (((BoxLoss.c5 * ((∑ r : Fin 4096, Scalar.select (v119 (ix2 r 0)) (locK v7 v14 v8 v15 r) BoxLoss.z0)
              + (∑ r : Fin 4096, Scalar.select (v121 (ix2 r 0)) (locK v10 v17 v11 v18 r) BoxLoss.z0))
            + v134 (ix2 0 0)) + BoxLoss.cHalf * (v139 (ix2 0 0) + v144 (ix2 0 0))) + BoxLoss.cHalf * v32 (ix2 0 0))
          + ∑ r : Fin 4096, (v13 (ix2 r 0) - v20 (ix2 r 0)) * (v13 (ix2 r 0) - v20 (ix2 r 0)) := by
  show (((BoxLoss.c5 * (colSum (select v119
              (addf (rowSum (mulf (subf v7 v14) (subf v7 v14)))
                (rowSum (mulf (subf (sqrt v8) (sqrt v15)) (subf (sqrt v8) (sqrt v15)))))
              (broadcast S4096x1 BoxLoss.z0)) (ix2 0 0)
            + colSum (select v121
              (addf (rowSum (mulf (subf v10 v17) (subf v10 v17)))
                (rowSum (mulf (subf (sqrt v11) (sqrt v18)) (subf (sqrt v11) (sqrt v18)))))
              (broadcast S4096x1 BoxLoss.z0)) (ix2 0 0))
          + v134 (ix2 0 0)) + BoxLoss.cHalf * (v139 (ix2 0 0) + v144 (ix2 0 0))) + BoxLoss.cHalf * v32 (ix2 0 0))
        + colSum (mulf (subf v13 v20) (subf v13 v20)) (ix2 0 0) = _
  rw [colSum_at, colSum_at, colSum_at]
  have row : ∀ (m : IVec S4096x1 1) (A B C D : FVec Ideal S4096x2 .f32) (r : Fin 4096),
      select m (addf (rowSum (mulf (subf A B) (subf A B)))
          (rowSum (mulf (subf (sqrt C) (sqrt D)) (subf (sqrt C) (sqrt D))))) (broadcast S4096x1 BoxLoss.z0) (ix2 r 0)
        = Scalar.select (m (ix2 r 0)) (locK A B C D r) BoxLoss.z0 := by
    intro m A B C D r
    show Scalar.select (m (ix2 r 0))
      (rowSum (mulf (subf A B) (subf A B)) (ix2 r 0)
        + rowSum (mulf (subf (sqrt C) (sqrt D)) (subf (sqrt C) (sqrt D))) (ix2 r 0)) BoxLoss.z0 = _
    rw [rowSum_at, rowSum_at]
    rfl
  rw [Finset.sum_congr rfl fun r _ => row v119 v7 v14 v8 v15 r,
    Finset.sum_congr rfl fun r _ => row v121 v10 v17 v11 v18 r]
  rfl

/-- The localisation column of box 0 at a row. -/
theorem loc0_row (x0 x1 : Vec Ideal S1x4096x11 .f32) (r : Fin 4096) :
    locK (k0_pay5 (F := Ideal) x0) (k0_pay12 (F := Ideal) x1) (k0_pay6 (F := Ideal) x0) (k0_pay13 (F := Ideal) x1) r
      = BoxLoss.locSq (rowOf x0 r) (rowOf x1 r) 0 := by
  unfold locK BoxLoss.locSq
  refine congrArg₂ (· + ·) (Finset.sum_congr rfl fun j _ => ?_) (Finset.sum_congr rfl fun j _ => ?_)
  · rw [pay5_at x0 r j (BoxLoss.ch 0 ⟨j.val, by have := j.isLt; omega⟩) (by show 5 * 0 + j.val = 0 + j.val; omega),
      pay12_at x1 r j (BoxLoss.ch 0 ⟨j.val, by have := j.isLt; omega⟩) (by show 5 * 0 + j.val = 0 + j.val; omega)]
    rfl
  · rw [pay6_at x0 r j (BoxLoss.ch 0 ⟨2 + j.val, by have := j.isLt; omega⟩) (by show 5 * 0 + (2 + j.val) = 2 + j.val; omega),
      pay13_at x1 r j (BoxLoss.ch 0 ⟨2 + j.val, by have := j.isLt; omega⟩) (by show 5 * 0 + (2 + j.val) = 2 + j.val; omega)]
    rfl

/-- The localisation column of box 1 at a row. -/
theorem loc1_row (x0 x1 : Vec Ideal S1x4096x11 .f32) (r : Fin 4096) :
    locK (k0_pay8 (F := Ideal) x0) (k0_pay15 (F := Ideal) x1) (k0_pay9 (F := Ideal) x0) (k0_pay16 (F := Ideal) x1) r
      = BoxLoss.locSq (rowOf x0 r) (rowOf x1 r) 1 := by
  unfold locK BoxLoss.locSq
  refine congrArg₂ (· + ·) (Finset.sum_congr rfl fun j _ => ?_) (Finset.sum_congr rfl fun j _ => ?_)
  · rw [pay8_at x0 r j (BoxLoss.ch 1 ⟨j.val, by have := j.isLt; omega⟩) (by show 5 * 1 + j.val = 5 + j.val; omega),
      pay15_at x1 r j (BoxLoss.ch 1 ⟨j.val, by have := j.isLt; omega⟩) (by show 5 * 1 + j.val = 5 + j.val; omega)]
    rfl
  · rw [pay9_at x0 r j (BoxLoss.ch 1 ⟨2 + j.val, by have := j.isLt; omega⟩) (by show 5 * 1 + (2 + j.val) = 7 + j.val; omega),
      pay16_at x1 r j (BoxLoss.ch 1 ⟨2 + j.val, by have := j.isLt; omega⟩) (by show 5 * 1 + (2 + j.val) = 7 + j.val; omega)]
    rfl

/-- The localisation sum of box 0. -/
theorem loc0_sum (x0 x1 : Vec Ideal S1x4096x11 .f32) :
    (∑ r : Fin 4096, Scalar.select (M0 x0 x1 (ix2 r 0))
        (locK (k0_pay5 (F := Ideal) x0) (k0_pay12 (F := Ideal) x1) (k0_pay6 (F := Ideal) x0) (k0_pay13 (F := Ideal) x1) r)
        BoxLoss.z0)
      = ∑ r : Fin 4096, BoxLoss.locT (rowOf x0 r) (rowOf x1 r) 0 := by
  refine Finset.sum_congr rfl fun r _ => ?_
  rw [m0_at, loc0_row]
  rfl

/-- The localisation sum of box 1. -/
theorem loc1_sum (x0 x1 : Vec Ideal S1x4096x11 .f32) :
    (∑ r : Fin 4096, Scalar.select (M1 x0 x1 (ix2 r 0))
        (locK (k0_pay8 (F := Ideal) x0) (k0_pay15 (F := Ideal) x1) (k0_pay9 (F := Ideal) x0) (k0_pay16 (F := Ideal) x1) r)
        BoxLoss.z0)
      = ∑ r : Fin 4096, BoxLoss.locT (rowOf x0 r) (rowOf x1 r) 1 := by
  refine Finset.sum_congr rfl fun r _ => ?_
  rw [m1_at, loc1_row]
  rfl

/-- The class sum. -/
theorem cls_sum (x0 x1 : Vec Ideal S1x4096x11 .f32) :
    (∑ r : Fin 4096, (k0_pay11 (F := Ideal) x0 (ix2 r 0) - k0_pay17 (F := Ideal) x1 (ix2 r 0))
        * (k0_pay11 (F := Ideal) x0 (ix2 r 0) - k0_pay17 (F := Ideal) x1 (ix2 r 0)))
      = ∑ r : Fin 4096, BoxLoss.clsT (rowOf x0 r) (rowOf x1 r) := by
  refine Finset.sum_congr rfl fun r _ => ?_
  rw [pay11_at, pay17_at]
  rfl

/-- THE KERNEL BODY'S VALUE AT ITS ONE INDEX IS THE BLOCK TERM of the two loaded blocks' rows. -/
theorem body_at (x0 x1 : Vec Ideal Cert.KernelIdeal.S1x4096x11 .f32) :
    Cert.KernelIdeal.Body.bodyVal (F := Ideal) x0 x1 (ValueIdx.ix2 0 0)
      = Cert.BoxLoss.blockTermOf (fun r c => x0 (ValueIdx.ix3 0 r c)) (fun r c => x1 (ValueIdx.ix3 0 r c)) := by
  show k0_pay65 (F := Ideal) (k0_pay5 x0) (k0_pay6 x0) (k0_pay8 x0) (k0_pay9 x0) (k0_pay11 x0) (k0_pay12 x1)
      (k0_pay13 x1) (k0_pay15 x1) (k0_pay16 x1) (k0_pay17 x1) (k0_pay19 x0 x1) (M0 x0 x1) (M1 x0 x1) (CONT x0 x1)
      (NOTC0 x0 x1) (NOTC1 x0 x1) (ix2 0 0) = _
  rw [pay65_at, loc0_sum, loc1_sum, cls_sum, noo_at, cont_at, notc0_at, notc1_at]
  rfl

end Cert.KernelIdeal.BodyAt

end
-- ==== Proof.BlockRead.lean ====
/-
  The rows of an input block are cells of the argument array.

  The program first reshapes each argument of shape `[32768, 7, 7, 11]` to `[2, 802816, 11]`: the same elements
  in row-major order, so element `(g, q, ch)` of the reshaped array is channel `ch` of row `802816 g + q` of the
  `32768 · 7 · 7 = 1605632` rows, and row `ρ` is the cell `(ρ / 49, ρ / 7 % 7, ρ % 7)`.  At grid point
  `t = 196 g + i` each input window stages block `(g, i, 0)` of extent `[1, 4096, 11]` of its reshaped array,
  whose element `(0, r, ch)` is element `(g, 4096 i + r, ch)` of that array.  Since `802816 = 196 · 4096`, this is
  channel `ch` of row `4096 t + r`.  No floating-point operation is involved, so the statements hold for every
  interpretation of the float operations; at the extended reals they are restated in the words of the loss's
  specification.
-/
import proofs.«158835_j66340064854039_2_alg».proof.Proof.Gen.KernelIdeal.Frame.Runs
import proofs.«158835_j66340064854039_2_alg».proof.Proof.Spec
import Idealize.ShloMosaic.Lib.ValueIdx
import Idealize.ShloMosaic.Lib.Pipeline.Value

noncomputable section

namespace Cert.KernelIdeal.BlockRead

open Cert.KernelIdeal Cert.KernelIdeal.Gen Idealize.ShloMosaic Idealize.ShloMosaic.TcCoe Idealize.SL.Sem

/-- The reshape of a `[32768, 7, 7, 11]` array to `[2, 802816, 11]`, read at an index whose first two coordinates
    number row `ρ` (`802816` rows per half) and whose last is channel `ch`: both indices sit at row-major position
    `11 ρ + ch`, and row `ρ` of the four-axis array is the cell `(ρ / 49, ρ / 7 % 7, ρ % 7)`. -/
theorem reshape_row {α : Type} (x : S32768x7x7x11.Idx → α) (j : S2x802816x11.Idx) (ρ : Nat) (hρ : ρ < 1605632)
    (ch : Fin 11) (h01 : (j 0).val * 802816 + (j 1).val = ρ) (h2 : (j 2).val = ch.val) :
    shapeCast S2x802816x11 x shapeCasts_S32768x7x7x11_S2x802816x11 j
      = x (ValueIdx.ix4 ⟨ρ / 49, by omega⟩ ⟨ρ / 7 % 7, Nat.mod_lt _ (by decide)⟩ ⟨ρ % 7, Nat.mod_lt _ (by decide)⟩ ch) := by
  refine shapeCast_apply x _ j _ ?_
  rw [Shape.rowMajor_val_four, Shape.rowMajor_val_three]
  show ((ρ / 49 * 7 + ρ / 7 % 7) * 7 + ρ % 7) * 11 + ch.val = ((j 0).val * 802816 + (j 1).val) * 11 + (j 2).val
  rw [h01, h2]
  omega

variable {F : FTy → Type} [FloatOps F] (m : (ℓ : Loc nD τ sig) → Buf (Elt F) ℓ)

/-- The array window 0 stages from, as the region finds it: the reshape of the first argument. -/
theorem V_main_v0 (c : Dev nD) :
    (V m c main_v0 : S2x802816x11.Idx → F .f32)
      = shapeCast S2x802816x11 (m ((c.tc : Thread nD τ).loc main_arg0)) shapeCasts_S32768x7x7x11_S2x802816x11 := by
  show StableHlo.after hostOps0 (fun b => m (c, b)) (Proc.devRef .tc main_v0) = _
  after_results
  rfl

/-- The array window 1 stages from, as the region finds it: the reshape of the second argument. -/
theorem V_main_v1 (c : Dev nD) :
    (V m c main_v1 : S2x802816x11.Idx → F .f32)
      = shapeCast S2x802816x11 (m ((c.tc : Thread nD τ).loc main_arg1)) shapeCasts_S32768x7x7x11_S2x802816x11 := by
  show StableHlo.after hostOps0 (fun b => m (c, b)) (Proc.devRef .tc main_v1) = _
  after_results
  rfl

/-- The two input windows' index maps over the grid: point `t` is half `t / 196`, block `t % 196` of the half. -/
theorem idx_facts : ∀ t : Fin cfg0.N,
    win0_0.index t (0 : Fin 3) = t.val / 196 ∧ win0_0.index t (1 : Fin 3) = t.val % 196 ∧ win0_0.index t (2 : Fin 3) = 0
    ∧ win0_1.index t (0 : Fin 3) = t.val / 196 ∧ win0_1.index t (1 : Fin 3) = t.val % 196 ∧ win0_1.index t (2 : Fin 3) = 0 :=
  (by decide +kernel : ∀ t : Fin grid0.N, _)

/-- A grid point's number is below 392. -/
theorem point_lt (t : Fin cfg0.N) : t.val < 392 := lt_of_lt_of_eq t.isLt N_0

/-- ROW `r` OF INPUT BLOCK `t` OF WINDOW 0 IS A CELL OF THE FIRST ARGUMENT: the block at point `t` is block
    `(t / 196, t % 196, 0)` of extent `[1, 4096, 11]` of the reshaped array, so its row `r` is row `4096 t + r`
    of all `1605632` rows, which is the cell `((4096 t + r) / 49, (4096 t + r) / 7 % 7, (4096 t + r) % 7)`. -/
theorem iblk0_row (c : Dev nD) (t : Fin cfg0.N) (r : Fin 4096) (ch : Fin 11) :
    (iblk m c 0 t : Vec F S1x4096x11 .f32) (ValueIdx.ix3 0 r ch)
      = m ((c.tc : Thread nD τ).loc main_arg0)
          (ValueIdx.ix4 ⟨(t.val * 4096 + r.val) / 49, by have := point_lt t; have := r.isLt; omega⟩
            ⟨(t.val * 4096 + r.val) / 7 % 7, Nat.mod_lt _ (by decide)⟩
            ⟨(t.val * 4096 + r.val) % 7, Nat.mod_lt _ (by decide)⟩ ch) := by
  have ht := point_lt t
  have hr := r.isLt
  obtain ⟨e0, e1, e2, -, -, -⟩ := idx_facts t
  unfold iblk
  rw [View.read_apply]
  show V m c main_v0 (((cfg0.win 0).blk t).view.emb (ValueIdx.ix3 0 r ch)) = _
  rw [V_main_v0]
  refine reshape_row _ _ (t.val * 4096 + r.val) (by omega) ch ?_ ?_
  · show (win0_0.index t (0 : Fin 3) * 1 + 1 * 0) * 802816 + (win0_0.index t (1 : Fin 3) * 4096 + 1 * r.val)
      = t.val * 4096 + r.val
    rw [e0, e1]; omega
  · show win0_0.index t (2 : Fin 3) * 11 + 1 * ch.val = ch.val
    rw [e2]; omega

/-- The same for window 1 and the second argument. -/
theorem iblk1_row (c : Dev nD) (t : Fin cfg0.N) (r : Fin 4096) (ch : Fin 11) :
    (iblk m c 1 t : Vec F S1x4096x11 .f32) (ValueIdx.ix3 0 r ch)
      = m ((c.tc : Thread nD τ).loc main_arg1)
          (ValueIdx.ix4 ⟨(t.val * 4096 + r.val) / 49, by have := point_lt t; have := r.isLt; omega⟩
            ⟨(t.val * 4096 + r.val) / 7 % 7, Nat.mod_lt _ (by decide)⟩
            ⟨(t.val * 4096 + r.val) % 7, Nat.mod_lt _ (by decide)⟩ ch) := by
  have ht := point_lt t
  have hr := r.isLt
  obtain ⟨-, -, -, e0, e1, e2⟩ := idx_facts t
  unfold iblk
  rw [View.read_apply]
  show V m c main_v1 (((cfg0.win 1).blk t).view.emb (ValueIdx.ix3 0 r ch)) = _
  rw [V_main_v1]
  refine reshape_row _ _ (t.val * 4096 + r.val) (by omega) ch ?_ ?_
  · show (win0_1.index t (0 : Fin 3) * 1 + 1 * 0) * 802816 + (win0_1.index t (1 : Fin 3) * 4096 + 1 * r.val)
      = t.val * 4096 + r.val
    rw [e0, e1]; omega
  · show win0_1.index t (2 : Fin 3) * 11 + 1 * ch.val = ch.val
    rw [e2]; omega

/-! ### At the extended reals, in the words of the loss's specification -/

/-- Row `r` of input block `t` of window 0 is the cell at row `r` of block `t` of the first argument. -/
theorem iblk0_rowCell (mI : (ℓ : Loc nD τ sig) → Buf (Elt Ideal) ℓ) (c : Dev nD) (t : Fin cfg0.N) (r : Fin 4096)
    (ch : Fin 11) :
    (iblk mI c 0 t : Vec Ideal S1x4096x11 .f32) (ValueIdx.ix3 0 r ch)
      = Cert.BoxLoss.rowCell (mI ((c.tc : Thread nD τ).loc main_arg0)) (Cert.BoxLoss.blockRow ⟨t.val, point_lt t⟩ r) ch :=
  iblk0_row mI c t r ch

/-- Row `r` of input block `t` of window 1 is the cell at row `r` of block `t` of the second argument. -/
theorem iblk1_rowCell (mI : (ℓ : Loc nD τ sig) → Buf (Elt Ideal) ℓ) (c : Dev nD) (t : Fin cfg0.N) (r : Fin 4096)
    (ch : Fin 11) :
    (iblk mI c 1 t : Vec Ideal S1x4096x11 .f32) (ValueIdx.ix3 0 r ch)
      = Cert.BoxLoss.rowCell (mI ((c.tc : Thread nD τ).loc main_arg1)) (Cert.BoxLoss.blockRow ⟨t.val, point_lt t⟩ r) ch :=
  iblk1_row mI c t r ch

end Cert.KernelIdeal.BlockRead

end
-- ==== Proof.Acc.lean ====
/-
  The kernel's result, read off its run.

  The grid has 2 · 196 points; point t = g · 196 + i works on block t (rows t · 4096 … t · 4096 + 4095 of the
  flattened arrays) and adds the block's weighted contribution into a one-element buffer that belongs to half g:
  reset at i = 0, written back to element g of a two-element result array after i = 195.  By induction on i the
  buffer holds the half's running sum of block terms; so the result array ends holding the two half sums, and the
  two host operations after the region add them and divide by 32768.  That is the loss in its block form.
-/
import proofs.«158835_j66340064854039_2_alg».proof.Proof.Gen.KernelIdeal.Frame
import proofs.«158835_j66340064854039_2_alg».proof.Proof.Body
import proofs.«158835_j66340064854039_2_alg».proof.Proof.Pieces
import proofs.«158835_j66340064854039_2_alg».proof.Proof.BodyAt
import proofs.«158835_j66340064854039_2_alg».proof.Proof.BlockRead
import proofs.«158835_j66340064854039_2_alg».proof.Proof.Spec
import Idealize.ShloMosaic.Lib.Pipeline.Value
import Idealize.ShloMosaic.Lib.StableHlo.Run
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Body Cert.BoxLoss

variable (m : (ℓ : Loc nD τ sig) → Buf (Elt Ideal) ℓ) (ρ : Dev nD → PrngReg)

instance : Subsingleton S1x1x1.Idx := ⟨fun a b => funext fun d => Fin.ext (by
  have ha := (a d).isLt; have hb := (b d).isLt
  match d with
  | ⟨0, _⟩ => exact (Nat.lt_one_iff.mp ha).trans (Nat.lt_one_iff.mp hb).symm
  | ⟨1, _⟩ => exact (Nat.lt_one_iff.mp ha).trans (Nat.lt_one_iff.mp hb).symm
  | ⟨2, _⟩ => exact (Nat.lt_one_iff.mp ha).trans (Nat.lt_one_iff.mp hb).symm)⟩
instance : Subsingleton S1x1.Idx := ⟨fun a b => funext fun d => Fin.ext (by
  have ha := (a d).isLt; have hb := (b d).isLt
  match d with
  | ⟨0, _⟩ => exact (Nat.lt_one_iff.mp ha).trans (Nat.lt_one_iff.mp hb).symm
  | ⟨1, _⟩ => exact (Nat.lt_one_iff.mp ha).trans (Nat.lt_one_iff.mp hb).symm)⟩

/-- The stored element: what the buffer held plus the block's contribution. -/
theorem pay1_at (v190 : FVec Ideal S1x1 .f32) (v191 : Vec Ideal S1x1x1 .f32) (y : S1x1x1.Idx) :
    k0_pay1 v190 v191 y = v191 (ix3 0 0 0) + v190 (ix2 0 0) := by
  unfold k0_pay1 shapeCast addf
  show v191 _ + v190 _ = _
  rw [Subsingleton.elim (Shape.reshapeEquiv _ (Shape.reshapeEquiv _ y)) (ix3 0 0 0), Subsingleton.elim (Shape.reshapeEquiv _ y) (ix2 0 0)]

/-- The reset element is 0. -/
theorem pay2_at (y : S1x1x1.Idx) : k0_pay2 (F := Ideal) y = 0 := by
  unfold k0_pay2 shapeCast broadcast
  show Ideal.ofBits .f32 0x00000000#32 = 0
  exact Ideal.ofBits_zero_f32

/-- The two argument arrays as launched. -/
abbrev argA (c : Dev nD) : SArg.Idx → Ideal .f32 := m ((c.tc : Thread nD τ).loc main_arg0)
abbrev argB (c : Dev nD) : SArg.Idx → Ideal .f32 := m ((c.tc : Thread nD τ).loc main_arg1)

/-- At grid point `t` the body's contribution, of the two blocks the windows hold there, is block `t`'s term. -/
theorem body_block (c : Dev nD) (t : Fin cfg0.N) :
    bodyVal (F := Ideal) (iblk m c 0 t) (iblk m c 1 t) (ix2 0 0)
      = blockTerm (argA m c) (argB m c) ⟨t.val, lt_of_lt_of_eq t.isLt N_0⟩ := by
  refine (Cert.KernelIdeal.BodyAt.body_at (iblk m c 0 t) (iblk m c 1 t)).trans ?_
  unfold blockTerm
  congr 1
  · funext r ch; exact Cert.KernelIdeal.BlockRead.iblk0_rowCell m c t r ch
  · funext r ch; exact Cert.KernelIdeal.BlockRead.iblk1_rowCell m c t r ch

/-- The buffer's contents after a point depend on the point's number only. -/
theorem outsAt_congr (c : Dev nD) {k k' : ℕ} (e : k = k') (hk : k < cfg0.N) (hk' : k' < cfg0.N) :
    outsAt0 m c k hk = outsAt0 m c k' hk' := by subst e; rfl

/-- After block `n` of half `g` the buffer's one element is the half's running sum: by induction on `n`. -/
theorem outsAt_eq (c : Dev nD) (g : Fin 2) : ∀ (n : ℕ) (h : n < 196) (hN : g.val * 196 + n < cfg0.N) (y : S1x1x1.Idx),
    outsAt0 m c (g.val * 196 + n) hN y = chain (argA m c) (argB m c) g n h
  | 0, h, hN, y => by
    have h0 : (⟨g.val * 196 + 0, hN⟩ : Fin cfg0.N).val % 196 = 0 := by show (g.val * 196 + 0) % 196 = 0; omega
    rw [show outsAt0 m c (g.val * 196 + 0) hN = _ from outsAt0_A m c ⟨g.val * 196 + 0, hN⟩ h0, out_A, pay1_at, pay2_at, zero_add]
    exact body_block m c _
  | n + 1, h, hN, y => by
    have hB : ¬(⟨g.val * 196 + (n + 1), hN⟩ : Fin cfg0.N).val % 196 = 0 := by
      show ¬(g.val * 196 + (n + 1)) % 196 = 0; omega
    rw [show outsAt0 m c (g.val * 196 + (n + 1)) hN = _ from outsAt0_B m c ⟨g.val * 196 + (n + 1), hN⟩ hB, out_B, pay1_at]
    dsimp only
    rw [outsAt_congr m c (show g.val * 196 + (n + 1) - 1 = g.val * 196 + n by omega) _ (Nat.lt_of_succ_lt hN),
      outsAt_eq c g n (Nat.lt_of_succ_lt h) _ (ix3 0 0 0), body_block]
    rfl

/-- The result array of the region: entry `g` is half `g`'s sum over all its 196 blocks. -/
def halves (c : Dev nD) : S2x1x1.Idx → Ideal .f32 := fun j => chain (argA m c) (argB m c) (j 0) 195 (by decide)

/-- Where the output window sits: at point `t` it is element `t / 196` of the result array. -/
theorem out_index : ∀ t : Fin cfg0.N, win0_2.index t (0 : Fin 3) = t.val / 196 ∧ win0_2.index t (1 : Fin 3) = 0 ∧ win0_2.index t (2 : Fin 3) = 0 :=
  (by decide +kernel : ∀ t : Fin grid0.N, win0_2.index t (0 : Fin 3) = t.val / 196 ∧ win0_2.index t (1 : Fin 3) = 0 ∧ win0_2.index t (2 : Fin 3) = 0)

/-- The write-back after the last block of a half writes that half's sum. -/
theorem flushed_eq (c : Dev nD) (t : Fin cfg0.N) (hf : (cfg0.win 2).flush t = true) :
    (dats m 0 c).flushed 2 t = ((cfg0.win 2).blk t).view.read (Elt Ideal) (halves m c) := by
  have hN : cfg0.N = 392 := N_0
  have h195 : t.val % 196 = 195 := (flush0_2 t).mp hf
  have hlt : t.val < 392 := lt_of_lt_of_eq t.isLt hN
  have hg : t.val / 196 < 2 := by omega
  funext y
  rw [View.read_apply]
  show (dats m 0 c).after 2 t ((cfg0.win 2).xinj (grid0.coords t) y) = halves m c (((cfg0.win 2).blk t).view.emb y)
  rw [after0_2, outsAt_congr m c (show t.val = (⟨t.val / 196, hg⟩ : Fin 2).val * 196 + 195 by show t.val = t.val / 196 * 196 + 195; omega) t.isLt
      (by show t.val / 196 * 196 + 195 < cfg0.N; omega),
    outsAt_eq m c ⟨t.val / 196, hg⟩ 195 (by decide) _ _]
  unfold halves
  congr 1
  apply Fin.ext
  show t.val / 196 = win0_2.index t 0 * 1 + 1 * (y 0).val
  have hy : (y 0).val < 1 := (y 0).isLt
  rw [(out_index t).1]
  omega

/-- The output window's blocks are single elements. -/
theorem out_sizes : ∀ t : Fin cfg0.N, (win0_2.size (0 : Fin 3) = 1 ∧ win0_2.size (1 : Fin 3) = 1 ∧ win0_2.size (2 : Fin 3) = 1)
    ∧ win0_2.xsize (grid0.coords t) (0 : Fin 3) = 1 ∧ win0_2.xsize (grid0.coords t) (1 : Fin 3) = 1 ∧ win0_2.xsize (grid0.coords t) (2 : Fin 3) = 1 :=
  (by decide +kernel : ∀ t : Fin grid0.N, (win0_2.size (0 : Fin 3) = 1 ∧ win0_2.size (1 : Fin 3) = 1 ∧ win0_2.size (2 : Fin 3) = 1)
    ∧ win0_2.xsize (grid0.coords t) (0 : Fin 3) = 1 ∧ win0_2.xsize (grid0.coords t) (1 : Fin 3) = 1 ∧ win0_2.xsize (grid0.coords t) (2 : Fin 3) = 1)

/-- So the result array ends holding the two half sums: the write-backs after the last block of each half cover its
    two elements. -/
theorem final (c : Dev nD) : (dats m 0 c).arrAt 2 cfg0.N = halves m c :=
  (dats m 0 c).arrAt_eq_of_cover 2 (halves m c) (flushed_eq m c) fun i => by
    have hN : cfg0.N = 392 := N_0
    have hi : (i 0).val < 2 := (i 0).isLt
    have hi1 : (i 1).val < 1 := (i 1).isLt
    have hi2 : (i 2).val < 1 := (i 2).isLt
    have htl : (i 0).val * 196 + 195 < cfg0.N := by omega
    refine ⟨⟨(i 0).val * 196 + 195, htl⟩, (flush0_2 _).mpr (by show ((i 0).val * 196 + 195) % 196 = 195; omega), ?_⟩
    show i ∈ ((View.whole main_v2).slice (win0_2.rect ⟨(i 0).val * 196 + 195, htl⟩)).set
    rw [View.set_slice_whole, Rect.mem_set_unit]
    intro a
    obtain ⟨e0, e1, e2⟩ := out_index ⟨(i 0).val * 196 + 195, htl⟩
    obtain ⟨⟨s0, s1, s2⟩, x0, x1, x2⟩ := out_sizes ⟨(i 0).val * 196 + 195, htl⟩
    match a with
    | ⟨0, _⟩ =>
      show win0_2.index ⟨(i 0).val * 196 + 195, htl⟩ 0 * win0_2.size 0 ≤ (i 0 : Nat)
        ∧ (i 0 : Nat) < win0_2.index ⟨(i 0).val * 196 + 195, htl⟩ 0 * win0_2.size 0 + win0_2.xsize (grid0.coords ⟨(i 0).val * 196 + 195, htl⟩) 0
      rw [e0, s0, x0]; dsimp only; omega
    | ⟨1, _⟩ =>
      show win0_2.index ⟨(i 0).val * 196 + 195, htl⟩ 1 * win0_2.size 1 ≤ (i 1 : Nat)
        ∧ (i 1 : Nat) < win0_2.index ⟨(i 0).val * 196 + 195, htl⟩ 1 * win0_2.size 1 + win0_2.xsize (grid0.coords ⟨(i 0).val * 196 + 195, htl⟩) 1
      rw [e1, s1, x1]; omega
    | ⟨2, _⟩ =>
      show win0_2.index ⟨(i 0).val * 196 + 195, htl⟩ 2 * win0_2.size 2 ≤ (i 2 : Nat)
        ∧ (i 2 : Nat) < win0_2.index ⟨(i 0).val * 196 + 195, htl⟩ 2 * win0_2.size 2 + win0_2.xsize (grid0.coords ⟨(i 0).val * 196 + 195, htl⟩) 2
      rw [e2, s2, x2]; omega

/-- After the region the host adds the two half sums and divides by 32768: the loss in its block form. -/
theorem tail_eq (c : Dev nD) :
    Pipeline.afterTail₀ cfgs (dats m) 0 (V0 m) [hostOps1] c main_v4 = fun _ => totalBlocks (argA m c) (argB m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.devRef .tc main_v2)
      = halves m c from (Pipeline.withArrays_arr spec0 launch0.win.arr_inj c _ _ 2).trans (final m c)]
  funext i
  simp only [Host.divf, Host.reduceAdd, Ideal.hostReduceAdd_def, Ideal.hostDivf_def]
  rw [Ideal.hostReduceAdd_total reducesTo_S2x1x1_S_d0_1_2 (fun b => b.elim0)]
  simp only [constant, Ideal.ofBits_def, Ideal.ofBits_zero_f32, zero_add]
  rfl

/-- THE KERNEL'S RUN, READ: every weakly fair execution ends with the result at the loss in its block form, the two
    arguments unchanged. -/
theorem run : θ_run defs (onTc (τ := τ) (main (F := Ideal))) ⟨m, fun _ => 0, ρ⟩ fun r => ∀ c : Dev nD,
      r.2.mem ((c.tc : Thread nD τ).loc main_v4) = (fun _ => totalBlocks (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.RefRunA.lean ====
/-
  The reference program's run, one operation at a time (operations 0 to 49 of 201).  After operation k the
  buffers still to be read hold the staged values of the reading module (`val_<buffer>` of the two arguments):
  `Inv k`.  Each operation keeps what it does not write and writes its function of what it reads, so `Inv (k-1)`
  before it gives `Inv k` after it.  A buffer leaves the invariant after its last reader.
-/
import proofs.«158835_j66340064854039_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Before any operation: the two argument buffers hold the arguments. -/
abbrev Inv_init (x0 x1 : (⟨S32768x7x7x11, .f32⟩ : BufTy).Contents (Elt F)) (V : Valuation τ sig (Elt F)) : Prop :=
    V (Proc.devRef .tc main_arg0) = x0 ∧
    V (Proc.devRef .tc main_arg1) = x1

/-- Operation 0: writes main_v0. -/
abbrev op0 : HloOp τ sig (Elt F) :=
  unary main_arg1 main_v0 ((extractStridedSlice S32768x7x7x1 ![0, 0, 0, 4] · slices_S32768x7x7x11_S32768x7x7x1_0_0_0_4) : (⟨S32768x7x7x11, .f32⟩ : BufTy).Contents (Elt F) → (⟨S32768x7x7x1, .f32⟩ : BufTy).Contents (Elt F))

abbrev Inv0 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v0) = Read.val_main_v0 (F := F) x1

theorem step0 (x0 x1 : (⟨S32768x7x7x11, .f32⟩ : BufTy).Contents (Elt F)) (V : Valuation τ sig (Elt F)) (h : Inv_init x0 x1 V) :
    Inv0 x0 x1 ((op0 (F := F)).result V) := by
  obtain ⟨h0, h1⟩ := h
  refine ⟨?_, ?_, ?_⟩
  · simp (disch := decide) only [unary_result_ne', h0]
  · simp (disch := decide) only [unary_result_ne', h1]
  · simp (disch := decide) only [unary_result', h1]; rfl

/-- Operation 1: writes main_v1. -/
abbrev op1 : HloOp τ sig (Elt F) :=
  reshape main_v0 main_v1 rfl shapeCasts_S32768x7x7x1_S32768x7x7

abbrev Inv1 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v1) = Read.val_main_v1 (F := F) x1

theorem step1 (x0 x1 : (⟨S32768x7x7x11, .f32⟩ : BufTy).Contents (Elt F)) (V : Valuation τ sig (Elt F)) (h : Inv0 x0 x1 V) :
    Inv1 x0 x1 ((op1 (F := F)).result V) := by
  obtain ⟨h0, h1, h_main_v0⟩ := h
  refine ⟨?_, ?_, ?_⟩
  · simp (disch := decide) only [reshape_result_ne', h0]
  · simp (disch := decide) only [reshape_result_ne', h1]
  · simp (disch := decide) only [reshape_result', h_main_v0]; rfl

/-- Operation 2: writes main_cst. -/
abbrev op2 : HloOp τ sig (Elt F) :=
  nullary main_cst (constant S_ .f32 0x00000000#32)

abbrev Inv2 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v1) = Read.val_main_v1 (F := F) x1 ∧
    V (Proc.devRef .tc main_cst) = Read.val_main_cst (F := F)

theorem step2 (x0 x1 : (⟨S32768x7x7x11, .f32⟩ : BufTy).Contents (Elt F)) (V : Valuation τ sig (Elt F)) (h : Inv1 x0 x1 V) :
    Inv2 x0 x1 ((op2 (F := F)).result V) := by
  obtain ⟨h0, h1, h_main_v1⟩ := h
  refine ⟨?_, ?_, ?_, ?_⟩
  · simp (disch := decide) only [nullary_result_ne', h0]
  · simp (disch := decide) only [nullary_result_ne', h1]
  · simp (disch := decide) only [nullary_result_ne', h_main_v1]
  · simp (disch := decide) only [nullary_result']; rfl

/-- Operation 3: writes main_v2. -/
abbrev op3 : HloOp τ sig (Elt F) :=
  unary main_cst main_v2 (broadcastInDim S32768x7x7 ![] bcast_S_S32768x7x7 : (⟨S_, .f32⟩ : BufTy).Contents (Elt F) → (⟨S32768x7x7, .f32⟩ : BufTy).Contents (Elt F))

abbrev Inv3 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v1) = Read.val_main_v1 (F := F) x1 ∧
    V (Proc.devRef .tc main_v2) = Read.val_main_v2 (F := F)

theorem step3 (x0 x1 : (⟨S32768x7x7x11, .f32⟩ : BufTy).Contents (Elt F)) (V : Valuation τ sig (Elt F)) (h : Inv2 x0 x1 V) :
    Inv3 x0 x1 ((op3 (F := F)).result V) := by
  obtain ⟨h0, h1, h_main_v1, h_main_cst⟩ := h
  refine ⟨?_, ?_, ?_, ?_⟩
  · simp (disch := decide) only [unary_result_ne', h0]
  · simp (disch := decide) only [unary_result_ne', h1]
  · simp (disch := decide) only [unary_result_ne', h_main_v1]
  · simp (disch := decide) only [unary_result', h_main_cst]; rfl

/-- Operation 4: writes main_v3. -/
abbrev op4 : HloOp τ sig (Elt F) :=
  binary main_v1 main_v2 main_v3 (cmpf .ogt : (⟨S32768x7x7, .f32⟩ : BufTy).Contents (Elt F) → (⟨S32768x7x7, .f32⟩ : BufTy).Contents (Elt F) → (⟨S32768x7x7, .i1⟩ : BufTy).Contents (Elt F))

abbrev Inv4 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1

theorem step4 (x0 x1 : (⟨S32768x7x7x11, .f32⟩ : BufTy).Contents (Elt F)) (V : Valuation τ sig (Elt F)) (h : Inv3 x0 x1 V) :
    Inv4 x0 x1 ((op4 (F := F)).result V) := by
  obtain ⟨h0, h1, h_main_v1, h_main_v2⟩ := h
  refine ⟨?_, ?_, ?_⟩
  · simp (disch := decide) only [binary_result_ne', h0]
  · simp (disch := decide) only [binary_result_ne', h1]
  · simp (disch := decide) only [binary_result', h_main_v1, h_main_v2]; rfl

/-- Operation 5: writes main_v4. -/
abbrev op5 : HloOp τ sig (Elt F) :=
  unary main_v3 main_v4 (noti : (⟨S32768x7x7, .i1⟩ : BufTy).Contents (Elt F) → (⟨S32768x7x7, .i1⟩ : BufTy).Contents (Elt F))

abbrev Inv5 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1

theorem step5 (x0 x1 : (⟨S32768x7x7x11, .f32⟩ : BufTy).Contents (Elt F)) (V : Valuation τ sig (Elt F)) (h : Inv4 x0 x1 V) :
    Inv5 x0 x1 ((op5 (F := F)).result V) := by
  obtain ⟨h0, h1, h_main_v3⟩ := h
  refine ⟨?_, ?_, ?_, ?_⟩
  · simp (disch := decide) only [unary_result_ne', h0]
  · simp (disch := decide) only [unary_result_ne', h1]
  · simp (disch := decide) only [unary_result_ne', h_main_v3]
  · simp (disch := decide) only [unary_result', h_main_v3]; rfl

/-- Operation 6: writes main_v5. -/
abbrev op6 : HloOp τ sig (Elt F) :=
  unary main_arg0 main_v5 ((extractStridedSlice S32768x7x7x1 ![0, 0, 0, 4] · slices_S32768x7x7x11_S32768x7x7x1_0_0_0_4) : (⟨S32768x7x7x11, .f32⟩ : BufTy).Contents (Elt F) → (⟨S32768x7x7x1, .f32⟩ : BufTy).Contents (Elt F))

abbrev Inv6 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v5) = Read.val_main_v5 (F := F) x0

theorem step6 (x0 x1 : (⟨S32768x7x7x11, .f32⟩ : BufTy).Contents (Elt F)) (V : Valuation τ sig (Elt F)) (h : Inv5 x0 x1 V) :
    Inv6 x0 x1 ((op6 (F := F)).result V) := by
  obtain ⟨h0, h1, h_main_v3, h_main_v4⟩ := h
  refine ⟨?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v4]
  · simp (disch := decide) only [unary_result', h0]; rfl

/-- Operation 7: writes main_v6. -/
abbrev op7 : HloOp τ sig (Elt F) :=
  reshape main_v5 main_v6 rfl shapeCasts_S32768x7x7x1_S32768x7x7

abbrev Inv7 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v6) = Read.val_main_v6 (F := F) x0

theorem step7 (x0 x1 : (⟨S32768x7x7x11, .f32⟩ : BufTy).Contents (Elt F)) (V : Valuation τ sig (Elt F)) (h : Inv6 x0 x1 V) :
    Inv7 x0 x1 ((op7 (F := F)).result V) := by
  obtain ⟨h0, h1, h_main_v3, h_main_v4, h_main_v5⟩ := h
  refine ⟨?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v4]
  · simp (disch := decide) only [reshape_result', h_main_v5]; rfl

/-- Operation 8: writes main_v7. -/
abbrev op8 : HloOp τ sig (Elt F) :=
  unary main_arg1 main_v7 ((extractStridedSlice S32768x7x7x1 ![0, 0, 0, 4] · slices_S32768x7x7x11_S32768x7x7x1_0_0_0_4) : (⟨S32768x7x7x11, .f32⟩ : BufTy).Contents (Elt F) → (⟨S32768x7x7x1, .f32⟩ : BufTy).Contents (Elt F))

abbrev Inv8 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v6) = Read.val_main_v6 (F := F) x0 ∧
    V (Proc.devRef .tc main_v7) = Read.val_main_v7 (F := F) x1

theorem step8 (x0 x1 : (⟨S32768x7x7x11, .f32⟩ : BufTy).Contents (Elt F)) (V : Valuation τ sig (Elt F)) (h : Inv7 x0 x1 V) :
    Inv8 x0 x1 ((op8 (F := F)).result V) := by
  obtain ⟨h0, h1, h_main_v3, h_main_v4, h_main_v6⟩ := h
  refine ⟨?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v4]
  · simp (disch := decide) only [unary_result_ne', h_main_v6]
  · simp (disch := decide) only [unary_result', h1]; rfl

/-- Operation 9: writes main_v8. -/
abbrev op9 : HloOp τ sig (Elt F) :=
  reshape main_v7 main_v8 rfl shapeCasts_S32768x7x7x1_S32768x7x7

abbrev Inv9 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v6) = Read.val_main_v6 (F := F) x0 ∧
    V (Proc.devRef .tc main_v8) = Read.val_main_v8 (F := F) x1

theorem step9 (x0 x1 : (⟨S32768x7x7x11, .f32⟩ : BufTy).Contents (Elt F)) (V : Valuation τ sig (Elt F)) (h : Inv8 x0 x1 V) :
    Inv9 x0 x1 ((op9 (F := F)).result V) := by
  obtain ⟨h0, h1, h_main_v3, h_main_v4, h_main_v6, h_main_v7⟩ := h
  refine ⟨?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v4]
  · simp (disch := decide) only [reshape_result_ne', h_main_v6]
  · simp (disch := decide) only [reshape_result', h_main_v7]; rfl

/-- Operation 10: writes main_v9. -/
abbrev op10 : HloOp τ sig (Elt F) :=
  binary main_v6 main_v8 main_v9 (subf : (⟨S32768x7x7, .f32⟩ : BufTy).Contents (Elt F) → (⟨S32768x7x7, .f32⟩ : BufTy).Contents (Elt F) → (⟨S32768x7x7, .f32⟩ : BufTy).Contents (Elt F))

abbrev Inv10 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v9) = Read.val_main_v9 (F := F) x0 x1

theorem step10 (x0 x1 : (⟨S32768x7x7x11, .f32⟩ : BufTy).Contents (Elt F)) (V : Valuation τ sig (Elt F)) (h : Inv9 x0 x1 V) :
    Inv10 x0 x1 ((op10 (F := F)).result V) := by
  obtain ⟨h0, h1, h_main_v3, h_main_v4, h_main_v6, h_main_v8⟩ := h
  refine ⟨?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v4]
  · simp (disch := decide) only [binary_result', h_main_v6, h_main_v8]; rfl

/-- Operation 11: writes main_v10. -/
abbrev op11 : HloOp τ sig (Elt F) :=
  binary main_v9 main_v9 main_v10 (mulf : (⟨S32768x7x7, .f32⟩ : BufTy).Contents (Elt F) → (⟨S32768x7x7, .f32⟩ : BufTy).Contents (Elt F) → (⟨S32768x7x7, .f32⟩ : BufTy).Contents (Elt F))

abbrev Inv11 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1

theorem step11 (x0 x1 : (⟨S32768x7x7x11, .f32⟩ : BufTy).Contents (Elt F)) (V : Valuation τ sig (Elt F)) (h : Inv10 x0 x1 V) :
    Inv11 x0 x1 ((op11 (F := F)).result V) := by
  obtain ⟨h0, h1, h_main_v3, h_main_v4, h_main_v9⟩ := h
  refine ⟨?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v4]
  · simp (disch := decide) only [binary_result', h_main_v9]; rfl

/-- Operation 12: writes main_v11. -/
abbrev op12 : HloOp τ sig (Elt F) :=
  unary main_arg0 main_v11 ((extractStridedSlice S32768x7x7x1 ![0, 0, 0, 9] · slices_S32768x7x7x11_S32768x7x7x1_0_0_0_9) : (⟨S32768x7x7x11, .f32⟩ : BufTy).Contents (Elt F) → (⟨S32768x7x7x1, .f32⟩ : BufTy).Contents (Elt F))

abbrev Inv12 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1 ∧
    V (Proc.devRef .tc main_v11) = Read.val_main_v11 (F := F) x0

theorem step12 (x0 x1 : (⟨S32768x7x7x11, .f32⟩ : BufTy).Contents (Elt F)) (V : Valuation τ sig (Elt F)) (h : Inv11 x0 x1 V) :
    Inv12 x0 x1 ((op12 (F := F)).result V) := by
  obtain ⟨h0, h1, h_main_v3, h_main_v4, h_main_v10⟩ := h
  refine ⟨?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v4]
  · simp (disch := decide) only [unary_result_ne', h_main_v10]
  · simp (disch := decide) only [unary_result', h0]; rfl

/-- Operation 13: writes main_v12. -/
abbrev op13 : HloOp τ sig (Elt F) :=
  reshape main_v11 main_v12 rfl shapeCasts_S32768x7x7x1_S32768x7x7

abbrev Inv13 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1 ∧
    V (Proc.devRef .tc main_v12) = Read.val_main_v12 (F := F) x0

theorem step13 (x0 x1 : (⟨S32768x7x7x11, .f32⟩ : BufTy).Contents (Elt F)) (V : Valuation τ sig (Elt F)) (h : Inv12 x0 x1 V) :
    Inv13 x0 x1 ((op13 (F := F)).result V) := by
  obtain ⟨h0, h1, h_main_v3, h_main_v4, h_main_v10, h_main_v11⟩ := h
  refine ⟨?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v4]
  · simp (disch := decide) only [reshape_result_ne', h_main_v10]
  · simp (disch := decide) only [reshape_result', h_main_v11]; rfl

/-- Operation 14: writes main_v13. -/
abbrev op14 : HloOp τ sig (Elt F) :=
  unary main_arg1 main_v13 ((extractStridedSlice S32768x7x7x1 ![0, 0, 0, 9] · slices_S32768x7x7x11_S32768x7x7x1_0_0_0_9) : (⟨S32768x7x7x11, .f32⟩ : BufTy).Contents (Elt F) → (⟨S32768x7x7x1, .f32⟩ : BufTy).Contents (Elt F))

abbrev Inv14 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1 ∧
    V (Proc.devRef .tc main_v12) = Read.val_main_v12 (F := F) x0 ∧
    V (Proc.devRef .tc main_v13) = Read.val_main_v13 (F := F) x1

theorem step14 (x0 x1 : (⟨S32768x7x7x11, .f32⟩ : BufTy).Contents (Elt F)) (V : Valuation τ sig (Elt F)) (h : Inv13 x0 x1 V) :
    Inv14 x0 x1 ((op14 (F := F)).result V) := by
  obtain ⟨h0, h1, h_main_v3, h_main_v4, h_main_v10, h_main_v12⟩ := h
  refine ⟨?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v4]
  · simp (disch := decide) only [unary_result_ne', h_main_v10]
  · simp (disch := decide) only [unary_result_ne', h_main_v12]
  · simp (disch := decide) only [unary_result', h1]; rfl

/-- Operation 15: writes main_v14. -/
abbrev op15 : HloOp τ sig (Elt F) :=
  reshape main_v13 main_v14 rfl shapeCasts_S32768x7x7x1_S32768x7x7

abbrev Inv15 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1 ∧
    V (Proc.devRef .tc main_v12) = Read.val_main_v12 (F := F) x0 ∧
    V (Proc.devRef .tc main_v14) = Read.val_main_v14 (F := F) x1

theorem step15 (x0 x1 : (⟨S32768x7x7x11, .f32⟩ : BufTy).Contents (Elt F)) (V : Valuation τ sig (Elt F)) (h : Inv14 x0 x1 V) :
    Inv15 x0 x1 ((op15 (F := F)).result V) := by
  obtain ⟨h0, h1, h_main_v3, h_main_v4, h_main_v10, h_main_v12, h_main_v13⟩ := h
  refine ⟨?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v4]
  · simp (disch := decide) only [reshape_result_ne', h_main_v10]
  · simp (disch := decide) only [reshape_result_ne', h_main_v12]
  · simp (disch := decide) only [reshape_result', h_main_v13]; rfl

/-- Operation 16: writes main_v15. -/
abbrev op16 : HloOp τ sig (Elt F) :=
  binary main_v12 main_v14 main_v15 (subf : (⟨S32768x7x7, .f32⟩ : BufTy).Contents (Elt F) → (⟨S32768x7x7, .f32⟩ : BufTy).Contents (Elt F) → (⟨S32768x7x7, .f32⟩ : BufTy).Contents (Elt F))

abbrev Inv16 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1 ∧
    V (Proc.devRef .tc main_v15) = Read.val_main_v15 (F := F) x0 x1

theorem step16 (x0 x1 : (⟨S32768x7x7x11, .f32⟩ : BufTy).Contents (Elt F)) (V : Valuation τ sig (Elt F)) (h : Inv15 x0 x1 V) :
    Inv16 x0 x1 ((op16 (F := F)).result V) := by
  obtain ⟨h0, h1, h_main_v3, h_main_v4, h_main_v10, h_main_v12, h_main_v14⟩ := h
  refine ⟨?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v4]
  · simp (disch := decide) only [binary_result_ne', h_main_v10]
  · simp (disch := decide) only [binary_result', h_main_v12, h_main_v14]; rfl

/-- Operation 17: writes main_v16. -/
abbrev op17 : HloOp τ sig (Elt F) :=
  binary main_v15 main_v15 main_v16 (mulf : (⟨S32768x7x7, .f32⟩ : BufTy).Contents (Elt F) → (⟨S32768x7x7, .f32⟩ : BufTy).Contents (Elt F) → (⟨S32768x7x7, .f32⟩ : BufTy).Contents (Elt F))

abbrev Inv17 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v10) = Read.val_main_v10 (F := F) x0 x1 ∧
    V (Proc.devRef .tc main_v16) = Read.val_main_v16 (F := F) x0 x1

theorem step17 (x0 x1 : (⟨S32768x7x7x11, .f32⟩ : BufTy).Contents (Elt F)) (V : Valuation τ sig (Elt F)) (h : Inv16 x0 x1 V) :
    Inv17 x0 x1 ((op17 (F := F)).result V) := by
  obtain ⟨h0, h1, h_main_v3, h_main_v4, h_main_v10, h_main_v15⟩ := h
  refine ⟨?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v4]
  · simp (disch := decide) only [binary_result_ne', h_main_v10]
  · simp (disch := decide) only [binary_result', h_main_v15]; rfl

/-- Operation 18: writes main_v17. -/
abbrev op18 : HloOp τ sig (Elt F) :=
  binary main_v10 main_v16 main_v17 (addf : (⟨S32768x7x7, .f32⟩ : BufTy).Contents (Elt F) → (⟨S32768x7x7, .f32⟩ : BufTy).Contents (Elt F) → (⟨S32768x7x7, .f32⟩ : BufTy).Contents (Elt F))

abbrev Inv18 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v17) = Read.val_main_v17 (F := F) x0 x1

theorem step18 (x0 x1 : (⟨S32768x7x7x11, .f32⟩ : BufTy).Contents (Elt F)) (V : Valuation τ sig (Elt F)) (h : Inv17 x0 x1 V) :
    Inv18 x0 x1 ((op18 (F := F)).result V) := by
  obtain ⟨h0, h1, h_main_v3, h_main_v4, h_main_v10, h_main_v16⟩ := h
  refine ⟨?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v4]
  · simp (disch := decide) only [binary_result', h_main_v10, h_main_v16]; rfl

/-- Operation 19: writes main_cst_0. -/
abbrev op19 : HloOp τ sig (Elt F) :=
  nullary main_cst_0 (constant S_ .f32 0x00000000#32)

abbrev Inv19 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v17) = Read.val_main_v17 (F := F) x0 x1 ∧
    V (Proc.devRef .tc main_cst_0) = Read.val_main_cst_0 (F := F)

theorem step19 (x0 x1 : (⟨S32768x7x7x11, .f32⟩ : BufTy).Contents (Elt F)) (V : Valuation τ sig (Elt F)) (h : Inv18 x0 x1 V) :
    Inv19 x0 x1 ((op19 (F := F)).result V) := by
  obtain ⟨h0, h1, h_main_v3, h_main_v4, h_main_v17⟩ := h
  refine ⟨?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v4]
  · simp (disch := decide) only [nullary_result_ne', h_main_v17]
  · simp (disch := decide) only [nullary_result']; rfl

/-- Operation 20: writes main_call0_v0. -/
abbrev op20 : HloOp τ sig (Elt F) :=
  TRef.unary (TRef.of (T := ⟨S_, .f32⟩) main_cst_0) (TRef.of (T := ⟨S_, .f32⟩) main_call0_v0) id

abbrev Inv20 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v17) = Read.val_main_v17 (F := F) x0 x1 ∧
    V (Proc.devRef .tc main_call0_v0) = Read.val_main_call0_v0 (F := F)

theorem step20 (x0 x1 : (⟨S32768x7x7x11, .f32⟩ : BufTy).Contents (Elt F)) (V : Valuation τ sig (Elt F)) (h : Inv19 x0 x1 V) :
    Inv20 x0 x1 ((op20 (F := F)).result V) := by
  obtain ⟨h0, h1, h_main_v3, h_main_v4, h_main_v17, h_main_cst_0⟩ := h
  refine ⟨?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v4]
  · simp (disch := decide) only [unary_result_ne', h_main_v17]
  · simp (disch := decide) only [unary_result', h_main_cst_0]; rfl

/-- Operation 21: writes main_call0_v1. -/
abbrev op21 : HloOp τ sig (Elt F) :=
  TRef.unary (TRef.of (T := ⟨S_, .f32⟩) main_call0_v0) (TRef.of (T := ⟨S32768x7x7, .f32⟩) main_call0_v1) (broadcastInDim S32768x7x7 ![] bcast_S_S32768x7x7)

abbrev Inv21 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v4) = Read.val_main_v4 (F := F) x1 ∧
    V (Proc.devRef .tc main_v17) = Read.val_main_v17 (F := F) x0 x1 ∧
    V (Proc.devRef .tc main_call0_v1) = Read.val_main_call0_v1 (F := F)

theorem step21 (x0 x1 : (⟨S32768x7x7x11, .f32⟩ : BufTy).Contents (Elt F)) (V : Valuation τ sig (Elt F)) (h : Inv20 x0 x1 V) :
    Inv21 x0 x1 ((op21 (F := F)).result V) := by
  obtain ⟨h0, h1, h_main_v3, h_main_v4, h_main_v17, h_main_call0_v0⟩ := h
  refine ⟨?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v4]
  · simp (disch := decide) only [unary_result_ne', h_main_v17]
  · simp (disch := decide) only [unary_result', h_main_call0_v0]; rfl

/-- Operation 22: writes main_v18. -/
abbrev op22 : HloOp τ sig (Elt F) :=
  TRef.ternary (TRef.of (T := ⟨S32768x7x7, .i1⟩) main_v4) (TRef.of (T := ⟨S32768x7x7, .f32⟩) main_v17) (TRef.of (T := ⟨S32768x7x7, .f32⟩) main_call0_v1) (TRef.of (T := ⟨S32768x7x7, .f32⟩) main_v18) select

abbrev Inv22 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v18) = Read.val_main_v18 (F := F) x0 x1

theorem step22 (x0 x1 : (⟨S32768x7x7x11, .f32⟩ : BufTy).Contents (Elt F)) (V : Valuation τ sig (Elt F)) (h : Inv21 x0 x1 V) :
    Inv22 x0 x1 ((op22 (F := F)).result V) := by
  obtain ⟨h0, h1, h_main_v3, h_main_v4, h_main_v17, h_main_call0_v1⟩ := h
  refine ⟨?_, ?_, ?_, ?_⟩
  · simp (disch := decide) only [ternary_result_ne', h0]
  · simp (disch := decide) only [ternary_result_ne', h1]
  · simp (disch := decide) only [ternary_result_ne', h_main_v3]
  · simp (disch := decide) only [ternary_result', h_main_v4, h_main_v17, h_main_call0_v1]; rfl

/-- Operation 23: writes main_cst_1. -/
abbrev op23 : HloOp τ sig (Elt F) :=
  nullary main_cst_1 (constant S_ .f32 0x00000000#32)

abbrev Inv23 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v18) = Read.val_main_v18 (F := F) x0 x1 ∧
    V (Proc.devRef .tc main_cst_1) = Read.val_main_cst_1 (F := F)

theorem step23 (x0 x1 : (⟨S32768x7x7x11, .f32⟩ : BufTy).Contents (Elt F)) (V : Valuation τ sig (Elt F)) (h : Inv22 x0 x1 V) :
    Inv23 x0 x1 ((op23 (F := F)).result V) := by
  obtain ⟨h0, h1, h_main_v3, h_main_v18⟩ := h
  refine ⟨?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v18]
  · simp (disch := decide) only [nullary_result']; rfl

/-- Operation 24: writes main_v19. -/
abbrev op24 : HloOp τ sig (Elt F) :=
  binary main_v18 main_cst_1 main_v19 ((fun x v => Host.reduceAdd x v reducesTo_S32768x7x7_S_d0_1_2 h_S_) : (⟨S32768x7x7, .f32⟩ : BufTy).Contents (Elt F) → (⟨S_, .f32⟩ : BufTy).Contents (Elt F) → (⟨S_, .f32⟩ : BufTy).Contents (Elt F))

abbrev Inv24 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1

theorem step24 (x0 x1 : (⟨S32768x7x7x11, .f32⟩ : BufTy).Contents (Elt F)) (V : Valuation τ sig (Elt F)) (h : Inv23 x0 x1 V) :
    Inv24 x0 x1 ((op24 (F := F)).result V) := by
  obtain ⟨h0, h1, h_main_v3, h_main_v18, h_main_cst_1⟩ := h
  refine ⟨?_, ?_, ?_, ?_⟩
  · simp (disch := decide) only [binary_result_ne', h0]
  · simp (disch := decide) only [binary_result_ne', h1]
  · simp (disch := decide) only [binary_result_ne', h_main_v3]
  · simp (disch := decide) only [binary_result', h_main_v18, h_main_cst_1]; rfl

/-- Operation 25: writes main_v20. -/
abbrev op25 : HloOp τ sig (Elt F) :=
  unary main_arg0 main_v20 ((extractStridedSlice S32768x7x7x10 ![0, 0, 0, 0] · slices_S32768x7x7x11_S32768x7x7x10_0_0_0_0) : (⟨S32768x7x7x11, .f32⟩ : BufTy).Contents (Elt F) → (⟨S32768x7x7x10, .f32⟩ : BufTy).Contents (Elt F))

abbrev Inv25 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v20) = Read.val_main_v20 (F := F) x0

theorem step25 (x0 x1 : (⟨S32768x7x7x11, .f32⟩ : BufTy).Contents (Elt F)) (V : Valuation τ sig (Elt F)) (h : Inv24 x0 x1 V) :
    Inv25 x0 x1 ((op25 (F := F)).result V) := by
  obtain ⟨h0, h1, h_main_v3, h_main_v19⟩ := h
  refine ⟨?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result', h0]; rfl

/-- Operation 26: writes main_v21. -/
abbrev op26 : HloOp τ sig (Elt F) :=
  reshape main_v20 main_v21 rfl shapeCasts_S32768x7x7x10_S32768x7x7x2x5

abbrev Inv26 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0

theorem step26 (x0 x1 : (⟨S32768x7x7x11, .f32⟩ : BufTy).Contents (Elt F)) (V : Valuation τ sig (Elt F)) (h : Inv25 x0 x1 V) :
    Inv26 x0 x1 ((op26 (F := F)).result V) := by
  obtain ⟨h0, h1, h_main_v3, h_main_v19, h_main_v20⟩ := h
  refine ⟨?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result', h_main_v20]; rfl

/-- Operation 27: writes main_v22. -/
abbrev op27 : HloOp τ sig (Elt F) :=
  unary main_arg1 main_v22 ((extractStridedSlice S32768x7x7x10 ![0, 0, 0, 0] · slices_S32768x7x7x11_S32768x7x7x10_0_0_0_0) : (⟨S32768x7x7x11, .f32⟩ : BufTy).Contents (Elt F) → (⟨S32768x7x7x10, .f32⟩ : BufTy).Contents (Elt F))

abbrev Inv27 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v22) = Read.val_main_v22 (F := F) x1

theorem step27 (x0 x1 : (⟨S32768x7x7x11, .f32⟩ : BufTy).Contents (Elt F)) (V : Valuation τ sig (Elt F)) (h : Inv26 x0 x1 V) :
    Inv27 x0 x1 ((op27 (F := F)).result V) := by
  obtain ⟨h0, h1, h_main_v3, h_main_v19, h_main_v21⟩ := h
  refine ⟨?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result', h1]; rfl

/-- Operation 28: writes main_v23. -/
abbrev op28 : HloOp τ sig (Elt F) :=
  reshape main_v22 main_v23 rfl shapeCasts_S32768x7x7x10_S32768x7x7x2x5

abbrev Inv28 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1

theorem step28 (x0 x1 : (⟨S32768x7x7x11, .f32⟩ : BufTy).Contents (Elt F)) (V : Valuation τ sig (Elt F)) (h : Inv27 x0 x1 V) :
    Inv28 x0 x1 ((op28 (F := F)).result V) := by
  obtain ⟨h0, h1, h_main_v3, h_main_v19, h_main_v21, h_main_v22⟩ := h
  refine ⟨?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result', h_main_v22]; rfl

/-- Operation 29: writes main_v24. -/
abbrev op29 : HloOp τ sig (Elt F) :=
  unary main_arg1 main_v24 ((extractStridedSlice S32768x7x7x5 ![0, 0, 0, 0] · slices_S32768x7x7x11_S32768x7x7x5_0_0_0_0) : (⟨S32768x7x7x11, .f32⟩ : BufTy).Contents (Elt F) → (⟨S32768x7x7x5, .f32⟩ : BufTy).Contents (Elt F))

abbrev Inv29 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1

theorem step29 (x0 x1 : (⟨S32768x7x7x11, .f32⟩ : BufTy).Contents (Elt F)) (V : Valuation τ sig (Elt F)) (h : Inv28 x0 x1 V) :
    Inv29 x0 x1 ((op29 (F := F)).result V) := by
  obtain ⟨h0, h1, h_main_v3, h_main_v19, h_main_v21, h_main_v23⟩ := h
  refine ⟨?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result', h1]; rfl

/-- Operation 30: writes main_v25. -/
abbrev op30 : HloOp τ sig (Elt F) :=
  unary main_v21 main_v25 ((extractStridedSlice S32768x7x7x2x2 ![0, 0, 0, 0, 0] · slices_S32768x7x7x2x5_S32768x7x7x2x2_0_0_0_0_0) : (⟨S32768x7x7x2x5, .f32⟩ : BufTy).Contents (Elt F) → (⟨S32768x7x7x2x2, .f32⟩ : BufTy).Contents (Elt F))

abbrev Inv30 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v25) = Read.val_main_v25 (F := F) x0

theorem step30 (x0 x1 : (⟨S32768x7x7x11, .f32⟩ : BufTy).Contents (Elt F)) (V : Valuation τ sig (Elt F)) (h : Inv29 x0 x1 V) :
    Inv30 x0 x1 ((op30 (F := F)).result V) := by
  obtain ⟨h0, h1, h_main_v3, h_main_v19, h_main_v21, h_main_v23, h_main_v24⟩ := h
  refine ⟨?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result', h_main_v21]; rfl

/-- Operation 31: writes main_cst_2. -/
abbrev op31 : HloOp τ sig (Elt F) :=
  nullary main_cst_2 (constant S_ .f32 0x42800000#32)

abbrev Inv31 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v25) = Read.val_main_v25 (F := F) x0 ∧
    V (Proc.devRef .tc main_cst_2) = Read.val_main_cst_2 (F := F)

theorem step31 (x0 x1 : (⟨S32768x7x7x11, .f32⟩ : BufTy).Contents (Elt F)) (V : Valuation τ sig (Elt F)) (h : Inv30 x0 x1 V) :
    Inv31 x0 x1 ((op31 (F := F)).result V) := by
  obtain ⟨h0, h1, h_main_v3, h_main_v19, h_main_v21, h_main_v23, h_main_v24, h_main_v25⟩ := h
  refine ⟨?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v24]
  · simp (disch := decide) only [nullary_result_ne', h_main_v25]
  · simp (disch := decide) only [nullary_result']; rfl

/-- Operation 32: writes main_v26. -/
abbrev op32 : HloOp τ sig (Elt F) :=
  unary main_cst_2 main_v26 (broadcastInDim S32768x7x7x2x2 ![] bcast_S_S32768x7x7x2x2 : (⟨S_, .f32⟩ : BufTy).Contents (Elt F) → (⟨S32768x7x7x2x2, .f32⟩ : BufTy).Contents (Elt F))

abbrev Inv32 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v25) = Read.val_main_v25 (F := F) x0 ∧
    V (Proc.devRef .tc main_v26) = Read.val_main_v26 (F := F)

theorem step32 (x0 x1 : (⟨S32768x7x7x11, .f32⟩ : BufTy).Contents (Elt F)) (V : Valuation τ sig (Elt F)) (h : Inv31 x0 x1 V) :
    Inv32 x0 x1 ((op32 (F := F)).result V) := by
  obtain ⟨h0, h1, h_main_v3, h_main_v19, h_main_v21, h_main_v23, h_main_v24, h_main_v25, h_main_cst_2⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v25]
  · simp (disch := decide) only [unary_result', h_main_cst_2]; rfl

/-- Operation 33: writes main_v27. -/
abbrev op33 : HloOp τ sig (Elt F) :=
  binary main_v25 main_v26 main_v27 (mulf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv33 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0

theorem step33 (x0 x1 : (⟨S32768x7x7x11, .f32⟩ : BufTy).Contents (Elt F)) (V : Valuation τ sig (Elt F)) (h : Inv32 x0 x1 V) :
    Inv33 x0 x1 ((op33 (F := F)).result V) := by
  obtain ⟨h0, h1, h_main_v3, h_main_v19, h_main_v21, h_main_v23, h_main_v24, h_main_v25, h_main_v26⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result', h_main_v25, h_main_v26]; rfl

/-- Operation 34: writes main_v28. -/
abbrev op34 : HloOp τ sig (Elt F) :=
  unary main_v21 main_v28 ((extractStridedSlice S32768x7x7x2x2 ![0, 0, 0, 0, 2] · slices_S32768x7x7x2x5_S32768x7x7x2x2_0_0_0_0_2) : (⟨S32768x7x7x2x5, .f32⟩ : BufTy).Contents (Elt F) → (⟨S32768x7x7x2x2, .f32⟩ : BufTy).Contents (Elt F))

abbrev Inv34 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v28) = Read.val_main_v28 (F := F) x0

theorem step34 (x0 x1 : (⟨S32768x7x7x11, .f32⟩ : BufTy).Contents (Elt F)) (V : Valuation τ sig (Elt F)) (h : Inv33 x0 x1 V) :
    Inv34 x0 x1 ((op34 (F := F)).result V) := by
  obtain ⟨h0, h1, h_main_v3, h_main_v19, h_main_v21, h_main_v23, h_main_v24, h_main_v27⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v27]
  · simp (disch := decide) only [unary_result', h_main_v21]; rfl

/-- Operation 35: writes main_cst_3. -/
abbrev op35 : HloOp τ sig (Elt F) :=
  nullary main_cst_3 (constant S_ .f32 0x43E00000#32)

abbrev Inv35 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v28) = Read.val_main_v28 (F := F) x0 ∧
    V (Proc.devRef .tc main_cst_3) = Read.val_main_cst_3 (F := F)

theorem step35 (x0 x1 : (⟨S32768x7x7x11, .f32⟩ : BufTy).Contents (Elt F)) (V : Valuation τ sig (Elt F)) (h : Inv34 x0 x1 V) :
    Inv35 x0 x1 ((op35 (F := F)).result V) := by
  obtain ⟨h0, h1, h_main_v3, h_main_v19, h_main_v21, h_main_v23, h_main_v24, h_main_v27, h_main_v28⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v24]
  · simp (disch := decide) only [nullary_result_ne', h_main_v27]
  · simp (disch := decide) only [nullary_result_ne', h_main_v28]
  · simp (disch := decide) only [nullary_result']; rfl

/-- Operation 36: writes main_v29. -/
abbrev op36 : HloOp τ sig (Elt F) :=
  unary main_cst_3 main_v29 (broadcastInDim S32768x7x7x2x2 ![] bcast_S_S32768x7x7x2x2 : (⟨S_, .f32⟩ : BufTy).Contents (Elt F) → (⟨S32768x7x7x2x2, .f32⟩ : BufTy).Contents (Elt F))

abbrev Inv36 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v28) = Read.val_main_v28 (F := F) x0 ∧
    V (Proc.devRef .tc main_v29) = Read.val_main_v29 (F := F)

theorem step36 (x0 x1 : (⟨S32768x7x7x11, .f32⟩ : BufTy).Contents (Elt F)) (V : Valuation τ sig (Elt F)) (h : Inv35 x0 x1 V) :
    Inv36 x0 x1 ((op36 (F := F)).result V) := by
  obtain ⟨h0, h1, h_main_v3, h_main_v19, h_main_v21, h_main_v23, h_main_v24, h_main_v27, h_main_v28, h_main_cst_3⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v27]
  · simp (disch := decide) only [unary_result_ne', h_main_v28]
  · simp (disch := decide) only [unary_result', h_main_cst_3]; rfl

/-- Operation 37: writes main_v30. -/
abbrev op37 : HloOp τ sig (Elt F) :=
  binary main_v28 main_v29 main_v30 (mulf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv37 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0

theorem step37 (x0 x1 : (⟨S32768x7x7x11, .f32⟩ : BufTy).Contents (Elt F)) (V : Valuation τ sig (Elt F)) (h : Inv36 x0 x1 V) :
    Inv37 x0 x1 ((op37 (F := F)).result V) := by
  obtain ⟨h0, h1, h_main_v3, h_main_v19, h_main_v21, h_main_v23, h_main_v24, h_main_v27, h_main_v28, h_main_v29⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result_ne', h_main_v27]
  · simp (disch := decide) only [binary_result', h_main_v28, h_main_v29]; rfl

/-- Operation 38: writes main_cst_4. -/
abbrev op38 : HloOp τ sig (Elt F) :=
  nullary main_cst_4 (constant S_ .f32 0x3F000000#32)

abbrev Inv38 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0 ∧
    V (Proc.devRef .tc main_cst_4) = Read.val_main_cst_4 (F := F)

theorem step38 (x0 x1 : (⟨S32768x7x7x11, .f32⟩ : BufTy).Contents (Elt F)) (V : Valuation τ sig (Elt F)) (h : Inv37 x0 x1 V) :
    Inv38 x0 x1 ((op38 (F := F)).result V) := by
  obtain ⟨h0, h1, h_main_v3, h_main_v19, h_main_v21, h_main_v23, h_main_v24, h_main_v27, h_main_v30⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v24]
  · simp (disch := decide) only [nullary_result_ne', h_main_v27]
  · simp (disch := decide) only [nullary_result_ne', h_main_v30]
  · simp (disch := decide) only [nullary_result']; rfl

/-- Operation 39: writes main_v31. -/
abbrev op39 : HloOp τ sig (Elt F) :=
  unary main_cst_4 main_v31 (broadcastInDim S32768x7x7x2x2 ![] bcast_S_S32768x7x7x2x2 : (⟨S_, .f32⟩ : BufTy).Contents (Elt F) → (⟨S32768x7x7x2x2, .f32⟩ : BufTy).Contents (Elt F))

abbrev Inv39 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0 ∧
    V (Proc.devRef .tc main_v31) = Read.val_main_v31 (F := F)

theorem step39 (x0 x1 : (⟨S32768x7x7x11, .f32⟩ : BufTy).Contents (Elt F)) (V : Valuation τ sig (Elt F)) (h : Inv38 x0 x1 V) :
    Inv39 x0 x1 ((op39 (F := F)).result V) := by
  obtain ⟨h0, h1, h_main_v3, h_main_v19, h_main_v21, h_main_v23, h_main_v24, h_main_v27, h_main_v30, h_main_cst_4⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v27]
  · simp (disch := decide) only [unary_result_ne', h_main_v30]
  · simp (disch := decide) only [unary_result', h_main_cst_4]; rfl

/-- Operation 40: writes main_v32. -/
abbrev op40 : HloOp τ sig (Elt F) :=
  binary main_v31 main_v30 main_v32 (mulf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv40 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0 ∧
    V (Proc.devRef .tc main_v32) = Read.val_main_v32 (F := F) x0

theorem step40 (x0 x1 : (⟨S32768x7x7x11, .f32⟩ : BufTy).Contents (Elt F)) (V : Valuation τ sig (Elt F)) (h : Inv39 x0 x1 V) :
    Inv40 x0 x1 ((op40 (F := F)).result V) := by
  obtain ⟨h0, h1, h_main_v3, h_main_v19, h_main_v21, h_main_v23, h_main_v24, h_main_v27, h_main_v30, h_main_v31⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result_ne', h_main_v27]
  · simp (disch := decide) only [binary_result_ne', h_main_v30]
  · simp (disch := decide) only [binary_result', h_main_v31, h_main_v30]; rfl

/-- Operation 41: writes main_v33. -/
abbrev op41 : HloOp τ sig (Elt F) :=
  binary main_v27 main_v32 main_v33 (subf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv41 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0 ∧
    V (Proc.devRef .tc main_v33) = Read.val_main_v33 (F := F) x0

theorem step41 (x0 x1 : (⟨S32768x7x7x11, .f32⟩ : BufTy).Contents (Elt F)) (V : Valuation τ sig (Elt F)) (h : Inv40 x0 x1 V) :
    Inv41 x0 x1 ((op41 (F := F)).result V) := by
  obtain ⟨h0, h1, h_main_v3, h_main_v19, h_main_v21, h_main_v23, h_main_v24, h_main_v27, h_main_v30, h_main_v32⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result_ne', h_main_v27]
  · simp (disch := decide) only [binary_result_ne', h_main_v30]
  · simp (disch := decide) only [binary_result', h_main_v27, h_main_v32]; rfl

/-- Operation 42: writes main_cst_5. -/
abbrev op42 : HloOp τ sig (Elt F) :=
  nullary main_cst_5 (constant S_ .f32 0x3F000000#32)

abbrev Inv42 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0 ∧
    V (Proc.devRef .tc main_v33) = Read.val_main_v33 (F := F) x0 ∧
    V (Proc.devRef .tc main_cst_5) = Read.val_main_cst_5 (F := F)

theorem step42 (x0 x1 : (⟨S32768x7x7x11, .f32⟩ : BufTy).Contents (Elt F)) (V : Valuation τ sig (Elt F)) (h : Inv41 x0 x1 V) :
    Inv42 x0 x1 ((op42 (F := F)).result V) := by
  obtain ⟨h0, h1, h_main_v3, h_main_v19, h_main_v21, h_main_v23, h_main_v24, h_main_v27, h_main_v30, h_main_v33⟩ := h
  refine ⟨?_, ?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v24]
  · simp (disch := decide) only [nullary_result_ne', h_main_v27]
  · simp (disch := decide) only [nullary_result_ne', h_main_v30]
  · simp (disch := decide) only [nullary_result_ne', h_main_v33]
  · simp (disch := decide) only [nullary_result']; rfl

/-- Operation 43: writes main_v34. -/
abbrev op43 : HloOp τ sig (Elt F) :=
  unary main_cst_5 main_v34 (broadcastInDim S32768x7x7x2x2 ![] bcast_S_S32768x7x7x2x2 : (⟨S_, .f32⟩ : BufTy).Contents (Elt F) → (⟨S32768x7x7x2x2, .f32⟩ : BufTy).Contents (Elt F))

abbrev Inv43 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v30) = Read.val_main_v30 (F := F) x0 ∧
    V (Proc.devRef .tc main_v33) = Read.val_main_v33 (F := F) x0 ∧
    V (Proc.devRef .tc main_v34) = Read.val_main_v34 (F := F)

theorem step43 (x0 x1 : (⟨S32768x7x7x11, .f32⟩ : BufTy).Contents (Elt F)) (V : Valuation τ sig (Elt F)) (h : Inv42 x0 x1 V) :
    Inv43 x0 x1 ((op43 (F := F)).result V) := by
  obtain ⟨h0, h1, h_main_v3, h_main_v19, h_main_v21, h_main_v23, h_main_v24, h_main_v27, h_main_v30, h_main_v33, h_main_cst_5⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v27]
  · simp (disch := decide) only [unary_result_ne', h_main_v30]
  · simp (disch := decide) only [unary_result_ne', h_main_v33]
  · simp (disch := decide) only [unary_result', h_main_cst_5]; rfl

/-- Operation 44: writes main_v35. -/
abbrev op44 : HloOp τ sig (Elt F) :=
  binary main_v34 main_v30 main_v35 (mulf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv44 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v27) = Read.val_main_v27 (F := F) x0 ∧
    V (Proc.devRef .tc main_v33) = Read.val_main_v33 (F := F) x0 ∧
    V (Proc.devRef .tc main_v35) = Read.val_main_v35 (F := F) x0

theorem step44 (x0 x1 : (⟨S32768x7x7x11, .f32⟩ : BufTy).Contents (Elt F)) (V : Valuation τ sig (Elt F)) (h : Inv43 x0 x1 V) :
    Inv44 x0 x1 ((op44 (F := F)).result V) := by
  obtain ⟨h0, h1, h_main_v3, h_main_v19, h_main_v21, h_main_v23, h_main_v24, h_main_v27, h_main_v30, h_main_v33, h_main_v34⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result_ne', h_main_v27]
  · simp (disch := decide) only [binary_result_ne', h_main_v33]
  · simp (disch := decide) only [binary_result', h_main_v34, h_main_v30]; rfl

/-- Operation 45: writes main_v36. -/
abbrev op45 : HloOp τ sig (Elt F) :=
  binary main_v27 main_v35 main_v36 (addf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv45 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v33) = Read.val_main_v33 (F := F) x0 ∧
    V (Proc.devRef .tc main_v36) = Read.val_main_v36 (F := F) x0

theorem step45 (x0 x1 : (⟨S32768x7x7x11, .f32⟩ : BufTy).Contents (Elt F)) (V : Valuation τ sig (Elt F)) (h : Inv44 x0 x1 V) :
    Inv45 x0 x1 ((op45 (F := F)).result V) := by
  obtain ⟨h0, h1, h_main_v3, h_main_v19, h_main_v21, h_main_v23, h_main_v24, h_main_v27, h_main_v33, h_main_v35⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result_ne', h_main_v33]
  · simp (disch := decide) only [binary_result', h_main_v27, h_main_v35]; rfl

/-- Operation 46: writes main_v37. -/
abbrev op46 : HloOp τ sig (Elt F) :=
  binary main_v33 main_v36 main_v37 ((fun a b => concatenate S32768x7x7x2x4 4 [⟨S32768x7x7x2x2, a⟩, ⟨S32768x7x7x2x2, b⟩] concatenates_S32768x7x7x2x2_S32768x7x7x2x2_S32768x7x7x2x4_d4) : (⟨S32768x7x7x2x2, .f32⟩ : BufTy).Contents (Elt F) → (⟨S32768x7x7x2x2, .f32⟩ : BufTy).Contents (Elt F) → (⟨S32768x7x7x2x4, .f32⟩ : BufTy).Contents (Elt F))

abbrev Inv46 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v37) = Read.val_main_v37 (F := F) x0

theorem step46 (x0 x1 : (⟨S32768x7x7x11, .f32⟩ : BufTy).Contents (Elt F)) (V : Valuation τ sig (Elt F)) (h : Inv45 x0 x1 V) :
    Inv46 x0 x1 ((op46 (F := F)).result V) := by
  obtain ⟨h0, h1, h_main_v3, h_main_v19, h_main_v21, h_main_v23, h_main_v24, h_main_v33, h_main_v36⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result']; rw [h_main_v33, h_main_v36]; rfl

/-- Operation 47: writes main_v38. -/
abbrev op47 : HloOp τ sig (Elt F) :=
  unary main_v24 main_v38 ((extractStridedSlice S32768x7x7x2 ![0, 0, 0, 0] · slices_S32768x7x7x5_S32768x7x7x2_0_0_0_0) : (⟨S32768x7x7x5, .f32⟩ : BufTy).Contents (Elt F) → (⟨S32768x7x7x2, .f32⟩ : BufTy).Contents (Elt F))

abbrev Inv47 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v37) = Read.val_main_v37 (F := F) x0 ∧
    V (Proc.devRef .tc main_v38) = Read.val_main_v38 (F := F) x1

theorem step47 (x0 x1 : (⟨S32768x7x7x11, .f32⟩ : BufTy).Contents (Elt F)) (V : Valuation τ sig (Elt F)) (h : Inv46 x0 x1 V) :
    Inv47 x0 x1 ((op47 (F := F)).result V) := by
  obtain ⟨h0, h1, h_main_v3, h_main_v19, h_main_v21, h_main_v23, h_main_v24, h_main_v37⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v37]
  · simp (disch := decide) only [unary_result', h_main_v24]; rfl

/-- Operation 48: writes main_cst_6. -/
abbrev op48 : HloOp τ sig (Elt F) :=
  nullary main_cst_6 (constant S_ .f32 0x42800000#32)

abbrev Inv48 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v37) = Read.val_main_v37 (F := F) x0 ∧
    V (Proc.devRef .tc main_v38) = Read.val_main_v38 (F := F) x1 ∧
    V (Proc.devRef .tc main_cst_6) = Read.val_main_cst_6 (F := F)

theorem step48 (x0 x1 : (⟨S32768x7x7x11, .f32⟩ : BufTy).Contents (Elt F)) (V : Valuation τ sig (Elt F)) (h : Inv47 x0 x1 V) :
    Inv48 x0 x1 ((op48 (F := F)).result V) := by
  obtain ⟨h0, h1, h_main_v3, h_main_v19, h_main_v21, h_main_v23, h_main_v24, h_main_v37, h_main_v38⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v24]
  · simp (disch := decide) only [nullary_result_ne', h_main_v37]
  · simp (disch := decide) only [nullary_result_ne', h_main_v38]
  · simp (disch := decide) only [nullary_result']; rfl

/-- Operation 49: writes main_v39. -/
abbrev op49 : HloOp τ sig (Elt F) :=
  unary main_cst_6 main_v39 (broadcastInDim S32768x7x7x2 ![] bcast_S_S32768x7x7x2 : (⟨S_, .f32⟩ : BufTy).Contents (Elt F) → (⟨S32768x7x7x2, .f32⟩ : BufTy).Contents (Elt F))

abbrev Inv49 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v37) = Read.val_main_v37 (F := F) x0 ∧
    V (Proc.devRef .tc main_v38) = Read.val_main_v38 (F := F) x1 ∧
    V (Proc.devRef .tc main_v39) = Read.val_main_v39 (F := F)

theorem step49 (x0 x1 : (⟨S32768x7x7x11, .f32⟩ : BufTy).Contents (Elt F)) (V : Valuation τ sig (Elt F)) (h : Inv48 x0 x1 V) :
    Inv49 x0 x1 ((op49 (F := F)).result V) := by
  obtain ⟨h0, h1, h_main_v3, h_main_v19, h_main_v21, h_main_v23, h_main_v24, h_main_v37, h_main_v38, h_main_cst_6⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v24]
  · simp (disch := decide) only [unary_result_ne', h_main_v37]
  · simp (disch := decide) only [unary_result_ne', h_main_v38]
  · simp (disch := decide) only [unary_result', h_main_cst_6]; rfl

end Cert.ReferenceIdeal.RefRun

end
-- ==== Proof.RefRunB.lean ====
/-
  The reference program's run, one operation at a time (operations 50 to 99 of 201).  After operation k the
  buffers still to be read hold the staged values of the reading module (`val_<buffer>` of the two arguments):
  `Inv k`.  Each operation keeps what it does not write and writes its function of what it reads, so `Inv (k-1)`
  before it gives `Inv k` after it.  A buffer leaves the invariant after its last reader.
-/
import proofs.«158835_j66340064854039_2_alg».proof.Proof.RefRead
import Idealize.ShloMosaic.Lib.StableHlo.Run
import proofs.«158835_j66340064854039_2_alg».proof.Proof.RefRunA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operation 50: writes main_v40. -/
abbrev op50 : HloOp τ sig (Elt F) :=
  binary main_v38 main_v39 main_v40 (mulf : (⟨S32768x7x7x2, .f32⟩ : BufTy).Contents (Elt F) → (⟨S32768x7x7x2, .f32⟩ : BufTy).Contents (Elt F) → (⟨S32768x7x7x2, .f32⟩ : BufTy).Contents (Elt F))

abbrev Inv50 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v24) = Read.val_main_v24 (F := F) x1 ∧
    V (Proc.devRef .tc main_v37) = Read.val_main_v37 (F := F) x0 ∧
    V (Proc.devRef .tc main_v40) = Read.val_main_v40 (F := F) x1

theorem step50 (x0 x1 : (⟨S32768x7x7x11, .f32⟩ : BufTy).Contents (Elt F)) (V : Valuation τ sig (Elt F)) (h : Inv49 x0 x1 V) :
    Inv50 x0 x1 ((op50 (F := F)).result V) := by
  obtain ⟨h0, h1, h_main_v3, h_main_v19, h_main_v21, h_main_v23, h_main_v24, h_main_v37, h_main_v38, h_main_v39⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v24]
  · simp (disch := decide) only [binary_result_ne', h_main_v37]
  · simp (disch := decide) only [binary_result', h_main_v38, h_main_v39]; rfl

/-- Operation 51: writes main_v41. -/
abbrev op51 : HloOp τ sig (Elt F) :=
  unary main_v24 main_v41 ((extractStridedSlice S32768x7x7x2 ![0, 0, 0, 2] · slices_S32768x7x7x5_S32768x7x7x2_0_0_0_2) : (⟨S32768x7x7x5, .f32⟩ : BufTy).Contents (Elt F) → (⟨S32768x7x7x2, .f32⟩ : BufTy).Contents (Elt F))

abbrev Inv51 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v41) = Read.val_main_v41 (F := F) x1

theorem step51 (x0 x1 : (⟨S32768x7x7x11, .f32⟩ : BufTy).Contents (Elt F)) (V : Valuation τ sig (Elt F)) (h : Inv50 x0 x1 V) :
    Inv51 x0 x1 ((op51 (F := F)).result V) := by
  obtain ⟨h0, h1, h_main_v3, h_main_v19, h_main_v21, h_main_v23, h_main_v24, h_main_v37, h_main_v40⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v40]
  · simp (disch := decide) only [unary_result', h_main_v24]; rfl

/-- Operation 52: writes main_cst_7. -/
abbrev op52 : HloOp τ sig (Elt F) :=
  nullary main_cst_7 (constant S_ .f32 0x43E00000#32)

abbrev Inv52 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v41) = Read.val_main_v41 (F := F) x1 ∧
    V (Proc.devRef .tc main_cst_7) = Read.val_main_cst_7 (F := F)

theorem step52 (x0 x1 : (⟨S32768x7x7x11, .f32⟩ : BufTy).Contents (Elt F)) (V : Valuation τ sig (Elt F)) (h : Inv51 x0 x1 V) :
    Inv52 x0 x1 ((op52 (F := F)).result V) := by
  obtain ⟨h0, h1, h_main_v3, h_main_v19, h_main_v21, h_main_v23, h_main_v37, h_main_v40, h_main_v41⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v37]
  · simp (disch := decide) only [nullary_result_ne', h_main_v40]
  · simp (disch := decide) only [nullary_result_ne', h_main_v41]
  · simp (disch := decide) only [nullary_result']; rfl

/-- Operation 53: writes main_v42. -/
abbrev op53 : HloOp τ sig (Elt F) :=
  unary main_cst_7 main_v42 (broadcastInDim S32768x7x7x2 ![] bcast_S_S32768x7x7x2 : (⟨S_, .f32⟩ : BufTy).Contents (Elt F) → (⟨S32768x7x7x2, .f32⟩ : BufTy).Contents (Elt F))

abbrev Inv53 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v41) = Read.val_main_v41 (F := F) x1 ∧
    V (Proc.devRef .tc main_v42) = Read.val_main_v42 (F := F)

theorem step53 (x0 x1 : (⟨S32768x7x7x11, .f32⟩ : BufTy).Contents (Elt F)) (V : Valuation τ sig (Elt F)) (h : Inv52 x0 x1 V) :
    Inv53 x0 x1 ((op53 (F := F)).result V) := by
  obtain ⟨h0, h1, h_main_v3, h_main_v19, h_main_v21, h_main_v23, h_main_v37, h_main_v40, h_main_v41, h_main_cst_7⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v40]
  · simp (disch := decide) only [unary_result_ne', h_main_v41]
  · simp (disch := decide) only [unary_result', h_main_cst_7]; rfl

/-- Operation 54: writes main_v43. -/
abbrev op54 : HloOp τ sig (Elt F) :=
  binary main_v41 main_v42 main_v43 (mulf : (⟨S32768x7x7x2, .f32⟩ : BufTy).Contents (Elt F) → (⟨S32768x7x7x2, .f32⟩ : BufTy).Contents (Elt F) → (⟨S32768x7x7x2, .f32⟩ : BufTy).Contents (Elt F))

abbrev Inv54 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1

theorem step54 (x0 x1 : (⟨S32768x7x7x11, .f32⟩ : BufTy).Contents (Elt F)) (V : Valuation τ sig (Elt F)) (h : Inv53 x0 x1 V) :
    Inv54 x0 x1 ((op54 (F := F)).result V) := by
  obtain ⟨h0, h1, h_main_v3, h_main_v19, h_main_v21, h_main_v23, h_main_v37, h_main_v40, h_main_v41, h_main_v42⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v40]
  · simp (disch := decide) only [binary_result', h_main_v41, h_main_v42]; rfl

/-- Operation 55: writes main_cst_8. -/
abbrev op55 : HloOp τ sig (Elt F) :=
  nullary main_cst_8 (constant S_ .f32 0x3F000000#32)

abbrev Inv55 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1 ∧
    V (Proc.devRef .tc main_cst_8) = Read.val_main_cst_8 (F := F)

theorem step55 (x0 x1 : (⟨S32768x7x7x11, .f32⟩ : BufTy).Contents (Elt F)) (V : Valuation τ sig (Elt F)) (h : Inv54 x0 x1 V) :
    Inv55 x0 x1 ((op55 (F := F)).result V) := by
  obtain ⟨h0, h1, h_main_v3, h_main_v19, h_main_v21, h_main_v23, h_main_v37, h_main_v40, h_main_v43⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v37]
  · simp (disch := decide) only [nullary_result_ne', h_main_v40]
  · simp (disch := decide) only [nullary_result_ne', h_main_v43]
  · simp (disch := decide) only [nullary_result']; rfl

/-- Operation 56: writes main_v44. -/
abbrev op56 : HloOp τ sig (Elt F) :=
  unary main_cst_8 main_v44 (broadcastInDim S32768x7x7x2 ![] bcast_S_S32768x7x7x2 : (⟨S_, .f32⟩ : BufTy).Contents (Elt F) → (⟨S32768x7x7x2, .f32⟩ : BufTy).Contents (Elt F))

abbrev Inv56 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1 ∧
    V (Proc.devRef .tc main_v44) = Read.val_main_v44 (F := F)

theorem step56 (x0 x1 : (⟨S32768x7x7x11, .f32⟩ : BufTy).Contents (Elt F)) (V : Valuation τ sig (Elt F)) (h : Inv55 x0 x1 V) :
    Inv56 x0 x1 ((op56 (F := F)).result V) := by
  obtain ⟨h0, h1, h_main_v3, h_main_v19, h_main_v21, h_main_v23, h_main_v37, h_main_v40, h_main_v43, h_main_cst_8⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v40]
  · simp (disch := decide) only [unary_result_ne', h_main_v43]
  · simp (disch := decide) only [unary_result', h_main_cst_8]; rfl

/-- Operation 57: writes main_v45. -/
abbrev op57 : HloOp τ sig (Elt F) :=
  binary main_v44 main_v43 main_v45 (mulf : (⟨S32768x7x7x2, .f32⟩ : BufTy).Contents (Elt F) → (⟨S32768x7x7x2, .f32⟩ : BufTy).Contents (Elt F) → (⟨S32768x7x7x2, .f32⟩ : BufTy).Contents (Elt F))

abbrev Inv57 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1 ∧
    V (Proc.devRef .tc main_v45) = Read.val_main_v45 (F := F) x1

theorem step57 (x0 x1 : (⟨S32768x7x7x11, .f32⟩ : BufTy).Contents (Elt F)) (V : Valuation τ sig (Elt F)) (h : Inv56 x0 x1 V) :
    Inv57 x0 x1 ((op57 (F := F)).result V) := by
  obtain ⟨h0, h1, h_main_v3, h_main_v19, h_main_v21, h_main_v23, h_main_v37, h_main_v40, h_main_v43, h_main_v44⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v40]
  · simp (disch := decide) only [binary_result_ne', h_main_v43]
  · simp (disch := decide) only [binary_result', h_main_v44, h_main_v43]; rfl

/-- Operation 58: writes main_v46. -/
abbrev op58 : HloOp τ sig (Elt F) :=
  binary main_v40 main_v45 main_v46 (subf : (⟨S32768x7x7x2, .f32⟩ : BufTy).Contents (Elt F) → (⟨S32768x7x7x2, .f32⟩ : BufTy).Contents (Elt F) → (⟨S32768x7x7x2, .f32⟩ : BufTy).Contents (Elt F))

abbrev Inv58 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1 ∧
    V (Proc.devRef .tc main_v46) = Read.val_main_v46 (F := F) x1

theorem step58 (x0 x1 : (⟨S32768x7x7x11, .f32⟩ : BufTy).Contents (Elt F)) (V : Valuation τ sig (Elt F)) (h : Inv57 x0 x1 V) :
    Inv58 x0 x1 ((op58 (F := F)).result V) := by
  obtain ⟨h0, h1, h_main_v3, h_main_v19, h_main_v21, h_main_v23, h_main_v37, h_main_v40, h_main_v43, h_main_v45⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v40]
  · simp (disch := decide) only [binary_result_ne', h_main_v43]
  · simp (disch := decide) only [binary_result', h_main_v40, h_main_v45]; rfl

/-- Operation 59: writes main_cst_9. -/
abbrev op59 : HloOp τ sig (Elt F) :=
  nullary main_cst_9 (constant S_ .f32 0x3F000000#32)

abbrev Inv59 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1 ∧
    V (Proc.devRef .tc main_v46) = Read.val_main_v46 (F := F) x1 ∧
    V (Proc.devRef .tc main_cst_9) = Read.val_main_cst_9 (F := F)

theorem step59 (x0 x1 : (⟨S32768x7x7x11, .f32⟩ : BufTy).Contents (Elt F)) (V : Valuation τ sig (Elt F)) (h : Inv58 x0 x1 V) :
    Inv59 x0 x1 ((op59 (F := F)).result V) := by
  obtain ⟨h0, h1, h_main_v3, h_main_v19, h_main_v21, h_main_v23, h_main_v37, h_main_v40, h_main_v43, h_main_v46⟩ := h
  refine ⟨?_, ?_, ?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v37]
  · simp (disch := decide) only [nullary_result_ne', h_main_v40]
  · simp (disch := decide) only [nullary_result_ne', h_main_v43]
  · simp (disch := decide) only [nullary_result_ne', h_main_v46]
  · simp (disch := decide) only [nullary_result']; rfl

/-- Operation 60: writes main_v47. -/
abbrev op60 : HloOp τ sig (Elt F) :=
  unary main_cst_9 main_v47 (broadcastInDim S32768x7x7x2 ![] bcast_S_S32768x7x7x2 : (⟨S_, .f32⟩ : BufTy).Contents (Elt F) → (⟨S32768x7x7x2, .f32⟩ : BufTy).Contents (Elt F))

abbrev Inv60 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v43) = Read.val_main_v43 (F := F) x1 ∧
    V (Proc.devRef .tc main_v46) = Read.val_main_v46 (F := F) x1 ∧
    V (Proc.devRef .tc main_v47) = Read.val_main_v47 (F := F)

theorem step60 (x0 x1 : (⟨S32768x7x7x11, .f32⟩ : BufTy).Contents (Elt F)) (V : Valuation τ sig (Elt F)) (h : Inv59 x0 x1 V) :
    Inv60 x0 x1 ((op60 (F := F)).result V) := by
  obtain ⟨h0, h1, h_main_v3, h_main_v19, h_main_v21, h_main_v23, h_main_v37, h_main_v40, h_main_v43, h_main_v46, h_main_cst_9⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v40]
  · simp (disch := decide) only [unary_result_ne', h_main_v43]
  · simp (disch := decide) only [unary_result_ne', h_main_v46]
  · simp (disch := decide) only [unary_result', h_main_cst_9]; rfl

/-- Operation 61: writes main_v48. -/
abbrev op61 : HloOp τ sig (Elt F) :=
  binary main_v47 main_v43 main_v48 (mulf : (⟨S32768x7x7x2, .f32⟩ : BufTy).Contents (Elt F) → (⟨S32768x7x7x2, .f32⟩ : BufTy).Contents (Elt F) → (⟨S32768x7x7x2, .f32⟩ : BufTy).Contents (Elt F))

abbrev Inv61 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v40) = Read.val_main_v40 (F := F) x1 ∧
    V (Proc.devRef .tc main_v46) = Read.val_main_v46 (F := F) x1 ∧
    V (Proc.devRef .tc main_v48) = Read.val_main_v48 (F := F) x1

theorem step61 (x0 x1 : (⟨S32768x7x7x11, .f32⟩ : BufTy).Contents (Elt F)) (V : Valuation τ sig (Elt F)) (h : Inv60 x0 x1 V) :
    Inv61 x0 x1 ((op61 (F := F)).result V) := by
  obtain ⟨h0, h1, h_main_v3, h_main_v19, h_main_v21, h_main_v23, h_main_v37, h_main_v40, h_main_v43, h_main_v46, h_main_v47⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v40]
  · simp (disch := decide) only [binary_result_ne', h_main_v46]
  · simp (disch := decide) only [binary_result', h_main_v47, h_main_v43]; rfl

/-- Operation 62: writes main_v49. -/
abbrev op62 : HloOp τ sig (Elt F) :=
  binary main_v40 main_v48 main_v49 (addf : (⟨S32768x7x7x2, .f32⟩ : BufTy).Contents (Elt F) → (⟨S32768x7x7x2, .f32⟩ : BufTy).Contents (Elt F) → (⟨S32768x7x7x2, .f32⟩ : BufTy).Contents (Elt F))

abbrev Inv62 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v46) = Read.val_main_v46 (F := F) x1 ∧
    V (Proc.devRef .tc main_v49) = Read.val_main_v49 (F := F) x1

theorem step62 (x0 x1 : (⟨S32768x7x7x11, .f32⟩ : BufTy).Contents (Elt F)) (V : Valuation τ sig (Elt F)) (h : Inv61 x0 x1 V) :
    Inv62 x0 x1 ((op62 (F := F)).result V) := by
  obtain ⟨h0, h1, h_main_v3, h_main_v19, h_main_v21, h_main_v23, h_main_v37, h_main_v40, h_main_v46, h_main_v48⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v46]
  · simp (disch := decide) only [binary_result', h_main_v40, h_main_v48]; rfl

/-- Operation 63: writes main_v50. -/
abbrev op63 : HloOp τ sig (Elt F) :=
  binary main_v46 main_v49 main_v50 ((fun a b => concatenate S32768x7x7x4 3 [⟨S32768x7x7x2, a⟩, ⟨S32768x7x7x2, b⟩] concatenates_S32768x7x7x2_S32768x7x7x2_S32768x7x7x4_d3) : (⟨S32768x7x7x2, .f32⟩ : BufTy).Contents (Elt F) → (⟨S32768x7x7x2, .f32⟩ : BufTy).Contents (Elt F) → (⟨S32768x7x7x4, .f32⟩ : BufTy).Contents (Elt F))

abbrev Inv63 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v50) = Read.val_main_v50 (F := F) x1

theorem step63 (x0 x1 : (⟨S32768x7x7x11, .f32⟩ : BufTy).Contents (Elt F)) (V : Valuation τ sig (Elt F)) (h : Inv62 x0 x1 V) :
    Inv63 x0 x1 ((op63 (F := F)).result V) := by
  obtain ⟨h0, h1, h_main_v3, h_main_v19, h_main_v21, h_main_v23, h_main_v37, h_main_v46, h_main_v49⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result']; rw [h_main_v46, h_main_v49]; rfl

/-- Operation 64: writes main_v51. -/
abbrev op64 : HloOp τ sig (Elt F) :=
  unary main_v50 main_v51 (broadcastInDim S32768x7x7x1x4 ![0, 1, 2, 4] bcast_S32768x7x7x4_S32768x7x7x1x4_0_1_2_4 : (⟨S32768x7x7x4, .f32⟩ : BufTy).Contents (Elt F) → (⟨S32768x7x7x1x4, .f32⟩ : BufTy).Contents (Elt F))

abbrev Inv64 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1

theorem step64 (x0 x1 : (⟨S32768x7x7x11, .f32⟩ : BufTy).Contents (Elt F)) (V : Valuation τ sig (Elt F)) (h : Inv63 x0 x1 V) :
    Inv64 x0 x1 ((op64 (F := F)).result V) := by
  obtain ⟨h0, h1, h_main_v3, h_main_v19, h_main_v21, h_main_v23, h_main_v37, h_main_v50⟩ := h
  refine ⟨?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result', h_main_v50]; rfl

/-- Operation 65: writes main_v52. -/
abbrev op65 : HloOp τ sig (Elt F) :=
  unary main_v37 main_v52 ((extractStridedSlice S32768x7x7x2x2 ![0, 0, 0, 0, 0] · slices_S32768x7x7x2x4_S32768x7x7x2x2_0_0_0_0_0) : (⟨S32768x7x7x2x4, .f32⟩ : BufTy).Contents (Elt F) → (⟨S32768x7x7x2x2, .f32⟩ : BufTy).Contents (Elt F))

abbrev Inv65 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v52) = Read.val_main_v52 (F := F) x0

theorem step65 (x0 x1 : (⟨S32768x7x7x11, .f32⟩ : BufTy).Contents (Elt F)) (V : Valuation τ sig (Elt F)) (h : Inv64 x0 x1 V) :
    Inv65 x0 x1 ((op65 (F := F)).result V) := by
  obtain ⟨h0, h1, h_main_v3, h_main_v19, h_main_v21, h_main_v23, h_main_v37, h_main_v51⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result', h_main_v37]; rfl

/-- Operation 66: writes main_v53. -/
abbrev op66 : HloOp τ sig (Elt F) :=
  unary main_v51 main_v53 ((extractStridedSlice S32768x7x7x1x2 ![0, 0, 0, 0, 0] · slices_S32768x7x7x1x4_S32768x7x7x1x2_0_0_0_0_0) : (⟨S32768x7x7x1x4, .f32⟩ : BufTy).Contents (Elt F) → (⟨S32768x7x7x1x2, .f32⟩ : BufTy).Contents (Elt F))

abbrev Inv66 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v52) = Read.val_main_v52 (F := F) x0 ∧
    V (Proc.devRef .tc main_v53) = Read.val_main_v53 (F := F) x1

theorem step66 (x0 x1 : (⟨S32768x7x7x11, .f32⟩ : BufTy).Contents (Elt F)) (V : Valuation τ sig (Elt F)) (h : Inv65 x0 x1 V) :
    Inv66 x0 x1 ((op66 (F := F)).result V) := by
  obtain ⟨h0, h1, h_main_v3, h_main_v19, h_main_v21, h_main_v23, h_main_v37, h_main_v51, h_main_v52⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v52]
  · simp (disch := decide) only [unary_result', h_main_v51]; rfl

/-- Operation 67: writes main_v54. -/
abbrev op67 : HloOp τ sig (Elt F) :=
  unary main_v53 main_v54 (broadcastInDim S32768x7x7x2x2 ![0, 1, 2, 3, 4] bcast_S32768x7x7x1x2_S32768x7x7x2x2_0_1_2_3_4 : (⟨S32768x7x7x1x2, .f32⟩ : BufTy).Contents (Elt F) → (⟨S32768x7x7x2x2, .f32⟩ : BufTy).Contents (Elt F))

abbrev Inv67 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v52) = Read.val_main_v52 (F := F) x0 ∧
    V (Proc.devRef .tc main_v54) = Read.val_main_v54 (F := F) x1

theorem step67 (x0 x1 : (⟨S32768x7x7x11, .f32⟩ : BufTy).Contents (Elt F)) (V : Valuation τ sig (Elt F)) (h : Inv66 x0 x1 V) :
    Inv67 x0 x1 ((op67 (F := F)).result V) := by
  obtain ⟨h0, h1, h_main_v3, h_main_v19, h_main_v21, h_main_v23, h_main_v37, h_main_v51, h_main_v52, h_main_v53⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v52]
  · simp (disch := decide) only [unary_result', h_main_v53]; rfl

/-- Operation 68: writes main_v55. -/
abbrev op68 : HloOp τ sig (Elt F) :=
  binary main_v52 main_v54 main_v55 (maximumf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv68 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1

theorem step68 (x0 x1 : (⟨S32768x7x7x11, .f32⟩ : BufTy).Contents (Elt F)) (V : Valuation τ sig (Elt F)) (h : Inv67 x0 x1 V) :
    Inv68 x0 x1 ((op68 (F := F)).result V) := by
  obtain ⟨h0, h1, h_main_v3, h_main_v19, h_main_v21, h_main_v23, h_main_v37, h_main_v51, h_main_v52, h_main_v54⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result', h_main_v52, h_main_v54]; rfl

/-- Operation 69: writes main_v56. -/
abbrev op69 : HloOp τ sig (Elt F) :=
  unary main_v37 main_v56 ((extractStridedSlice S32768x7x7x2x2 ![0, 0, 0, 0, 2] · slices_S32768x7x7x2x4_S32768x7x7x2x2_0_0_0_0_2) : (⟨S32768x7x7x2x4, .f32⟩ : BufTy).Contents (Elt F) → (⟨S32768x7x7x2x2, .f32⟩ : BufTy).Contents (Elt F))

abbrev Inv69 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v56) = Read.val_main_v56 (F := F) x0

theorem step69 (x0 x1 : (⟨S32768x7x7x11, .f32⟩ : BufTy).Contents (Elt F)) (V : Valuation τ sig (Elt F)) (h : Inv68 x0 x1 V) :
    Inv69 x0 x1 ((op69 (F := F)).result V) := by
  obtain ⟨h0, h1, h_main_v3, h_main_v19, h_main_v21, h_main_v23, h_main_v37, h_main_v51, h_main_v55⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result', h_main_v37]; rfl

/-- Operation 70: writes main_v57. -/
abbrev op70 : HloOp τ sig (Elt F) :=
  unary main_v51 main_v57 ((extractStridedSlice S32768x7x7x1x2 ![0, 0, 0, 0, 2] · slices_S32768x7x7x1x4_S32768x7x7x1x2_0_0_0_0_2) : (⟨S32768x7x7x1x4, .f32⟩ : BufTy).Contents (Elt F) → (⟨S32768x7x7x1x2, .f32⟩ : BufTy).Contents (Elt F))

abbrev Inv70 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v56) = Read.val_main_v56 (F := F) x0 ∧
    V (Proc.devRef .tc main_v57) = Read.val_main_v57 (F := F) x1

theorem step70 (x0 x1 : (⟨S32768x7x7x11, .f32⟩ : BufTy).Contents (Elt F)) (V : Valuation τ sig (Elt F)) (h : Inv69 x0 x1 V) :
    Inv70 x0 x1 ((op70 (F := F)).result V) := by
  obtain ⟨h0, h1, h_main_v3, h_main_v19, h_main_v21, h_main_v23, h_main_v37, h_main_v51, h_main_v55, h_main_v56⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v56]
  · simp (disch := decide) only [unary_result', h_main_v51]; rfl

/-- Operation 71: writes main_v58. -/
abbrev op71 : HloOp τ sig (Elt F) :=
  unary main_v57 main_v58 (broadcastInDim S32768x7x7x2x2 ![0, 1, 2, 3, 4] bcast_S32768x7x7x1x2_S32768x7x7x2x2_0_1_2_3_4 : (⟨S32768x7x7x1x2, .f32⟩ : BufTy).Contents (Elt F) → (⟨S32768x7x7x2x2, .f32⟩ : BufTy).Contents (Elt F))

abbrev Inv71 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v56) = Read.val_main_v56 (F := F) x0 ∧
    V (Proc.devRef .tc main_v58) = Read.val_main_v58 (F := F) x1

theorem step71 (x0 x1 : (⟨S32768x7x7x11, .f32⟩ : BufTy).Contents (Elt F)) (V : Valuation τ sig (Elt F)) (h : Inv70 x0 x1 V) :
    Inv71 x0 x1 ((op71 (F := F)).result V) := by
  obtain ⟨h0, h1, h_main_v3, h_main_v19, h_main_v21, h_main_v23, h_main_v37, h_main_v51, h_main_v55, h_main_v56, h_main_v57⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v56]
  · simp (disch := decide) only [unary_result', h_main_v57]; rfl

/-- Operation 72: writes main_v59. -/
abbrev op72 : HloOp τ sig (Elt F) :=
  binary main_v56 main_v58 main_v59 (minimumf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv72 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1

theorem step72 (x0 x1 : (⟨S32768x7x7x11, .f32⟩ : BufTy).Contents (Elt F)) (V : Valuation τ sig (Elt F)) (h : Inv71 x0 x1 V) :
    Inv72 x0 x1 ((op72 (F := F)).result V) := by
  obtain ⟨h0, h1, h_main_v3, h_main_v19, h_main_v21, h_main_v23, h_main_v37, h_main_v51, h_main_v55, h_main_v56, h_main_v58⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v55]
  · simp (disch := decide) only [binary_result', h_main_v56, h_main_v58]; rfl

/-- Operation 73: writes main_v60. -/
abbrev op73 : HloOp τ sig (Elt F) :=
  unary main_v55 main_v60 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F))

abbrev Inv73 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v60) = Read.val_main_v60 (F := F) x0 x1

theorem step73 (x0 x1 : (⟨S32768x7x7x11, .f32⟩ : BufTy).Contents (Elt F)) (V : Valuation τ sig (Elt F)) (h : Inv72 x0 x1 V) :
    Inv73 x0 x1 ((op73 (F := F)).result V) := by
  obtain ⟨h0, h1, h_main_v3, h_main_v19, h_main_v21, h_main_v23, h_main_v37, h_main_v51, h_main_v55, h_main_v59⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v59]
  · simp (disch := decide) only [unary_result', h_main_v55]; rfl

/-- Operation 74: writes main_v61. -/
abbrev op74 : HloOp τ sig (Elt F) :=
  reshape main_v60 main_v61 rfl shapeCasts_S32768x7x7x2x1_S32768x7x7x2

abbrev Inv74 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v61) = Read.val_main_v61 (F := F) x0 x1

theorem step74 (x0 x1 : (⟨S32768x7x7x11, .f32⟩ : BufTy).Contents (Elt F)) (V : Valuation τ sig (Elt F)) (h : Inv73 x0 x1 V) :
    Inv74 x0 x1 ((op74 (F := F)).result V) := by
  obtain ⟨h0, h1, h_main_v3, h_main_v19, h_main_v21, h_main_v23, h_main_v37, h_main_v51, h_main_v55, h_main_v59, h_main_v60⟩ := h
  refine ⟨?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v59]
  · simp (disch := decide) only [reshape_result', h_main_v60]; rfl

/-- Operation 75: writes main_v62. -/
abbrev op75 : HloOp τ sig (Elt F) :=
  unary main_v59 main_v62 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F))

abbrev Inv75 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v61) = Read.val_main_v61 (F := F) x0 x1 ∧
    V (Proc.devRef .tc main_v62) = Read.val_main_v62 (F := F) x0 x1

theorem step75 (x0 x1 : (⟨S32768x7x7x11, .f32⟩ : BufTy).Contents (Elt F)) (V : Valuation τ sig (Elt F)) (h : Inv74 x0 x1 V) :
    Inv75 x0 x1 ((op75 (F := F)).result V) := by
  obtain ⟨h0, h1, h_main_v3, h_main_v19, h_main_v21, h_main_v23, h_main_v37, h_main_v51, h_main_v55, h_main_v59, h_main_v61⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v59]
  · simp (disch := decide) only [unary_result_ne', h_main_v61]
  · simp (disch := decide) only [unary_result', h_main_v59]; rfl

/-- Operation 76: writes main_v63. -/
abbrev op76 : HloOp τ sig (Elt F) :=
  reshape main_v62 main_v63 rfl shapeCasts_S32768x7x7x2x1_S32768x7x7x2

abbrev Inv76 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v61) = Read.val_main_v61 (F := F) x0 x1 ∧
    V (Proc.devRef .tc main_v63) = Read.val_main_v63 (F := F) x0 x1

theorem step76 (x0 x1 : (⟨S32768x7x7x11, .f32⟩ : BufTy).Contents (Elt F)) (V : Valuation τ sig (Elt F)) (h : Inv75 x0 x1 V) :
    Inv76 x0 x1 ((op76 (F := F)).result V) := by
  obtain ⟨h0, h1, h_main_v3, h_main_v19, h_main_v21, h_main_v23, h_main_v37, h_main_v51, h_main_v55, h_main_v59, h_main_v61, h_main_v62⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v59]
  · simp (disch := decide) only [reshape_result_ne', h_main_v61]
  · simp (disch := decide) only [reshape_result', h_main_v62]; rfl

/-- Operation 77: writes main_v64. -/
abbrev op77 : HloOp τ sig (Elt F) :=
  binary main_v61 main_v63 main_v64 (cmpf .olt : (⟨S32768x7x7x2, .f32⟩ : BufTy).Contents (Elt F) → (⟨S32768x7x7x2, .f32⟩ : BufTy).Contents (Elt F) → (⟨S32768x7x7x2, .i1⟩ : BufTy).Contents (Elt F))

abbrev Inv77 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v64) = Read.val_main_v64 (F := F) x0 x1

theorem step77 (x0 x1 : (⟨S32768x7x7x11, .f32⟩ : BufTy).Contents (Elt F)) (V : Valuation τ sig (Elt F)) (h : Inv76 x0 x1 V) :
    Inv77 x0 x1 ((op77 (F := F)).result V) := by
  obtain ⟨h0, h1, h_main_v3, h_main_v19, h_main_v21, h_main_v23, h_main_v37, h_main_v51, h_main_v55, h_main_v59, h_main_v61, h_main_v63⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v55]
  · simp (disch := decide) only [binary_result_ne', h_main_v59]
  · simp (disch := decide) only [binary_result', h_main_v61, h_main_v63]; rfl

/-- Operation 78: writes main_v65. -/
abbrev op78 : HloOp τ sig (Elt F) :=
  unary main_v55 main_v65 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F))

abbrev Inv78 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v64) = Read.val_main_v64 (F := F) x0 x1 ∧
    V (Proc.devRef .tc main_v65) = Read.val_main_v65 (F := F) x0 x1

theorem step78 (x0 x1 : (⟨S32768x7x7x11, .f32⟩ : BufTy).Contents (Elt F)) (V : Valuation τ sig (Elt F)) (h : Inv77 x0 x1 V) :
    Inv78 x0 x1 ((op78 (F := F)).result V) := by
  obtain ⟨h0, h1, h_main_v3, h_main_v19, h_main_v21, h_main_v23, h_main_v37, h_main_v51, h_main_v55, h_main_v59, h_main_v64⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v59]
  · simp (disch := decide) only [unary_result_ne', h_main_v64]
  · simp (disch := decide) only [unary_result', h_main_v55]; rfl

/-- Operation 79: writes main_v66. -/
abbrev op79 : HloOp τ sig (Elt F) :=
  reshape main_v65 main_v66 rfl shapeCasts_S32768x7x7x2x1_S32768x7x7x2

abbrev Inv79 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v64) = Read.val_main_v64 (F := F) x0 x1 ∧
    V (Proc.devRef .tc main_v66) = Read.val_main_v66 (F := F) x0 x1

theorem step79 (x0 x1 : (⟨S32768x7x7x11, .f32⟩ : BufTy).Contents (Elt F)) (V : Valuation τ sig (Elt F)) (h : Inv78 x0 x1 V) :
    Inv79 x0 x1 ((op79 (F := F)).result V) := by
  obtain ⟨h0, h1, h_main_v3, h_main_v19, h_main_v21, h_main_v23, h_main_v37, h_main_v51, h_main_v55, h_main_v59, h_main_v64, h_main_v65⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v59]
  · simp (disch := decide) only [reshape_result_ne', h_main_v64]
  · simp (disch := decide) only [reshape_result', h_main_v65]; rfl

/-- Operation 80: writes main_v67. -/
abbrev op80 : HloOp τ sig (Elt F) :=
  unary main_v59 main_v67 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F))

abbrev Inv80 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v64) = Read.val_main_v64 (F := F) x0 x1 ∧
    V (Proc.devRef .tc main_v66) = Read.val_main_v66 (F := F) x0 x1 ∧
    V (Proc.devRef .tc main_v67) = Read.val_main_v67 (F := F) x0 x1

theorem step80 (x0 x1 : (⟨S32768x7x7x11, .f32⟩ : BufTy).Contents (Elt F)) (V : Valuation τ sig (Elt F)) (h : Inv79 x0 x1 V) :
    Inv80 x0 x1 ((op80 (F := F)).result V) := by
  obtain ⟨h0, h1, h_main_v3, h_main_v19, h_main_v21, h_main_v23, h_main_v37, h_main_v51, h_main_v55, h_main_v59, h_main_v64, h_main_v66⟩ := h
  refine ⟨?_, ?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v59]
  · simp (disch := decide) only [unary_result_ne', h_main_v64]
  · simp (disch := decide) only [unary_result_ne', h_main_v66]
  · simp (disch := decide) only [unary_result', h_main_v59]; rfl

/-- Operation 81: writes main_v68. -/
abbrev op81 : HloOp τ sig (Elt F) :=
  reshape main_v67 main_v68 rfl shapeCasts_S32768x7x7x2x1_S32768x7x7x2

abbrev Inv81 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v64) = Read.val_main_v64 (F := F) x0 x1 ∧
    V (Proc.devRef .tc main_v66) = Read.val_main_v66 (F := F) x0 x1 ∧
    V (Proc.devRef .tc main_v68) = Read.val_main_v68 (F := F) x0 x1

theorem step81 (x0 x1 : (⟨S32768x7x7x11, .f32⟩ : BufTy).Contents (Elt F)) (V : Valuation τ sig (Elt F)) (h : Inv80 x0 x1 V) :
    Inv81 x0 x1 ((op81 (F := F)).result V) := by
  obtain ⟨h0, h1, h_main_v3, h_main_v19, h_main_v21, h_main_v23, h_main_v37, h_main_v51, h_main_v55, h_main_v59, h_main_v64, h_main_v66, h_main_v67⟩ := h
  refine ⟨?_, ?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v59]
  · simp (disch := decide) only [reshape_result_ne', h_main_v64]
  · simp (disch := decide) only [reshape_result_ne', h_main_v66]
  · simp (disch := decide) only [reshape_result', h_main_v67]; rfl

/-- Operation 82: writes main_v69. -/
abbrev op82 : HloOp τ sig (Elt F) :=
  binary main_v66 main_v68 main_v69 (cmpf .olt : (⟨S32768x7x7x2, .f32⟩ : BufTy).Contents (Elt F) → (⟨S32768x7x7x2, .f32⟩ : BufTy).Contents (Elt F) → (⟨S32768x7x7x2, .i1⟩ : BufTy).Contents (Elt F))

abbrev Inv82 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v64) = Read.val_main_v64 (F := F) x0 x1 ∧
    V (Proc.devRef .tc main_v69) = Read.val_main_v69 (F := F) x0 x1

theorem step82 (x0 x1 : (⟨S32768x7x7x11, .f32⟩ : BufTy).Contents (Elt F)) (V : Valuation τ sig (Elt F)) (h : Inv81 x0 x1 V) :
    Inv82 x0 x1 ((op82 (F := F)).result V) := by
  obtain ⟨h0, h1, h_main_v3, h_main_v19, h_main_v21, h_main_v23, h_main_v37, h_main_v51, h_main_v55, h_main_v59, h_main_v64, h_main_v66, h_main_v68⟩ := h
  refine ⟨?_, ?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v55]
  · simp (disch := decide) only [binary_result_ne', h_main_v59]
  · simp (disch := decide) only [binary_result_ne', h_main_v64]
  · simp (disch := decide) only [binary_result', h_main_v66, h_main_v68]; rfl

/-- Operation 83: writes main_v70. -/
abbrev op83 : HloOp τ sig (Elt F) :=
  binary main_v64 main_v69 main_v70 (andi : (⟨S32768x7x7x2, .i1⟩ : BufTy).Contents (Elt F) → (⟨S32768x7x7x2, .i1⟩ : BufTy).Contents (Elt F) → (⟨S32768x7x7x2, .i1⟩ : BufTy).Contents (Elt F))

abbrev Inv83 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v70) = Read.val_main_v70 (F := F) x0 x1

theorem step83 (x0 x1 : (⟨S32768x7x7x11, .f32⟩ : BufTy).Contents (Elt F)) (V : Valuation τ sig (Elt F)) (h : Inv82 x0 x1 V) :
    Inv83 x0 x1 ((op83 (F := F)).result V) := by
  obtain ⟨h0, h1, h_main_v3, h_main_v19, h_main_v21, h_main_v23, h_main_v37, h_main_v51, h_main_v55, h_main_v59, h_main_v64, h_main_v69⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v55]
  · simp (disch := decide) only [binary_result_ne', h_main_v59]
  · simp (disch := decide) only [binary_result', h_main_v64, h_main_v69]; rfl

/-- Operation 84: writes main_v71. -/
abbrev op84 : HloOp τ sig (Elt F) :=
  unary main_v59 main_v71 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F))

abbrev Inv84 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v70) = Read.val_main_v70 (F := F) x0 x1 ∧
    V (Proc.devRef .tc main_v71) = Read.val_main_v71 (F := F) x0 x1

theorem step84 (x0 x1 : (⟨S32768x7x7x11, .f32⟩ : BufTy).Contents (Elt F)) (V : Valuation τ sig (Elt F)) (h : Inv83 x0 x1 V) :
    Inv84 x0 x1 ((op84 (F := F)).result V) := by
  obtain ⟨h0, h1, h_main_v3, h_main_v19, h_main_v21, h_main_v23, h_main_v37, h_main_v51, h_main_v55, h_main_v59, h_main_v70⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v59]
  · simp (disch := decide) only [unary_result_ne', h_main_v70]
  · simp (disch := decide) only [unary_result', h_main_v59]; rfl

/-- Operation 85: writes main_v72. -/
abbrev op85 : HloOp τ sig (Elt F) :=
  reshape main_v71 main_v72 rfl shapeCasts_S32768x7x7x2x1_S32768x7x7x2

abbrev Inv85 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v70) = Read.val_main_v70 (F := F) x0 x1 ∧
    V (Proc.devRef .tc main_v72) = Read.val_main_v72 (F := F) x0 x1

theorem step85 (x0 x1 : (⟨S32768x7x7x11, .f32⟩ : BufTy).Contents (Elt F)) (V : Valuation τ sig (Elt F)) (h : Inv84 x0 x1 V) :
    Inv85 x0 x1 ((op85 (F := F)).result V) := by
  obtain ⟨h0, h1, h_main_v3, h_main_v19, h_main_v21, h_main_v23, h_main_v37, h_main_v51, h_main_v55, h_main_v59, h_main_v70, h_main_v71⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v59]
  · simp (disch := decide) only [reshape_result_ne', h_main_v70]
  · simp (disch := decide) only [reshape_result', h_main_v71]; rfl

/-- Operation 86: writes main_v73. -/
abbrev op86 : HloOp τ sig (Elt F) :=
  unary main_v55 main_v73 ((extractStridedSlice S32768x7x7x2x1 ![0, 0, 0, 0, 0] · slices_S32768x7x7x2x2_S32768x7x7x2x1_0_0_0_0_0) : (⟨S32768x7x7x2x2, .f32⟩ : BufTy).Contents (Elt F) → (⟨S32768x7x7x2x1, .f32⟩ : BufTy).Contents (Elt F))

abbrev Inv86 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v70) = Read.val_main_v70 (F := F) x0 x1 ∧
    V (Proc.devRef .tc main_v72) = Read.val_main_v72 (F := F) x0 x1 ∧
    V (Proc.devRef .tc main_v73) = Read.val_main_v73 (F := F) x0 x1

theorem step86 (x0 x1 : (⟨S32768x7x7x11, .f32⟩ : BufTy).Contents (Elt F)) (V : Valuation τ sig (Elt F)) (h : Inv85 x0 x1 V) :
    Inv86 x0 x1 ((op86 (F := F)).result V) := by
  obtain ⟨h0, h1, h_main_v3, h_main_v19, h_main_v21, h_main_v23, h_main_v37, h_main_v51, h_main_v55, h_main_v59, h_main_v70, h_main_v72⟩ := h
  refine ⟨?_, ?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v59]
  · simp (disch := decide) only [unary_result_ne', h_main_v70]
  · simp (disch := decide) only [unary_result_ne', h_main_v72]
  · simp (disch := decide) only [unary_result', h_main_v55]; rfl

/-- Operation 87: writes main_v74. -/
abbrev op87 : HloOp τ sig (Elt F) :=
  reshape main_v73 main_v74 rfl shapeCasts_S32768x7x7x2x1_S32768x7x7x2

abbrev Inv87 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v70) = Read.val_main_v70 (F := F) x0 x1 ∧
    V (Proc.devRef .tc main_v72) = Read.val_main_v72 (F := F) x0 x1 ∧
    V (Proc.devRef .tc main_v74) = Read.val_main_v74 (F := F) x0 x1

theorem step87 (x0 x1 : (⟨S32768x7x7x11, .f32⟩ : BufTy).Contents (Elt F)) (V : Valuation τ sig (Elt F)) (h : Inv86 x0 x1 V) :
    Inv87 x0 x1 ((op87 (F := F)).result V) := by
  obtain ⟨h0, h1, h_main_v3, h_main_v19, h_main_v21, h_main_v23, h_main_v37, h_main_v51, h_main_v55, h_main_v59, h_main_v70, h_main_v72, h_main_v73⟩ := h
  refine ⟨?_, ?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v59]
  · simp (disch := decide) only [reshape_result_ne', h_main_v70]
  · simp (disch := decide) only [reshape_result_ne', h_main_v72]
  · simp (disch := decide) only [reshape_result', h_main_v73]; rfl

/-- Operation 88: writes main_v75. -/
abbrev op88 : HloOp τ sig (Elt F) :=
  binary main_v72 main_v74 main_v75 (subf : (⟨S32768x7x7x2, .f32⟩ : BufTy).Contents (Elt F) → (⟨S32768x7x7x2, .f32⟩ : BufTy).Contents (Elt F) → (⟨S32768x7x7x2, .f32⟩ : BufTy).Contents (Elt F))

abbrev Inv88 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v59) = Read.val_main_v59 (F := F) x0 x1 ∧
    V (Proc.devRef .tc main_v70) = Read.val_main_v70 (F := F) x0 x1 ∧
    V (Proc.devRef .tc main_v75) = Read.val_main_v75 (F := F) x0 x1

theorem step88 (x0 x1 : (⟨S32768x7x7x11, .f32⟩ : BufTy).Contents (Elt F)) (V : Valuation τ sig (Elt F)) (h : Inv87 x0 x1 V) :
    Inv88 x0 x1 ((op88 (F := F)).result V) := by
  obtain ⟨h0, h1, h_main_v3, h_main_v19, h_main_v21, h_main_v23, h_main_v37, h_main_v51, h_main_v55, h_main_v59, h_main_v70, h_main_v72, h_main_v74⟩ := h
  refine ⟨?_, ?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v55]
  · simp (disch := decide) only [binary_result_ne', h_main_v59]
  · simp (disch := decide) only [binary_result_ne', h_main_v70]
  · simp (disch := decide) only [binary_result', h_main_v72, h_main_v74]; rfl

/-- Operation 89: writes main_v76. -/
abbrev op89 : HloOp τ sig (Elt F) :=
  unary main_v59 main_v76 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F))

abbrev Inv89 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v70) = Read.val_main_v70 (F := F) x0 x1 ∧
    V (Proc.devRef .tc main_v75) = Read.val_main_v75 (F := F) x0 x1 ∧
    V (Proc.devRef .tc main_v76) = Read.val_main_v76 (F := F) x0 x1

theorem step89 (x0 x1 : (⟨S32768x7x7x11, .f32⟩ : BufTy).Contents (Elt F)) (V : Valuation τ sig (Elt F)) (h : Inv88 x0 x1 V) :
    Inv89 x0 x1 ((op89 (F := F)).result V) := by
  obtain ⟨h0, h1, h_main_v3, h_main_v19, h_main_v21, h_main_v23, h_main_v37, h_main_v51, h_main_v55, h_main_v59, h_main_v70, h_main_v75⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v55]
  · simp (disch := decide) only [unary_result_ne', h_main_v70]
  · simp (disch := decide) only [unary_result_ne', h_main_v75]
  · simp (disch := decide) only [unary_result', h_main_v59]; rfl

/-- Operation 90: writes main_v77. -/
abbrev op90 : HloOp τ sig (Elt F) :=
  reshape main_v76 main_v77 rfl shapeCasts_S32768x7x7x2x1_S32768x7x7x2

abbrev Inv90 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v55) = Read.val_main_v55 (F := F) x0 x1 ∧
    V (Proc.devRef .tc main_v70) = Read.val_main_v70 (F := F) x0 x1 ∧
    V (Proc.devRef .tc main_v75) = Read.val_main_v75 (F := F) x0 x1 ∧
    V (Proc.devRef .tc main_v77) = Read.val_main_v77 (F := F) x0 x1

theorem step90 (x0 x1 : (⟨S32768x7x7x11, .f32⟩ : BufTy).Contents (Elt F)) (V : Valuation τ sig (Elt F)) (h : Inv89 x0 x1 V) :
    Inv90 x0 x1 ((op90 (F := F)).result V) := by
  obtain ⟨h0, h1, h_main_v3, h_main_v19, h_main_v21, h_main_v23, h_main_v37, h_main_v51, h_main_v55, h_main_v70, h_main_v75, h_main_v76⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v55]
  · simp (disch := decide) only [reshape_result_ne', h_main_v70]
  · simp (disch := decide) only [reshape_result_ne', h_main_v75]
  · simp (disch := decide) only [reshape_result', h_main_v76]; rfl

/-- Operation 91: writes main_v78. -/
abbrev op91 : HloOp τ sig (Elt F) :=
  unary main_v55 main_v78 ((extractStridedSlice S32768x7x7x2x1 ![0, 0, 0, 0, 1] · slices_S32768x7x7x2x2_S32768x7x7x2x1_0_0_0_0_1) : (⟨S32768x7x7x2x2, .f32⟩ : BufTy).Contents (Elt F) → (⟨S32768x7x7x2x1, .f32⟩ : BufTy).Contents (Elt F))

abbrev Inv91 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v75) = Read.val_main_v75 (F := F) x0 x1 ∧
    V (Proc.devRef .tc main_v77) = Read.val_main_v77 (F := F) x0 x1 ∧
    V (Proc.devRef .tc main_v78) = Read.val_main_v78 (F := F) x0 x1

theorem step91 (x0 x1 : (⟨S32768x7x7x11, .f32⟩ : BufTy).Contents (Elt F)) (V : Valuation τ sig (Elt F)) (h : Inv90 x0 x1 V) :
    Inv91 x0 x1 ((op91 (F := F)).result V) := by
  obtain ⟨h0, h1, h_main_v3, h_main_v19, h_main_v21, h_main_v23, h_main_v37, h_main_v51, h_main_v55, h_main_v70, h_main_v75, h_main_v77⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v70]
  · simp (disch := decide) only [unary_result_ne', h_main_v75]
  · simp (disch := decide) only [unary_result_ne', h_main_v77]
  · simp (disch := decide) only [unary_result', h_main_v55]; rfl

/-- Operation 92: writes main_v79. -/
abbrev op92 : HloOp τ sig (Elt F) :=
  reshape main_v78 main_v79 rfl shapeCasts_S32768x7x7x2x1_S32768x7x7x2

abbrev Inv92 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v75) = Read.val_main_v75 (F := F) x0 x1 ∧
    V (Proc.devRef .tc main_v77) = Read.val_main_v77 (F := F) x0 x1 ∧
    V (Proc.devRef .tc main_v79) = Read.val_main_v79 (F := F) x0 x1

theorem step92 (x0 x1 : (⟨S32768x7x7x11, .f32⟩ : BufTy).Contents (Elt F)) (V : Valuation τ sig (Elt F)) (h : Inv91 x0 x1 V) :
    Inv92 x0 x1 ((op92 (F := F)).result V) := by
  obtain ⟨h0, h1, h_main_v3, h_main_v19, h_main_v21, h_main_v23, h_main_v37, h_main_v51, h_main_v70, h_main_v75, h_main_v77, h_main_v78⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v70]
  · simp (disch := decide) only [reshape_result_ne', h_main_v75]
  · simp (disch := decide) only [reshape_result_ne', h_main_v77]
  · simp (disch := decide) only [reshape_result', h_main_v78]; rfl

/-- Operation 93: writes main_v80. -/
abbrev op93 : HloOp τ sig (Elt F) :=
  binary main_v77 main_v79 main_v80 (subf : (⟨S32768x7x7x2, .f32⟩ : BufTy).Contents (Elt F) → (⟨S32768x7x7x2, .f32⟩ : BufTy).Contents (Elt F) → (⟨S32768x7x7x2, .f32⟩ : BufTy).Contents (Elt F))

abbrev Inv93 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v75) = Read.val_main_v75 (F := F) x0 x1 ∧
    V (Proc.devRef .tc main_v80) = Read.val_main_v80 (F := F) x0 x1

theorem step93 (x0 x1 : (⟨S32768x7x7x11, .f32⟩ : BufTy).Contents (Elt F)) (V : Valuation τ sig (Elt F)) (h : Inv92 x0 x1 V) :
    Inv93 x0 x1 ((op93 (F := F)).result V) := by
  obtain ⟨h0, h1, h_main_v3, h_main_v19, h_main_v21, h_main_v23, h_main_v37, h_main_v51, h_main_v70, h_main_v75, h_main_v77, h_main_v79⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v70]
  · simp (disch := decide) only [binary_result_ne', h_main_v75]
  · simp (disch := decide) only [binary_result', h_main_v77, h_main_v79]; rfl

/-- Operation 94: writes main_v81. -/
abbrev op94 : HloOp τ sig (Elt F) :=
  binary main_v75 main_v80 main_v81 (mulf : (⟨S32768x7x7x2, .f32⟩ : BufTy).Contents (Elt F) → (⟨S32768x7x7x2, .f32⟩ : BufTy).Contents (Elt F) → (⟨S32768x7x7x2, .f32⟩ : BufTy).Contents (Elt F))

abbrev Inv94 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1

theorem step94 (x0 x1 : (⟨S32768x7x7x11, .f32⟩ : BufTy).Contents (Elt F)) (V : Valuation τ sig (Elt F)) (h : Inv93 x0 x1 V) :
    Inv94 x0 x1 ((op94 (F := F)).result V) := by
  obtain ⟨h0, h1, h_main_v3, h_main_v19, h_main_v21, h_main_v23, h_main_v37, h_main_v51, h_main_v70, h_main_v75, h_main_v80⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v70]
  · simp (disch := decide) only [binary_result', h_main_v75, h_main_v80]; rfl

/-- Operation 95: writes main_v82. -/
abbrev op95 : HloOp τ sig (Elt F) :=
  unary main_v37 main_v82 ((extractStridedSlice S32768x7x7x2x1 ![0, 0, 0, 0, 2] · slices_S32768x7x7x2x4_S32768x7x7x2x1_0_0_0_0_2) : (⟨S32768x7x7x2x4, .f32⟩ : BufTy).Contents (Elt F) → (⟨S32768x7x7x2x1, .f32⟩ : BufTy).Contents (Elt F))

abbrev Inv95 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v82) = Read.val_main_v82 (F := F) x0

theorem step95 (x0 x1 : (⟨S32768x7x7x11, .f32⟩ : BufTy).Contents (Elt F)) (V : Valuation τ sig (Elt F)) (h : Inv94 x0 x1 V) :
    Inv95 x0 x1 ((op95 (F := F)).result V) := by
  obtain ⟨h0, h1, h_main_v3, h_main_v19, h_main_v21, h_main_v23, h_main_v37, h_main_v51, h_main_v70, h_main_v81⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v70]
  · simp (disch := decide) only [unary_result_ne', h_main_v81]
  · simp (disch := decide) only [unary_result', h_main_v37]; rfl

/-- Operation 96: writes main_v83. -/
abbrev op96 : HloOp τ sig (Elt F) :=
  reshape main_v82 main_v83 rfl shapeCasts_S32768x7x7x2x1_S32768x7x7x2

abbrev Inv96 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v83) = Read.val_main_v83 (F := F) x0

theorem step96 (x0 x1 : (⟨S32768x7x7x11, .f32⟩ : BufTy).Contents (Elt F)) (V : Valuation τ sig (Elt F)) (h : Inv95 x0 x1 V) :
    Inv96 x0 x1 ((op96 (F := F)).result V) := by
  obtain ⟨h0, h1, h_main_v3, h_main_v19, h_main_v21, h_main_v23, h_main_v37, h_main_v51, h_main_v70, h_main_v81, h_main_v82⟩ := h
  refine ⟨?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v70]
  · simp (disch := decide) only [reshape_result_ne', h_main_v81]
  · simp (disch := decide) only [reshape_result', h_main_v82]; rfl

/-- Operation 97: writes main_v84. -/
abbrev op97 : HloOp τ sig (Elt F) :=
  unary main_v37 main_v84 ((extractStridedSlice S32768x7x7x2x1 ![0, 0, 0, 0, 0] · slices_S32768x7x7x2x4_S32768x7x7x2x1_0_0_0_0_0) : (⟨S32768x7x7x2x4, .f32⟩ : BufTy).Contents (Elt F) → (⟨S32768x7x7x2x1, .f32⟩ : BufTy).Contents (Elt F))

abbrev Inv97 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v83) = Read.val_main_v83 (F := F) x0 ∧
    V (Proc.devRef .tc main_v84) = Read.val_main_v84 (F := F) x0

theorem step97 (x0 x1 : (⟨S32768x7x7x11, .f32⟩ : BufTy).Contents (Elt F)) (V : Valuation τ sig (Elt F)) (h : Inv96 x0 x1 V) :
    Inv97 x0 x1 ((op97 (F := F)).result V) := by
  obtain ⟨h0, h1, h_main_v3, h_main_v19, h_main_v21, h_main_v23, h_main_v37, h_main_v51, h_main_v70, h_main_v81, h_main_v83⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v70]
  · simp (disch := decide) only [unary_result_ne', h_main_v81]
  · simp (disch := decide) only [unary_result_ne', h_main_v83]
  · simp (disch := decide) only [unary_result', h_main_v37]; rfl

/-- Operation 98: writes main_v85. -/
abbrev op98 : HloOp τ sig (Elt F) :=
  reshape main_v84 main_v85 rfl shapeCasts_S32768x7x7x2x1_S32768x7x7x2

abbrev Inv98 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v83) = Read.val_main_v83 (F := F) x0 ∧
    V (Proc.devRef .tc main_v85) = Read.val_main_v85 (F := F) x0

theorem step98 (x0 x1 : (⟨S32768x7x7x11, .f32⟩ : BufTy).Contents (Elt F)) (V : Valuation τ sig (Elt F)) (h : Inv97 x0 x1 V) :
    Inv98 x0 x1 ((op98 (F := F)).result V) := by
  obtain ⟨h0, h1, h_main_v3, h_main_v19, h_main_v21, h_main_v23, h_main_v37, h_main_v51, h_main_v70, h_main_v81, h_main_v83, h_main_v84⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v70]
  · simp (disch := decide) only [reshape_result_ne', h_main_v81]
  · simp (disch := decide) only [reshape_result_ne', h_main_v83]
  · simp (disch := decide) only [reshape_result', h_main_v84]; rfl

/-- Operation 99: writes main_v86. -/
abbrev op99 : HloOp τ sig (Elt F) :=
  binary main_v83 main_v85 main_v86 (subf : (⟨S32768x7x7x2, .f32⟩ : BufTy).Contents (Elt F) → (⟨S32768x7x7x2, .f32⟩ : BufTy).Contents (Elt F) → (⟨S32768x7x7x2, .f32⟩ : BufTy).Contents (Elt F))

abbrev Inv99 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v86) = Read.val_main_v86 (F := F) x0

theorem step99 (x0 x1 : (⟨S32768x7x7x11, .f32⟩ : BufTy).Contents (Elt F)) (V : Valuation τ sig (Elt F)) (h : Inv98 x0 x1 V) :
    Inv99 x0 x1 ((op99 (F := F)).result V) := by
  obtain ⟨h0, h1, h_main_v3, h_main_v19, h_main_v21, h_main_v23, h_main_v37, h_main_v51, h_main_v70, h_main_v81, h_main_v83, h_main_v85⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v37]
  · simp (disch := decide) only [binary_result_ne', h_main_v51]
  · simp (disch := decide) only [binary_result_ne', h_main_v70]
  · simp (disch := decide) only [binary_result_ne', h_main_v81]
  · simp (disch := decide) only [binary_result', h_main_v83, h_main_v85]; rfl

end Cert.ReferenceIdeal.RefRun

end
-- ==== Proof.RefRunC.lean ====
/-
  The reference program's run, one operation at a time (operations 100 to 149 of 201).  After operation k the
  buffers still to be read hold the staged values of the reading module (`val_<buffer>` of the two arguments):
  `Inv k`.  Each operation keeps what it does not write and writes its function of what it reads, so `Inv (k-1)`
  before it gives `Inv k` after it.  A buffer leaves the invariant after its last reader.
-/
import proofs.«158835_j66340064854039_2_alg».proof.Proof.RefRead
import Idealize.ShloMosaic.Lib.StableHlo.Run
import proofs.«158835_j66340064854039_2_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operation 100: writes main_v87. -/
abbrev op100 : HloOp τ sig (Elt F) :=
  unary main_v37 main_v87 ((extractStridedSlice S32768x7x7x2x1 ![0, 0, 0, 0, 3] · slices_S32768x7x7x2x4_S32768x7x7x2x1_0_0_0_0_3) : (⟨S32768x7x7x2x4, .f32⟩ : BufTy).Contents (Elt F) → (⟨S32768x7x7x2x1, .f32⟩ : BufTy).Contents (Elt F))

abbrev Inv100 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v86) = Read.val_main_v86 (F := F) x0 ∧
    V (Proc.devRef .tc main_v87) = Read.val_main_v87 (F := F) x0

theorem step100 (x0 x1 : (⟨S32768x7x7x11, .f32⟩ : BufTy).Contents (Elt F)) (V : Valuation τ sig (Elt F)) (h : Inv99 x0 x1 V) :
    Inv100 x0 x1 ((op100 (F := F)).result V) := by
  obtain ⟨h0, h1, h_main_v3, h_main_v19, h_main_v21, h_main_v23, h_main_v37, h_main_v51, h_main_v70, h_main_v81, h_main_v86⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v37]
  · simp (disch := decide) only [unary_result_ne', h_main_v51]
  · simp (disch := decide) only [unary_result_ne', h_main_v70]
  · simp (disch := decide) only [unary_result_ne', h_main_v81]
  · simp (disch := decide) only [unary_result_ne', h_main_v86]
  · simp (disch := decide) only [unary_result', h_main_v37]; rfl

/-- Operation 101: writes main_v88. -/
abbrev op101 : HloOp τ sig (Elt F) :=
  reshape main_v87 main_v88 rfl shapeCasts_S32768x7x7x2x1_S32768x7x7x2

abbrev Inv101 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v37) = Read.val_main_v37 (F := F) x0 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v86) = Read.val_main_v86 (F := F) x0 ∧
    V (Proc.devRef .tc main_v88) = Read.val_main_v88 (F := F) x0

theorem step101 (x0 x1 : (⟨S32768x7x7x11, .f32⟩ : BufTy).Contents (Elt F)) (V : Valuation τ sig (Elt F)) (h : Inv100 x0 x1 V) :
    Inv101 x0 x1 ((op101 (F := F)).result V) := by
  obtain ⟨h0, h1, h_main_v3, h_main_v19, h_main_v21, h_main_v23, h_main_v37, h_main_v51, h_main_v70, h_main_v81, h_main_v86, h_main_v87⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v37]
  · simp (disch := decide) only [reshape_result_ne', h_main_v51]
  · simp (disch := decide) only [reshape_result_ne', h_main_v70]
  · simp (disch := decide) only [reshape_result_ne', h_main_v81]
  · simp (disch := decide) only [reshape_result_ne', h_main_v86]
  · simp (disch := decide) only [reshape_result', h_main_v87]; rfl

/-- Operation 102: writes main_v89. -/
abbrev op102 : HloOp τ sig (Elt F) :=
  unary main_v37 main_v89 ((extractStridedSlice S32768x7x7x2x1 ![0, 0, 0, 0, 1] · slices_S32768x7x7x2x4_S32768x7x7x2x1_0_0_0_0_1) : (⟨S32768x7x7x2x4, .f32⟩ : BufTy).Contents (Elt F) → (⟨S32768x7x7x2x1, .f32⟩ : BufTy).Contents (Elt F))

abbrev Inv102 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v86) = Read.val_main_v86 (F := F) x0 ∧
    V (Proc.devRef .tc main_v88) = Read.val_main_v88 (F := F) x0 ∧
    V (Proc.devRef .tc main_v89) = Read.val_main_v89 (F := F) x0

theorem step102 (x0 x1 : (⟨S32768x7x7x11, .f32⟩ : BufTy).Contents (Elt F)) (V : Valuation τ sig (Elt F)) (h : Inv101 x0 x1 V) :
    Inv102 x0 x1 ((op102 (F := F)).result V) := by
  obtain ⟨h0, h1, h_main_v3, h_main_v19, h_main_v21, h_main_v23, h_main_v37, h_main_v51, h_main_v70, h_main_v81, h_main_v86, h_main_v88⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v51]
  · simp (disch := decide) only [unary_result_ne', h_main_v70]
  · simp (disch := decide) only [unary_result_ne', h_main_v81]
  · simp (disch := decide) only [unary_result_ne', h_main_v86]
  · simp (disch := decide) only [unary_result_ne', h_main_v88]
  · simp (disch := decide) only [unary_result', h_main_v37]; rfl

/-- Operation 103: writes main_v90. -/
abbrev op103 : HloOp τ sig (Elt F) :=
  reshape main_v89 main_v90 rfl shapeCasts_S32768x7x7x2x1_S32768x7x7x2

abbrev Inv103 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v86) = Read.val_main_v86 (F := F) x0 ∧
    V (Proc.devRef .tc main_v88) = Read.val_main_v88 (F := F) x0 ∧
    V (Proc.devRef .tc main_v90) = Read.val_main_v90 (F := F) x0

theorem step103 (x0 x1 : (⟨S32768x7x7x11, .f32⟩ : BufTy).Contents (Elt F)) (V : Valuation τ sig (Elt F)) (h : Inv102 x0 x1 V) :
    Inv103 x0 x1 ((op103 (F := F)).result V) := by
  obtain ⟨h0, h1, h_main_v3, h_main_v19, h_main_v21, h_main_v23, h_main_v51, h_main_v70, h_main_v81, h_main_v86, h_main_v88, h_main_v89⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v51]
  · simp (disch := decide) only [reshape_result_ne', h_main_v70]
  · simp (disch := decide) only [reshape_result_ne', h_main_v81]
  · simp (disch := decide) only [reshape_result_ne', h_main_v86]
  · simp (disch := decide) only [reshape_result_ne', h_main_v88]
  · simp (disch := decide) only [reshape_result', h_main_v89]; rfl

/-- Operation 104: writes main_v91. -/
abbrev op104 : HloOp τ sig (Elt F) :=
  binary main_v88 main_v90 main_v91 (subf : (⟨S32768x7x7x2, .f32⟩ : BufTy).Contents (Elt F) → (⟨S32768x7x7x2, .f32⟩ : BufTy).Contents (Elt F) → (⟨S32768x7x7x2, .f32⟩ : BufTy).Contents (Elt F))

abbrev Inv104 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v86) = Read.val_main_v86 (F := F) x0 ∧
    V (Proc.devRef .tc main_v91) = Read.val_main_v91 (F := F) x0

theorem step104 (x0 x1 : (⟨S32768x7x7x11, .f32⟩ : BufTy).Contents (Elt F)) (V : Valuation τ sig (Elt F)) (h : Inv103 x0 x1 V) :
    Inv104 x0 x1 ((op104 (F := F)).result V) := by
  obtain ⟨h0, h1, h_main_v3, h_main_v19, h_main_v21, h_main_v23, h_main_v51, h_main_v70, h_main_v81, h_main_v86, h_main_v88, h_main_v90⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v51]
  · simp (disch := decide) only [binary_result_ne', h_main_v70]
  · simp (disch := decide) only [binary_result_ne', h_main_v81]
  · simp (disch := decide) only [binary_result_ne', h_main_v86]
  · simp (disch := decide) only [binary_result', h_main_v88, h_main_v90]; rfl

/-- Operation 105: writes main_v92. -/
abbrev op105 : HloOp τ sig (Elt F) :=
  binary main_v86 main_v91 main_v92 (mulf : (⟨S32768x7x7x2, .f32⟩ : BufTy).Contents (Elt F) → (⟨S32768x7x7x2, .f32⟩ : BufTy).Contents (Elt F) → (⟨S32768x7x7x2, .f32⟩ : BufTy).Contents (Elt F))

abbrev Inv105 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0

theorem step105 (x0 x1 : (⟨S32768x7x7x11, .f32⟩ : BufTy).Contents (Elt F)) (V : Valuation τ sig (Elt F)) (h : Inv104 x0 x1 V) :
    Inv105 x0 x1 ((op105 (F := F)).result V) := by
  obtain ⟨h0, h1, h_main_v3, h_main_v19, h_main_v21, h_main_v23, h_main_v51, h_main_v70, h_main_v81, h_main_v86, h_main_v91⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v51]
  · simp (disch := decide) only [binary_result_ne', h_main_v70]
  · simp (disch := decide) only [binary_result_ne', h_main_v81]
  · simp (disch := decide) only [binary_result', h_main_v86, h_main_v91]; rfl

/-- Operation 106: writes main_v93. -/
abbrev op106 : HloOp τ sig (Elt F) :=
  unary main_v51 main_v93 ((extractStridedSlice S32768x7x7x1x1 ![0, 0, 0, 0, 2] · slices_S32768x7x7x1x4_S32768x7x7x1x1_0_0_0_0_2) : (⟨S32768x7x7x1x4, .f32⟩ : BufTy).Contents (Elt F) → (⟨S32768x7x7x1x1, .f32⟩ : BufTy).Contents (Elt F))

abbrev Inv106 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v93) = Read.val_main_v93 (F := F) x1

theorem step106 (x0 x1 : (⟨S32768x7x7x11, .f32⟩ : BufTy).Contents (Elt F)) (V : Valuation τ sig (Elt F)) (h : Inv105 x0 x1 V) :
    Inv106 x0 x1 ((op106 (F := F)).result V) := by
  obtain ⟨h0, h1, h_main_v3, h_main_v19, h_main_v21, h_main_v23, h_main_v51, h_main_v70, h_main_v81, h_main_v92⟩ := h
  refine ⟨?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v51]
  · simp (disch := decide) only [unary_result_ne', h_main_v70]
  · simp (disch := decide) only [unary_result_ne', h_main_v81]
  · simp (disch := decide) only [unary_result_ne', h_main_v92]
  · simp (disch := decide) only [unary_result', h_main_v51]; rfl

/-- Operation 107: writes main_v94. -/
abbrev op107 : HloOp τ sig (Elt F) :=
  reshape main_v93 main_v94 rfl shapeCasts_S32768x7x7x1x1_S32768x7x7x1

abbrev Inv107 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v94) = Read.val_main_v94 (F := F) x1

theorem step107 (x0 x1 : (⟨S32768x7x7x11, .f32⟩ : BufTy).Contents (Elt F)) (V : Valuation τ sig (Elt F)) (h : Inv106 x0 x1 V) :
    Inv107 x0 x1 ((op107 (F := F)).result V) := by
  obtain ⟨h0, h1, h_main_v3, h_main_v19, h_main_v21, h_main_v23, h_main_v51, h_main_v70, h_main_v81, h_main_v92, h_main_v93⟩ := h
  refine ⟨?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v51]
  · simp (disch := decide) only [reshape_result_ne', h_main_v70]
  · simp (disch := decide) only [reshape_result_ne', h_main_v81]
  · simp (disch := decide) only [reshape_result_ne', h_main_v92]
  · simp (disch := decide) only [reshape_result', h_main_v93]; rfl

/-- Operation 108: writes main_v95. -/
abbrev op108 : HloOp τ sig (Elt F) :=
  unary main_v51 main_v95 ((extractStridedSlice S32768x7x7x1x1 ![0, 0, 0, 0, 0] · slices_S32768x7x7x1x4_S32768x7x7x1x1_0_0_0_0_0) : (⟨S32768x7x7x1x4, .f32⟩ : BufTy).Contents (Elt F) → (⟨S32768x7x7x1x1, .f32⟩ : BufTy).Contents (Elt F))

abbrev Inv108 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v94) = Read.val_main_v94 (F := F) x1 ∧
    V (Proc.devRef .tc main_v95) = Read.val_main_v95 (F := F) x1

theorem step108 (x0 x1 : (⟨S32768x7x7x11, .f32⟩ : BufTy).Contents (Elt F)) (V : Valuation τ sig (Elt F)) (h : Inv107 x0 x1 V) :
    Inv108 x0 x1 ((op108 (F := F)).result V) := by
  obtain ⟨h0, h1, h_main_v3, h_main_v19, h_main_v21, h_main_v23, h_main_v51, h_main_v70, h_main_v81, h_main_v92, h_main_v94⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v51]
  · simp (disch := decide) only [unary_result_ne', h_main_v70]
  · simp (disch := decide) only [unary_result_ne', h_main_v81]
  · simp (disch := decide) only [unary_result_ne', h_main_v92]
  · simp (disch := decide) only [unary_result_ne', h_main_v94]
  · simp (disch := decide) only [unary_result', h_main_v51]; rfl

/-- Operation 109: writes main_v96. -/
abbrev op109 : HloOp τ sig (Elt F) :=
  reshape main_v95 main_v96 rfl shapeCasts_S32768x7x7x1x1_S32768x7x7x1

abbrev Inv109 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v94) = Read.val_main_v94 (F := F) x1 ∧
    V (Proc.devRef .tc main_v96) = Read.val_main_v96 (F := F) x1

theorem step109 (x0 x1 : (⟨S32768x7x7x11, .f32⟩ : BufTy).Contents (Elt F)) (V : Valuation τ sig (Elt F)) (h : Inv108 x0 x1 V) :
    Inv109 x0 x1 ((op109 (F := F)).result V) := by
  obtain ⟨h0, h1, h_main_v3, h_main_v19, h_main_v21, h_main_v23, h_main_v51, h_main_v70, h_main_v81, h_main_v92, h_main_v94, h_main_v95⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v51]
  · simp (disch := decide) only [reshape_result_ne', h_main_v70]
  · simp (disch := decide) only [reshape_result_ne', h_main_v81]
  · simp (disch := decide) only [reshape_result_ne', h_main_v92]
  · simp (disch := decide) only [reshape_result_ne', h_main_v94]
  · simp (disch := decide) only [reshape_result', h_main_v95]; rfl

/-- Operation 110: writes main_v97. -/
abbrev op110 : HloOp τ sig (Elt F) :=
  binary main_v94 main_v96 main_v97 (subf : (⟨S32768x7x7x1, .f32⟩ : BufTy).Contents (Elt F) → (⟨S32768x7x7x1, .f32⟩ : BufTy).Contents (Elt F) → (⟨S32768x7x7x1, .f32⟩ : BufTy).Contents (Elt F))

abbrev Inv110 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v97) = Read.val_main_v97 (F := F) x1

theorem step110 (x0 x1 : (⟨S32768x7x7x11, .f32⟩ : BufTy).Contents (Elt F)) (V : Valuation τ sig (Elt F)) (h : Inv109 x0 x1 V) :
    Inv110 x0 x1 ((op110 (F := F)).result V) := by
  obtain ⟨h0, h1, h_main_v3, h_main_v19, h_main_v21, h_main_v23, h_main_v51, h_main_v70, h_main_v81, h_main_v92, h_main_v94, h_main_v96⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v51]
  · simp (disch := decide) only [binary_result_ne', h_main_v70]
  · simp (disch := decide) only [binary_result_ne', h_main_v81]
  · simp (disch := decide) only [binary_result_ne', h_main_v92]
  · simp (disch := decide) only [binary_result', h_main_v94, h_main_v96]; rfl

/-- Operation 111: writes main_v98. -/
abbrev op111 : HloOp τ sig (Elt F) :=
  unary main_v51 main_v98 ((extractStridedSlice S32768x7x7x1x1 ![0, 0, 0, 0, 3] · slices_S32768x7x7x1x4_S32768x7x7x1x1_0_0_0_0_3) : (⟨S32768x7x7x1x4, .f32⟩ : BufTy).Contents (Elt F) → (⟨S32768x7x7x1x1, .f32⟩ : BufTy).Contents (Elt F))

abbrev Inv111 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v97) = Read.val_main_v97 (F := F) x1 ∧
    V (Proc.devRef .tc main_v98) = Read.val_main_v98 (F := F) x1

theorem step111 (x0 x1 : (⟨S32768x7x7x11, .f32⟩ : BufTy).Contents (Elt F)) (V : Valuation τ sig (Elt F)) (h : Inv110 x0 x1 V) :
    Inv111 x0 x1 ((op111 (F := F)).result V) := by
  obtain ⟨h0, h1, h_main_v3, h_main_v19, h_main_v21, h_main_v23, h_main_v51, h_main_v70, h_main_v81, h_main_v92, h_main_v97⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v51]
  · simp (disch := decide) only [unary_result_ne', h_main_v70]
  · simp (disch := decide) only [unary_result_ne', h_main_v81]
  · simp (disch := decide) only [unary_result_ne', h_main_v92]
  · simp (disch := decide) only [unary_result_ne', h_main_v97]
  · simp (disch := decide) only [unary_result', h_main_v51]; rfl

/-- Operation 112: writes main_v99. -/
abbrev op112 : HloOp τ sig (Elt F) :=
  reshape main_v98 main_v99 rfl shapeCasts_S32768x7x7x1x1_S32768x7x7x1

abbrev Inv112 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v51) = Read.val_main_v51 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v97) = Read.val_main_v97 (F := F) x1 ∧
    V (Proc.devRef .tc main_v99) = Read.val_main_v99 (F := F) x1

theorem step112 (x0 x1 : (⟨S32768x7x7x11, .f32⟩ : BufTy).Contents (Elt F)) (V : Valuation τ sig (Elt F)) (h : Inv111 x0 x1 V) :
    Inv112 x0 x1 ((op112 (F := F)).result V) := by
  obtain ⟨h0, h1, h_main_v3, h_main_v19, h_main_v21, h_main_v23, h_main_v51, h_main_v70, h_main_v81, h_main_v92, h_main_v97, h_main_v98⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v51]
  · simp (disch := decide) only [reshape_result_ne', h_main_v70]
  · simp (disch := decide) only [reshape_result_ne', h_main_v81]
  · simp (disch := decide) only [reshape_result_ne', h_main_v92]
  · simp (disch := decide) only [reshape_result_ne', h_main_v97]
  · simp (disch := decide) only [reshape_result', h_main_v98]; rfl

/-- Operation 113: writes main_v100. -/
abbrev op113 : HloOp τ sig (Elt F) :=
  unary main_v51 main_v100 ((extractStridedSlice S32768x7x7x1x1 ![0, 0, 0, 0, 1] · slices_S32768x7x7x1x4_S32768x7x7x1x1_0_0_0_0_1) : (⟨S32768x7x7x1x4, .f32⟩ : BufTy).Contents (Elt F) → (⟨S32768x7x7x1x1, .f32⟩ : BufTy).Contents (Elt F))

abbrev Inv113 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v97) = Read.val_main_v97 (F := F) x1 ∧
    V (Proc.devRef .tc main_v99) = Read.val_main_v99 (F := F) x1 ∧
    V (Proc.devRef .tc main_v100) = Read.val_main_v100 (F := F) x1

theorem step113 (x0 x1 : (⟨S32768x7x7x11, .f32⟩ : BufTy).Contents (Elt F)) (V : Valuation τ sig (Elt F)) (h : Inv112 x0 x1 V) :
    Inv113 x0 x1 ((op113 (F := F)).result V) := by
  obtain ⟨h0, h1, h_main_v3, h_main_v19, h_main_v21, h_main_v23, h_main_v51, h_main_v70, h_main_v81, h_main_v92, h_main_v97, h_main_v99⟩ := h
  refine ⟨?_, ?_, ?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v70]
  · simp (disch := decide) only [unary_result_ne', h_main_v81]
  · simp (disch := decide) only [unary_result_ne', h_main_v92]
  · simp (disch := decide) only [unary_result_ne', h_main_v97]
  · simp (disch := decide) only [unary_result_ne', h_main_v99]
  · simp (disch := decide) only [unary_result', h_main_v51]; rfl

/-- Operation 114: writes main_v101. -/
abbrev op114 : HloOp τ sig (Elt F) :=
  reshape main_v100 main_v101 rfl shapeCasts_S32768x7x7x1x1_S32768x7x7x1

abbrev Inv114 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v97) = Read.val_main_v97 (F := F) x1 ∧
    V (Proc.devRef .tc main_v99) = Read.val_main_v99 (F := F) x1 ∧
    V (Proc.devRef .tc main_v101) = Read.val_main_v101 (F := F) x1

theorem step114 (x0 x1 : (⟨S32768x7x7x11, .f32⟩ : BufTy).Contents (Elt F)) (V : Valuation τ sig (Elt F)) (h : Inv113 x0 x1 V) :
    Inv114 x0 x1 ((op114 (F := F)).result V) := by
  obtain ⟨h0, h1, h_main_v3, h_main_v19, h_main_v21, h_main_v23, h_main_v70, h_main_v81, h_main_v92, h_main_v97, h_main_v99, h_main_v100⟩ := h
  refine ⟨?_, ?_, ?_, ?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v70]
  · simp (disch := decide) only [reshape_result_ne', h_main_v81]
  · simp (disch := decide) only [reshape_result_ne', h_main_v92]
  · simp (disch := decide) only [reshape_result_ne', h_main_v97]
  · simp (disch := decide) only [reshape_result_ne', h_main_v99]
  · simp (disch := decide) only [reshape_result', h_main_v100]; rfl

/-- Operation 115: writes main_v102. -/
abbrev op115 : HloOp τ sig (Elt F) :=
  binary main_v99 main_v101 main_v102 (subf : (⟨S32768x7x7x1, .f32⟩ : BufTy).Contents (Elt F) → (⟨S32768x7x7x1, .f32⟩ : BufTy).Contents (Elt F) → (⟨S32768x7x7x1, .f32⟩ : BufTy).Contents (Elt F))

abbrev Inv115 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v97) = Read.val_main_v97 (F := F) x1 ∧
    V (Proc.devRef .tc main_v102) = Read.val_main_v102 (F := F) x1

theorem step115 (x0 x1 : (⟨S32768x7x7x11, .f32⟩ : BufTy).Contents (Elt F)) (V : Valuation τ sig (Elt F)) (h : Inv114 x0 x1 V) :
    Inv115 x0 x1 ((op115 (F := F)).result V) := by
  obtain ⟨h0, h1, h_main_v3, h_main_v19, h_main_v21, h_main_v23, h_main_v70, h_main_v81, h_main_v92, h_main_v97, h_main_v99, h_main_v101⟩ := h
  refine ⟨?_, ?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v70]
  · simp (disch := decide) only [binary_result_ne', h_main_v81]
  · simp (disch := decide) only [binary_result_ne', h_main_v92]
  · simp (disch := decide) only [binary_result_ne', h_main_v97]
  · simp (disch := decide) only [binary_result', h_main_v99, h_main_v101]; rfl

/-- Operation 116: writes main_v103. -/
abbrev op116 : HloOp τ sig (Elt F) :=
  binary main_v97 main_v102 main_v103 (mulf : (⟨S32768x7x7x1, .f32⟩ : BufTy).Contents (Elt F) → (⟨S32768x7x7x1, .f32⟩ : BufTy).Contents (Elt F) → (⟨S32768x7x7x1, .f32⟩ : BufTy).Contents (Elt F))

abbrev Inv116 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v103) = Read.val_main_v103 (F := F) x1

theorem step116 (x0 x1 : (⟨S32768x7x7x11, .f32⟩ : BufTy).Contents (Elt F)) (V : Valuation τ sig (Elt F)) (h : Inv115 x0 x1 V) :
    Inv116 x0 x1 ((op116 (F := F)).result V) := by
  obtain ⟨h0, h1, h_main_v3, h_main_v19, h_main_v21, h_main_v23, h_main_v70, h_main_v81, h_main_v92, h_main_v97, h_main_v102⟩ := h
  refine ⟨?_, ?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v70]
  · simp (disch := decide) only [binary_result_ne', h_main_v81]
  · simp (disch := decide) only [binary_result_ne', h_main_v92]
  · simp (disch := decide) only [binary_result', h_main_v97, h_main_v102]; rfl

/-- Operation 117: writes main_v104. -/
abbrev op117 : HloOp τ sig (Elt F) :=
  unary main_v103 main_v104 (broadcastInDim S32768x7x7x2 ![0, 1, 2, 3] bcast_S32768x7x7x1_S32768x7x7x2_0_1_2_3 : (⟨S32768x7x7x1, .f32⟩ : BufTy).Contents (Elt F) → (⟨S32768x7x7x2, .f32⟩ : BufTy).Contents (Elt F))

abbrev Inv117 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v92) = Read.val_main_v92 (F := F) x0 ∧
    V (Proc.devRef .tc main_v104) = Read.val_main_v104 (F := F) x1

theorem step117 (x0 x1 : (⟨S32768x7x7x11, .f32⟩ : BufTy).Contents (Elt F)) (V : Valuation τ sig (Elt F)) (h : Inv116 x0 x1 V) :
    Inv117 x0 x1 ((op117 (F := F)).result V) := by
  obtain ⟨h0, h1, h_main_v3, h_main_v19, h_main_v21, h_main_v23, h_main_v70, h_main_v81, h_main_v92, h_main_v103⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v70]
  · simp (disch := decide) only [unary_result_ne', h_main_v81]
  · simp (disch := decide) only [unary_result_ne', h_main_v92]
  · simp (disch := decide) only [unary_result', h_main_v103]; rfl

/-- Operation 118: writes main_v105. -/
abbrev op118 : HloOp τ sig (Elt F) :=
  binary main_v92 main_v104 main_v105 (addf : (⟨S32768x7x7x2, .f32⟩ : BufTy).Contents (Elt F) → (⟨S32768x7x7x2, .f32⟩ : BufTy).Contents (Elt F) → (⟨S32768x7x7x2, .f32⟩ : BufTy).Contents (Elt F))

abbrev Inv118 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v105) = Read.val_main_v105 (F := F) x0 x1

theorem step118 (x0 x1 : (⟨S32768x7x7x11, .f32⟩ : BufTy).Contents (Elt F)) (V : Valuation τ sig (Elt F)) (h : Inv117 x0 x1 V) :
    Inv118 x0 x1 ((op118 (F := F)).result V) := by
  obtain ⟨h0, h1, h_main_v3, h_main_v19, h_main_v21, h_main_v23, h_main_v70, h_main_v81, h_main_v92, h_main_v104⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v70]
  · simp (disch := decide) only [binary_result_ne', h_main_v81]
  · simp (disch := decide) only [binary_result', h_main_v92, h_main_v104]; rfl

/-- Operation 119: writes main_v106. -/
abbrev op119 : HloOp τ sig (Elt F) :=
  binary main_v105 main_v81 main_v106 (subf : (⟨S32768x7x7x2, .f32⟩ : BufTy).Contents (Elt F) → (⟨S32768x7x7x2, .f32⟩ : BufTy).Contents (Elt F) → (⟨S32768x7x7x2, .f32⟩ : BufTy).Contents (Elt F))

abbrev Inv119 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v81) = Read.val_main_v81 (F := F) x0 x1 ∧
    V (Proc.devRef .tc main_v106) = Read.val_main_v106 (F := F) x0 x1

theorem step119 (x0 x1 : (⟨S32768x7x7x11, .f32⟩ : BufTy).Contents (Elt F)) (V : Valuation τ sig (Elt F)) (h : Inv118 x0 x1 V) :
    Inv119 x0 x1 ((op119 (F := F)).result V) := by
  obtain ⟨h0, h1, h_main_v3, h_main_v19, h_main_v21, h_main_v23, h_main_v70, h_main_v81, h_main_v105⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v70]
  · simp (disch := decide) only [binary_result_ne', h_main_v81]
  · simp (disch := decide) only [binary_result', h_main_v105, h_main_v81]; rfl

/-- Operation 120: writes main_v107. -/
abbrev op120 : HloOp τ sig (Elt F) :=
  binary main_v81 main_v106 main_v107 (Host.divf : (⟨S32768x7x7x2, .f32⟩ : BufTy).Contents (Elt F) → (⟨S32768x7x7x2, .f32⟩ : BufTy).Contents (Elt F) → (⟨S32768x7x7x2, .f32⟩ : BufTy).Contents (Elt F))

abbrev Inv120 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v107) = Read.val_main_v107 (F := F) x0 x1

theorem step120 (x0 x1 : (⟨S32768x7x7x11, .f32⟩ : BufTy).Contents (Elt F)) (V : Valuation τ sig (Elt F)) (h : Inv119 x0 x1 V) :
    Inv120 x0 x1 ((op120 (F := F)).result V) := by
  obtain ⟨h0, h1, h_main_v3, h_main_v19, h_main_v21, h_main_v23, h_main_v70, h_main_v81, h_main_v106⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v70]
  · simp (disch := decide) only [binary_result', h_main_v81, h_main_v106]; rfl

/-- Operation 121: writes main_cst_10. -/
abbrev op121 : HloOp τ sig (Elt F) :=
  nullary main_cst_10 (constant S_ .f32 0x00000000#32)

abbrev Inv121 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v107) = Read.val_main_v107 (F := F) x0 x1 ∧
    V (Proc.devRef .tc main_cst_10) = Read.val_main_cst_10 (F := F)

theorem step121 (x0 x1 : (⟨S32768x7x7x11, .f32⟩ : BufTy).Contents (Elt F)) (V : Valuation τ sig (Elt F)) (h : Inv120 x0 x1 V) :
    Inv121 x0 x1 ((op121 (F := F)).result V) := by
  obtain ⟨h0, h1, h_main_v3, h_main_v19, h_main_v21, h_main_v23, h_main_v70, h_main_v107⟩ := h
  refine ⟨?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v70]
  · simp (disch := decide) only [nullary_result_ne', h_main_v107]
  · simp (disch := decide) only [nullary_result']; rfl

/-- Operation 122: writes main_call1_v0. -/
abbrev op122 : HloOp τ sig (Elt F) :=
  TRef.unary (TRef.of (T := ⟨S_, .f32⟩) main_cst_10) (TRef.of (T := ⟨S_, .f32⟩) main_call1_v0) id

abbrev Inv122 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v107) = Read.val_main_v107 (F := F) x0 x1 ∧
    V (Proc.devRef .tc main_call1_v0) = Read.val_main_call1_v0 (F := F)

theorem step122 (x0 x1 : (⟨S32768x7x7x11, .f32⟩ : BufTy).Contents (Elt F)) (V : Valuation τ sig (Elt F)) (h : Inv121 x0 x1 V) :
    Inv122 x0 x1 ((op122 (F := F)).result V) := by
  obtain ⟨h0, h1, h_main_v3, h_main_v19, h_main_v21, h_main_v23, h_main_v70, h_main_v107, h_main_cst_10⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v70]
  · simp (disch := decide) only [unary_result_ne', h_main_v107]
  · simp (disch := decide) only [unary_result', h_main_cst_10]; rfl

/-- Operation 123: writes main_call1_v1. -/
abbrev op123 : HloOp τ sig (Elt F) :=
  TRef.unary (TRef.of (T := ⟨S_, .f32⟩) main_call1_v0) (TRef.of (T := ⟨S32768x7x7x2, .f32⟩) main_call1_v1) (broadcastInDim S32768x7x7x2 ![] bcast_S_S32768x7x7x2)

abbrev Inv123 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v70) = Read.val_main_v70 (F := F) x0 x1 ∧
    V (Proc.devRef .tc main_v107) = Read.val_main_v107 (F := F) x0 x1 ∧
    V (Proc.devRef .tc main_call1_v1) = Read.val_main_call1_v1 (F := F)

theorem step123 (x0 x1 : (⟨S32768x7x7x11, .f32⟩ : BufTy).Contents (Elt F)) (V : Valuation τ sig (Elt F)) (h : Inv122 x0 x1 V) :
    Inv123 x0 x1 ((op123 (F := F)).result V) := by
  obtain ⟨h0, h1, h_main_v3, h_main_v19, h_main_v21, h_main_v23, h_main_v70, h_main_v107, h_main_call1_v0⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v70]
  · simp (disch := decide) only [unary_result_ne', h_main_v107]
  · simp (disch := decide) only [unary_result', h_main_call1_v0]; rfl

/-- Operation 124: writes main_v108. -/
abbrev op124 : HloOp τ sig (Elt F) :=
  TRef.ternary (TRef.of (T := ⟨S32768x7x7x2, .i1⟩) main_v70) (TRef.of (T := ⟨S32768x7x7x2, .f32⟩) main_v107) (TRef.of (T := ⟨S32768x7x7x2, .f32⟩) main_call1_v1) (TRef.of (T := ⟨S32768x7x7x2, .f32⟩) main_v108) select

abbrev Inv124 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1

theorem step124 (x0 x1 : (⟨S32768x7x7x11, .f32⟩ : BufTy).Contents (Elt F)) (V : Valuation τ sig (Elt F)) (h : Inv123 x0 x1 V) :
    Inv124 x0 x1 ((op124 (F := F)).result V) := by
  obtain ⟨h0, h1, h_main_v3, h_main_v19, h_main_v21, h_main_v23, h_main_v70, h_main_v107, h_main_call1_v1⟩ := h
  refine ⟨?_, ?_, ?_, ?_, ?_, ?_, ?_⟩
  · simp (disch := decide) only [ternary_result_ne', h0]
  · simp (disch := decide) only [ternary_result_ne', h1]
  · simp (disch := decide) only [ternary_result_ne', h_main_v3]
  · simp (disch := decide) only [ternary_result_ne', h_main_v19]
  · simp (disch := decide) only [ternary_result_ne', h_main_v21]
  · simp (disch := decide) only [ternary_result_ne', h_main_v23]
  · simp (disch := decide) only [ternary_result', h_main_v70, h_main_v107, h_main_call1_v1]; rfl

/-- Operation 125: writes main_v109. -/
abbrev op125 : HloOp τ sig (Elt F) :=
  unary main_v108 main_v109 ((extractStridedSlice S32768x7x7x1 ![0, 0, 0, 0] · slices_S32768x7x7x2_S32768x7x7x1_0_0_0_0) : (⟨S32768x7x7x2, .f32⟩ : BufTy).Contents (Elt F) → (⟨S32768x7x7x1, .f32⟩ : BufTy).Contents (Elt F))

abbrev Inv125 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v109) = Read.val_main_v109 (F := F) x0 x1

theorem step125 (x0 x1 : (⟨S32768x7x7x11, .f32⟩ : BufTy).Contents (Elt F)) (V : Valuation τ sig (Elt F)) (h : Inv124 x0 x1 V) :
    Inv125 x0 x1 ((op125 (F := F)).result V) := by
  obtain ⟨h0, h1, h_main_v3, h_main_v19, h_main_v21, h_main_v23, h_main_v108⟩ := h
  refine ⟨?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v108]
  · simp (disch := decide) only [unary_result', h_main_v108]; rfl

/-- Operation 126: writes main_v110. -/
abbrev op126 : HloOp τ sig (Elt F) :=
  reshape main_v109 main_v110 rfl shapeCasts_S32768x7x7x1_S32768x7x7

abbrev Inv126 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v110) = Read.val_main_v110 (F := F) x0 x1

theorem step126 (x0 x1 : (⟨S32768x7x7x11, .f32⟩ : BufTy).Contents (Elt F)) (V : Valuation τ sig (Elt F)) (h : Inv125 x0 x1 V) :
    Inv126 x0 x1 ((op126 (F := F)).result V) := by
  obtain ⟨h0, h1, h_main_v3, h_main_v19, h_main_v21, h_main_v23, h_main_v108, h_main_v109⟩ := h
  refine ⟨?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v108]
  · simp (disch := decide) only [reshape_result', h_main_v109]; rfl

/-- Operation 127: writes main_v111. -/
abbrev op127 : HloOp τ sig (Elt F) :=
  unary main_v108 main_v111 ((extractStridedSlice S32768x7x7x1 ![0, 0, 0, 1] · slices_S32768x7x7x2_S32768x7x7x1_0_0_0_1) : (⟨S32768x7x7x2, .f32⟩ : BufTy).Contents (Elt F) → (⟨S32768x7x7x1, .f32⟩ : BufTy).Contents (Elt F))

abbrev Inv127 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v110) = Read.val_main_v110 (F := F) x0 x1 ∧
    V (Proc.devRef .tc main_v111) = Read.val_main_v111 (F := F) x0 x1

theorem step127 (x0 x1 : (⟨S32768x7x7x11, .f32⟩ : BufTy).Contents (Elt F)) (V : Valuation τ sig (Elt F)) (h : Inv126 x0 x1 V) :
    Inv127 x0 x1 ((op127 (F := F)).result V) := by
  obtain ⟨h0, h1, h_main_v3, h_main_v19, h_main_v21, h_main_v23, h_main_v108, h_main_v110⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v108]
  · simp (disch := decide) only [unary_result_ne', h_main_v110]
  · simp (disch := decide) only [unary_result', h_main_v108]; rfl

/-- Operation 128: writes main_v112. -/
abbrev op128 : HloOp τ sig (Elt F) :=
  reshape main_v111 main_v112 rfl shapeCasts_S32768x7x7x1_S32768x7x7

abbrev Inv128 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v110) = Read.val_main_v110 (F := F) x0 x1 ∧
    V (Proc.devRef .tc main_v112) = Read.val_main_v112 (F := F) x0 x1

theorem step128 (x0 x1 : (⟨S32768x7x7x11, .f32⟩ : BufTy).Contents (Elt F)) (V : Valuation τ sig (Elt F)) (h : Inv127 x0 x1 V) :
    Inv128 x0 x1 ((op128 (F := F)).result V) := by
  obtain ⟨h0, h1, h_main_v3, h_main_v19, h_main_v21, h_main_v23, h_main_v108, h_main_v110, h_main_v111⟩ := h
  refine ⟨?_, ?_, ?_, ?_, ?_, ?_, ?_, ?_, ?_⟩
  · simp (disch := decide) only [reshape_result_ne', h0]
  · simp (disch := decide) only [reshape_result_ne', h1]
  · simp (disch := decide) only [reshape_result_ne', h_main_v3]
  · simp (disch := decide) only [reshape_result_ne', h_main_v19]
  · simp (disch := decide) only [reshape_result_ne', h_main_v21]
  · simp (disch := decide) only [reshape_result_ne', h_main_v23]
  · simp (disch := decide) only [reshape_result_ne', h_main_v108]
  · simp (disch := decide) only [reshape_result_ne', h_main_v110]
  · simp (disch := decide) only [reshape_result', h_main_v111]; rfl

/-- Operation 129: writes main_v113. -/
abbrev op129 : HloOp τ sig (Elt F) :=
  binary main_v110 main_v112 main_v113 (cmpf .ogt : (⟨S32768x7x7, .f32⟩ : BufTy).Contents (Elt F) → (⟨S32768x7x7, .f32⟩ : BufTy).Contents (Elt F) → (⟨S32768x7x7, .i1⟩ : BufTy).Contents (Elt F))

abbrev Inv129 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v113) = Read.val_main_v113 (F := F) x0 x1

theorem step129 (x0 x1 : (⟨S32768x7x7x11, .f32⟩ : BufTy).Contents (Elt F)) (V : Valuation τ sig (Elt F)) (h : Inv128 x0 x1 V) :
    Inv129 x0 x1 ((op129 (F := F)).result V) := by
  obtain ⟨h0, h1, h_main_v3, h_main_v19, h_main_v21, h_main_v23, h_main_v108, h_main_v110, h_main_v112⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v108]
  · simp (disch := decide) only [binary_result', h_main_v110, h_main_v112]; rfl

/-- Operation 130: writes main_v114. -/
abbrev op130 : HloOp τ sig (Elt F) :=
  unary main_v113 main_v114 (noti : (⟨S32768x7x7, .i1⟩ : BufTy).Contents (Elt F) → (⟨S32768x7x7, .i1⟩ : BufTy).Contents (Elt F))

abbrev Inv130 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v113) = Read.val_main_v113 (F := F) x0 x1 ∧
    V (Proc.devRef .tc main_v114) = Read.val_main_v114 (F := F) x0 x1

theorem step130 (x0 x1 : (⟨S32768x7x7x11, .f32⟩ : BufTy).Contents (Elt F)) (V : Valuation τ sig (Elt F)) (h : Inv129 x0 x1 V) :
    Inv130 x0 x1 ((op130 (F := F)).result V) := by
  obtain ⟨h0, h1, h_main_v3, h_main_v19, h_main_v21, h_main_v23, h_main_v108, h_main_v113⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v108]
  · simp (disch := decide) only [unary_result_ne', h_main_v113]
  · simp (disch := decide) only [unary_result', h_main_v113]; rfl

/-- Operation 131: writes main_v115. -/
abbrev op131 : HloOp τ sig (Elt F) :=
  unary main_v113 main_v115 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F))

abbrev Inv131 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v114) = Read.val_main_v114 (F := F) x0 x1 ∧
    V (Proc.devRef .tc main_v115) = Read.val_main_v115 (F := F) x0 x1

theorem step131 (x0 x1 : (⟨S32768x7x7x11, .f32⟩ : BufTy).Contents (Elt F)) (V : Valuation τ sig (Elt F)) (h : Inv130 x0 x1 V) :
    Inv131 x0 x1 ((op131 (F := F)).result V) := by
  obtain ⟨h0, h1, h_main_v3, h_main_v19, h_main_v21, h_main_v23, h_main_v108, h_main_v113, h_main_v114⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v108]
  · simp (disch := decide) only [unary_result_ne', h_main_v114]
  · simp (disch := decide) only [unary_result', h_main_v113]; rfl

/-- Operation 132: writes main_v116. -/
abbrev op132 : HloOp τ sig (Elt F) :=
  unary main_v114 main_v116 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F))

abbrev Inv132 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v115) = Read.val_main_v115 (F := F) x0 x1 ∧
    V (Proc.devRef .tc main_v116) = Read.val_main_v116 (F := F) x0 x1

theorem step132 (x0 x1 : (⟨S32768x7x7x11, .f32⟩ : BufTy).Contents (Elt F)) (V : Valuation τ sig (Elt F)) (h : Inv131 x0 x1 V) :
    Inv132 x0 x1 ((op132 (F := F)).result V) := by
  obtain ⟨h0, h1, h_main_v3, h_main_v19, h_main_v21, h_main_v23, h_main_v108, h_main_v114, h_main_v115⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v108]
  · simp (disch := decide) only [unary_result_ne', h_main_v115]
  · simp (disch := decide) only [unary_result', h_main_v114]; rfl

/-- Operation 133: writes main_v117. -/
abbrev op133 : HloOp τ sig (Elt F) :=
  binary main_v115 main_v116 main_v117 ((fun a b => concatenate S32768x7x7x2 3 [⟨S32768x7x7x1, a⟩, ⟨S32768x7x7x1, b⟩] concatenates_S32768x7x7x1_S32768x7x7x1_S32768x7x7x2_d3) : (⟨S32768x7x7x1, .i1⟩ : BufTy).Contents (Elt F) → (⟨S32768x7x7x1, .i1⟩ : BufTy).Contents (Elt F) → (⟨S32768x7x7x2, .i1⟩ : BufTy).Contents (Elt F))

abbrev Inv133 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v117) = Read.val_main_v117 (F := F) x0 x1

theorem step133 (x0 x1 : (⟨S32768x7x7x11, .f32⟩ : BufTy).Contents (Elt F)) (V : Valuation τ sig (Elt F)) (h : Inv132 x0 x1 V) :
    Inv133 x0 x1 ((op133 (F := F)).result V) := by
  obtain ⟨h0, h1, h_main_v3, h_main_v19, h_main_v21, h_main_v23, h_main_v108, h_main_v115, h_main_v116⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v108]
  · simp (disch := decide) only [binary_result']; rw [h_main_v115, h_main_v116]; rfl

/-- Operation 134: writes main_cst_11. -/
abbrev op134 : HloOp τ sig (Elt F) :=
  nullary main_cst_11 (constant S_ .f32 0xFF800000#32)

abbrev Inv134 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v108) = Read.val_main_v108 (F := F) x0 x1 ∧
    V (Proc.devRef .tc main_v117) = Read.val_main_v117 (F := F) x0 x1 ∧
    V (Proc.devRef .tc main_cst_11) = Read.val_main_cst_11 (F := F)

theorem step134 (x0 x1 : (⟨S32768x7x7x11, .f32⟩ : BufTy).Contents (Elt F)) (V : Valuation τ sig (Elt F)) (h : Inv133 x0 x1 V) :
    Inv134 x0 x1 ((op134 (F := F)).result V) := by
  obtain ⟨h0, h1, h_main_v3, h_main_v19, h_main_v21, h_main_v23, h_main_v108, h_main_v117⟩ := h
  refine ⟨?_, ?_, ?_, ?_, ?_, ?_, ?_, ?_, ?_⟩
  · simp (disch := decide) only [nullary_result_ne', h0]
  · simp (disch := decide) only [nullary_result_ne', h1]
  · simp (disch := decide) only [nullary_result_ne', h_main_v3]
  · simp (disch := decide) only [nullary_result_ne', h_main_v19]
  · simp (disch := decide) only [nullary_result_ne', h_main_v21]
  · simp (disch := decide) only [nullary_result_ne', h_main_v23]
  · simp (disch := decide) only [nullary_result_ne', h_main_v108]
  · simp (disch := decide) only [nullary_result_ne', h_main_v117]
  · simp (disch := decide) only [nullary_result']; rfl

/-- Operation 135: writes main_v118. -/
abbrev op135 : HloOp τ sig (Elt F) :=
  binary main_v108 main_cst_11 main_v118 ((fun x v => Host.reduce FloatOps.maximumf x v reducesTo_S32768x7x7x2_S32768x7x7_d3 h_S_) : (⟨S32768x7x7x2, .f32⟩ : BufTy).Contents (Elt F) → (⟨S_, .f32⟩ : BufTy).Contents (Elt F) → (⟨S32768x7x7, .f32⟩ : BufTy).Contents (Elt F))

abbrev Inv135 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v117) = Read.val_main_v117 (F := F) x0 x1 ∧
    V (Proc.devRef .tc main_v118) = Read.val_main_v118 (F := F) x0 x1

theorem step135 (x0 x1 : (⟨S32768x7x7x11, .f32⟩ : BufTy).Contents (Elt F)) (V : Valuation τ sig (Elt F)) (h : Inv134 x0 x1 V) :
    Inv135 x0 x1 ((op135 (F := F)).result V) := by
  obtain ⟨h0, h1, h_main_v3, h_main_v19, h_main_v21, h_main_v23, h_main_v108, h_main_v117, h_main_cst_11⟩ := h
  refine ⟨?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v117]
  · simp (disch := decide) only [binary_result', h_main_v108, h_main_cst_11]; rfl

/-- Operation 136: writes main_v119. -/
abbrev op136 : HloOp τ sig (Elt F) :=
  unary main_v3 main_v119 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F))

abbrev Inv136 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v117) = Read.val_main_v117 (F := F) x0 x1 ∧
    V (Proc.devRef .tc main_v118) = Read.val_main_v118 (F := F) x0 x1 ∧
    V (Proc.devRef .tc main_v119) = Read.val_main_v119 (F := F) x1

theorem step136 (x0 x1 : (⟨S32768x7x7x11, .f32⟩ : BufTy).Contents (Elt F)) (V : Valuation τ sig (Elt F)) (h : Inv135 x0 x1 V) :
    Inv136 x0 x1 ((op136 (F := F)).result V) := by
  obtain ⟨h0, h1, h_main_v3, h_main_v19, h_main_v21, h_main_v23, h_main_v117, h_main_v118⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v117]
  · simp (disch := decide) only [unary_result_ne', h_main_v118]
  · simp (disch := decide) only [unary_result', h_main_v3]; rfl

/-- Operation 137: writes main_v120. -/
abbrev op137 : HloOp τ sig (Elt F) :=
  unary main_v119 main_v120 (broadcastInDim S32768x7x7x2 ![0, 1, 2, 3] bcast_S32768x7x7x1_S32768x7x7x2_0_1_2_3 : (⟨S32768x7x7x1, .i1⟩ : BufTy).Contents (Elt F) → (⟨S32768x7x7x2, .i1⟩ : BufTy).Contents (Elt F))

abbrev Inv137 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v117) = Read.val_main_v117 (F := F) x0 x1 ∧
    V (Proc.devRef .tc main_v118) = Read.val_main_v118 (F := F) x0 x1 ∧
    V (Proc.devRef .tc main_v120) = Read.val_main_v120 (F := F) x1

theorem step137 (x0 x1 : (⟨S32768x7x7x11, .f32⟩ : BufTy).Contents (Elt F)) (V : Valuation τ sig (Elt F)) (h : Inv136 x0 x1 V) :
    Inv137 x0 x1 ((op137 (F := F)).result V) := by
  obtain ⟨h0, h1, h_main_v3, h_main_v19, h_main_v21, h_main_v23, h_main_v117, h_main_v118, h_main_v119⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v3]
  · simp (disch := decide) only [unary_result_ne', h_main_v19]
  · simp (disch := decide) only [unary_result_ne', h_main_v21]
  · simp (disch := decide) only [unary_result_ne', h_main_v23]
  · simp (disch := decide) only [unary_result_ne', h_main_v117]
  · simp (disch := decide) only [unary_result_ne', h_main_v118]
  · simp (disch := decide) only [unary_result', h_main_v119]; rfl

/-- Operation 138: writes main_v121. -/
abbrev op138 : HloOp τ sig (Elt F) :=
  binary main_v120 main_v117 main_v121 (andi : (⟨S32768x7x7x2, .i1⟩ : BufTy).Contents (Elt F) → (⟨S32768x7x7x2, .i1⟩ : BufTy).Contents (Elt F) → (⟨S32768x7x7x2, .i1⟩ : BufTy).Contents (Elt F))

abbrev Inv138 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v3) = Read.val_main_v3 (F := F) x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v117) = Read.val_main_v117 (F := F) x0 x1 ∧
    V (Proc.devRef .tc main_v118) = Read.val_main_v118 (F := F) x0 x1 ∧
    V (Proc.devRef .tc main_v121) = Read.val_main_v121 (F := F) x0 x1

theorem step138 (x0 x1 : (⟨S32768x7x7x11, .f32⟩ : BufTy).Contents (Elt F)) (V : Valuation τ sig (Elt F)) (h : Inv137 x0 x1 V) :
    Inv138 x0 x1 ((op138 (F := F)).result V) := by
  obtain ⟨h0, h1, h_main_v3, h_main_v19, h_main_v21, h_main_v23, h_main_v117, h_main_v118, h_main_v120⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v3]
  · simp (disch := decide) only [binary_result_ne', h_main_v19]
  · simp (disch := decide) only [binary_result_ne', h_main_v21]
  · simp (disch := decide) only [binary_result_ne', h_main_v23]
  · simp (disch := decide) only [binary_result_ne', h_main_v117]
  · simp (disch := decide) only [binary_result_ne', h_main_v118]
  · simp (disch := decide) only [binary_result', h_main_v120, h_main_v117]; rfl

/-- Operation 139: writes main_v122. -/
abbrev op139 : HloOp τ sig (Elt F) :=
  unary main_v3 main_v122 (broadcastInDim S32768x7x7x1 ![0, 1, 2] bcast_S32768x7x7_S32768x7x7x1_0_1_2 : (⟨S32768x7x7, .i1⟩ : BufTy).Contents (Elt F) → (⟨S32768x7x7x1, .i1⟩ : BufTy).Contents (Elt F))

abbrev Inv139 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v117) = Read.val_main_v117 (F := F) x0 x1 ∧
    V (Proc.devRef .tc main_v118) = Read.val_main_v118 (F := F) x0 x1 ∧
    V (Proc.devRef .tc main_v121) = Read.val_main_v121 (F := F) x0 x1 ∧
    V (Proc.devRef .tc main_v122) = Read.val_main_v122 (F := F) x1

theorem step139 (x0 x1 : (⟨S32768x7x7x11, .f32⟩ : BufTy).Contents (Elt F)) (V : Valuation τ sig (Elt F)) (h : Inv138 x0 x1 V) :
    Inv139 x0 x1 ((op139 (F := F)).result V) := by
  obtain ⟨h0, h1, h_main_v3, h_main_v19, h_main_v21, h_main_v23, h_main_v117, h_main_v118, h_main_v121⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v117]
  · simp (disch := decide) only [unary_result_ne', h_main_v118]
  · simp (disch := decide) only [unary_result_ne', h_main_v121]
  · simp (disch := decide) only [unary_result', h_main_v3]; rfl

/-- Operation 140: writes main_v123. -/
abbrev op140 : HloOp τ sig (Elt F) :=
  unary main_v117 main_v123 (noti : (⟨S32768x7x7x2, .i1⟩ : BufTy).Contents (Elt F) → (⟨S32768x7x7x2, .i1⟩ : BufTy).Contents (Elt F))

abbrev Inv140 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v118) = Read.val_main_v118 (F := F) x0 x1 ∧
    V (Proc.devRef .tc main_v121) = Read.val_main_v121 (F := F) x0 x1 ∧
    V (Proc.devRef .tc main_v122) = Read.val_main_v122 (F := F) x1 ∧
    V (Proc.devRef .tc main_v123) = Read.val_main_v123 (F := F) x0 x1

theorem step140 (x0 x1 : (⟨S32768x7x7x11, .f32⟩ : BufTy).Contents (Elt F)) (V : Valuation τ sig (Elt F)) (h : Inv139 x0 x1 V) :
    Inv140 x0 x1 ((op140 (F := F)).result V) := by
  obtain ⟨h0, h1, h_main_v19, h_main_v21, h_main_v23, h_main_v117, h_main_v118, h_main_v121, h_main_v122⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v118]
  · simp (disch := decide) only [unary_result_ne', h_main_v121]
  · simp (disch := decide) only [unary_result_ne', h_main_v122]
  · simp (disch := decide) only [unary_result', h_main_v117]; rfl

/-- Operation 141: writes main_v124. -/
abbrev op141 : HloOp τ sig (Elt F) :=
  unary main_v122 main_v124 (broadcastInDim S32768x7x7x2 ![0, 1, 2, 3] bcast_S32768x7x7x1_S32768x7x7x2_0_1_2_3 : (⟨S32768x7x7x1, .i1⟩ : BufTy).Contents (Elt F) → (⟨S32768x7x7x2, .i1⟩ : BufTy).Contents (Elt F))

abbrev Inv141 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v118) = Read.val_main_v118 (F := F) x0 x1 ∧
    V (Proc.devRef .tc main_v121) = Read.val_main_v121 (F := F) x0 x1 ∧
    V (Proc.devRef .tc main_v123) = Read.val_main_v123 (F := F) x0 x1 ∧
    V (Proc.devRef .tc main_v124) = Read.val_main_v124 (F := F) x1

theorem step141 (x0 x1 : (⟨S32768x7x7x11, .f32⟩ : BufTy).Contents (Elt F)) (V : Valuation τ sig (Elt F)) (h : Inv140 x0 x1 V) :
    Inv141 x0 x1 ((op141 (F := F)).result V) := by
  obtain ⟨h0, h1, h_main_v19, h_main_v21, h_main_v23, h_main_v118, h_main_v121, h_main_v122, h_main_v123⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v118]
  · simp (disch := decide) only [unary_result_ne', h_main_v121]
  · simp (disch := decide) only [unary_result_ne', h_main_v123]
  · simp (disch := decide) only [unary_result', h_main_v122]; rfl

/-- Operation 142: writes main_v125. -/
abbrev op142 : HloOp τ sig (Elt F) :=
  binary main_v124 main_v123 main_v125 (andi : (⟨S32768x7x7x2, .i1⟩ : BufTy).Contents (Elt F) → (⟨S32768x7x7x2, .i1⟩ : BufTy).Contents (Elt F) → (⟨S32768x7x7x2, .i1⟩ : BufTy).Contents (Elt F))

abbrev Inv142 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v118) = Read.val_main_v118 (F := F) x0 x1 ∧
    V (Proc.devRef .tc main_v121) = Read.val_main_v121 (F := F) x0 x1 ∧
    V (Proc.devRef .tc main_v125) = Read.val_main_v125 (F := F) x0 x1

theorem step142 (x0 x1 : (⟨S32768x7x7x11, .f32⟩ : BufTy).Contents (Elt F)) (V : Valuation τ sig (Elt F)) (h : Inv141 x0 x1 V) :
    Inv142 x0 x1 ((op142 (F := F)).result V) := by
  obtain ⟨h0, h1, h_main_v19, h_main_v21, h_main_v23, h_main_v118, h_main_v121, h_main_v123, h_main_v124⟩ := h
  refine ⟨?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v118]
  · simp (disch := decide) only [binary_result_ne', h_main_v121]
  · simp (disch := decide) only [binary_result', h_main_v124, h_main_v123]; rfl

/-- Operation 143: writes main_v126. -/
abbrev op143 : HloOp τ sig (Elt F) :=
  unary main_v21 main_v126 ((extractStridedSlice S32768x7x7x2x1 ![0, 0, 0, 0, 4] · slices_S32768x7x7x2x5_S32768x7x7x2x1_0_0_0_0_4) : (⟨S32768x7x7x2x5, .f32⟩ : BufTy).Contents (Elt F) → (⟨S32768x7x7x2x1, .f32⟩ : BufTy).Contents (Elt F))

abbrev Inv143 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v118) = Read.val_main_v118 (F := F) x0 x1 ∧
    V (Proc.devRef .tc main_v121) = Read.val_main_v121 (F := F) x0 x1 ∧
    V (Proc.devRef .tc main_v125) = Read.val_main_v125 (F := F) x0 x1 ∧
    V (Proc.devRef .tc main_v126) = Read.val_main_v126 (F := F) x0

theorem step143 (x0 x1 : (⟨S32768x7x7x11, .f32⟩ : BufTy).Contents (Elt F)) (V : Valuation τ sig (Elt F)) (h : Inv142 x0 x1 V) :
    Inv143 x0 x1 ((op143 (F := F)).result V) := by
  obtain ⟨h0, h1, h_main_v19, h_main_v21, h_main_v23, h_main_v118, h_main_v121, h_main_v125⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v118]
  · simp (disch := decide) only [unary_result_ne', h_main_v121]
  · simp (disch := decide) only [unary_result_ne', h_main_v125]
  · simp (disch := decide) only [unary_result', h_main_v21]; rfl

/-- Operation 144: writes main_v127. -/
abbrev op144 : HloOp τ sig (Elt F) :=
  reshape main_v126 main_v127 rfl shapeCasts_S32768x7x7x2x1_S32768x7x7x2

abbrev Inv144 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v118) = Read.val_main_v118 (F := F) x0 x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0

theorem step144 (x0 x1 : (⟨S32768x7x7x11, .f32⟩ : BufTy).Contents (Elt F)) (V : Valuation τ sig (Elt F)) (h : Inv143 x0 x1 V) :
    Inv144 x0 x1 ((op144 (F := F)).result V) := by
  obtain ⟨h0, h1, h_main_v19, h_main_v21, h_main_v23, h_main_v118, h_main_v121, h_main_v125, h_main_v126⟩ := h
  refine ⟨?_, ?_, ?_, ?_, ?_, ?_, ?_, ?_, ?_⟩
  · simp (disch := decide) only [reshape_result_ne', h0]
  · simp (disch := decide) only [reshape_result_ne', h1]
  · simp (disch := decide) only [reshape_result_ne', h_main_v19]
  · simp (disch := decide) only [reshape_result_ne', h_main_v21]
  · simp (disch := decide) only [reshape_result_ne', h_main_v23]
  · simp (disch := decide) only [reshape_result_ne', h_main_v118]
  · simp (disch := decide) only [reshape_result_ne', h_main_v121]
  · simp (disch := decide) only [reshape_result_ne', h_main_v125]
  · simp (disch := decide) only [reshape_result', h_main_v126]; rfl

/-- Operation 145: writes main_v128. -/
abbrev op145 : HloOp τ sig (Elt F) :=
  unary main_v118 main_v128 (broadcastInDim S32768x7x7x1 ![0, 1, 2] bcast_S32768x7x7_S32768x7x7x1_0_1_2 : (⟨S32768x7x7, .f32⟩ : BufTy).Contents (Elt F) → (⟨S32768x7x7x1, .f32⟩ : BufTy).Contents (Elt F))

abbrev Inv145 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v128) = Read.val_main_v128 (F := F) x0 x1

theorem step145 (x0 x1 : (⟨S32768x7x7x11, .f32⟩ : BufTy).Contents (Elt F)) (V : Valuation τ sig (Elt F)) (h : Inv144 x0 x1 V) :
    Inv145 x0 x1 ((op145 (F := F)).result V) := by
  obtain ⟨h0, h1, h_main_v19, h_main_v21, h_main_v23, h_main_v118, h_main_v121, h_main_v125, h_main_v127⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v125]
  · simp (disch := decide) only [unary_result_ne', h_main_v127]
  · simp (disch := decide) only [unary_result', h_main_v118]; rfl

/-- Operation 146: writes main_v129. -/
abbrev op146 : HloOp τ sig (Elt F) :=
  unary main_v128 main_v129 (broadcastInDim S32768x7x7x2 ![0, 1, 2, 3] bcast_S32768x7x7x1_S32768x7x7x2_0_1_2_3 : (⟨S32768x7x7x1, .f32⟩ : BufTy).Contents (Elt F) → (⟨S32768x7x7x2, .f32⟩ : BufTy).Contents (Elt F))

abbrev Inv146 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v129) = Read.val_main_v129 (F := F) x0 x1

theorem step146 (x0 x1 : (⟨S32768x7x7x11, .f32⟩ : BufTy).Contents (Elt F)) (V : Valuation τ sig (Elt F)) (h : Inv145 x0 x1 V) :
    Inv146 x0 x1 ((op146 (F := F)).result V) := by
  obtain ⟨h0, h1, h_main_v19, h_main_v21, h_main_v23, h_main_v121, h_main_v125, h_main_v127, h_main_v128⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v125]
  · simp (disch := decide) only [unary_result_ne', h_main_v127]
  · simp (disch := decide) only [unary_result', h_main_v128]; rfl

/-- Operation 147: writes main_v130. -/
abbrev op147 : HloOp τ sig (Elt F) :=
  binary main_v127 main_v129 main_v130 (subf : (⟨S32768x7x7x2, .f32⟩ : BufTy).Contents (Elt F) → (⟨S32768x7x7x2, .f32⟩ : BufTy).Contents (Elt F) → (⟨S32768x7x7x2, .f32⟩ : BufTy).Contents (Elt F))

abbrev Inv147 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v130) = Read.val_main_v130 (F := F) x0 x1

theorem step147 (x0 x1 : (⟨S32768x7x7x11, .f32⟩ : BufTy).Contents (Elt F)) (V : Valuation τ sig (Elt F)) (h : Inv146 x0 x1 V) :
    Inv147 x0 x1 ((op147 (F := F)).result V) := by
  obtain ⟨h0, h1, h_main_v19, h_main_v21, h_main_v23, h_main_v121, h_main_v125, h_main_v127, h_main_v129⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v125]
  · simp (disch := decide) only [binary_result_ne', h_main_v127]
  · simp (disch := decide) only [binary_result', h_main_v127, h_main_v129]; rfl

/-- Operation 148: writes main_v131. -/
abbrev op148 : HloOp τ sig (Elt F) :=
  binary main_v130 main_v130 main_v131 (mulf : (⟨S32768x7x7x2, .f32⟩ : BufTy).Contents (Elt F) → (⟨S32768x7x7x2, .f32⟩ : BufTy).Contents (Elt F) → (⟨S32768x7x7x2, .f32⟩ : BufTy).Contents (Elt F))

abbrev Inv148 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v131) = Read.val_main_v131 (F := F) x0 x1

theorem step148 (x0 x1 : (⟨S32768x7x7x11, .f32⟩ : BufTy).Contents (Elt F)) (V : Valuation τ sig (Elt F)) (h : Inv147 x0 x1 V) :
    Inv148 x0 x1 ((op148 (F := F)).result V) := by
  obtain ⟨h0, h1, h_main_v19, h_main_v21, h_main_v23, h_main_v121, h_main_v125, h_main_v127, h_main_v130⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v125]
  · simp (disch := decide) only [binary_result_ne', h_main_v127]
  · simp (disch := decide) only [binary_result', h_main_v130]; rfl

/-- Operation 149: writes main_cst_12. -/
abbrev op149 : HloOp τ sig (Elt F) :=
  nullary main_cst_12 (constant S_ .f32 0x00000000#32)

abbrev Inv149 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v131) = Read.val_main_v131 (F := F) x0 x1 ∧
    V (Proc.devRef .tc main_cst_12) = Read.val_main_cst_12 (F := F)

theorem step149 (x0 x1 : (⟨S32768x7x7x11, .f32⟩ : BufTy).Contents (Elt F)) (V : Valuation τ sig (Elt F)) (h : Inv148 x0 x1 V) :
    Inv149 x0 x1 ((op149 (F := F)).result V) := by
  obtain ⟨h0, h1, h_main_v19, h_main_v21, h_main_v23, h_main_v121, h_main_v125, h_main_v127, h_main_v131⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v21]
  · simp (disch := decide) only [nullary_result_ne', h_main_v23]
  · simp (disch := decide) only [nullary_result_ne', h_main_v121]
  · simp (disch := decide) only [nullary_result_ne', h_main_v125]
  · simp (disch := decide) only [nullary_result_ne', h_main_v127]
  · simp (disch := decide) only [nullary_result_ne', h_main_v131]
  · simp (disch := decide) only [nullary_result']; rfl

end Cert.ReferenceIdeal.RefRun

end
-- ==== Proof.RefRunD.lean ====
/-
  The reference program's run, one operation at a time (operations 150 to 200 of 201).  After operation k the
  buffers still to be read hold the staged values of the reading module (`val_<buffer>` of the two arguments):
  `Inv k`.  Each operation keeps what it does not write and writes its function of what it reads, so `Inv (k-1)`
  before it gives `Inv k` after it.  A buffer leaves the invariant after its last reader.
-/
import proofs.«158835_j66340064854039_2_alg».proof.Proof.RefRead
import Idealize.ShloMosaic.Lib.StableHlo.Run
import proofs.«158835_j66340064854039_2_alg».proof.Proof.RefRunC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operation 150: writes main_call2_v0. -/
abbrev op150 : HloOp τ sig (Elt F) :=
  TRef.unary (TRef.of (T := ⟨S_, .f32⟩) main_cst_12) (TRef.of (T := ⟨S_, .f32⟩) main_call2_v0) id

abbrev Inv150 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v131) = Read.val_main_v131 (F := F) x0 x1 ∧
    V (Proc.devRef .tc main_call2_v0) = Read.val_main_call2_v0 (F := F)

theorem step150 (x0 x1 : (⟨S32768x7x7x11, .f32⟩ : BufTy).Contents (Elt F)) (V : Valuation τ sig (Elt F)) (h : Inv149 x0 x1 V) :
    Inv150 x0 x1 ((op150 (F := F)).result V) := by
  obtain ⟨h0, h1, h_main_v19, h_main_v21, h_main_v23, h_main_v121, h_main_v125, h_main_v127, h_main_v131, h_main_cst_12⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v125]
  · simp (disch := decide) only [unary_result_ne', h_main_v127]
  · simp (disch := decide) only [unary_result_ne', h_main_v131]
  · simp (disch := decide) only [unary_result', h_main_cst_12]; rfl

/-- Operation 151: writes main_call2_v1. -/
abbrev op151 : HloOp τ sig (Elt F) :=
  TRef.unary (TRef.of (T := ⟨S_, .f32⟩) main_call2_v0) (TRef.of (T := ⟨S32768x7x7x2, .f32⟩) main_call2_v1) (broadcastInDim S32768x7x7x2 ![] bcast_S_S32768x7x7x2)

abbrev Inv151 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v131) = Read.val_main_v131 (F := F) x0 x1 ∧
    V (Proc.devRef .tc main_call2_v1) = Read.val_main_call2_v1 (F := F)

theorem step151 (x0 x1 : (⟨S32768x7x7x11, .f32⟩ : BufTy).Contents (Elt F)) (V : Valuation τ sig (Elt F)) (h : Inv150 x0 x1 V) :
    Inv151 x0 x1 ((op151 (F := F)).result V) := by
  obtain ⟨h0, h1, h_main_v19, h_main_v21, h_main_v23, h_main_v121, h_main_v125, h_main_v127, h_main_v131, h_main_call2_v0⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v125]
  · simp (disch := decide) only [unary_result_ne', h_main_v127]
  · simp (disch := decide) only [unary_result_ne', h_main_v131]
  · simp (disch := decide) only [unary_result', h_main_call2_v0]; rfl

/-- Operation 152: writes main_v132. -/
abbrev op152 : HloOp τ sig (Elt F) :=
  TRef.ternary (TRef.of (T := ⟨S32768x7x7x2, .i1⟩) main_v121) (TRef.of (T := ⟨S32768x7x7x2, .f32⟩) main_v131) (TRef.of (T := ⟨S32768x7x7x2, .f32⟩) main_call2_v1) (TRef.of (T := ⟨S32768x7x7x2, .f32⟩) main_v132) select

abbrev Inv152 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v132) = Read.val_main_v132 (F := F) x0 x1

theorem step152 (x0 x1 : (⟨S32768x7x7x11, .f32⟩ : BufTy).Contents (Elt F)) (V : Valuation τ sig (Elt F)) (h : Inv151 x0 x1 V) :
    Inv152 x0 x1 ((op152 (F := F)).result V) := by
  obtain ⟨h0, h1, h_main_v19, h_main_v21, h_main_v23, h_main_v121, h_main_v125, h_main_v127, h_main_v131, h_main_call2_v1⟩ := h
  refine ⟨?_, ?_, ?_, ?_, ?_, ?_, ?_, ?_, ?_⟩
  · simp (disch := decide) only [ternary_result_ne', h0]
  · simp (disch := decide) only [ternary_result_ne', h1]
  · simp (disch := decide) only [ternary_result_ne', h_main_v19]
  · simp (disch := decide) only [ternary_result_ne', h_main_v21]
  · simp (disch := decide) only [ternary_result_ne', h_main_v23]
  · simp (disch := decide) only [ternary_result_ne', h_main_v121]
  · simp (disch := decide) only [ternary_result_ne', h_main_v125]
  · simp (disch := decide) only [ternary_result_ne', h_main_v127]
  · simp (disch := decide) only [ternary_result', h_main_v121, h_main_v131, h_main_call2_v1]; rfl

/-- Operation 153: writes main_cst_13. -/
abbrev op153 : HloOp τ sig (Elt F) :=
  nullary main_cst_13 (constant S_ .f32 0x00000000#32)

abbrev Inv153 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v132) = Read.val_main_v132 (F := F) x0 x1 ∧
    V (Proc.devRef .tc main_cst_13) = Read.val_main_cst_13 (F := F)

theorem step153 (x0 x1 : (⟨S32768x7x7x11, .f32⟩ : BufTy).Contents (Elt F)) (V : Valuation τ sig (Elt F)) (h : Inv152 x0 x1 V) :
    Inv153 x0 x1 ((op153 (F := F)).result V) := by
  obtain ⟨h0, h1, h_main_v19, h_main_v21, h_main_v23, h_main_v121, h_main_v125, h_main_v127, h_main_v132⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v21]
  · simp (disch := decide) only [nullary_result_ne', h_main_v23]
  · simp (disch := decide) only [nullary_result_ne', h_main_v121]
  · simp (disch := decide) only [nullary_result_ne', h_main_v125]
  · simp (disch := decide) only [nullary_result_ne', h_main_v127]
  · simp (disch := decide) only [nullary_result_ne', h_main_v132]
  · simp (disch := decide) only [nullary_result']; rfl

/-- Operation 154: writes main_v133. -/
abbrev op154 : HloOp τ sig (Elt F) :=
  binary main_v132 main_cst_13 main_v133 ((fun x v => Host.reduceAdd x v reducesTo_S32768x7x7x2_S_d0_1_2_3 h_S_) : (⟨S32768x7x7x2, .f32⟩ : BufTy).Contents (Elt F) → (⟨S_, .f32⟩ : BufTy).Contents (Elt F) → (⟨S_, .f32⟩ : BufTy).Contents (Elt F))

abbrev Inv154 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v127) = Read.val_main_v127 (F := F) x0 ∧
    V (Proc.devRef .tc main_v133) = Read.val_main_v133 (F := F) x0 x1

theorem step154 (x0 x1 : (⟨S32768x7x7x11, .f32⟩ : BufTy).Contents (Elt F)) (V : Valuation τ sig (Elt F)) (h : Inv153 x0 x1 V) :
    Inv154 x0 x1 ((op154 (F := F)).result V) := by
  obtain ⟨h0, h1, h_main_v19, h_main_v21, h_main_v23, h_main_v121, h_main_v125, h_main_v127, h_main_v132, h_main_cst_13⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v125]
  · simp (disch := decide) only [binary_result_ne', h_main_v127]
  · simp (disch := decide) only [binary_result', h_main_v132, h_main_cst_13]; rfl

/-- Operation 155: writes main_v134. -/
abbrev op155 : HloOp τ sig (Elt F) :=
  binary main_v127 main_v127 main_v134 (mulf : (⟨S32768x7x7x2, .f32⟩ : BufTy).Contents (Elt F) → (⟨S32768x7x7x2, .f32⟩ : BufTy).Contents (Elt F) → (⟨S32768x7x7x2, .f32⟩ : BufTy).Contents (Elt F))

abbrev Inv155 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v133) = Read.val_main_v133 (F := F) x0 x1 ∧
    V (Proc.devRef .tc main_v134) = Read.val_main_v134 (F := F) x0

theorem step155 (x0 x1 : (⟨S32768x7x7x11, .f32⟩ : BufTy).Contents (Elt F)) (V : Valuation τ sig (Elt F)) (h : Inv154 x0 x1 V) :
    Inv155 x0 x1 ((op155 (F := F)).result V) := by
  obtain ⟨h0, h1, h_main_v19, h_main_v21, h_main_v23, h_main_v121, h_main_v125, h_main_v127, h_main_v133⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v125]
  · simp (disch := decide) only [binary_result_ne', h_main_v133]
  · simp (disch := decide) only [binary_result', h_main_v127]; rfl

/-- Operation 156: writes main_cst_14. -/
abbrev op156 : HloOp τ sig (Elt F) :=
  nullary main_cst_14 (constant S_ .f32 0x00000000#32)

abbrev Inv156 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v133) = Read.val_main_v133 (F := F) x0 x1 ∧
    V (Proc.devRef .tc main_v134) = Read.val_main_v134 (F := F) x0 ∧
    V (Proc.devRef .tc main_cst_14) = Read.val_main_cst_14 (F := F)

theorem step156 (x0 x1 : (⟨S32768x7x7x11, .f32⟩ : BufTy).Contents (Elt F)) (V : Valuation τ sig (Elt F)) (h : Inv155 x0 x1 V) :
    Inv156 x0 x1 ((op156 (F := F)).result V) := by
  obtain ⟨h0, h1, h_main_v19, h_main_v21, h_main_v23, h_main_v121, h_main_v125, h_main_v133, h_main_v134⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v21]
  · simp (disch := decide) only [nullary_result_ne', h_main_v23]
  · simp (disch := decide) only [nullary_result_ne', h_main_v121]
  · simp (disch := decide) only [nullary_result_ne', h_main_v125]
  · simp (disch := decide) only [nullary_result_ne', h_main_v133]
  · simp (disch := decide) only [nullary_result_ne', h_main_v134]
  · simp (disch := decide) only [nullary_result']; rfl

/-- Operation 157: writes main_call3_v0. -/
abbrev op157 : HloOp τ sig (Elt F) :=
  TRef.unary (TRef.of (T := ⟨S_, .f32⟩) main_cst_14) (TRef.of (T := ⟨S_, .f32⟩) main_call3_v0) id

abbrev Inv157 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v133) = Read.val_main_v133 (F := F) x0 x1 ∧
    V (Proc.devRef .tc main_v134) = Read.val_main_v134 (F := F) x0 ∧
    V (Proc.devRef .tc main_call3_v0) = Read.val_main_call3_v0 (F := F)

theorem step157 (x0 x1 : (⟨S32768x7x7x11, .f32⟩ : BufTy).Contents (Elt F)) (V : Valuation τ sig (Elt F)) (h : Inv156 x0 x1 V) :
    Inv157 x0 x1 ((op157 (F := F)).result V) := by
  obtain ⟨h0, h1, h_main_v19, h_main_v21, h_main_v23, h_main_v121, h_main_v125, h_main_v133, h_main_v134, h_main_cst_14⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v125]
  · simp (disch := decide) only [unary_result_ne', h_main_v133]
  · simp (disch := decide) only [unary_result_ne', h_main_v134]
  · simp (disch := decide) only [unary_result', h_main_cst_14]; rfl

/-- Operation 158: writes main_call3_v1. -/
abbrev op158 : HloOp τ sig (Elt F) :=
  TRef.unary (TRef.of (T := ⟨S_, .f32⟩) main_call3_v0) (TRef.of (T := ⟨S32768x7x7x2, .f32⟩) main_call3_v1) (broadcastInDim S32768x7x7x2 ![] bcast_S_S32768x7x7x2)

abbrev Inv158 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v125) = Read.val_main_v125 (F := F) x0 x1 ∧
    V (Proc.devRef .tc main_v133) = Read.val_main_v133 (F := F) x0 x1 ∧
    V (Proc.devRef .tc main_v134) = Read.val_main_v134 (F := F) x0 ∧
    V (Proc.devRef .tc main_call3_v1) = Read.val_main_call3_v1 (F := F)

theorem step158 (x0 x1 : (⟨S32768x7x7x11, .f32⟩ : BufTy).Contents (Elt F)) (V : Valuation τ sig (Elt F)) (h : Inv157 x0 x1 V) :
    Inv158 x0 x1 ((op158 (F := F)).result V) := by
  obtain ⟨h0, h1, h_main_v19, h_main_v21, h_main_v23, h_main_v121, h_main_v125, h_main_v133, h_main_v134, h_main_call3_v0⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v125]
  · simp (disch := decide) only [unary_result_ne', h_main_v133]
  · simp (disch := decide) only [unary_result_ne', h_main_v134]
  · simp (disch := decide) only [unary_result', h_main_call3_v0]; rfl

/-- Operation 159: writes main_v135. -/
abbrev op159 : HloOp τ sig (Elt F) :=
  TRef.ternary (TRef.of (T := ⟨S32768x7x7x2, .i1⟩) main_v125) (TRef.of (T := ⟨S32768x7x7x2, .f32⟩) main_v134) (TRef.of (T := ⟨S32768x7x7x2, .f32⟩) main_call3_v1) (TRef.of (T := ⟨S32768x7x7x2, .f32⟩) main_v135) select

abbrev Inv159 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v135) = Read.val_main_v135 (F := F) x0 x1

theorem step159 (x0 x1 : (⟨S32768x7x7x11, .f32⟩ : BufTy).Contents (Elt F)) (V : Valuation τ sig (Elt F)) (h : Inv158 x0 x1 V) :
    Inv159 x0 x1 ((op159 (F := F)).result V) := by
  obtain ⟨h0, h1, h_main_v19, h_main_v21, h_main_v23, h_main_v121, h_main_v125, h_main_v133, h_main_v134, h_main_call3_v1⟩ := h
  refine ⟨?_, ?_, ?_, ?_, ?_, ?_, ?_, ?_⟩
  · simp (disch := decide) only [ternary_result_ne', h0]
  · simp (disch := decide) only [ternary_result_ne', h1]
  · simp (disch := decide) only [ternary_result_ne', h_main_v19]
  · simp (disch := decide) only [ternary_result_ne', h_main_v21]
  · simp (disch := decide) only [ternary_result_ne', h_main_v23]
  · simp (disch := decide) only [ternary_result_ne', h_main_v121]
  · simp (disch := decide) only [ternary_result_ne', h_main_v133]
  · simp (disch := decide) only [ternary_result', h_main_v125, h_main_v134, h_main_call3_v1]; rfl

/-- Operation 160: writes main_cst_15. -/
abbrev op160 : HloOp τ sig (Elt F) :=
  nullary main_cst_15 (constant S_ .f32 0x00000000#32)

abbrev Inv160 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v135) = Read.val_main_v135 (F := F) x0 x1 ∧
    V (Proc.devRef .tc main_cst_15) = Read.val_main_cst_15 (F := F)

theorem step160 (x0 x1 : (⟨S32768x7x7x11, .f32⟩ : BufTy).Contents (Elt F)) (V : Valuation τ sig (Elt F)) (h : Inv159 x0 x1 V) :
    Inv160 x0 x1 ((op160 (F := F)).result V) := by
  obtain ⟨h0, h1, h_main_v19, h_main_v21, h_main_v23, h_main_v121, h_main_v133, h_main_v135⟩ := h
  refine ⟨?_, ?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v21]
  · simp (disch := decide) only [nullary_result_ne', h_main_v23]
  · simp (disch := decide) only [nullary_result_ne', h_main_v121]
  · simp (disch := decide) only [nullary_result_ne', h_main_v133]
  · simp (disch := decide) only [nullary_result_ne', h_main_v135]
  · simp (disch := decide) only [nullary_result']; rfl

/-- Operation 161: writes main_v136. -/
abbrev op161 : HloOp τ sig (Elt F) :=
  binary main_v135 main_cst_15 main_v136 ((fun x v => Host.reduceAdd x v reducesTo_S32768x7x7x2_S_d0_1_2_3 h_S_) : (⟨S32768x7x7x2, .f32⟩ : BufTy).Contents (Elt F) → (⟨S_, .f32⟩ : BufTy).Contents (Elt F) → (⟨S_, .f32⟩ : BufTy).Contents (Elt F))

abbrev Inv161 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1

theorem step161 (x0 x1 : (⟨S32768x7x7x11, .f32⟩ : BufTy).Contents (Elt F)) (V : Valuation τ sig (Elt F)) (h : Inv160 x0 x1 V) :
    Inv161 x0 x1 ((op161 (F := F)).result V) := by
  obtain ⟨h0, h1, h_main_v19, h_main_v21, h_main_v23, h_main_v121, h_main_v133, h_main_v135, h_main_cst_15⟩ := h
  refine ⟨?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v133]
  · simp (disch := decide) only [binary_result', h_main_v135, h_main_cst_15]; rfl

/-- Operation 162: writes main_v137. -/
abbrev op162 : HloOp τ sig (Elt F) :=
  unary main_v21 main_v137 ((extractStridedSlice S32768x7x7x2x2 ![0, 0, 0, 0, 0] · slices_S32768x7x7x2x5_S32768x7x7x2x2_0_0_0_0_0) : (⟨S32768x7x7x2x5, .f32⟩ : BufTy).Contents (Elt F) → (⟨S32768x7x7x2x2, .f32⟩ : BufTy).Contents (Elt F))

abbrev Inv162 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v137) = Read.val_main_v137 (F := F) x0

theorem step162 (x0 x1 : (⟨S32768x7x7x11, .f32⟩ : BufTy).Contents (Elt F)) (V : Valuation τ sig (Elt F)) (h : Inv161 x0 x1 V) :
    Inv162 x0 x1 ((op162 (F := F)).result V) := by
  obtain ⟨h0, h1, h_main_v19, h_main_v21, h_main_v23, h_main_v121, h_main_v133, h_main_v136⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v133]
  · simp (disch := decide) only [unary_result_ne', h_main_v136]
  · simp (disch := decide) only [unary_result', h_main_v21]; rfl

/-- Operation 163: writes main_v138. -/
abbrev op163 : HloOp τ sig (Elt F) :=
  unary main_v23 main_v138 ((extractStridedSlice S32768x7x7x2x2 ![0, 0, 0, 0, 0] · slices_S32768x7x7x2x5_S32768x7x7x2x2_0_0_0_0_0) : (⟨S32768x7x7x2x5, .f32⟩ : BufTy).Contents (Elt F) → (⟨S32768x7x7x2x2, .f32⟩ : BufTy).Contents (Elt F))

abbrev Inv163 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v137) = Read.val_main_v137 (F := F) x0 ∧
    V (Proc.devRef .tc main_v138) = Read.val_main_v138 (F := F) x1

theorem step163 (x0 x1 : (⟨S32768x7x7x11, .f32⟩ : BufTy).Contents (Elt F)) (V : Valuation τ sig (Elt F)) (h : Inv162 x0 x1 V) :
    Inv163 x0 x1 ((op163 (F := F)).result V) := by
  obtain ⟨h0, h1, h_main_v19, h_main_v21, h_main_v23, h_main_v121, h_main_v133, h_main_v136, h_main_v137⟩ := h
  refine ⟨?_, ?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v21]
  · simp (disch := decide) only [unary_result_ne', h_main_v23]
  · simp (disch := decide) only [unary_result_ne', h_main_v121]
  · simp (disch := decide) only [unary_result_ne', h_main_v133]
  · simp (disch := decide) only [unary_result_ne', h_main_v136]
  · simp (disch := decide) only [unary_result_ne', h_main_v137]
  · simp (disch := decide) only [unary_result', h_main_v23]; rfl

/-- Operation 164: writes main_v139. -/
abbrev op164 : HloOp τ sig (Elt F) :=
  binary main_v137 main_v138 main_v139 (subf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv164 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v139) = Read.val_main_v139 (F := F) x0 x1

theorem step164 (x0 x1 : (⟨S32768x7x7x11, .f32⟩ : BufTy).Contents (Elt F)) (V : Valuation τ sig (Elt F)) (h : Inv163 x0 x1 V) :
    Inv164 x0 x1 ((op164 (F := F)).result V) := by
  obtain ⟨h0, h1, h_main_v19, h_main_v21, h_main_v23, h_main_v121, h_main_v133, h_main_v136, h_main_v137, h_main_v138⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v133]
  · simp (disch := decide) only [binary_result_ne', h_main_v136]
  · simp (disch := decide) only [binary_result', h_main_v137, h_main_v138]; rfl

/-- Operation 165: writes main_v140. -/
abbrev op165 : HloOp τ sig (Elt F) :=
  binary main_v139 main_v139 main_v140 (mulf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv165 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v140) = Read.val_main_v140 (F := F) x0 x1

theorem step165 (x0 x1 : (⟨S32768x7x7x11, .f32⟩ : BufTy).Contents (Elt F)) (V : Valuation τ sig (Elt F)) (h : Inv164 x0 x1 V) :
    Inv165 x0 x1 ((op165 (F := F)).result V) := by
  obtain ⟨h0, h1, h_main_v19, h_main_v21, h_main_v23, h_main_v121, h_main_v133, h_main_v136, h_main_v139⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v133]
  · simp (disch := decide) only [binary_result_ne', h_main_v136]
  · simp (disch := decide) only [binary_result', h_main_v139]; rfl

/-- Operation 166: writes main_cst_16. -/
abbrev op166 : HloOp τ sig (Elt F) :=
  nullary main_cst_16 (constant S_ .f32 0x00000000#32)

abbrev Inv166 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v140) = Read.val_main_v140 (F := F) x0 x1 ∧
    V (Proc.devRef .tc main_cst_16) = Read.val_main_cst_16 (F := F)

theorem step166 (x0 x1 : (⟨S32768x7x7x11, .f32⟩ : BufTy).Contents (Elt F)) (V : Valuation τ sig (Elt F)) (h : Inv165 x0 x1 V) :
    Inv166 x0 x1 ((op166 (F := F)).result V) := by
  obtain ⟨h0, h1, h_main_v19, h_main_v21, h_main_v23, h_main_v121, h_main_v133, h_main_v136, h_main_v140⟩ := h
  refine ⟨?_, ?_, ?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v21]
  · simp (disch := decide) only [nullary_result_ne', h_main_v23]
  · simp (disch := decide) only [nullary_result_ne', h_main_v121]
  · simp (disch := decide) only [nullary_result_ne', h_main_v133]
  · simp (disch := decide) only [nullary_result_ne', h_main_v136]
  · simp (disch := decide) only [nullary_result_ne', h_main_v140]
  · simp (disch := decide) only [nullary_result']; rfl

/-- Operation 167: writes main_v141. -/
abbrev op167 : HloOp τ sig (Elt F) :=
  binary main_v140 main_cst_16 main_v141 ((fun x v => Host.reduceAdd x v reducesTo_S32768x7x7x2x2_S32768x7x7x2_d4 h_S_) : (⟨S32768x7x7x2x2, .f32⟩ : BufTy).Contents (Elt F) → (⟨S_, .f32⟩ : BufTy).Contents (Elt F) → (⟨S32768x7x7x2, .f32⟩ : BufTy).Contents (Elt F))

abbrev Inv167 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v21) = Read.val_main_v21 (F := F) x0 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1

theorem step167 (x0 x1 : (⟨S32768x7x7x11, .f32⟩ : BufTy).Contents (Elt F)) (V : Valuation τ sig (Elt F)) (h : Inv166 x0 x1 V) :
    Inv167 x0 x1 ((op167 (F := F)).result V) := by
  obtain ⟨h0, h1, h_main_v19, h_main_v21, h_main_v23, h_main_v121, h_main_v133, h_main_v136, h_main_v140, h_main_cst_16⟩ := h
  refine ⟨?_, ?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v21]
  · simp (disch := decide) only [binary_result_ne', h_main_v23]
  · simp (disch := decide) only [binary_result_ne', h_main_v121]
  · simp (disch := decide) only [binary_result_ne', h_main_v133]
  · simp (disch := decide) only [binary_result_ne', h_main_v136]
  · simp (disch := decide) only [binary_result', h_main_v140, h_main_cst_16]; rfl

/-- Operation 168: writes main_v142. -/
abbrev op168 : HloOp τ sig (Elt F) :=
  unary main_v21 main_v142 ((extractStridedSlice S32768x7x7x2x2 ![0, 0, 0, 0, 2] · slices_S32768x7x7x2x5_S32768x7x7x2x2_0_0_0_0_2) : (⟨S32768x7x7x2x5, .f32⟩ : BufTy).Contents (Elt F) → (⟨S32768x7x7x2x2, .f32⟩ : BufTy).Contents (Elt F))

abbrev Inv168 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v142) = Read.val_main_v142 (F := F) x0

theorem step168 (x0 x1 : (⟨S32768x7x7x11, .f32⟩ : BufTy).Contents (Elt F)) (V : Valuation τ sig (Elt F)) (h : Inv167 x0 x1 V) :
    Inv168 x0 x1 ((op168 (F := F)).result V) := by
  obtain ⟨h0, h1, h_main_v19, h_main_v21, h_main_v23, h_main_v121, h_main_v133, h_main_v136, h_main_v141⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v23]
  · simp (disch := decide) only [unary_result_ne', h_main_v121]
  · simp (disch := decide) only [unary_result_ne', h_main_v133]
  · simp (disch := decide) only [unary_result_ne', h_main_v136]
  · simp (disch := decide) only [unary_result_ne', h_main_v141]
  · simp (disch := decide) only [unary_result', h_main_v21]; rfl

/-- Operation 169: writes main_v143. -/
abbrev op169 : HloOp τ sig (Elt F) :=
  unary main_v142 main_v143 (Host.sqrt : (⟨S32768x7x7x2x2, .f32⟩ : BufTy).Contents (Elt F) → (⟨S32768x7x7x2x2, .f32⟩ : BufTy).Contents (Elt F))

abbrev Inv169 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v23) = Read.val_main_v23 (F := F) x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v143) = Read.val_main_v143 (F := F) x0

theorem step169 (x0 x1 : (⟨S32768x7x7x11, .f32⟩ : BufTy).Contents (Elt F)) (V : Valuation τ sig (Elt F)) (h : Inv168 x0 x1 V) :
    Inv169 x0 x1 ((op169 (F := F)).result V) := by
  obtain ⟨h0, h1, h_main_v19, h_main_v23, h_main_v121, h_main_v133, h_main_v136, h_main_v141, h_main_v142⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v23]
  · simp (disch := decide) only [unary_result_ne', h_main_v121]
  · simp (disch := decide) only [unary_result_ne', h_main_v133]
  · simp (disch := decide) only [unary_result_ne', h_main_v136]
  · simp (disch := decide) only [unary_result_ne', h_main_v141]
  · simp (disch := decide) only [unary_result', h_main_v142]; rfl

/-- Operation 170: writes main_v144. -/
abbrev op170 : HloOp τ sig (Elt F) :=
  unary main_v23 main_v144 ((extractStridedSlice S32768x7x7x2x2 ![0, 0, 0, 0, 2] · slices_S32768x7x7x2x5_S32768x7x7x2x2_0_0_0_0_2) : (⟨S32768x7x7x2x5, .f32⟩ : BufTy).Contents (Elt F) → (⟨S32768x7x7x2x2, .f32⟩ : BufTy).Contents (Elt F))

abbrev Inv170 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v143) = Read.val_main_v143 (F := F) x0 ∧
    V (Proc.devRef .tc main_v144) = Read.val_main_v144 (F := F) x1

theorem step170 (x0 x1 : (⟨S32768x7x7x11, .f32⟩ : BufTy).Contents (Elt F)) (V : Valuation τ sig (Elt F)) (h : Inv169 x0 x1 V) :
    Inv170 x0 x1 ((op170 (F := F)).result V) := by
  obtain ⟨h0, h1, h_main_v19, h_main_v23, h_main_v121, h_main_v133, h_main_v136, h_main_v141, h_main_v143⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v121]
  · simp (disch := decide) only [unary_result_ne', h_main_v133]
  · simp (disch := decide) only [unary_result_ne', h_main_v136]
  · simp (disch := decide) only [unary_result_ne', h_main_v141]
  · simp (disch := decide) only [unary_result_ne', h_main_v143]
  · simp (disch := decide) only [unary_result', h_main_v23]; rfl

/-- Operation 171: writes main_v145. -/
abbrev op171 : HloOp τ sig (Elt F) :=
  unary main_v144 main_v145 (Host.sqrt : (⟨S32768x7x7x2x2, .f32⟩ : BufTy).Contents (Elt F) → (⟨S32768x7x7x2x2, .f32⟩ : BufTy).Contents (Elt F))

abbrev Inv171 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v143) = Read.val_main_v143 (F := F) x0 ∧
    V (Proc.devRef .tc main_v145) = Read.val_main_v145 (F := F) x1

theorem step171 (x0 x1 : (⟨S32768x7x7x11, .f32⟩ : BufTy).Contents (Elt F)) (V : Valuation τ sig (Elt F)) (h : Inv170 x0 x1 V) :
    Inv171 x0 x1 ((op171 (F := F)).result V) := by
  obtain ⟨h0, h1, h_main_v19, h_main_v121, h_main_v133, h_main_v136, h_main_v141, h_main_v143, h_main_v144⟩ := h
  refine ⟨?_, ?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v121]
  · simp (disch := decide) only [unary_result_ne', h_main_v133]
  · simp (disch := decide) only [unary_result_ne', h_main_v136]
  · simp (disch := decide) only [unary_result_ne', h_main_v141]
  · simp (disch := decide) only [unary_result_ne', h_main_v143]
  · simp (disch := decide) only [unary_result', h_main_v144]; rfl

/-- Operation 172: writes main_v146. -/
abbrev op172 : HloOp τ sig (Elt F) :=
  binary main_v143 main_v145 main_v146 (subf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv172 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v146) = Read.val_main_v146 (F := F) x0 x1

theorem step172 (x0 x1 : (⟨S32768x7x7x11, .f32⟩ : BufTy).Contents (Elt F)) (V : Valuation τ sig (Elt F)) (h : Inv171 x0 x1 V) :
    Inv172 x0 x1 ((op172 (F := F)).result V) := by
  obtain ⟨h0, h1, h_main_v19, h_main_v121, h_main_v133, h_main_v136, h_main_v141, h_main_v143, h_main_v145⟩ := h
  refine ⟨?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v121]
  · simp (disch := decide) only [binary_result_ne', h_main_v133]
  · simp (disch := decide) only [binary_result_ne', h_main_v136]
  · simp (disch := decide) only [binary_result_ne', h_main_v141]
  · simp (disch := decide) only [binary_result', h_main_v143, h_main_v145]; rfl

/-- Operation 173: writes main_v147. -/
abbrev op173 : HloOp τ sig (Elt F) :=
  binary main_v146 main_v146 main_v147 (mulf : (⟨S32768x7x7x2x2, .f32⟩ : BufTy).Contents (Elt F) → (⟨S32768x7x7x2x2, .f32⟩ : BufTy).Contents (Elt F) → (⟨S32768x7x7x2x2, .f32⟩ : BufTy).Contents (Elt F))

abbrev Inv173 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v147) = Read.val_main_v147 (F := F) x0 x1

theorem step173 (x0 x1 : (⟨S32768x7x7x11, .f32⟩ : BufTy).Contents (Elt F)) (V : Valuation τ sig (Elt F)) (h : Inv172 x0 x1 V) :
    Inv173 x0 x1 ((op173 (F := F)).result V) := by
  obtain ⟨h0, h1, h_main_v19, h_main_v121, h_main_v133, h_main_v136, h_main_v141, h_main_v146⟩ := h
  refine ⟨?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v121]
  · simp (disch := decide) only [binary_result_ne', h_main_v133]
  · simp (disch := decide) only [binary_result_ne', h_main_v136]
  · simp (disch := decide) only [binary_result_ne', h_main_v141]
  · simp (disch := decide) only [binary_result', h_main_v146]; rfl

/-- Operation 174: writes main_cst_17. -/
abbrev op174 : HloOp τ sig (Elt F) :=
  nullary main_cst_17 (constant S_ .f32 0x00000000#32)

abbrev Inv174 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v147) = Read.val_main_v147 (F := F) x0 x1 ∧
    V (Proc.devRef .tc main_cst_17) = Read.val_main_cst_17 (F := F)

theorem step174 (x0 x1 : (⟨S32768x7x7x11, .f32⟩ : BufTy).Contents (Elt F)) (V : Valuation τ sig (Elt F)) (h : Inv173 x0 x1 V) :
    Inv174 x0 x1 ((op174 (F := F)).result V) := by
  obtain ⟨h0, h1, h_main_v19, h_main_v121, h_main_v133, h_main_v136, h_main_v141, h_main_v147⟩ := h
  refine ⟨?_, ?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v121]
  · simp (disch := decide) only [nullary_result_ne', h_main_v133]
  · simp (disch := decide) only [nullary_result_ne', h_main_v136]
  · simp (disch := decide) only [nullary_result_ne', h_main_v141]
  · simp (disch := decide) only [nullary_result_ne', h_main_v147]
  · simp (disch := decide) only [nullary_result']; rfl

/-- Operation 175: writes main_v148. -/
abbrev op175 : HloOp τ sig (Elt F) :=
  binary main_v147 main_cst_17 main_v148 ((fun x v => Host.reduceAdd x v reducesTo_S32768x7x7x2x2_S32768x7x7x2_d4 h_S_) : (⟨S32768x7x7x2x2, .f32⟩ : BufTy).Contents (Elt F) → (⟨S_, .f32⟩ : BufTy).Contents (Elt F) → (⟨S32768x7x7x2, .f32⟩ : BufTy).Contents (Elt F))

abbrev Inv175 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v141) = Read.val_main_v141 (F := F) x0 x1 ∧
    V (Proc.devRef .tc main_v148) = Read.val_main_v148 (F := F) x0 x1

theorem step175 (x0 x1 : (⟨S32768x7x7x11, .f32⟩ : BufTy).Contents (Elt F)) (V : Valuation τ sig (Elt F)) (h : Inv174 x0 x1 V) :
    Inv175 x0 x1 ((op175 (F := F)).result V) := by
  obtain ⟨h0, h1, h_main_v19, h_main_v121, h_main_v133, h_main_v136, h_main_v141, h_main_v147, h_main_cst_17⟩ := h
  refine ⟨?_, ?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v121]
  · simp (disch := decide) only [binary_result_ne', h_main_v133]
  · simp (disch := decide) only [binary_result_ne', h_main_v136]
  · simp (disch := decide) only [binary_result_ne', h_main_v141]
  · simp (disch := decide) only [binary_result', h_main_v147, h_main_cst_17]; rfl

/-- Operation 176: writes main_v149. -/
abbrev op176 : HloOp τ sig (Elt F) :=
  binary main_v141 main_v148 main_v149 (addf : (⟨S32768x7x7x2, .f32⟩ : BufTy).Contents (Elt F) → (⟨S32768x7x7x2, .f32⟩ : BufTy).Contents (Elt F) → (⟨S32768x7x7x2, .f32⟩ : BufTy).Contents (Elt F))

abbrev Inv176 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v149) = Read.val_main_v149 (F := F) x0 x1

theorem step176 (x0 x1 : (⟨S32768x7x7x11, .f32⟩ : BufTy).Contents (Elt F)) (V : Valuation τ sig (Elt F)) (h : Inv175 x0 x1 V) :
    Inv176 x0 x1 ((op176 (F := F)).result V) := by
  obtain ⟨h0, h1, h_main_v19, h_main_v121, h_main_v133, h_main_v136, h_main_v141, h_main_v148⟩ := h
  refine ⟨?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v121]
  · simp (disch := decide) only [binary_result_ne', h_main_v133]
  · simp (disch := decide) only [binary_result_ne', h_main_v136]
  · simp (disch := decide) only [binary_result', h_main_v141, h_main_v148]; rfl

/-- Operation 177: writes main_cst_18. -/
abbrev op177 : HloOp τ sig (Elt F) :=
  nullary main_cst_18 (constant S_ .f32 0x00000000#32)

abbrev Inv177 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v149) = Read.val_main_v149 (F := F) x0 x1 ∧
    V (Proc.devRef .tc main_cst_18) = Read.val_main_cst_18 (F := F)

theorem step177 (x0 x1 : (⟨S32768x7x7x11, .f32⟩ : BufTy).Contents (Elt F)) (V : Valuation τ sig (Elt F)) (h : Inv176 x0 x1 V) :
    Inv177 x0 x1 ((op177 (F := F)).result V) := by
  obtain ⟨h0, h1, h_main_v19, h_main_v121, h_main_v133, h_main_v136, h_main_v149⟩ := h
  refine ⟨?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v121]
  · simp (disch := decide) only [nullary_result_ne', h_main_v133]
  · simp (disch := decide) only [nullary_result_ne', h_main_v136]
  · simp (disch := decide) only [nullary_result_ne', h_main_v149]
  · simp (disch := decide) only [nullary_result']; rfl

/-- Operation 178: writes main_call4_v0. -/
abbrev op178 : HloOp τ sig (Elt F) :=
  TRef.unary (TRef.of (T := ⟨S_, .f32⟩) main_cst_18) (TRef.of (T := ⟨S_, .f32⟩) main_call4_v0) id

abbrev Inv178 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v149) = Read.val_main_v149 (F := F) x0 x1 ∧
    V (Proc.devRef .tc main_call4_v0) = Read.val_main_call4_v0 (F := F)

theorem step178 (x0 x1 : (⟨S32768x7x7x11, .f32⟩ : BufTy).Contents (Elt F)) (V : Valuation τ sig (Elt F)) (h : Inv177 x0 x1 V) :
    Inv178 x0 x1 ((op178 (F := F)).result V) := by
  obtain ⟨h0, h1, h_main_v19, h_main_v121, h_main_v133, h_main_v136, h_main_v149, h_main_cst_18⟩ := h
  refine ⟨?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v121]
  · simp (disch := decide) only [unary_result_ne', h_main_v133]
  · simp (disch := decide) only [unary_result_ne', h_main_v136]
  · simp (disch := decide) only [unary_result_ne', h_main_v149]
  · simp (disch := decide) only [unary_result', h_main_cst_18]; rfl

/-- Operation 179: writes main_call4_v1. -/
abbrev op179 : HloOp τ sig (Elt F) :=
  TRef.unary (TRef.of (T := ⟨S_, .f32⟩) main_call4_v0) (TRef.of (T := ⟨S32768x7x7x2, .f32⟩) main_call4_v1) (broadcastInDim S32768x7x7x2 ![] bcast_S_S32768x7x7x2)

abbrev Inv179 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v121) = Read.val_main_v121 (F := F) x0 x1 ∧
    V (Proc.devRef .tc main_v133) = Read.val_main_v133 (F := F) x0 x1 ∧
    V (Proc.devRef .tc main_v136) = Read.val_main_v136 (F := F) x0 x1 ∧
    V (Proc.devRef .tc main_v149) = Read.val_main_v149 (F := F) x0 x1 ∧
    V (Proc.devRef .tc main_call4_v1) = Read.val_main_call4_v1 (F := F)

theorem step179 (x0 x1 : (⟨S32768x7x7x11, .f32⟩ : BufTy).Contents (Elt F)) (V : Valuation τ sig (Elt F)) (h : Inv178 x0 x1 V) :
    Inv179 x0 x1 ((op179 (F := F)).result V) := by
  obtain ⟨h0, h1, h_main_v19, h_main_v121, h_main_v133, h_main_v136, h_main_v149, h_main_call4_v0⟩ := h
  refine ⟨?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v121]
  · simp (disch := decide) only [unary_result_ne', h_main_v133]
  · simp (disch := decide) only [unary_result_ne', h_main_v136]
  · simp (disch := decide) only [unary_result_ne', h_main_v149]
  · simp (disch := decide) only [unary_result', h_main_call4_v0]; rfl

/-- Operation 180: writes main_v150. -/
abbrev op180 : HloOp τ sig (Elt F) :=
  TRef.ternary (TRef.of (T := ⟨S32768x7x7x2, .i1⟩) main_v121) (TRef.of (T := ⟨S32768x7x7x2, .f32⟩) main_v149) (TRef.of (T := ⟨S32768x7x7x2, .f32⟩) main_call4_v1) (TRef.of (T := ⟨S32768x7x7x2, .f32⟩) main_v150) select

abbrev Inv180 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v150) = Read.val_main_v150 (F := F) x0 x1

theorem step180 (x0 x1 : (⟨S32768x7x7x11, .f32⟩ : BufTy).Contents (Elt F)) (V : Valuation τ sig (Elt F)) (h : Inv179 x0 x1 V) :
    Inv180 x0 x1 ((op180 (F := F)).result V) := by
  obtain ⟨h0, h1, h_main_v19, h_main_v121, h_main_v133, h_main_v136, h_main_v149, h_main_call4_v1⟩ := h
  refine ⟨?_, ?_, ?_, ?_, ?_, ?_⟩
  · simp (disch := decide) only [ternary_result_ne', h0]
  · simp (disch := decide) only [ternary_result_ne', h1]
  · simp (disch := decide) only [ternary_result_ne', h_main_v19]
  · simp (disch := decide) only [ternary_result_ne', h_main_v133]
  · simp (disch := decide) only [ternary_result_ne', h_main_v136]
  · simp (disch := decide) only [ternary_result', h_main_v121, h_main_v149, h_main_call4_v1]; rfl

/-- Operation 181: writes main_cst_19. -/
abbrev op181 : HloOp τ sig (Elt F) :=
  nullary main_cst_19 (constant S_ .f32 0x00000000#32)

abbrev Inv181 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v150) = Read.val_main_v150 (F := F) x0 x1 ∧
    V (Proc.devRef .tc main_cst_19) = Read.val_main_cst_19 (F := F)

theorem step181 (x0 x1 : (⟨S32768x7x7x11, .f32⟩ : BufTy).Contents (Elt F)) (V : Valuation τ sig (Elt F)) (h : Inv180 x0 x1 V) :
    Inv181 x0 x1 ((op181 (F := F)).result V) := by
  obtain ⟨h0, h1, h_main_v19, h_main_v133, h_main_v136, h_main_v150⟩ := h
  refine ⟨?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v133]
  · simp (disch := decide) only [nullary_result_ne', h_main_v136]
  · simp (disch := decide) only [nullary_result_ne', h_main_v150]
  · simp (disch := decide) only [nullary_result']; rfl

/-- Operation 182: writes main_v151. -/
abbrev op182 : HloOp τ sig (Elt F) :=
  binary main_v150 main_cst_19 main_v151 ((fun x v => Host.reduceAdd x v reducesTo_S32768x7x7x2_S_d0_1_2_3 h_S_) : (⟨S32768x7x7x2, .f32⟩ : BufTy).Contents (Elt F) → (⟨S_, .f32⟩ : BufTy).Contents (Elt F) → (⟨S_, .f32⟩ : BufTy).Contents (Elt F))

abbrev Inv182 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1

theorem step182 (x0 x1 : (⟨S32768x7x7x11, .f32⟩ : BufTy).Contents (Elt F)) (V : Valuation τ sig (Elt F)) (h : Inv181 x0 x1 V) :
    Inv182 x0 x1 ((op182 (F := F)).result V) := by
  obtain ⟨h0, h1, h_main_v19, h_main_v133, h_main_v136, h_main_v150, h_main_cst_19⟩ := h
  refine ⟨?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v133]
  · simp (disch := decide) only [binary_result_ne', h_main_v136]
  · simp (disch := decide) only [binary_result', h_main_v150, h_main_cst_19]; rfl

/-- Operation 183: writes main_v152. -/
abbrev op183 : HloOp τ sig (Elt F) :=
  unary main_arg0 main_v152 ((extractStridedSlice S32768x7x7x1 ![0, 0, 0, 10] · slices_S32768x7x7x11_S32768x7x7x1_0_0_0_10) : (⟨S32768x7x7x11, .f32⟩ : BufTy).Contents (Elt F) → (⟨S32768x7x7x1, .f32⟩ : BufTy).Contents (Elt F))

abbrev Inv183 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v152) = Read.val_main_v152 (F := F) x0

theorem step183 (x0 x1 : (⟨S32768x7x7x11, .f32⟩ : BufTy).Contents (Elt F)) (V : Valuation τ sig (Elt F)) (h : Inv182 x0 x1 V) :
    Inv183 x0 x1 ((op183 (F := F)).result V) := by
  obtain ⟨h0, h1, h_main_v19, h_main_v133, h_main_v136, h_main_v151⟩ := h
  refine ⟨?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v133]
  · simp (disch := decide) only [unary_result_ne', h_main_v136]
  · simp (disch := decide) only [unary_result_ne', h_main_v151]
  · simp (disch := decide) only [unary_result', h0]; rfl

/-- Operation 184: writes main_v153. -/
abbrev op184 : HloOp τ sig (Elt F) :=
  unary main_arg1 main_v153 ((extractStridedSlice S32768x7x7x1 ![0, 0, 0, 10] · slices_S32768x7x7x11_S32768x7x7x1_0_0_0_10) : (⟨S32768x7x7x11, .f32⟩ : BufTy).Contents (Elt F) → (⟨S32768x7x7x1, .f32⟩ : BufTy).Contents (Elt F))

abbrev Inv184 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v152) = Read.val_main_v152 (F := F) x0 ∧
    V (Proc.devRef .tc main_v153) = Read.val_main_v153 (F := F) x1

theorem step184 (x0 x1 : (⟨S32768x7x7x11, .f32⟩ : BufTy).Contents (Elt F)) (V : Valuation τ sig (Elt F)) (h : Inv183 x0 x1 V) :
    Inv184 x0 x1 ((op184 (F := F)).result V) := by
  obtain ⟨h0, h1, h_main_v19, h_main_v133, h_main_v136, h_main_v151, h_main_v152⟩ := h
  refine ⟨?_, ?_, ?_, ?_, ?_, ?_, ?_, ?_⟩
  · simp (disch := decide) only [unary_result_ne', h0]
  · simp (disch := decide) only [unary_result_ne', h1]
  · simp (disch := decide) only [unary_result_ne', h_main_v19]
  · simp (disch := decide) only [unary_result_ne', h_main_v133]
  · simp (disch := decide) only [unary_result_ne', h_main_v136]
  · simp (disch := decide) only [unary_result_ne', h_main_v151]
  · simp (disch := decide) only [unary_result_ne', h_main_v152]
  · simp (disch := decide) only [unary_result', h1]; rfl

/-- Operation 185: writes main_v154. -/
abbrev op185 : HloOp τ sig (Elt F) :=
  binary main_v152 main_v153 main_v154 (subf : (⟨S32768x7x7x1, .f32⟩ : BufTy).Contents (Elt F) → (⟨S32768x7x7x1, .f32⟩ : BufTy).Contents (Elt F) → (⟨S32768x7x7x1, .f32⟩ : BufTy).Contents (Elt F))

abbrev Inv185 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v154) = Read.val_main_v154 (F := F) x0 x1

theorem step185 (x0 x1 : (⟨S32768x7x7x11, .f32⟩ : BufTy).Contents (Elt F)) (V : Valuation τ sig (Elt F)) (h : Inv184 x0 x1 V) :
    Inv185 x0 x1 ((op185 (F := F)).result V) := by
  obtain ⟨h0, h1, h_main_v19, h_main_v133, h_main_v136, h_main_v151, h_main_v152, h_main_v153⟩ := h
  refine ⟨?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v133]
  · simp (disch := decide) only [binary_result_ne', h_main_v136]
  · simp (disch := decide) only [binary_result_ne', h_main_v151]
  · simp (disch := decide) only [binary_result', h_main_v152, h_main_v153]; rfl

/-- Operation 186: writes main_v155. -/
abbrev op186 : HloOp τ sig (Elt F) :=
  binary main_v154 main_v154 main_v155 (mulf : (⟨S32768x7x7x1, .f32⟩ : BufTy).Contents (Elt F) → (⟨S32768x7x7x1, .f32⟩ : BufTy).Contents (Elt F) → (⟨S32768x7x7x1, .f32⟩ : BufTy).Contents (Elt F))

abbrev Inv186 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v155) = Read.val_main_v155 (F := F) x0 x1

theorem step186 (x0 x1 : (⟨S32768x7x7x11, .f32⟩ : BufTy).Contents (Elt F)) (V : Valuation τ sig (Elt F)) (h : Inv185 x0 x1 V) :
    Inv186 x0 x1 ((op186 (F := F)).result V) := by
  obtain ⟨h0, h1, h_main_v19, h_main_v133, h_main_v136, h_main_v151, h_main_v154⟩ := h
  refine ⟨?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v133]
  · simp (disch := decide) only [binary_result_ne', h_main_v136]
  · simp (disch := decide) only [binary_result_ne', h_main_v151]
  · simp (disch := decide) only [binary_result', h_main_v154]; rfl

/-- Operation 187: writes main_cst_20. -/
abbrev op187 : HloOp τ sig (Elt F) :=
  nullary main_cst_20 (constant S_ .f32 0x00000000#32)

abbrev Inv187 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v155) = Read.val_main_v155 (F := F) x0 x1 ∧
    V (Proc.devRef .tc main_cst_20) = Read.val_main_cst_20 (F := F)

theorem step187 (x0 x1 : (⟨S32768x7x7x11, .f32⟩ : BufTy).Contents (Elt F)) (V : Valuation τ sig (Elt F)) (h : Inv186 x0 x1 V) :
    Inv187 x0 x1 ((op187 (F := F)).result V) := by
  obtain ⟨h0, h1, h_main_v19, h_main_v133, h_main_v136, h_main_v151, h_main_v155⟩ := h
  refine ⟨?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v133]
  · simp (disch := decide) only [nullary_result_ne', h_main_v136]
  · simp (disch := decide) only [nullary_result_ne', h_main_v151]
  · simp (disch := decide) only [nullary_result_ne', h_main_v155]
  · simp (disch := decide) only [nullary_result']; rfl

/-- Operation 188: writes main_v156. -/
abbrev op188 : HloOp τ sig (Elt F) :=
  binary main_v155 main_cst_20 main_v156 ((fun x v => Host.reduceAdd x v reducesTo_S32768x7x7x1_S_d0_1_2_3 h_S_) : (⟨S32768x7x7x1, .f32⟩ : BufTy).Contents (Elt F) → (⟨S_, .f32⟩ : BufTy).Contents (Elt F) → (⟨S_, .f32⟩ : BufTy).Contents (Elt F))

abbrev Inv188 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v156) = Read.val_main_v156 (F := F) x0 x1

theorem step188 (x0 x1 : (⟨S32768x7x7x11, .f32⟩ : BufTy).Contents (Elt F)) (V : Valuation τ sig (Elt F)) (h : Inv187 x0 x1 V) :
    Inv188 x0 x1 ((op188 (F := F)).result V) := by
  obtain ⟨h0, h1, h_main_v19, h_main_v133, h_main_v136, h_main_v151, h_main_v155, h_main_cst_20⟩ := h
  refine ⟨?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v133]
  · simp (disch := decide) only [binary_result_ne', h_main_v136]
  · simp (disch := decide) only [binary_result_ne', h_main_v151]
  · simp (disch := decide) only [binary_result', h_main_v155, h_main_cst_20]; rfl

/-- Operation 189: writes main_cst_21. -/
abbrev op189 : HloOp τ sig (Elt F) :=
  nullary main_cst_21 (constant S_ .f32 0x40A00000#32)

abbrev Inv189 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v151) = Read.val_main_v151 (F := F) x0 x1 ∧
    V (Proc.devRef .tc main_v156) = Read.val_main_v156 (F := F) x0 x1 ∧
    V (Proc.devRef .tc main_cst_21) = Read.val_main_cst_21 (F := F)

theorem step189 (x0 x1 : (⟨S32768x7x7x11, .f32⟩ : BufTy).Contents (Elt F)) (V : Valuation τ sig (Elt F)) (h : Inv188 x0 x1 V) :
    Inv189 x0 x1 ((op189 (F := F)).result V) := by
  obtain ⟨h0, h1, h_main_v19, h_main_v133, h_main_v136, h_main_v151, h_main_v156⟩ := h
  refine ⟨?_, ?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v133]
  · simp (disch := decide) only [nullary_result_ne', h_main_v136]
  · simp (disch := decide) only [nullary_result_ne', h_main_v151]
  · simp (disch := decide) only [nullary_result_ne', h_main_v156]
  · simp (disch := decide) only [nullary_result']; rfl

/-- Operation 190: writes main_v157. -/
abbrev op190 : HloOp τ sig (Elt F) :=
  binary main_cst_21 main_v151 main_v157 (mulf : (⟨S_, .f32⟩ : BufTy).Contents (Elt F) → (⟨S_, .f32⟩ : BufTy).Contents (Elt F) → (⟨S_, .f32⟩ : BufTy).Contents (Elt F))

abbrev Inv190 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v133) = Read.val_main_v133 (F := F) x0 x1 ∧
    V (Proc.devRef .tc main_v136) = Read.val_main_v136 (F := F) x0 x1 ∧
    V (Proc.devRef .tc main_v156) = Read.val_main_v156 (F := F) x0 x1 ∧
    V (Proc.devRef .tc main_v157) = Read.val_main_v157 (F := F) x0 x1

theorem step190 (x0 x1 : (⟨S32768x7x7x11, .f32⟩ : BufTy).Contents (Elt F)) (V : Valuation τ sig (Elt F)) (h : Inv189 x0 x1 V) :
    Inv190 x0 x1 ((op190 (F := F)).result V) := by
  obtain ⟨h0, h1, h_main_v19, h_main_v133, h_main_v136, h_main_v151, h_main_v156, h_main_cst_21⟩ := h
  refine ⟨?_, ?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v133]
  · simp (disch := decide) only [binary_result_ne', h_main_v136]
  · simp (disch := decide) only [binary_result_ne', h_main_v156]
  · simp (disch := decide) only [binary_result', h_main_cst_21, h_main_v151]; rfl

/-- Operation 191: writes main_v158. -/
abbrev op191 : HloOp τ sig (Elt F) :=
  binary main_v157 main_v133 main_v158 (addf : (⟨S_, .f32⟩ : BufTy).Contents (Elt F) → (⟨S_, .f32⟩ : BufTy).Contents (Elt F) → (⟨S_, .f32⟩ : BufTy).Contents (Elt F))

abbrev Inv191 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v136) = Read.val_main_v136 (F := F) x0 x1 ∧
    V (Proc.devRef .tc main_v156) = Read.val_main_v156 (F := F) x0 x1 ∧
    V (Proc.devRef .tc main_v158) = Read.val_main_v158 (F := F) x0 x1

theorem step191 (x0 x1 : (⟨S32768x7x7x11, .f32⟩ : BufTy).Contents (Elt F)) (V : Valuation τ sig (Elt F)) (h : Inv190 x0 x1 V) :
    Inv191 x0 x1 ((op191 (F := F)).result V) := by
  obtain ⟨h0, h1, h_main_v19, h_main_v133, h_main_v136, h_main_v156, h_main_v157⟩ := h
  refine ⟨?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v136]
  · simp (disch := decide) only [binary_result_ne', h_main_v156]
  · simp (disch := decide) only [binary_result', h_main_v157, h_main_v133]; rfl

/-- Operation 192: writes main_cst_22. -/
abbrev op192 : HloOp τ sig (Elt F) :=
  nullary main_cst_22 (constant S_ .f32 0x3F000000#32)

abbrev Inv192 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v136) = Read.val_main_v136 (F := F) x0 x1 ∧
    V (Proc.devRef .tc main_v156) = Read.val_main_v156 (F := F) x0 x1 ∧
    V (Proc.devRef .tc main_v158) = Read.val_main_v158 (F := F) x0 x1 ∧
    V (Proc.devRef .tc main_cst_22) = Read.val_main_cst_22 (F := F)

theorem step192 (x0 x1 : (⟨S32768x7x7x11, .f32⟩ : BufTy).Contents (Elt F)) (V : Valuation τ sig (Elt F)) (h : Inv191 x0 x1 V) :
    Inv192 x0 x1 ((op192 (F := F)).result V) := by
  obtain ⟨h0, h1, h_main_v19, h_main_v136, h_main_v156, h_main_v158⟩ := h
  refine ⟨?_, ?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v136]
  · simp (disch := decide) only [nullary_result_ne', h_main_v156]
  · simp (disch := decide) only [nullary_result_ne', h_main_v158]
  · simp (disch := decide) only [nullary_result']; rfl

/-- Operation 193: writes main_v159. -/
abbrev op193 : HloOp τ sig (Elt F) :=
  binary main_cst_22 main_v136 main_v159 (mulf : (⟨S_, .f32⟩ : BufTy).Contents (Elt F) → (⟨S_, .f32⟩ : BufTy).Contents (Elt F) → (⟨S_, .f32⟩ : BufTy).Contents (Elt F))

abbrev Inv193 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v156) = Read.val_main_v156 (F := F) x0 x1 ∧
    V (Proc.devRef .tc main_v158) = Read.val_main_v158 (F := F) x0 x1 ∧
    V (Proc.devRef .tc main_v159) = Read.val_main_v159 (F := F) x0 x1

theorem step193 (x0 x1 : (⟨S32768x7x7x11, .f32⟩ : BufTy).Contents (Elt F)) (V : Valuation τ sig (Elt F)) (h : Inv192 x0 x1 V) :
    Inv193 x0 x1 ((op193 (F := F)).result V) := by
  obtain ⟨h0, h1, h_main_v19, h_main_v136, h_main_v156, h_main_v158, h_main_cst_22⟩ := h
  refine ⟨?_, ?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v156]
  · simp (disch := decide) only [binary_result_ne', h_main_v158]
  · simp (disch := decide) only [binary_result', h_main_cst_22, h_main_v136]; rfl

/-- Operation 194: writes main_v160. -/
abbrev op194 : HloOp τ sig (Elt F) :=
  binary main_v158 main_v159 main_v160 (addf : (⟨S_, .f32⟩ : BufTy).Contents (Elt F) → (⟨S_, .f32⟩ : BufTy).Contents (Elt F) → (⟨S_, .f32⟩ : BufTy).Contents (Elt F))

abbrev Inv194 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v156) = Read.val_main_v156 (F := F) x0 x1 ∧
    V (Proc.devRef .tc main_v160) = Read.val_main_v160 (F := F) x0 x1

theorem step194 (x0 x1 : (⟨S32768x7x7x11, .f32⟩ : BufTy).Contents (Elt F)) (V : Valuation τ sig (Elt F)) (h : Inv193 x0 x1 V) :
    Inv194 x0 x1 ((op194 (F := F)).result V) := by
  obtain ⟨h0, h1, h_main_v19, h_main_v156, h_main_v158, h_main_v159⟩ := h
  refine ⟨?_, ?_, ?_, ?_, ?_⟩
  · simp (disch := decide) only [binary_result_ne', h0]
  · simp (disch := decide) only [binary_result_ne', h1]
  · simp (disch := decide) only [binary_result_ne', h_main_v19]
  · simp (disch := decide) only [binary_result_ne', h_main_v156]
  · simp (disch := decide) only [binary_result', h_main_v158, h_main_v159]; rfl

/-- Operation 195: writes main_cst_23. -/
abbrev op195 : HloOp τ sig (Elt F) :=
  nullary main_cst_23 (constant S_ .f32 0x3F000000#32)

abbrev Inv195 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v19) = Read.val_main_v19 (F := F) x0 x1 ∧
    V (Proc.devRef .tc main_v156) = Read.val_main_v156 (F := F) x0 x1 ∧
    V (Proc.devRef .tc main_v160) = Read.val_main_v160 (F := F) x0 x1 ∧
    V (Proc.devRef .tc main_cst_23) = Read.val_main_cst_23 (F := F)

theorem step195 (x0 x1 : (⟨S32768x7x7x11, .f32⟩ : BufTy).Contents (Elt F)) (V : Valuation τ sig (Elt F)) (h : Inv194 x0 x1 V) :
    Inv195 x0 x1 ((op195 (F := F)).result V) := by
  obtain ⟨h0, h1, h_main_v19, h_main_v156, h_main_v160⟩ := h
  refine ⟨?_, ?_, ?_, ?_, ?_, ?_⟩
  · simp (disch := decide) only [nullary_result_ne', h0]
  · simp (disch := decide) only [nullary_result_ne', h1]
  · simp (disch := decide) only [nullary_result_ne', h_main_v19]
  · simp (disch := decide) only [nullary_result_ne', h_main_v156]
  · simp (disch := decide) only [nullary_result_ne', h_main_v160]
  · simp (disch := decide) only [nullary_result']; rfl

/-- Operation 196: writes main_v161. -/
abbrev op196 : HloOp τ sig (Elt F) :=
  binary main_cst_23 main_v19 main_v161 (mulf : (⟨S_, .f32⟩ : BufTy).Contents (Elt F) → (⟨S_, .f32⟩ : BufTy).Contents (Elt F) → (⟨S_, .f32⟩ : BufTy).Contents (Elt F))

abbrev Inv196 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v156) = Read.val_main_v156 (F := F) x0 x1 ∧
    V (Proc.devRef .tc main_v160) = Read.val_main_v160 (F := F) x0 x1 ∧
    V (Proc.devRef .tc main_v161) = Read.val_main_v161 (F := F) x0 x1

theorem step196 (x0 x1 : (⟨S32768x7x7x11, .f32⟩ : BufTy).Contents (Elt F)) (V : Valuation τ sig (Elt F)) (h : Inv195 x0 x1 V) :
    Inv196 x0 x1 ((op196 (F := F)).result V) := by
  obtain ⟨h0, h1, h_main_v19, h_main_v156, h_main_v160, h_main_cst_23⟩ := h
  refine ⟨?_, ?_, ?_, ?_, ?_⟩
  · simp (disch := decide) only [binary_result_ne', h0]
  · simp (disch := decide) only [binary_result_ne', h1]
  · simp (disch := decide) only [binary_result_ne', h_main_v156]
  · simp (disch := decide) only [binary_result_ne', h_main_v160]
  · simp (disch := decide) only [binary_result', h_main_cst_23, h_main_v19]; rfl

/-- Operation 197: writes main_v162. -/
abbrev op197 : HloOp τ sig (Elt F) :=
  binary main_v160 main_v161 main_v162 (addf : (⟨S_, .f32⟩ : BufTy).Contents (Elt F) → (⟨S_, .f32⟩ : BufTy).Contents (Elt F) → (⟨S_, .f32⟩ : BufTy).Contents (Elt F))

abbrev Inv197 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v156) = Read.val_main_v156 (F := F) x0 x1 ∧
    V (Proc.devRef .tc main_v162) = Read.val_main_v162 (F := F) x0 x1

theorem step197 (x0 x1 : (⟨S32768x7x7x11, .f32⟩ : BufTy).Contents (Elt F)) (V : Valuation τ sig (Elt F)) (h : Inv196 x0 x1 V) :
    Inv197 x0 x1 ((op197 (F := F)).result V) := by
  obtain ⟨h0, h1, h_main_v156, h_main_v160, h_main_v161⟩ := h
  refine ⟨?_, ?_, ?_, ?_⟩
  · simp (disch := decide) only [binary_result_ne', h0]
  · simp (disch := decide) only [binary_result_ne', h1]
  · simp (disch := decide) only [binary_result_ne', h_main_v156]
  · simp (disch := decide) only [binary_result', h_main_v160, h_main_v161]; rfl

/-- Operation 198: writes main_v163. -/
abbrev op198 : HloOp τ sig (Elt F) :=
  binary main_v162 main_v156 main_v163 (addf : (⟨S_, .f32⟩ : BufTy).Contents (Elt F) → (⟨S_, .f32⟩ : BufTy).Contents (Elt F) → (⟨S_, .f32⟩ : BufTy).Contents (Elt F))

abbrev Inv198 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v163) = Read.val_main_v163 (F := F) x0 x1

theorem step198 (x0 x1 : (⟨S32768x7x7x11, .f32⟩ : BufTy).Contents (Elt F)) (V : Valuation τ sig (Elt F)) (h : Inv197 x0 x1 V) :
    Inv198 x0 x1 ((op198 (F := F)).result V) := by
  obtain ⟨h0, h1, h_main_v156, h_main_v162⟩ := h
  refine ⟨?_, ?_, ?_⟩
  · simp (disch := decide) only [binary_result_ne', h0]
  · simp (disch := decide) only [binary_result_ne', h1]
  · simp (disch := decide) only [binary_result', h_main_v162, h_main_v156]; rfl

/-- Operation 199: writes main_cst_24. -/
abbrev op199 : HloOp τ sig (Elt F) :=
  nullary main_cst_24 (constant S_ .f32 0x47000000#32)

abbrev Inv199 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v163) = Read.val_main_v163 (F := F) x0 x1 ∧
    V (Proc.devRef .tc main_cst_24) = Read.val_main_cst_24 (F := F)

theorem step199 (x0 x1 : (⟨S32768x7x7x11, .f32⟩ : BufTy).Contents (Elt F)) (V : Valuation τ sig (Elt F)) (h : Inv198 x0 x1 V) :
    Inv199 x0 x1 ((op199 (F := F)).result V) := by
  obtain ⟨h0, h1, h_main_v163⟩ := h
  refine ⟨?_, ?_, ?_, ?_⟩
  · simp (disch := decide) only [nullary_result_ne', h0]
  · simp (disch := decide) only [nullary_result_ne', h1]
  · simp (disch := decide) only [nullary_result_ne', h_main_v163]
  · simp (disch := decide) only [nullary_result']; rfl

/-- Operation 200: writes main_v164. -/
abbrev op200 : HloOp τ sig (Elt F) :=
  binary main_v163 main_cst_24 main_v164 (Host.divf : (⟨S_, .f32⟩ : BufTy).Contents (Elt F) → (⟨S_, .f32⟩ : BufTy).Contents (Elt F) → (⟨S_, .f32⟩ : BufTy).Contents (Elt F))

abbrev Inv200 (x0 x1 : (⟨S32768x7x7x11, .f32⟩ : BufTy).Contents (Elt F)) (V : Valuation τ sig (Elt F)) : Prop :=
    V (Proc.devRef .tc main_arg0) = x0 ∧
    V (Proc.devRef .tc main_arg1) = x1 ∧
    V (Proc.devRef .tc main_v164) = Read.val_main_v164 (F := F) x0 x1

theorem step200 (x0 x1 : (⟨S32768x7x7x11, .f32⟩ : BufTy).Contents (Elt F)) (V : Valuation τ sig (Elt F)) (h : Inv199 x0 x1 V) :
    Inv200 x0 x1 ((op200 (F := F)).result V) := by
  obtain ⟨h0, h1, h_main_v163, h_main_cst_24⟩ := h
  refine ⟨?_, ?_, ?_⟩
  · simp (disch := decide) only [binary_result_ne', h0]
  · simp (disch := decide) only [binary_result_ne', h1]
  · simp (disch := decide) only [binary_result', h_main_v163, h_main_cst_24]; rfl

end Cert.ReferenceIdeal.RefRun

end
-- ==== Proof.RefRunTails.lean ====
/-
  The reference program's run, chained.  `tail k` is the program from operation k on; from `Inv (k-1)` the
  buffers after `tail k` satisfy `Post`: the result buffer holds the last staged value and the arguments are
  unchanged (by the step lemmas, last operation first).  The program's operation list is `tail 0`, so its run
  ends with the result at `val_main_v164` of the two arguments.
-/
import proofs.«158835_j66340064854039_2_alg».proof.Proof.RefRead
import Idealize.ShloMosaic.Lib.StableHlo.Run
import proofs.«158835_j66340064854039_2_alg».proof.Proof.RefRunD

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev tail201 : List (HloOp τ sig (Elt F)) := []
abbrev tail200 : List (HloOp τ sig (Elt F)) := op200 :: tail201
abbrev tail199 : List (HloOp τ sig (Elt F)) := op199 :: tail200
abbrev tail198 : List (HloOp τ sig (Elt F)) := op198 :: tail199
abbrev tail197 : List (HloOp τ sig (Elt F)) := op197 :: tail198
abbrev tail196 : List (HloOp τ sig (Elt F)) := op196 :: tail197
abbrev tail195 : List (HloOp τ sig (Elt F)) := op195 :: tail196
abbrev tail194 : List (HloOp τ sig (Elt F)) := op194 :: tail195
abbrev tail193 : List (HloOp τ sig (Elt F)) := op193 :: tail194
abbrev tail192 : List (HloOp τ sig (Elt F)) := op192 :: tail193
abbrev tail191 : List (HloOp τ sig (Elt F)) := op191 :: tail192
abbrev tail190 : List (HloOp τ sig (Elt F)) := op190 :: tail191
abbrev tail189 : List (HloOp τ sig (Elt F)) := op189 :: tail190
abbrev tail188 : List (HloOp τ sig (Elt F)) := op188 :: tail189
abbrev tail187 : List (HloOp τ sig (Elt F)) := op187 :: tail188
abbrev tail186 : List (HloOp τ sig (Elt F)) := op186 :: tail187
abbrev tail185 : List (HloOp τ sig (Elt F)) := op185 :: tail186
abbrev tail184 : List (HloOp τ sig (Elt F)) := op184 :: tail185
abbrev tail183 : List (HloOp τ sig (Elt F)) := op183 :: tail184
abbrev tail182 : List (HloOp τ sig (Elt F)) := op182 :: tail183
abbrev tail181 : List (HloOp τ sig (Elt F)) := op181 :: tail182
abbrev tail180 : List (HloOp τ sig (Elt F)) := op180 :: tail181
abbrev tail179 : List (HloOp τ sig (Elt F)) := op179 :: tail180
abbrev tail178 : List (HloOp τ sig (Elt F)) := op178 :: tail179
abbrev tail177 : List (HloOp τ sig (Elt F)) := op177 :: tail178
abbrev tail176 : List (HloOp τ sig (Elt F)) := op176 :: tail177
abbrev tail175 : List (HloOp τ sig (Elt F)) := op175 :: tail176
abbrev tail174 : List (HloOp τ sig (Elt F)) := op174 :: tail175
abbrev tail173 : List (HloOp τ sig (Elt F)) := op173 :: tail174
abbrev tail172 : List (HloOp τ sig (Elt F)) := op172 :: tail173
abbrev tail171 : List (HloOp τ sig (Elt F)) := op171 :: tail172
abbrev tail170 : List (HloOp τ sig (Elt F)) := op170 :: tail171
abbrev tail169 : List (HloOp τ sig (Elt F)) := op169 :: tail170
abbrev tail168 : List (HloOp τ sig (Elt F)) := op168 :: tail169
abbrev tail167 : List (HloOp τ sig (Elt F)) := op167 :: tail168
abbrev tail166 : List (HloOp τ sig (Elt F)) := op166 :: tail167
abbrev tail165 : List (HloOp τ sig (Elt F)) := op165 :: tail166
abbrev tail164 : List (HloOp τ sig (Elt F)) := op164 :: tail165
abbrev tail163 : List (HloOp τ sig (Elt F)) := op163 :: tail164
abbrev tail162 : List (HloOp τ sig (Elt F)) := op162 :: tail163
abbrev tail161 : List (HloOp τ sig (Elt F)) := op161 :: tail162
abbrev tail160 : List (HloOp τ sig (Elt F)) := op160 :: tail161
abbrev tail159 : List (HloOp τ sig (Elt F)) := op159 :: tail160
abbrev tail158 : List (HloOp τ sig (Elt F)) := op158 :: tail159
abbrev tail157 : List (HloOp τ sig (Elt F)) := op157 :: tail158
abbrev tail156 : List (HloOp τ sig (Elt F)) := op156 :: tail157
abbrev tail155 : List (HloOp τ sig (Elt F)) := op155 :: tail156
abbrev tail154 : List (HloOp τ sig (Elt F)) := op154 :: tail155
abbrev tail153 : List (HloOp τ sig (Elt F)) := op153 :: tail154
abbrev tail152 : List (HloOp τ sig (Elt F)) := op152 :: tail153
abbrev tail151 : List (HloOp τ sig (Elt F)) := op151 :: tail152
abbrev tail150 : List (HloOp τ sig (Elt F)) := op150 :: tail151
abbrev tail149 : List (HloOp τ sig (Elt F)) := op149 :: tail150
abbrev tail148 : List (HloOp τ sig (Elt F)) := op148 :: tail149
abbrev tail147 : List (HloOp τ sig (Elt F)) := op147 :: tail148
abbrev tail146 : List (HloOp τ sig (Elt F)) := op146 :: tail147
abbrev tail145 : List (HloOp τ sig (Elt F)) := op145 :: tail146
abbrev tail144 : List (HloOp τ sig (Elt F)) := op144 :: tail145
abbrev tail143 : List (HloOp τ sig (Elt F)) := op143 :: tail144
abbrev tail142 : List (HloOp τ sig (Elt F)) := op142 :: tail143
abbrev tail141 : List (HloOp τ sig (Elt F)) := op141 :: tail142
abbrev tail140 : List (HloOp τ sig (Elt F)) := op140 :: tail141
abbrev tail139 : List (HloOp τ sig (Elt F)) := op139 :: tail140
abbrev tail138 : List (HloOp τ sig (Elt F)) := op138 :: tail139
abbrev tail137 : List (HloOp τ sig (Elt F)) := op137 :: tail138
abbrev tail136 : List (HloOp τ sig (Elt F)) := op136 :: tail137
abbrev tail135 : List (HloOp τ sig (Elt F)) := op135 :: tail136
abbrev tail134 : List (HloOp τ sig (Elt F)) := op134 :: tail135
abbrev tail133 : List (HloOp τ sig (Elt F)) := op133 :: tail134
abbrev tail132 : List (HloOp τ sig (Elt F)) := op132 :: tail133
abbrev tail131 : List (HloOp τ sig (Elt F)) := op131 :: tail132
abbrev tail130 : List (HloOp τ sig (Elt F)) := op130 :: tail131
abbrev tail129 : List (HloOp τ sig (Elt F)) := op129 :: tail130
abbrev tail128 : List (HloOp τ sig (Elt F)) := op128 :: tail129
abbrev tail127 : List (HloOp τ sig (Elt F)) := op127 :: tail128
abbrev tail126 : List (HloOp τ sig (Elt F)) := op126 :: tail127
abbrev tail125 : List (HloOp τ sig (Elt F)) := op125 :: tail126
abbrev tail124 : List (HloOp τ sig (Elt F)) := op124 :: tail125
abbrev tail123 : List (HloOp τ sig (Elt F)) := op123 :: tail124
abbrev tail122 : List (HloOp τ sig (Elt F)) := op122 :: tail123
abbrev tail121 : List (HloOp τ sig (Elt F)) := op121 :: tail122
abbrev tail120 : List (HloOp τ sig (Elt F)) := op120 :: tail121
abbrev tail119 : List (HloOp τ sig (Elt F)) := op119 :: tail120
abbrev tail118 : List (HloOp τ sig (Elt F)) := op118 :: tail119
abbrev tail117 : List (HloOp τ sig (Elt F)) := op117 :: tail118
abbrev tail116 : List (HloOp τ sig (Elt F)) := op116 :: tail117
abbrev tail115 : List (HloOp τ sig (Elt F)) := op115 :: tail116
abbrev tail114 : List (HloOp τ sig (Elt F)) := op114 :: tail115
abbrev tail113 : List (HloOp τ sig (Elt F)) := op113 :: tail114
abbrev tail112 : List (HloOp τ sig (Elt F)) := op112 :: tail113
abbrev tail111 : List (HloOp τ sig (Elt F)) := op111 :: tail112
abbrev tail110 : List (HloOp τ sig (Elt F)) := op110 :: tail111
abbrev tail109 : List (HloOp τ sig (Elt F)) := op109 :: tail110
abbrev tail108 : List (HloOp τ sig (Elt F)) := op108 :: tail109
abbrev tail107 : List (HloOp τ sig (Elt F)) := op107 :: tail108
abbrev tail106 : List (HloOp τ sig (Elt F)) := op106 :: tail107
abbrev tail105 : List (HloOp τ sig (Elt F)) := op105 :: tail106
abbrev tail104 : List (HloOp τ sig (Elt F)) := op104 :: tail105
abbrev tail103 : List (HloOp τ sig (Elt F)) := op103 :: tail104
abbrev tail102 : List (HloOp τ sig (Elt F)) := op102 :: tail103
abbrev tail101 : List (HloOp τ sig (Elt F)) := op101 :: tail102
abbrev tail100 : List (HloOp τ sig (Elt F)) := op100 :: tail101
abbrev tail99 : List (HloOp τ sig (Elt F)) := op99 :: tail100
abbrev tail98 : List (HloOp τ sig (Elt F)) := op98 :: tail99
abbrev tail97 : List (HloOp τ sig (Elt F)) := op97 :: tail98
abbrev tail96 : List (HloOp τ sig (Elt F)) := op96 :: tail97
abbrev tail95 : List (HloOp τ sig (Elt F)) := op95 :: tail96
abbrev tail94 : List (HloOp τ sig (Elt F)) := op94 :: tail95
abbrev tail93 : List (HloOp τ sig (Elt F)) := op93 :: tail94
abbrev tail92 : List (HloOp τ sig (Elt F)) := op92 :: tail93
abbrev tail91 : List (HloOp τ sig (Elt F)) := op91 :: tail92
abbrev tail90 : List (HloOp τ sig (Elt F)) := op90 :: tail91
abbrev tail89 : List (HloOp τ sig (Elt F)) := op89 :: tail90
abbrev tail88 : List (HloOp τ sig (Elt F)) := op88 :: tail89
abbrev tail87 : List (HloOp τ sig (Elt F)) := op87 :: tail88
abbrev tail86 : List (HloOp τ sig (Elt F)) := op86 :: tail87
abbrev tail85 : List (HloOp τ sig (Elt F)) := op85 :: tail86
abbrev tail84 : List (HloOp τ sig (Elt F)) := op84 :: tail85
abbrev tail83 : List (HloOp τ sig (Elt F)) := op83 :: tail84
abbrev tail82 : List (HloOp τ sig (Elt F)) := op82 :: tail83
abbrev tail81 : List (HloOp τ sig (Elt F)) := op81 :: tail82
abbrev tail80 : List (HloOp τ sig (Elt F)) := op80 :: tail81
abbrev tail79 : List (HloOp τ sig (Elt F)) := op79 :: tail80
abbrev tail78 : List (HloOp τ sig (Elt F)) := op78 :: tail79
abbrev tail77 : List (HloOp τ sig (Elt F)) := op77 :: tail78
abbrev tail76 : List (HloOp τ sig (Elt F)) := op76 :: tail77
abbrev tail75 : List (HloOp τ sig (Elt F)) := op75 :: tail76
abbrev tail74 : List (HloOp τ sig (Elt F)) := op74 :: tail75
abbrev tail73 : List (HloOp τ sig (Elt F)) := op73 :: tail74
abbrev tail72 : List (HloOp τ sig (Elt F)) := op72 :: tail73
abbrev tail71 : List (HloOp τ sig (Elt F)) := op71 :: tail72
abbrev tail70 : List (HloOp τ sig (Elt F)) := op70 :: tail71
abbrev tail69 : List (HloOp τ sig (Elt F)) := op69 :: tail70
abbrev tail68 : List (HloOp τ sig (Elt F)) := op68 :: tail69
abbrev tail67 : List (HloOp τ sig (Elt F)) := op67 :: tail68
abbrev tail66 : List (HloOp τ sig (Elt F)) := op66 :: tail67
abbrev tail65 : List (HloOp τ sig (Elt F)) := op65 :: tail66
abbrev tail64 : List (HloOp τ sig (Elt F)) := op64 :: tail65
abbrev tail63 : List (HloOp τ sig (Elt F)) := op63 :: tail64
abbrev tail62 : List (HloOp τ sig (Elt F)) := op62 :: tail63
abbrev tail61 : List (HloOp τ sig (Elt F)) := op61 :: tail62
abbrev tail60 : List (HloOp τ sig (Elt F)) := op60 :: tail61
abbrev tail59 : List (HloOp τ sig (Elt F)) := op59 :: tail60
abbrev tail58 : List (HloOp τ sig (Elt F)) := op58 :: tail59
abbrev tail57 : List (HloOp τ sig (Elt F)) := op57 :: tail58
abbrev tail56 : List (HloOp τ sig (Elt F)) := op56 :: tail57
abbrev tail55 : List (HloOp τ sig (Elt F)) := op55 :: tail56
abbrev tail54 : List (HloOp τ sig (Elt F)) := op54 :: tail55
abbrev tail53 : List (HloOp τ sig (Elt F)) := op53 :: tail54
abbrev tail52 : List (HloOp τ sig (Elt F)) := op52 :: tail53
abbrev tail51 : List (HloOp τ sig (Elt F)) := op51 :: tail52
abbrev tail50 : List (HloOp τ sig (Elt F)) := op50 :: tail51
abbrev tail49 : List (HloOp τ sig (Elt F)) := op49 :: tail50
abbrev tail48 : List (HloOp τ sig (Elt F)) := op48 :: tail49
abbrev tail47 : List (HloOp τ sig (Elt F)) := op47 :: tail48
abbrev tail46 : List (HloOp τ sig (Elt F)) := op46 :: tail47
abbrev tail45 : List (HloOp τ sig (Elt F)) := op45 :: tail46
abbrev tail44 : List (HloOp τ sig (Elt F)) := op44 :: tail45
abbrev tail43 : List (HloOp τ sig (Elt F)) := op43 :: tail44
abbrev tail42 : List (HloOp τ sig (Elt F)) := op42 :: tail43
abbrev tail41 : List (HloOp τ sig (Elt F)) := op41 :: tail42
abbrev tail40 : List (HloOp τ sig (Elt F)) := op40 :: tail41
abbrev tail39 : List (HloOp τ sig (Elt F)) := op39 :: tail40
abbrev tail38 : List (HloOp τ sig (Elt F)) := op38 :: tail39
abbrev tail37 : List (HloOp τ sig (Elt F)) := op37 :: tail38
abbrev tail36 : List (HloOp τ sig (Elt F)) := op36 :: tail37
abbrev tail35 : List (HloOp τ sig (Elt F)) := op35 :: tail36
abbrev tail34 : List (HloOp τ sig (Elt F)) := op34 :: tail35
abbrev tail33 : List (HloOp τ sig (Elt F)) := op33 :: tail34
abbrev tail32 : List (HloOp τ sig (Elt F)) := op32 :: tail33
abbrev tail31 : List (HloOp τ sig (Elt F)) := op31 :: tail32
abbrev tail30 : List (HloOp τ sig (Elt F)) := op30 :: tail31
abbrev tail29 : List (HloOp τ sig (Elt F)) := op29 :: tail30
abbrev tail28 : List (HloOp τ sig (Elt F)) := op28 :: tail29
abbrev tail27 : List (HloOp τ sig (Elt F)) := op27 :: tail28
abbrev tail26 : List (HloOp τ sig (Elt F)) := op26 :: tail27
abbrev tail25 : List (HloOp τ sig (Elt F)) := op25 :: tail26
abbrev tail24 : List (HloOp τ sig (Elt F)) := op24 :: tail25
abbrev tail23 : List (HloOp τ sig (Elt F)) := op23 :: tail24
abbrev tail22 : List (HloOp τ sig (Elt F)) := op22 :: tail23
abbrev tail21 : List (HloOp τ sig (Elt F)) := op21 :: tail22
abbrev tail20 : List (HloOp τ sig (Elt F)) := op20 :: tail21
abbrev tail19 : List (HloOp τ sig (Elt F)) := op19 :: tail20
abbrev tail18 : List (HloOp τ sig (Elt F)) := op18 :: tail19
abbrev tail17 : List (HloOp τ sig (Elt F)) := op17 :: tail18
abbrev tail16 : List (HloOp τ sig (Elt F)) := op16 :: tail17
abbrev tail15 : List (HloOp τ sig (Elt F)) := op15 :: tail16
abbrev tail14 : List (HloOp τ sig (Elt F)) := op14 :: tail15
abbrev tail13 : List (HloOp τ sig (Elt F)) := op13 :: tail14
abbrev tail12 : List (HloOp τ sig (Elt F)) := op12 :: tail13
abbrev tail11 : List (HloOp τ sig (Elt F)) := op11 :: tail12
abbrev tail10 : List (HloOp τ sig (Elt F)) := op10 :: tail11
abbrev tail9 : List (HloOp τ sig (Elt F)) := op9 :: tail10
abbrev tail8 : List (HloOp τ sig (Elt F)) := op8 :: tail9
abbrev tail7 : List (HloOp τ sig (Elt F)) := op7 :: tail8
abbrev tail6 : List (HloOp τ sig (Elt F)) := op6 :: tail7
abbrev tail5 : List (HloOp τ sig (Elt F)) := op5 :: tail6
abbrev tail4 : List (HloOp τ sig (Elt F)) := op4 :: tail5
abbrev tail3 : List (HloOp τ sig (Elt F)) := op3 :: tail4
abbrev tail2 : List (HloOp τ sig (Elt F)) := op2 :: tail3
abbrev tail1 : List (HloOp τ sig (Elt F)) := op1 :: tail2
abbrev tail0 : List (HloOp τ sig (Elt F)) := op0 :: tail1

/-- After the whole program: the result buffer holds the staged result, the arguments are unchanged. -/
abbrev Post (x0 x1 : (⟨S32768x7x7x11, .f32⟩ : BufTy).Contents (Elt F)) (V : Valuation τ sig (Elt F)) : Prop :=
    V (Proc.devRef .tc main_v164) = Read.val_main_v164 (F := F) x0 x1 ∧
    V (Proc.devRef .tc main_arg0) = x0 ∧
    V (Proc.devRef .tc main_arg1) = x1

theorem fin201 (x0 x1 : (⟨S32768x7x7x11, .f32⟩ : BufTy).Contents (Elt F)) (V : Valuation τ sig (Elt F)) (h : Inv200 x0 x1 V) :
    Post x0 x1 (after (tail201 (F := F)) V) := ⟨h.2.2, h.1, h.2.1⟩
theorem fin200 (x0 x1 : (⟨S32768x7x7x11, .f32⟩ : BufTy).Contents (Elt F)) (V : Valuation τ sig (Elt F)) (h : Inv199 x0 x1 V) :
    Post x0 x1 (after (tail200 (F := F)) V) := fin201 x0 x1 _ (step200 x0 x1 V h)
theorem fin199 (x0 x1 : (⟨S32768x7x7x11, .f32⟩ : BufTy).Contents (Elt F)) (V : Valuation τ sig (Elt F)) (h : Inv198 x0 x1 V) :
    Post x0 x1 (after (tail199 (F := F)) V) := fin200 x0 x1 _ (step199 x0 x1 V h)
theorem fin198 (x0 x1 : (⟨S32768x7x7x11, .f32⟩ : BufTy).Contents (Elt F)) (V : Valuation τ sig (Elt F)) (h : Inv197 x0 x1 V) :
    Post x0 x1 (after (tail198 (F := F)) V) := fin199 x0 x1 _ (step198 x0 x1 V h)
theorem fin197 (x0 x1 : (⟨S32768x7x7x11, .f32⟩ : BufTy).Contents (Elt F)) (V : Valuation τ sig (Elt F)) (h : Inv196 x0 x1 V) :
    Post x0 x1 (after (tail197 (F := F)) V) := fin198 x0 x1 _ (step197 x0 x1 V h)
theorem fin196 (x0 x1 : (⟨S32768x7x7x11, .f32⟩ : BufTy).Contents (Elt F)) (V : Valuation τ sig (Elt F)) (h : Inv195 x0 x1 V) :
    Post x0 x1 (after (tail196 (F := F)) V) := fin197 x0 x1 _ (step196 x0 x1 V h)
theorem fin195 (x0 x1 : (⟨S32768x7x7x11, .f32⟩ : BufTy).Contents (Elt F)) (V : Valuation τ sig (Elt F)) (h : Inv194 x0 x1 V) :
    Post x0 x1 (after (tail195 (F := F)) V) := fin196 x0 x1 _ (step195 x0 x1 V h)
theorem fin194 (x0 x1 : (⟨S32768x7x7x11, .f32⟩ : BufTy).Contents (Elt F)) (V : Valuation τ sig (Elt F)) (h : Inv193 x0 x1 V) :
    Post x0 x1 (after (tail194 (F := F)) V) := fin195 x0 x1 _ (step194 x0 x1 V h)
theorem fin193 (x0 x1 : (⟨S32768x7x7x11, .f32⟩ : BufTy).Contents (Elt F)) (V : Valuation τ sig (Elt F)) (h : Inv192 x0 x1 V) :
    Post x0 x1 (after (tail193 (F := F)) V) := fin194 x0 x1 _ (step193 x0 x1 V h)
theorem fin192 (x0 x1 : (⟨S32768x7x7x11, .f32⟩ : BufTy).Contents (Elt F)) (V : Valuation τ sig (Elt F)) (h : Inv191 x0 x1 V) :
    Post x0 x1 (after (tail192 (F := F)) V) := fin193 x0 x1 _ (step192 x0 x1 V h)
theorem fin191 (x0 x1 : (⟨S32768x7x7x11, .f32⟩ : BufTy).Contents (Elt F)) (V : Valuation τ sig (Elt F)) (h : Inv190 x0 x1 V) :
    Post x0 x1 (after (tail191 (F := F)) V) := fin192 x0 x1 _ (step191 x0 x1 V h)
theorem fin190 (x0 x1 : (⟨S32768x7x7x11, .f32⟩ : BufTy).Contents (Elt F)) (V : Valuation τ sig (Elt F)) (h : Inv189 x0 x1 V) :
    Post x0 x1 (after (tail190 (F := F)) V) := fin191 x0 x1 _ (step190 x0 x1 V h)
theorem fin189 (x0 x1 : (⟨S32768x7x7x11, .f32⟩ : BufTy).Contents (Elt F)) (V : Valuation τ sig (Elt F)) (h : Inv188 x0 x1 V) :
    Post x0 x1 (after (tail189 (F := F)) V) := fin190 x0 x1 _ (step189 x0 x1 V h)
theorem fin188 (x0 x1 : (⟨S32768x7x7x11, .f32⟩ : BufTy).Contents (Elt F)) (V : Valuation τ sig (Elt F)) (h : Inv187 x0 x1 V) :
    Post x0 x1 (after (tail188 (F := F)) V) := fin189 x0 x1 _ (step188 x0 x1 V h)
theorem fin187 (x0 x1 : (⟨S32768x7x7x11, .f32⟩ : BufTy).Contents (Elt F)) (V : Valuation τ sig (Elt F)) (h : Inv186 x0 x1 V) :
    Post x0 x1 (after (tail187 (F := F)) V) := fin188 x0 x1 _ (step187 x0 x1 V h)
theorem fin186 (x0 x1 : (⟨S32768x7x7x11, .f32⟩ : BufTy).Contents (Elt F)) (V : Valuation τ sig (Elt F)) (h : Inv185 x0 x1 V) :
    Post x0 x1 (after (tail186 (F := F)) V) := fin187 x0 x1 _ (step186 x0 x1 V h)
theorem fin185 (x0 x1 : (⟨S32768x7x7x11, .f32⟩ : BufTy).Contents (Elt F)) (V : Valuation τ sig (Elt F)) (h : Inv184 x0 x1 V) :
    Post x0 x1 (after (tail185 (F := F)) V) := fin186 x0 x1 _ (step185 x0 x1 V h)
theorem fin184 (x0 x1 : (⟨S32768x7x7x11, .f32⟩ : BufTy).Contents (Elt F)) (V : Valuation τ sig (Elt F)) (h : Inv183 x0 x1 V) :
    Post x0 x1 (after (tail184 (F := F)) V) := fin185 x0 x1 _ (step184 x0 x1 V h)
theorem fin183 (x0 x1 : (⟨S32768x7x7x11, .f32⟩ : BufTy).Contents (Elt F)) (V : Valuation τ sig (Elt F)) (h : Inv182 x0 x1 V) :
    Post x0 x1 (after (tail183 (F := F)) V) := fin184 x0 x1 _ (step183 x0 x1 V h)
theorem fin182 (x0 x1 : (⟨S32768x7x7x11, .f32⟩ : BufTy).Contents (Elt F)) (V : Valuation τ sig (Elt F)) (h : Inv181 x0 x1 V) :
    Post x0 x1 (after (tail182 (F := F)) V) := fin183 x0 x1 _ (step182 x0 x1 V h)
theorem fin181 (x0 x1 : (⟨S32768x7x7x11, .f32⟩ : BufTy).Contents (Elt F)) (V : Valuation τ sig (Elt F)) (h : Inv180 x0 x1 V) :
    Post x0 x1 (after (tail181 (F := F)) V) := fin182 x0 x1 _ (step181 x0 x1 V h)
theorem fin180 (x0 x1 : (⟨S32768x7x7x11, .f32⟩ : BufTy).Contents (Elt F)) (V : Valuation τ sig (Elt F)) (h : Inv179 x0 x1 V) :
    Post x0 x1 (after (tail180 (F := F)) V) := fin181 x0 x1 _ (step180 x0 x1 V h)
theorem fin179 (x0 x1 : (⟨S32768x7x7x11, .f32⟩ : BufTy).Contents (Elt F)) (V : Valuation τ sig (Elt F)) (h : Inv178 x0 x1 V) :
    Post x0 x1 (after (tail179 (F := F)) V) := fin180 x0 x1 _ (step179 x0 x1 V h)
theorem fin178 (x0 x1 : (⟨S32768x7x7x11, .f32⟩ : BufTy).Contents (Elt F)) (V : Valuation τ sig (Elt F)) (h : Inv177 x0 x1 V) :
    Post x0 x1 (after (tail178 (F := F)) V) := fin179 x0 x1 _ (step178 x0 x1 V h)
theorem fin177 (x0 x1 : (⟨S32768x7x7x11, .f32⟩ : BufTy).Contents (Elt F)) (V : Valuation τ sig (Elt F)) (h : Inv176 x0 x1 V) :
    Post x0 x1 (after (tail177 (F := F)) V) := fin178 x0 x1 _ (step177 x0 x1 V h)
theorem fin176 (x0 x1 : (⟨S32768x7x7x11, .f32⟩ : BufTy).Contents (Elt F)) (V : Valuation τ sig (Elt F)) (h : Inv175 x0 x1 V) :
    Post x0 x1 (after (tail176 (F := F)) V) := fin177 x0 x1 _ (step176 x0 x1 V h)
theorem fin175 (x0 x1 : (⟨S32768x7x7x11, .f32⟩ : BufTy).Contents (Elt F)) (V : Valuation τ sig (Elt F)) (h : Inv174 x0 x1 V) :
    Post x0 x1 (after (tail175 (F := F)) V) := fin176 x0 x1 _ (step175 x0 x1 V h)
theorem fin174 (x0 x1 : (⟨S32768x7x7x11, .f32⟩ : BufTy).Contents (Elt F)) (V : Valuation τ sig (Elt F)) (h : Inv173 x0 x1 V) :
    Post x0 x1 (after (tail174 (F := F)) V) := fin175 x0 x1 _ (step174 x0 x1 V h)
theorem fin173 (x0 x1 : (⟨S32768x7x7x11, .f32⟩ : BufTy).Contents (Elt F)) (V : Valuation τ sig (Elt F)) (h : Inv172 x0 x1 V) :
    Post x0 x1 (after (tail173 (F := F)) V) := fin174 x0 x1 _ (step173 x0 x1 V h)
theorem fin172 (x0 x1 : (⟨S32768x7x7x11, .f32⟩ : BufTy).Contents (Elt F)) (V : Valuation τ sig (Elt F)) (h : Inv171 x0 x1 V) :
    Post x0 x1 (after (tail172 (F := F)) V) := fin173 x0 x1 _ (step172 x0 x1 V h)
theorem fin171 (x0 x1 : (⟨S32768x7x7x11, .f32⟩ : BufTy).Contents (Elt F)) (V : Valuation τ sig (Elt F)) (h : Inv170 x0 x1 V) :
    Post x0 x1 (after (tail171 (F := F)) V) := fin172 x0 x1 _ (step171 x0 x1 V h)
theorem fin170 (x0 x1 : (⟨S32768x7x7x11, .f32⟩ : BufTy).Contents (Elt F)) (V : Valuation τ sig (Elt F)) (h : Inv169 x0 x1 V) :
    Post x0 x1 (after (tail170 (F := F)) V) := fin171 x0 x1 _ (step170 x0 x1 V h)
theorem fin169 (x0 x1 : (⟨S32768x7x7x11, .f32⟩ : BufTy).Contents (Elt F)) (V : Valuation τ sig (Elt F)) (h : Inv168 x0 x1 V) :
    Post x0 x1 (after (tail169 (F := F)) V) := fin170 x0 x1 _ (step169 x0 x1 V h)
theorem fin168 (x0 x1 : (⟨S32768x7x7x11, .f32⟩ : BufTy).Contents (Elt F)) (V : Valuation τ sig (Elt F)) (h : Inv167 x0 x1 V) :
    Post x0 x1 (after (tail168 (F := F)) V) := fin169 x0 x1 _ (step168 x0 x1 V h)
theorem fin167 (x0 x1 : (⟨S32768x7x7x11, .f32⟩ : BufTy).Contents (Elt F)) (V : Valuation τ sig (Elt F)) (h : Inv166 x0 x1 V) :
    Post x0 x1 (after (tail167 (F := F)) V) := fin168 x0 x1 _ (step167 x0 x1 V h)
theorem fin166 (x0 x1 : (⟨S32768x7x7x11, .f32⟩ : BufTy).Contents (Elt F)) (V : Valuation τ sig (Elt F)) (h : Inv165 x0 x1 V) :
    Post x0 x1 (after (tail166 (F := F)) V) := fin167 x0 x1 _ (step166 x0 x1 V h)
theorem fin165 (x0 x1 : (⟨S32768x7x7x11, .f32⟩ : BufTy).Contents (Elt F)) (V : Valuation τ sig (Elt F)) (h : Inv164 x0 x1 V) :
    Post x0 x1 (after (tail165 (F := F)) V) := fin166 x0 x1 _ (step165 x0 x1 V h)
theorem fin164 (x0 x1 : (⟨S32768x7x7x11, .f32⟩ : BufTy).Contents (Elt F)) (V : Valuation τ sig (Elt F)) (h : Inv163 x0 x1 V) :
    Post x0 x1 (after (tail164 (F := F)) V) := fin165 x0 x1 _ (step164 x0 x1 V h)
theorem fin163 (x0 x1 : (⟨S32768x7x7x11, .f32⟩ : BufTy).Contents (Elt F)) (V : Valuation τ sig (Elt F)) (h : Inv162 x0 x1 V) :
    Post x0 x1 (after (tail163 (F := F)) V) := fin164 x0 x1 _ (step163 x0 x1 V h)
theorem fin162 (x0 x1 : (⟨S32768x7x7x11, .f32⟩ : BufTy).Contents (Elt F)) (V : Valuation τ sig (Elt F)) (h : Inv161 x0 x1 V) :
    Post x0 x1 (after (tail162 (F := F)) V) := fin163 x0 x1 _ (step162 x0 x1 V h)
theorem fin161 (x0 x1 : (⟨S32768x7x7x11, .f32⟩ : BufTy).Contents (Elt F)) (V : Valuation τ sig (Elt F)) (h : Inv160 x0 x1 V) :
    Post x0 x1 (after (tail161 (F := F)) V) := fin162 x0 x1 _ (step161 x0 x1 V h)
theorem fin160 (x0 x1 : (⟨S32768x7x7x11, .f32⟩ : BufTy).Contents (Elt F)) (V : Valuation τ sig (Elt F)) (h : Inv159 x0 x1 V) :
    Post x0 x1 (after (tail160 (F := F)) V) := fin161 x0 x1 _ (step160 x0 x1 V h)
theorem fin159 (x0 x1 : (⟨S32768x7x7x11, .f32⟩ : BufTy).Contents (Elt F)) (V : Valuation τ sig (Elt F)) (h : Inv158 x0 x1 V) :
    Post x0 x1 (after (tail159 (F := F)) V) := fin160 x0 x1 _ (step159 x0 x1 V h)
theorem fin158 (x0 x1 : (⟨S32768x7x7x11, .f32⟩ : BufTy).Contents (Elt F)) (V : Valuation τ sig (Elt F)) (h : Inv157 x0 x1 V) :
    Post x0 x1 (after (tail158 (F := F)) V) := fin159 x0 x1 _ (step158 x0 x1 V h)
theorem fin157 (x0 x1 : (⟨S32768x7x7x11, .f32⟩ : BufTy).Contents (Elt F)) (V : Valuation τ sig (Elt F)) (h : Inv156 x0 x1 V) :
    Post x0 x1 (after (tail157 (F := F)) V) := fin158 x0 x1 _ (step157 x0 x1 V h)
theorem fin156 (x0 x1 : (⟨S32768x7x7x11, .f32⟩ : BufTy).Contents (Elt F)) (V : Valuation τ sig (Elt F)) (h : Inv155 x0 x1 V) :
    Post x0 x1 (after (tail156 (F := F)) V) := fin157 x0 x1 _ (step156 x0 x1 V h)
theorem fin155 (x0 x1 : (⟨S32768x7x7x11, .f32⟩ : BufTy).Contents (Elt F)) (V : Valuation τ sig (Elt F)) (h : Inv154 x0 x1 V) :
    Post x0 x1 (after (tail155 (F := F)) V) := fin156 x0 x1 _ (step155 x0 x1 V h)
theorem fin154 (x0 x1 : (⟨S32768x7x7x11, .f32⟩ : BufTy).Contents (Elt F)) (V : Valuation τ sig (Elt F)) (h : Inv153 x0 x1 V) :
    Post x0 x1 (after (tail154 (F := F)) V) := fin155 x0 x1 _ (step154 x0 x1 V h)
theorem fin153 (x0 x1 : (⟨S32768x7x7x11, .f32⟩ : BufTy).Contents (Elt F)) (V : Valuation τ sig (Elt F)) (h : Inv152 x0 x1 V) :
    Post x0 x1 (after (tail153 (F := F)) V) := fin154 x0 x1 _ (step153 x0 x1 V h)
theorem fin152 (x0 x1 : (⟨S32768x7x7x11, .f32⟩ : BufTy).Contents (Elt F)) (V : Valuation τ sig (Elt F)) (h : Inv151 x0 x1 V) :
    Post x0 x1 (after (tail152 (F := F)) V) := fin153 x0 x1 _ (step152 x0 x1 V h)
theorem fin151 (x0 x1 : (⟨S32768x7x7x11, .f32⟩ : BufTy).Contents (Elt F)) (V : Valuation τ sig (Elt F)) (h : Inv150 x0 x1 V) :
    Post x0 x1 (after (tail151 (F := F)) V) := fin152 x0 x1 _ (step151 x0 x1 V h)
theorem fin150 (x0 x1 : (⟨S32768x7x7x11, .f32⟩ : BufTy).Contents (Elt F)) (V : Valuation τ sig (Elt F)) (h : Inv149 x0 x1 V) :
    Post x0 x1 (after (tail150 (F := F)) V) := fin151 x0 x1 _ (step150 x0 x1 V h)
theorem fin149 (x0 x1 : (⟨S32768x7x7x11, .f32⟩ : BufTy).Contents (Elt F)) (V : Valuation τ sig (Elt F)) (h : Inv148 x0 x1 V) :
    Post x0 x1 (after (tail149 (F := F)) V) := fin150 x0 x1 _ (step149 x0 x1 V h)
theorem fin148 (x0 x1 : (⟨S32768x7x7x11, .f32⟩ : BufTy).Contents (Elt F)) (V : Valuation τ sig (Elt F)) (h : Inv147 x0 x1 V) :
    Post x0 x1 (after (tail148 (F := F)) V) := fin149 x0 x1 _ (step148 x0 x1 V h)
theorem fin147 (x0 x1 : (⟨S32768x7x7x11, .f32⟩ : BufTy).Contents (Elt F)) (V : Valuation τ sig (Elt F)) (h : Inv146 x0 x1 V) :
    Post x0 x1 (after (tail147 (F := F)) V) := fin148 x0 x1 _ (step147 x0 x1 V h)
theorem fin146 (x0 x1 : (⟨S32768x7x7x11, .f32⟩ : BufTy).Contents (Elt F)) (V : Valuation τ sig (Elt F)) (h : Inv145 x0 x1 V) :
    Post x0 x1 (after (tail146 (F := F)) V) := fin147 x0 x1 _ (step146 x0 x1 V h)
theorem fin145 (x0 x1 : (⟨S32768x7x7x11, .f32⟩ : BufTy).Contents (Elt F)) (V : Valuation τ sig (Elt F)) (h : Inv144 x0 x1 V) :
    Post x0 x1 (after (tail145 (F := F)) V) := fin146 x0 x1 _ (step145 x0 x1 V h)
theorem fin144 (x0 x1 : (⟨S32768x7x7x11, .f32⟩ : BufTy).Contents (Elt F)) (V : Valuation τ sig (Elt F)) (h : Inv143 x0 x1 V) :
    Post x0 x1 (after (tail144 (F := F)) V) := fin145 x0 x1 _ (step144 x0 x1 V h)
theorem fin143 (x0 x1 : (⟨S32768x7x7x11, .f32⟩ : BufTy).Contents (Elt F)) (V : Valuation τ sig (Elt F)) (h : Inv142 x0 x1 V) :
    Post x0 x1 (after (tail143 (F := F)) V) := fin144 x0 x1 _ (step143 x0 x1 V h)
theorem fin142 (x0 x1 : (⟨S32768x7x7x11, .f32⟩ : BufTy).Contents (Elt F)) (V : Valuation τ sig (Elt F)) (h : Inv141 x0 x1 V) :
    Post x0 x1 (after (tail142 (F := F)) V) := fin143 x0 x1 _ (step142 x0 x1 V h)
theorem fin141 (x0 x1 : (⟨S32768x7x7x11, .f32⟩ : BufTy).Contents (Elt F)) (V : Valuation τ sig (Elt F)) (h : Inv140 x0 x1 V) :
    Post x0 x1 (after (tail141 (F := F)) V) := fin142 x0 x1 _ (step141 x0 x1 V h)
theorem fin140 (x0 x1 : (⟨S32768x7x7x11, .f32⟩ : BufTy).Contents (Elt F)) (V : Valuation τ sig (Elt F)) (h : Inv139 x0 x1 V) :
    Post x0 x1 (after (tail140 (F := F)) V) := fin141 x0 x1 _ (step140 x0 x1 V h)
theorem fin139 (x0 x1 : (⟨S32768x7x7x11, .f32⟩ : BufTy).Contents (Elt F)) (V : Valuation τ sig (Elt F)) (h : Inv138 x0 x1 V) :
    Post x0 x1 (after (tail139 (F := F)) V) := fin140 x0 x1 _ (step139 x0 x1 V h)
theorem fin138 (x0 x1 : (⟨S32768x7x7x11, .f32⟩ : BufTy).Contents (Elt F)) (V : Valuation τ sig (Elt F)) (h : Inv137 x0 x1 V) :
    Post x0 x1 (after (tail138 (F := F)) V) := fin139 x0 x1 _ (step138 x0 x1 V h)
theorem fin137 (x0 x1 : (⟨S32768x7x7x11, .f32⟩ : BufTy).Contents (Elt F)) (V : Valuation τ sig (Elt F)) (h : Inv136 x0 x1 V) :
    Post x0 x1 (after (tail137 (F := F)) V) := fin138 x0 x1 _ (step137 x0 x1 V h)
theorem fin136 (x0 x1 : (⟨S32768x7x7x11, .f32⟩ : BufTy).Contents (Elt F)) (V : Valuation τ sig (Elt F)) (h : Inv135 x0 x1 V) :
    Post x0 x1 (after (tail136 (F := F)) V) := fin137 x0 x1 _ (step136 x0 x1 V h)
theorem fin135 (x0 x1 : (⟨S32768x7x7x11, .f32⟩ : BufTy).Contents (Elt F)) (V : Valuation τ sig (Elt F)) (h : Inv134 x0 x1 V) :
    Post x0 x1 (after (tail135 (F := F)) V) := fin136 x0 x1 _ (step135 x0 x1 V h)
theorem fin134 (x0 x1 : (⟨S32768x7x7x11, .f32⟩ : BufTy).Contents (Elt F)) (V : Valuation τ sig (Elt F)) (h : Inv133 x0 x1 V) :
    Post x0 x1 (after (tail134 (F := F)) V) := fin135 x0 x1 _ (step134 x0 x1 V h)
theorem fin133 (x0 x1 : (⟨S32768x7x7x11, .f32⟩ : BufTy).Contents (Elt F)) (V : Valuation τ sig (Elt F)) (h : Inv132 x0 x1 V) :
    Post x0 x1 (after (tail133 (F := F)) V) := fin134 x0 x1 _ (step133 x0 x1 V h)
theorem fin132 (x0 x1 : (⟨S32768x7x7x11, .f32⟩ : BufTy).Contents (Elt F)) (V : Valuation τ sig (Elt F)) (h : Inv131 x0 x1 V) :
    Post x0 x1 (after (tail132 (F := F)) V) := fin133 x0 x1 _ (step132 x0 x1 V h)
theorem fin131 (x0 x1 : (⟨S32768x7x7x11, .f32⟩ : BufTy).Contents (Elt F)) (V : Valuation τ sig (Elt F)) (h : Inv130 x0 x1 V) :
    Post x0 x1 (after (tail131 (F := F)) V) := fin132 x0 x1 _ (step131 x0 x1 V h)
theorem fin130 (x0 x1 : (⟨S32768x7x7x11, .f32⟩ : BufTy).Contents (Elt F)) (V : Valuation τ sig (Elt F)) (h : Inv129 x0 x1 V) :
    Post x0 x1 (after (tail130 (F := F)) V) := fin131 x0 x1 _ (step130 x0 x1 V h)
theorem fin129 (x0 x1 : (⟨S32768x7x7x11, .f32⟩ : BufTy).Contents (Elt F)) (V : Valuation τ sig (Elt F)) (h : Inv128 x0 x1 V) :
    Post x0 x1 (after (tail129 (F := F)) V) := fin130 x0 x1 _ (step129 x0 x1 V h)
theorem fin128 (x0 x1 : (⟨S32768x7x7x11, .f32⟩ : BufTy).Contents (Elt F)) (V : Valuation τ sig (Elt F)) (h : Inv127 x0 x1 V) :
    Post x0 x1 (after (tail128 (F := F)) V) := fin129 x0 x1 _ (step128 x0 x1 V h)
theorem fin127 (x0 x1 : (⟨S32768x7x7x11, .f32⟩ : BufTy).Contents (Elt F)) (V : Valuation τ sig (Elt F)) (h : Inv126 x0 x1 V) :
    Post x0 x1 (after (tail127 (F := F)) V) := fin128 x0 x1 _ (step127 x0 x1 V h)
theorem fin126 (x0 x1 : (⟨S32768x7x7x11, .f32⟩ : BufTy).Contents (Elt F)) (V : Valuation τ sig (Elt F)) (h : Inv125 x0 x1 V) :
    Post x0 x1 (after (tail126 (F := F)) V) := fin127 x0 x1 _ (step126 x0 x1 V h)
theorem fin125 (x0 x1 : (⟨S32768x7x7x11, .f32⟩ : BufTy).Contents (Elt F)) (V : Valuation τ sig (Elt F)) (h : Inv124 x0 x1 V) :
    Post x0 x1 (after (tail125 (F := F)) V) := fin126 x0 x1 _ (step125 x0 x1 V h)
theorem fin124 (x0 x1 : (⟨S32768x7x7x11, .f32⟩ : BufTy).Contents (Elt F)) (V : Valuation τ sig (Elt F)) (h : Inv123 x0 x1 V) :
    Post x0 x1 (after (tail124 (F := F)) V) := fin125 x0 x1 _ (step124 x0 x1 V h)
theorem fin123 (x0 x1 : (⟨S32768x7x7x11, .f32⟩ : BufTy).Contents (Elt F)) (V : Valuation τ sig (Elt F)) (h : Inv122 x0 x1 V) :
    Post x0 x1 (after (tail123 (F := F)) V) := fin124 x0 x1 _ (step123 x0 x1 V h)
theorem fin122 (x0 x1 : (⟨S32768x7x7x11, .f32⟩ : BufTy).Contents (Elt F)) (V : Valuation τ sig (Elt F)) (h : Inv121 x0 x1 V) :
    Post x0 x1 (after (tail122 (F := F)) V) := fin123 x0 x1 _ (step122 x0 x1 V h)
theorem fin121 (x0 x1 : (⟨S32768x7x7x11, .f32⟩ : BufTy).Contents (Elt F)) (V : Valuation τ sig (Elt F)) (h : Inv120 x0 x1 V) :
    Post x0 x1 (after (tail121 (F := F)) V) := fin122 x0 x1 _ (step121 x0 x1 V h)
theorem fin120 (x0 x1 : (⟨S32768x7x7x11, .f32⟩ : BufTy).Contents (Elt F)) (V : Valuation τ sig (Elt F)) (h : Inv119 x0 x1 V) :
    Post x0 x1 (after (tail120 (F := F)) V) := fin121 x0 x1 _ (step120 x0 x1 V h)
theorem fin119 (x0 x1 : (⟨S32768x7x7x11, .f32⟩ : BufTy).Contents (Elt F)) (V : Valuation τ sig (Elt F)) (h : Inv118 x0 x1 V) :
    Post x0 x1 (after (tail119 (F := F)) V) := fin120 x0 x1 _ (step119 x0 x1 V h)
theorem fin118 (x0 x1 : (⟨S32768x7x7x11, .f32⟩ : BufTy).Contents (Elt F)) (V : Valuation τ sig (Elt F)) (h : Inv117 x0 x1 V) :
    Post x0 x1 (after (tail118 (F := F)) V) := fin119 x0 x1 _ (step118 x0 x1 V h)
theorem fin117 (x0 x1 : (⟨S32768x7x7x11, .f32⟩ : BufTy).Contents (Elt F)) (V : Valuation τ sig (Elt F)) (h : Inv116 x0 x1 V) :
    Post x0 x1 (after (tail117 (F := F)) V) := fin118 x0 x1 _ (step117 x0 x1 V h)
theorem fin116 (x0 x1 : (⟨S32768x7x7x11, .f32⟩ : BufTy).Contents (Elt F)) (V : Valuation τ sig (Elt F)) (h : Inv115 x0 x1 V) :
    Post x0 x1 (after (tail116 (F := F)) V) := fin117 x0 x1 _ (step116 x0 x1 V h)
theorem fin115 (x0 x1 : (⟨S32768x7x7x11, .f32⟩ : BufTy).Contents (Elt F)) (V : Valuation τ sig (Elt F)) (h : Inv114 x0 x1 V) :
    Post x0 x1 (after (tail115 (F := F)) V) := fin116 x0 x1 _ (step115 x0 x1 V h)
theorem fin114 (x0 x1 : (⟨S32768x7x7x11, .f32⟩ : BufTy).Contents (Elt F)) (V : Valuation τ sig (Elt F)) (h : Inv113 x0 x1 V) :
    Post x0 x1 (after (tail114 (F := F)) V) := fin115 x0 x1 _ (step114 x0 x1 V h)
theorem fin113 (x0 x1 : (⟨S32768x7x7x11, .f32⟩ : BufTy).Contents (Elt F)) (V : Valuation τ sig (Elt F)) (h : Inv112 x0 x1 V) :
    Post x0 x1 (after (tail113 (F := F)) V) := fin114 x0 x1 _ (step113 x0 x1 V h)
theorem fin112 (x0 x1 : (⟨S32768x7x7x11, .f32⟩ : BufTy).Contents (Elt F)) (V : Valuation τ sig (Elt F)) (h : Inv111 x0 x1 V) :
    Post x0 x1 (after (tail112 (F := F)) V) := fin113 x0 x1 _ (step112 x0 x1 V h)
theorem fin111 (x0 x1 : (⟨S32768x7x7x11, .f32⟩ : BufTy).Contents (Elt F)) (V : Valuation τ sig (Elt F)) (h : Inv110 x0 x1 V) :
    Post x0 x1 (after (tail111 (F := F)) V) := fin112 x0 x1 _ (step111 x0 x1 V h)
theorem fin110 (x0 x1 : (⟨S32768x7x7x11, .f32⟩ : BufTy).Contents (Elt F)) (V : Valuation τ sig (Elt F)) (h : Inv109 x0 x1 V) :
    Post x0 x1 (after (tail110 (F := F)) V) := fin111 x0 x1 _ (step110 x0 x1 V h)
theorem fin109 (x0 x1 : (⟨S32768x7x7x11, .f32⟩ : BufTy).Contents (Elt F)) (V : Valuation τ sig (Elt F)) (h : Inv108 x0 x1 V) :
    Post x0 x1 (after (tail109 (F := F)) V) := fin110 x0 x1 _ (step109 x0 x1 V h)
theorem fin108 (x0 x1 : (⟨S32768x7x7x11, .f32⟩ : BufTy).Contents (Elt F)) (V : Valuation τ sig (Elt F)) (h : Inv107 x0 x1 V) :
    Post x0 x1 (after (tail108 (F := F)) V) := fin109 x0 x1 _ (step108 x0 x1 V h)
theorem fin107 (x0 x1 : (⟨S32768x7x7x11, .f32⟩ : BufTy).Contents (Elt F)) (V : Valuation τ sig (Elt F)) (h : Inv106 x0 x1 V) :
    Post x0 x1 (after (tail107 (F := F)) V) := fin108 x0 x1 _ (step107 x0 x1 V h)
theorem fin106 (x0 x1 : (⟨S32768x7x7x11, .f32⟩ : BufTy).Contents (Elt F)) (V : Valuation τ sig (Elt F)) (h : Inv105 x0 x1 V) :
    Post x0 x1 (after (tail106 (F := F)) V) := fin107 x0 x1 _ (step106 x0 x1 V h)
theorem fin105 (x0 x1 : (⟨S32768x7x7x11, .f32⟩ : BufTy).Contents (Elt F)) (V : Valuation τ sig (Elt F)) (h : Inv104 x0 x1 V) :
    Post x0 x1 (after (tail105 (F := F)) V) := fin106 x0 x1 _ (step105 x0 x1 V h)
theorem fin104 (x0 x1 : (⟨S32768x7x7x11, .f32⟩ : BufTy).Contents (Elt F)) (V : Valuation τ sig (Elt F)) (h : Inv103 x0 x1 V) :
    Post x0 x1 (after (tail104 (F := F)) V) := fin105 x0 x1 _ (step104 x0 x1 V h)
theorem fin103 (x0 x1 : (⟨S32768x7x7x11, .f32⟩ : BufTy).Contents (Elt F)) (V : Valuation τ sig (Elt F)) (h : Inv102 x0 x1 V) :
    Post x0 x1 (after (tail103 (F := F)) V) := fin104 x0 x1 _ (step103 x0 x1 V h)
theorem fin102 (x0 x1 : (⟨S32768x7x7x11, .f32⟩ : BufTy).Contents (Elt F)) (V : Valuation τ sig (Elt F)) (h : Inv101 x0 x1 V) :
    Post x0 x1 (after (tail102 (F := F)) V) := fin103 x0 x1 _ (step102 x0 x1 V h)
theorem fin101 (x0 x1 : (⟨S32768x7x7x11, .f32⟩ : BufTy).Contents (Elt F)) (V : Valuation τ sig (Elt F)) (h : Inv100 x0 x1 V) :
    Post x0 x1 (after (tail101 (F := F)) V) := fin102 x0 x1 _ (step101 x0 x1 V h)
theorem fin100 (x0 x1 : (⟨S32768x7x7x11, .f32⟩ : BufTy).Contents (Elt F)) (V : Valuation τ sig (Elt F)) (h : Inv99 x0 x1 V) :
    Post x0 x1 (after (tail100 (F := F)) V) := fin101 x0 x1 _ (step100 x0 x1 V h)
theorem fin99 (x0 x1 : (⟨S32768x7x7x11, .f32⟩ : BufTy).Contents (Elt F)) (V : Valuation τ sig (Elt F)) (h : Inv98 x0 x1 V) :
    Post x0 x1 (after (tail99 (F := F)) V) := fin100 x0 x1 _ (step99 x0 x1 V h)
theorem fin98 (x0 x1 : (⟨S32768x7x7x11, .f32⟩ : BufTy).Contents (Elt F)) (V : Valuation τ sig (Elt F)) (h : Inv97 x0 x1 V) :
    Post x0 x1 (after (tail98 (F := F)) V) := fin99 x0 x1 _ (step98 x0 x1 V h)
theorem fin97 (x0 x1 : (⟨S32768x7x7x11, .f32⟩ : BufTy).Contents (Elt F)) (V : Valuation τ sig (Elt F)) (h : Inv96 x0 x1 V) :
    Post x0 x1 (after (tail97 (F := F)) V) := fin98 x0 x1 _ (step97 x0 x1 V h)
theorem fin96 (x0 x1 : (⟨S32768x7x7x11, .f32⟩ : BufTy).Contents (Elt F)) (V : Valuation τ sig (Elt F)) (h : Inv95 x0 x1 V) :
    Post x0 x1 (after (tail96 (F := F)) V) := fin97 x0 x1 _ (step96 x0 x1 V h)
theorem fin95 (x0 x1 : (⟨S32768x7x7x11, .f32⟩ : BufTy).Contents (Elt F)) (V : Valuation τ sig (Elt F)) (h : Inv94 x0 x1 V) :
    Post x0 x1 (after (tail95 (F := F)) V) := fin96 x0 x1 _ (step95 x0 x1 V h)
theorem fin94 (x0 x1 : (⟨S32768x7x7x11, .f32⟩ : BufTy).Contents (Elt F)) (V : Valuation τ sig (Elt F)) (h : Inv93 x0 x1 V) :
    Post x0 x1 (after (tail94 (F := F)) V) := fin95 x0 x1 _ (step94 x0 x1 V h)
theorem fin93 (x0 x1 : (⟨S32768x7x7x11, .f32⟩ : BufTy).Contents (Elt F)) (V : Valuation τ sig (Elt F)) (h : Inv92 x0 x1 V) :
    Post x0 x1 (after (tail93 (F := F)) V) := fin94 x0 x1 _ (step93 x0 x1 V h)
theorem fin92 (x0 x1 : (⟨S32768x7x7x11, .f32⟩ : BufTy).Contents (Elt F)) (V : Valuation τ sig (Elt F)) (h : Inv91 x0 x1 V) :
    Post x0 x1 (after (tail92 (F := F)) V) := fin93 x0 x1 _ (step92 x0 x1 V h)
theorem fin91 (x0 x1 : (⟨S32768x7x7x11, .f32⟩ : BufTy).Contents (Elt F)) (V : Valuation τ sig (Elt F)) (h : Inv90 x0 x1 V) :
    Post x0 x1 (after (tail91 (F := F)) V) := fin92 x0 x1 _ (step91 x0 x1 V h)
theorem fin90 (x0 x1 : (⟨S32768x7x7x11, .f32⟩ : BufTy).Contents (Elt F)) (V : Valuation τ sig (Elt F)) (h : Inv89 x0 x1 V) :
    Post x0 x1 (after (tail90 (F := F)) V) := fin91 x0 x1 _ (step90 x0 x1 V h)
theorem fin89 (x0 x1 : (⟨S32768x7x7x11, .f32⟩ : BufTy).Contents (Elt F)) (V : Valuation τ sig (Elt F)) (h : Inv88 x0 x1 V) :
    Post x0 x1 (after (tail89 (F := F)) V) := fin90 x0 x1 _ (step89 x0 x1 V h)
theorem fin88 (x0 x1 : (⟨S32768x7x7x11, .f32⟩ : BufTy).Contents (Elt F)) (V : Valuation τ sig (Elt F)) (h : Inv87 x0 x1 V) :
    Post x0 x1 (after (tail88 (F := F)) V) := fin89 x0 x1 _ (step88 x0 x1 V h)
theorem fin87 (x0 x1 : (⟨S32768x7x7x11, .f32⟩ : BufTy).Contents (Elt F)) (V : Valuation τ sig (Elt F)) (h : Inv86 x0 x1 V) :
    Post x0 x1 (after (tail87 (F := F)) V) := fin88 x0 x1 _ (step87 x0 x1 V h)
theorem fin86 (x0 x1 : (⟨S32768x7x7x11, .f32⟩ : BufTy).Contents (Elt F)) (V : Valuation τ sig (Elt F)) (h : Inv85 x0 x1 V) :
    Post x0 x1 (after (tail86 (F := F)) V) := fin87 x0 x1 _ (step86 x0 x1 V h)
theorem fin85 (x0 x1 : (⟨S32768x7x7x11, .f32⟩ : BufTy).Contents (Elt F)) (V : Valuation τ sig (Elt F)) (h : Inv84 x0 x1 V) :
    Post x0 x1 (after (tail85 (F := F)) V) := fin86 x0 x1 _ (step85 x0 x1 V h)
theorem fin84 (x0 x1 : (⟨S32768x7x7x11, .f32⟩ : BufTy).Contents (Elt F)) (V : Valuation τ sig (Elt F)) (h : Inv83 x0 x1 V) :
    Post x0 x1 (after (tail84 (F := F)) V) := fin85 x0 x1 _ (step84 x0 x1 V h)
theorem fin83 (x0 x1 : (⟨S32768x7x7x11, .f32⟩ : BufTy).Contents (Elt F)) (V : Valuation τ sig (Elt F)) (h : Inv82 x0 x1 V) :
    Post x0 x1 (after (tail83 (F := F)) V) := fin84 x0 x1 _ (step83 x0 x1 V h)
theorem fin82 (x0 x1 : (⟨S32768x7x7x11, .f32⟩ : BufTy).Contents (Elt F)) (V : Valuation τ sig (Elt F)) (h : Inv81 x0 x1 V) :
    Post x0 x1 (after (tail82 (F := F)) V) := fin83 x0 x1 _ (step82 x0 x1 V h)
theorem fin81 (x0 x1 : (⟨S32768x7x7x11, .f32⟩ : BufTy).Contents (Elt F)) (V : Valuation τ sig (Elt F)) (h : Inv80 x0 x1 V) :
    Post x0 x1 (after (tail81 (F := F)) V) := fin82 x0 x1 _ (step81 x0 x1 V h)
theorem fin80 (x0 x1 : (⟨S32768x7x7x11, .f32⟩ : BufTy).Contents (Elt F)) (V : Valuation τ sig (Elt F)) (h : Inv79 x0 x1 V) :
    Post x0 x1 (after (tail80 (F := F)) V) := fin81 x0 x1 _ (step80 x0 x1 V h)
theorem fin79 (x0 x1 : (⟨S32768x7x7x11, .f32⟩ : BufTy).Contents (Elt F)) (V : Valuation τ sig (Elt F)) (h : Inv78 x0 x1 V) :
    Post x0 x1 (after (tail79 (F := F)) V) := fin80 x0 x1 _ (step79 x0 x1 V h)
theorem fin78 (x0 x1 : (⟨S32768x7x7x11, .f32⟩ : BufTy).Contents (Elt F)) (V : Valuation τ sig (Elt F)) (h : Inv77 x0 x1 V) :
    Post x0 x1 (after (tail78 (F := F)) V) := fin79 x0 x1 _ (step78 x0 x1 V h)
theorem fin77 (x0 x1 : (⟨S32768x7x7x11, .f32⟩ : BufTy).Contents (Elt F)) (V : Valuation τ sig (Elt F)) (h : Inv76 x0 x1 V) :
    Post x0 x1 (after (tail77 (F := F)) V) := fin78 x0 x1 _ (step77 x0 x1 V h)
theorem fin76 (x0 x1 : (⟨S32768x7x7x11, .f32⟩ : BufTy).Contents (Elt F)) (V : Valuation τ sig (Elt F)) (h : Inv75 x0 x1 V) :
    Post x0 x1 (after (tail76 (F := F)) V) := fin77 x0 x1 _ (step76 x0 x1 V h)
theorem fin75 (x0 x1 : (⟨S32768x7x7x11, .f32⟩ : BufTy).Contents (Elt F)) (V : Valuation τ sig (Elt F)) (h : Inv74 x0 x1 V) :
    Post x0 x1 (after (tail75 (F := F)) V) := fin76 x0 x1 _ (step75 x0 x1 V h)
theorem fin74 (x0 x1 : (⟨S32768x7x7x11, .f32⟩ : BufTy).Contents (Elt F)) (V : Valuation τ sig (Elt F)) (h : Inv73 x0 x1 V) :
    Post x0 x1 (after (tail74 (F := F)) V) := fin75 x0 x1 _ (step74 x0 x1 V h)
theorem fin73 (x0 x1 : (⟨S32768x7x7x11, .f32⟩ : BufTy).Contents (Elt F)) (V : Valuation τ sig (Elt F)) (h : Inv72 x0 x1 V) :
    Post x0 x1 (after (tail73 (F := F)) V) := fin74 x0 x1 _ (step73 x0 x1 V h)
theorem fin72 (x0 x1 : (⟨S32768x7x7x11, .f32⟩ : BufTy).Contents (Elt F)) (V : Valuation τ sig (Elt F)) (h : Inv71 x0 x1 V) :
    Post x0 x1 (after (tail72 (F := F)) V) := fin73 x0 x1 _ (step72 x0 x1 V h)
theorem fin71 (x0 x1 : (⟨S32768x7x7x11, .f32⟩ : BufTy).Contents (Elt F)) (V : Valuation τ sig (Elt F)) (h : Inv70 x0 x1 V) :
    Post x0 x1 (after (tail71 (F := F)) V) := fin72 x0 x1 _ (step71 x0 x1 V h)
theorem fin70 (x0 x1 : (⟨S32768x7x7x11, .f32⟩ : BufTy).Contents (Elt F)) (V : Valuation τ sig (Elt F)) (h : Inv69 x0 x1 V) :
    Post x0 x1 (after (tail70 (F := F)) V) := fin71 x0 x1 _ (step70 x0 x1 V h)
theorem fin69 (x0 x1 : (⟨S32768x7x7x11, .f32⟩ : BufTy).Contents (Elt F)) (V : Valuation τ sig (Elt F)) (h : Inv68 x0 x1 V) :
    Post x0 x1 (after (tail69 (F := F)) V) := fin70 x0 x1 _ (step69 x0 x1 V h)
theorem fin68 (x0 x1 : (⟨S32768x7x7x11, .f32⟩ : BufTy).Contents (Elt F)) (V : Valuation τ sig (Elt F)) (h : Inv67 x0 x1 V) :
    Post x0 x1 (after (tail68 (F := F)) V) := fin69 x0 x1 _ (step68 x0 x1 V h)
theorem fin67 (x0 x1 : (⟨S32768x7x7x11, .f32⟩ : BufTy).Contents (Elt F)) (V : Valuation τ sig (Elt F)) (h : Inv66 x0 x1 V) :
    Post x0 x1 (after (tail67 (F := F)) V) := fin68 x0 x1 _ (step67 x0 x1 V h)
theorem fin66 (x0 x1 : (⟨S32768x7x7x11, .f32⟩ : BufTy).Contents (Elt F)) (V : Valuation τ sig (Elt F)) (h : Inv65 x0 x1 V) :
    Post x0 x1 (after (tail66 (F := F)) V) := fin67 x0 x1 _ (step66 x0 x1 V h)
theorem fin65 (x0 x1 : (⟨S32768x7x7x11, .f32⟩ : BufTy).Contents (Elt F)) (V : Valuation τ sig (Elt F)) (h : Inv64 x0 x1 V) :
    Post x0 x1 (after (tail65 (F := F)) V) := fin66 x0 x1 _ (step65 x0 x1 V h)
theorem fin64 (x0 x1 : (⟨S32768x7x7x11, .f32⟩ : BufTy).Contents (Elt F)) (V : Valuation τ sig (Elt F)) (h : Inv63 x0 x1 V) :
    Post x0 x1 (after (tail64 (F := F)) V) := fin65 x0 x1 _ (step64 x0 x1 V h)
theorem fin63 (x0 x1 : (⟨S32768x7x7x11, .f32⟩ : BufTy).Contents (Elt F)) (V : Valuation τ sig (Elt F)) (h : Inv62 x0 x1 V) :
    Post x0 x1 (after (tail63 (F := F)) V) := fin64 x0 x1 _ (step63 x0 x1 V h)
theorem fin62 (x0 x1 : (⟨S32768x7x7x11, .f32⟩ : BufTy).Contents (Elt F)) (V : Valuation τ sig (Elt F)) (h : Inv61 x0 x1 V) :
    Post x0 x1 (after (tail62 (F := F)) V) := fin63 x0 x1 _ (step62 x0 x1 V h)
theorem fin61 (x0 x1 : (⟨S32768x7x7x11, .f32⟩ : BufTy).Contents (Elt F)) (V : Valuation τ sig (Elt F)) (h : Inv60 x0 x1 V) :
    Post x0 x1 (after (tail61 (F := F)) V) := fin62 x0 x1 _ (step61 x0 x1 V h)
theorem fin60 (x0 x1 : (⟨S32768x7x7x11, .f32⟩ : BufTy).Contents (Elt F)) (V : Valuation τ sig (Elt F)) (h : Inv59 x0 x1 V) :
    Post x0 x1 (after (tail60 (F := F)) V) := fin61 x0 x1 _ (step60 x0 x1 V h)
theorem fin59 (x0 x1 : (⟨S32768x7x7x11, .f32⟩ : BufTy).Contents (Elt F)) (V : Valuation τ sig (Elt F)) (h : Inv58 x0 x1 V) :
    Post x0 x1 (after (tail59 (F := F)) V) := fin60 x0 x1 _ (step59 x0 x1 V h)
theorem fin58 (x0 x1 : (⟨S32768x7x7x11, .f32⟩ : BufTy).Contents (Elt F)) (V : Valuation τ sig (Elt F)) (h : Inv57 x0 x1 V) :
    Post x0 x1 (after (tail58 (F := F)) V) := fin59 x0 x1 _ (step58 x0 x1 V h)
theorem fin57 (x0 x1 : (⟨S32768x7x7x11, .f32⟩ : BufTy).Contents (Elt F)) (V : Valuation τ sig (Elt F)) (h : Inv56 x0 x1 V) :
    Post x0 x1 (after (tail57 (F := F)) V) := fin58 x0 x1 _ (step57 x0 x1 V h)
theorem fin56 (x0 x1 : (⟨S32768x7x7x11, .f32⟩ : BufTy).Contents (Elt F)) (V : Valuation τ sig (Elt F)) (h : Inv55 x0 x1 V) :
    Post x0 x1 (after (tail56 (F := F)) V) := fin57 x0 x1 _ (step56 x0 x1 V h)
theorem fin55 (x0 x1 : (⟨S32768x7x7x11, .f32⟩ : BufTy).Contents (Elt F)) (V : Valuation τ sig (Elt F)) (h : Inv54 x0 x1 V) :
    Post x0 x1 (after (tail55 (F := F)) V) := fin56 x0 x1 _ (step55 x0 x1 V h)
theorem fin54 (x0 x1 : (⟨S32768x7x7x11, .f32⟩ : BufTy).Contents (Elt F)) (V : Valuation τ sig (Elt F)) (h : Inv53 x0 x1 V) :
    Post x0 x1 (after (tail54 (F := F)) V) := fin55 x0 x1 _ (step54 x0 x1 V h)
theorem fin53 (x0 x1 : (⟨S32768x7x7x11, .f32⟩ : BufTy).Contents (Elt F)) (V : Valuation τ sig (Elt F)) (h : Inv52 x0 x1 V) :
    Post x0 x1 (after (tail53 (F := F)) V) := fin54 x0 x1 _ (step53 x0 x1 V h)
theorem fin52 (x0 x1 : (⟨S32768x7x7x11, .f32⟩ : BufTy).Contents (Elt F)) (V : Valuation τ sig (Elt F)) (h : Inv51 x0 x1 V) :
    Post x0 x1 (after (tail52 (F := F)) V) := fin53 x0 x1 _ (step52 x0 x1 V h)
theorem fin51 (x0 x1 : (⟨S32768x7x7x11, .f32⟩ : BufTy).Contents (Elt F)) (V : Valuation τ sig (Elt F)) (h : Inv50 x0 x1 V) :
    Post x0 x1 (after (tail51 (F := F)) V) := fin52 x0 x1 _ (step51 x0 x1 V h)
theorem fin50 (x0 x1 : (⟨S32768x7x7x11, .f32⟩ : BufTy).Contents (Elt F)) (V : Valuation τ sig (Elt F)) (h : Inv49 x0 x1 V) :
    Post x0 x1 (after (tail50 (F := F)) V) := fin51 x0 x1 _ (step50 x0 x1 V h)
theorem fin49 (x0 x1 : (⟨S32768x7x7x11, .f32⟩ : BufTy).Contents (Elt F)) (V : Valuation τ sig (Elt F)) (h : Inv48 x0 x1 V) :
    Post x0 x1 (after (tail49 (F := F)) V) := fin50 x0 x1 _ (step49 x0 x1 V h)
theorem fin48 (x0 x1 : (⟨S32768x7x7x11, .f32⟩ : BufTy).Contents (Elt F)) (V : Valuation τ sig (Elt F)) (h : Inv47 x0 x1 V) :
    Post x0 x1 (after (tail48 (F := F)) V) := fin49 x0 x1 _ (step48 x0 x1 V h)
theorem fin47 (x0 x1 : (⟨S32768x7x7x11, .f32⟩ : BufTy).Contents (Elt F)) (V : Valuation τ sig (Elt F)) (h : Inv46 x0 x1 V) :
    Post x0 x1 (after (tail47 (F := F)) V) := fin48 x0 x1 _ (step47 x0 x1 V h)
theorem fin46 (x0 x1 : (⟨S32768x7x7x11, .f32⟩ : BufTy).Contents (Elt F)) (V : Valuation τ sig (Elt F)) (h : Inv45 x0 x1 V) :
    Post x0 x1 (after (tail46 (F := F)) V) := fin47 x0 x1 _ (step46 x0 x1 V h)
theorem fin45 (x0 x1 : (⟨S32768x7x7x11, .f32⟩ : BufTy).Contents (Elt F)) (V : Valuation τ sig (Elt F)) (h : Inv44 x0 x1 V) :
    Post x0 x1 (after (tail45 (F := F)) V) := fin46 x0 x1 _ (step45 x0 x1 V h)
theorem fin44 (x0 x1 : (⟨S32768x7x7x11, .f32⟩ : BufTy).Contents (Elt F)) (V : Valuation τ sig (Elt F)) (h : Inv43 x0 x1 V) :
    Post x0 x1 (after (tail44 (F := F)) V) := fin45 x0 x1 _ (step44 x0 x1 V h)
theorem fin43 (x0 x1 : (⟨S32768x7x7x11, .f32⟩ : BufTy).Contents (Elt F)) (V : Valuation τ sig (Elt F)) (h : Inv42 x0 x1 V) :
    Post x0 x1 (after (tail43 (F := F)) V) := fin44 x0 x1 _ (step43 x0 x1 V h)
theorem fin42 (x0 x1 : (⟨S32768x7x7x11, .f32⟩ : BufTy).Contents (Elt F)) (V : Valuation τ sig (Elt F)) (h : Inv41 x0 x1 V) :
    Post x0 x1 (after (tail42 (F := F)) V) := fin43 x0 x1 _ (step42 x0 x1 V h)
theorem fin41 (x0 x1 : (⟨S32768x7x7x11, .f32⟩ : BufTy).Contents (Elt F)) (V : Valuation τ sig (Elt F)) (h : Inv40 x0 x1 V) :
    Post x0 x1 (after (tail41 (F := F)) V) := fin42 x0 x1 _ (step41 x0 x1 V h)
theorem fin40 (x0 x1 : (⟨S32768x7x7x11, .f32⟩ : BufTy).Contents (Elt F)) (V : Valuation τ sig (Elt F)) (h : Inv39 x0 x1 V) :
    Post x0 x1 (after (tail40 (F := F)) V) := fin41 x0 x1 _ (step40 x0 x1 V h)
theorem fin39 (x0 x1 : (⟨S32768x7x7x11, .f32⟩ : BufTy).Contents (Elt F)) (V : Valuation τ sig (Elt F)) (h : Inv38 x0 x1 V) :
    Post x0 x1 (after (tail39 (F := F)) V) := fin40 x0 x1 _ (step39 x0 x1 V h)
theorem fin38 (x0 x1 : (⟨S32768x7x7x11, .f32⟩ : BufTy).Contents (Elt F)) (V : Valuation τ sig (Elt F)) (h : Inv37 x0 x1 V) :
    Post x0 x1 (after (tail38 (F := F)) V) := fin39 x0 x1 _ (step38 x0 x1 V h)
theorem fin37 (x0 x1 : (⟨S32768x7x7x11, .f32⟩ : BufTy).Contents (Elt F)) (V : Valuation τ sig (Elt F)) (h : Inv36 x0 x1 V) :
    Post x0 x1 (after (tail37 (F := F)) V) := fin38 x0 x1 _ (step37 x0 x1 V h)
theorem fin36 (x0 x1 : (⟨S32768x7x7x11, .f32⟩ : BufTy).Contents (Elt F)) (V : Valuation τ sig (Elt F)) (h : Inv35 x0 x1 V) :
    Post x0 x1 (after (tail36 (F := F)) V) := fin37 x0 x1 _ (step36 x0 x1 V h)
theorem fin35 (x0 x1 : (⟨S32768x7x7x11, .f32⟩ : BufTy).Contents (Elt F)) (V : Valuation τ sig (Elt F)) (h : Inv34 x0 x1 V) :
    Post x0 x1 (after (tail35 (F := F)) V) := fin36 x0 x1 _ (step35 x0 x1 V h)
theorem fin34 (x0 x1 : (⟨S32768x7x7x11, .f32⟩ : BufTy).Contents (Elt F)) (V : Valuation τ sig (Elt F)) (h : Inv33 x0 x1 V) :
    Post x0 x1 (after (tail34 (F := F)) V) := fin35 x0 x1 _ (step34 x0 x1 V h)
theorem fin33 (x0 x1 : (⟨S32768x7x7x11, .f32⟩ : BufTy).Contents (Elt F)) (V : Valuation τ sig (Elt F)) (h : Inv32 x0 x1 V) :
    Post x0 x1 (after (tail33 (F := F)) V) := fin34 x0 x1 _ (step33 x0 x1 V h)
theorem fin32 (x0 x1 : (⟨S32768x7x7x11, .f32⟩ : BufTy).Contents (Elt F)) (V : Valuation τ sig (Elt F)) (h : Inv31 x0 x1 V) :
    Post x0 x1 (after (tail32 (F := F)) V) := fin33 x0 x1 _ (step32 x0 x1 V h)
theorem fin31 (x0 x1 : (⟨S32768x7x7x11, .f32⟩ : BufTy).Contents (Elt F)) (V : Valuation τ sig (Elt F)) (h : Inv30 x0 x1 V) :
    Post x0 x1 (after (tail31 (F := F)) V) := fin32 x0 x1 _ (step31 x0 x1 V h)
theorem fin30 (x0 x1 : (⟨S32768x7x7x11, .f32⟩ : BufTy).Contents (Elt F)) (V : Valuation τ sig (Elt F)) (h : Inv29 x0 x1 V) :
    Post x0 x1 (after (tail30 (F := F)) V) := fin31 x0 x1 _ (step30 x0 x1 V h)
theorem fin29 (x0 x1 : (⟨S32768x7x7x11, .f32⟩ : BufTy).Contents (Elt F)) (V : Valuation τ sig (Elt F)) (h : Inv28 x0 x1 V) :
    Post x0 x1 (after (tail29 (F := F)) V) := fin30 x0 x1 _ (step29 x0 x1 V h)
theorem fin28 (x0 x1 : (⟨S32768x7x7x11, .f32⟩ : BufTy).Contents (Elt F)) (V : Valuation τ sig (Elt F)) (h : Inv27 x0 x1 V) :
    Post x0 x1 (after (tail28 (F := F)) V) := fin29 x0 x1 _ (step28 x0 x1 V h)
theorem fin27 (x0 x1 : (⟨S32768x7x7x11, .f32⟩ : BufTy).Contents (Elt F)) (V : Valuation τ sig (Elt F)) (h : Inv26 x0 x1 V) :
    Post x0 x1 (after (tail27 (F := F)) V) := fin28 x0 x1 _ (step27 x0 x1 V h)
theorem fin26 (x0 x1 : (⟨S32768x7x7x11, .f32⟩ : BufTy).Contents (Elt F)) (V : Valuation τ sig (Elt F)) (h : Inv25 x0 x1 V) :
    Post x0 x1 (after (tail26 (F := F)) V) := fin27 x0 x1 _ (step26 x0 x1 V h)
theorem fin25 (x0 x1 : (⟨S32768x7x7x11, .f32⟩ : BufTy).Contents (Elt F)) (V : Valuation τ sig (Elt F)) (h : Inv24 x0 x1 V) :
    Post x0 x1 (after (tail25 (F := F)) V) := fin26 x0 x1 _ (step25 x0 x1 V h)
theorem fin24 (x0 x1 : (⟨S32768x7x7x11, .f32⟩ : BufTy).Contents (Elt F)) (V : Valuation τ sig (Elt F)) (h : Inv23 x0 x1 V) :
    Post x0 x1 (after (tail24 (F := F)) V) := fin25 x0 x1 _ (step24 x0 x1 V h)
theorem fin23 (x0 x1 : (⟨S32768x7x7x11, .f32⟩ : BufTy).Contents (Elt F)) (V : Valuation τ sig (Elt F)) (h : Inv22 x0 x1 V) :
    Post x0 x1 (after (tail23 (F := F)) V) := fin24 x0 x1 _ (step23 x0 x1 V h)
theorem fin22 (x0 x1 : (⟨S32768x7x7x11, .f32⟩ : BufTy).Contents (Elt F)) (V : Valuation τ sig (Elt F)) (h : Inv21 x0 x1 V) :
    Post x0 x1 (after (tail22 (F := F)) V) := fin23 x0 x1 _ (step22 x0 x1 V h)
theorem fin21 (x0 x1 : (⟨S32768x7x7x11, .f32⟩ : BufTy).Contents (Elt F)) (V : Valuation τ sig (Elt F)) (h : Inv20 x0 x1 V) :
    Post x0 x1 (after (tail21 (F := F)) V) := fin22 x0 x1 _ (step21 x0 x1 V h)
theorem fin20 (x0 x1 : (⟨S32768x7x7x11, .f32⟩ : BufTy).Contents (Elt F)) (V : Valuation τ sig (Elt F)) (h : Inv19 x0 x1 V) :
    Post x0 x1 (after (tail20 (F := F)) V) := fin21 x0 x1 _ (step20 x0 x1 V h)
theorem fin19 (x0 x1 : (⟨S32768x7x7x11, .f32⟩ : BufTy).Contents (Elt F)) (V : Valuation τ sig (Elt F)) (h : Inv18 x0 x1 V) :
    Post x0 x1 (after (tail19 (F := F)) V) := fin20 x0 x1 _ (step19 x0 x1 V h)
theorem fin18 (x0 x1 : (⟨S32768x7x7x11, .f32⟩ : BufTy).Contents (Elt F)) (V : Valuation τ sig (Elt F)) (h : Inv17 x0 x1 V) :
    Post x0 x1 (after (tail18 (F := F)) V) := fin19 x0 x1 _ (step18 x0 x1 V h)
theorem fin17 (x0 x1 : (⟨S32768x7x7x11, .f32⟩ : BufTy).Contents (Elt F)) (V : Valuation τ sig (Elt F)) (h : Inv16 x0 x1 V) :
    Post x0 x1 (after (tail17 (F := F)) V) := fin18 x0 x1 _ (step17 x0 x1 V h)
theorem fin16 (x0 x1 : (⟨S32768x7x7x11, .f32⟩ : BufTy).Contents (Elt F)) (V : Valuation τ sig (Elt F)) (h : Inv15 x0 x1 V) :
    Post x0 x1 (after (tail16 (F := F)) V) := fin17 x0 x1 _ (step16 x0 x1 V h)
theorem fin15 (x0 x1 : (⟨S32768x7x7x11, .f32⟩ : BufTy).Contents (Elt F)) (V : Valuation τ sig (Elt F)) (h : Inv14 x0 x1 V) :
    Post x0 x1 (after (tail15 (F := F)) V) := fin16 x0 x1 _ (step15 x0 x1 V h)
theorem fin14 (x0 x1 : (⟨S32768x7x7x11, .f32⟩ : BufTy).Contents (Elt F)) (V : Valuation τ sig (Elt F)) (h : Inv13 x0 x1 V) :
    Post x0 x1 (after (tail14 (F := F)) V) := fin15 x0 x1 _ (step14 x0 x1 V h)
theorem fin13 (x0 x1 : (⟨S32768x7x7x11, .f32⟩ : BufTy).Contents (Elt F)) (V : Valuation τ sig (Elt F)) (h : Inv12 x0 x1 V) :
    Post x0 x1 (after (tail13 (F := F)) V) := fin14 x0 x1 _ (step13 x0 x1 V h)
theorem fin12 (x0 x1 : (⟨S32768x7x7x11, .f32⟩ : BufTy).Contents (Elt F)) (V : Valuation τ sig (Elt F)) (h : Inv11 x0 x1 V) :
    Post x0 x1 (after (tail12 (F := F)) V) := fin13 x0 x1 _ (step12 x0 x1 V h)
theorem fin11 (x0 x1 : (⟨S32768x7x7x11, .f32⟩ : BufTy).Contents (Elt F)) (V : Valuation τ sig (Elt F)) (h : Inv10 x0 x1 V) :
    Post x0 x1 (after (tail11 (F := F)) V) := fin12 x0 x1 _ (step11 x0 x1 V h)
theorem fin10 (x0 x1 : (⟨S32768x7x7x11, .f32⟩ : BufTy).Contents (Elt F)) (V : Valuation τ sig (Elt F)) (h : Inv9 x0 x1 V) :
    Post x0 x1 (after (tail10 (F := F)) V) := fin11 x0 x1 _ (step10 x0 x1 V h)
theorem fin9 (x0 x1 : (⟨S32768x7x7x11, .f32⟩ : BufTy).Contents (Elt F)) (V : Valuation τ sig (Elt F)) (h : Inv8 x0 x1 V) :
    Post x0 x1 (after (tail9 (F := F)) V) := fin10 x0 x1 _ (step9 x0 x1 V h)
theorem fin8 (x0 x1 : (⟨S32768x7x7x11, .f32⟩ : BufTy).Contents (Elt F)) (V : Valuation τ sig (Elt F)) (h : Inv7 x0 x1 V) :
    Post x0 x1 (after (tail8 (F := F)) V) := fin9 x0 x1 _ (step8 x0 x1 V h)
theorem fin7 (x0 x1 : (⟨S32768x7x7x11, .f32⟩ : BufTy).Contents (Elt F)) (V : Valuation τ sig (Elt F)) (h : Inv6 x0 x1 V) :
    Post x0 x1 (after (tail7 (F := F)) V) := fin8 x0 x1 _ (step7 x0 x1 V h)
theorem fin6 (x0 x1 : (⟨S32768x7x7x11, .f32⟩ : BufTy).Contents (Elt F)) (V : Valuation τ sig (Elt F)) (h : Inv5 x0 x1 V) :
    Post x0 x1 (after (tail6 (F := F)) V) := fin7 x0 x1 _ (step6 x0 x1 V h)
theorem fin5 (x0 x1 : (⟨S32768x7x7x11, .f32⟩ : BufTy).Contents (Elt F)) (V : Valuation τ sig (Elt F)) (h : Inv4 x0 x1 V) :
    Post x0 x1 (after (tail5 (F := F)) V) := fin6 x0 x1 _ (step5 x0 x1 V h)
theorem fin4 (x0 x1 : (⟨S32768x7x7x11, .f32⟩ : BufTy).Contents (Elt F)) (V : Valuation τ sig (Elt F)) (h : Inv3 x0 x1 V) :
    Post x0 x1 (after (tail4 (F := F)) V) := fin5 x0 x1 _ (step4 x0 x1 V h)
theorem fin3 (x0 x1 : (⟨S32768x7x7x11, .f32⟩ : BufTy).Contents (Elt F)) (V : Valuation τ sig (Elt F)) (h : Inv2 x0 x1 V) :
    Post x0 x1 (after (tail3 (F := F)) V) := fin4 x0 x1 _ (step3 x0 x1 V h)
theorem fin2 (x0 x1 : (⟨S32768x7x7x11, .f32⟩ : BufTy).Contents (Elt F)) (V : Valuation τ sig (Elt F)) (h : Inv1 x0 x1 V) :
    Post x0 x1 (after (tail2 (F := F)) V) := fin3 x0 x1 _ (step2 x0 x1 V h)
theorem fin1 (x0 x1 : (⟨S32768x7x7x11, .f32⟩ : BufTy).Contents (Elt F)) (V : Valuation τ sig (Elt F)) (h : Inv0 x0 x1 V) :
    Post x0 x1 (after (tail1 (F := F)) V) := fin2 x0 x1 _ (step1 x0 x1 V h)
theorem fin0 (x0 x1 : (⟨S32768x7x7x11, .f32⟩ : BufTy).Contents (Elt F)) (V : Valuation τ sig (Elt F)) (h : Inv_init x0 x1 V) :
    Post x0 x1 (after (tail0 (F := F)) V) := fin1 x0 x1 _ (step0 x0 x1 V h)

end Cert.ReferenceIdeal.RefRun

end
-- ==== Proof.RefRunSub.lean ====
/-
  Two side facts of the reference program, by the same chain of tails: every operation touches TensorCore
  buffers only, and no operation allocates (each determines its results).
-/
import proofs.«158835_j66340064854039_2_alg».proof.Proof.RefRead
import Idealize.ShloMosaic.Lib.StableHlo.Run
import proofs.«158835_j66340064854039_2_alg».proof.Proof.RefRunTails

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem sub201 : (tail201 : List (HloOp τ sig (Elt F))).Forall fun op => op.bufs ⊆ tcRefs τ sig := trivial
theorem sub200 : (tail200 : List (HloOp τ sig (Elt F))).Forall fun op => op.bufs ⊆ tcRefs τ sig :=
  (List.forall_cons _ _ _).mpr ⟨binary_bufs_sub .., sub201⟩
theorem sub199 : (tail199 : List (HloOp τ sig (Elt F))).Forall fun op => op.bufs ⊆ tcRefs τ sig :=
  (List.forall_cons _ _ _).mpr ⟨nullary_bufs_sub .., sub200⟩
theorem sub198 : (tail198 : List (HloOp τ sig (Elt F))).Forall fun op => op.bufs ⊆ tcRefs τ sig :=
  (List.forall_cons _ _ _).mpr ⟨binary_bufs_sub .., sub199⟩
theorem sub197 : (tail197 : List (HloOp τ sig (Elt F))).Forall fun op => op.bufs ⊆ tcRefs τ sig :=
  (List.forall_cons _ _ _).mpr ⟨binary_bufs_sub .., sub198⟩
theorem sub196 : (tail196 : List (HloOp τ sig (Elt F))).Forall fun op => op.bufs ⊆ tcRefs τ sig :=
  (List.forall_cons _ _ _).mpr ⟨binary_bufs_sub .., sub197⟩
theorem sub195 : (tail195 : List (HloOp τ sig (Elt F))).Forall fun op => op.bufs ⊆ tcRefs τ sig :=
  (List.forall_cons _ _ _).mpr ⟨nullary_bufs_sub .., sub196⟩
theorem sub194 : (tail194 : List (HloOp τ sig (Elt F))).Forall fun op => op.bufs ⊆ tcRefs τ sig :=
  (List.forall_cons _ _ _).mpr ⟨binary_bufs_sub .., sub195⟩
theorem sub193 : (tail193 : List (HloOp τ sig (Elt F))).Forall fun op => op.bufs ⊆ tcRefs τ sig :=
  (List.forall_cons _ _ _).mpr ⟨binary_bufs_sub .., sub194⟩
theorem sub192 : (tail192 : List (HloOp τ sig (Elt F))).Forall fun op => op.bufs ⊆ tcRefs τ sig :=
  (List.forall_cons _ _ _).mpr ⟨nullary_bufs_sub .., sub193⟩
theorem sub191 : (tail191 : List (HloOp τ sig (Elt F))).Forall fun op => op.bufs ⊆ tcRefs τ sig :=
  (List.forall_cons _ _ _).mpr ⟨binary_bufs_sub .., sub192⟩
theorem sub190 : (tail190 : List (HloOp τ sig (Elt F))).Forall fun op => op.bufs ⊆ tcRefs τ sig :=
  (List.forall_cons _ _ _).mpr ⟨binary_bufs_sub .., sub191⟩
theorem sub189 : (tail189 : List (HloOp τ sig (Elt F))).Forall fun op => op.bufs ⊆ tcRefs τ sig :=
  (List.forall_cons _ _ _).mpr ⟨nullary_bufs_sub .., sub190⟩
theorem sub188 : (tail188 : List (HloOp τ sig (Elt F))).Forall fun op => op.bufs ⊆ tcRefs τ sig :=
  (List.forall_cons _ _ _).mpr ⟨binary_bufs_sub .., sub189⟩
theorem sub187 : (tail187 : List (HloOp τ sig (Elt F))).Forall fun op => op.bufs ⊆ tcRefs τ sig :=
  (List.forall_cons _ _ _).mpr ⟨nullary_bufs_sub .., sub188⟩
theorem sub186 : (tail186 : List (HloOp τ sig (Elt F))).Forall fun op => op.bufs ⊆ tcRefs τ sig :=
  (List.forall_cons _ _ _).mpr ⟨binary_bufs_sub .., sub187⟩
theorem sub185 : (tail185 : List (HloOp τ sig (Elt F))).Forall fun op => op.bufs ⊆ tcRefs τ sig :=
  (List.forall_cons _ _ _).mpr ⟨binary_bufs_sub .., sub186⟩
theorem sub184 : (tail184 : List (HloOp τ sig (Elt F))).Forall fun op => op.bufs ⊆ tcRefs τ sig :=
  (List.forall_cons _ _ _).mpr ⟨unary_bufs_sub .., sub185⟩
theorem sub183 : (tail183 : List (HloOp τ sig (Elt F))).Forall fun op => op.bufs ⊆ tcRefs τ sig :=
  (List.forall_cons _ _ _).mpr ⟨unary_bufs_sub .., sub184⟩
theorem sub182 : (tail182 : List (HloOp τ sig (Elt F))).Forall fun op => op.bufs ⊆ tcRefs τ sig :=
  (List.forall_cons _ _ _).mpr ⟨binary_bufs_sub .., sub183⟩
theorem sub181 : (tail181 : List (HloOp τ sig (Elt F))).Forall fun op => op.bufs ⊆ tcRefs τ sig :=
  (List.forall_cons _ _ _).mpr ⟨nullary_bufs_sub .., sub182⟩
theorem sub180 : (tail180 : List (HloOp τ sig (Elt F))).Forall fun op => op.bufs ⊆ tcRefs τ sig :=
  (List.forall_cons _ _ _).mpr ⟨ternary_bufs_sub .., sub181⟩
theorem sub179 : (tail179 : List (HloOp τ sig (Elt F))).Forall fun op => op.bufs ⊆ tcRefs τ sig :=
  (List.forall_cons _ _ _).mpr ⟨unary_bufs_sub .., sub180⟩
theorem sub178 : (tail178 : List (HloOp τ sig (Elt F))).Forall fun op => op.bufs ⊆ tcRefs τ sig :=
  (List.forall_cons _ _ _).mpr ⟨unary_bufs_sub .., sub179⟩
theorem sub177 : (tail177 : List (HloOp τ sig (Elt F))).Forall fun op => op.bufs ⊆ tcRefs τ sig :=
  (List.forall_cons _ _ _).mpr ⟨nullary_bufs_sub .., sub178⟩
theorem sub176 : (tail176 : List (HloOp τ sig (Elt F))).Forall fun op => op.bufs ⊆ tcRefs τ sig :=
  (List.forall_cons _ _ _).mpr ⟨binary_bufs_sub .., sub177⟩
theorem sub175 : (tail175 : List (HloOp τ sig (Elt F))).Forall fun op => op.bufs ⊆ tcRefs τ sig :=
  (List.forall_cons _ _ _).mpr ⟨binary_bufs_sub .., sub176⟩
theorem sub174 : (tail174 : List (HloOp τ sig (Elt F))).Forall fun op => op.bufs ⊆ tcRefs τ sig :=
  (List.forall_cons _ _ _).mpr ⟨nullary_bufs_sub .., sub175⟩
theorem sub173 : (tail173 : List (HloOp τ sig (Elt F))).Forall fun op => op.bufs ⊆ tcRefs τ sig :=
  (List.forall_cons _ _ _).mpr ⟨binary_bufs_sub .., sub174⟩
theorem sub172 : (tail172 : List (HloOp τ sig (Elt F))).Forall fun op => op.bufs ⊆ tcRefs τ sig :=
  (List.forall_cons _ _ _).mpr ⟨binary_bufs_sub .., sub173⟩
theorem sub171 : (tail171 : List (HloOp τ sig (Elt F))).Forall fun op => op.bufs ⊆ tcRefs τ sig :=
  (List.forall_cons _ _ _).mpr ⟨unary_bufs_sub .., sub172⟩
theorem sub170 : (tail170 : List (HloOp τ sig (Elt F))).Forall fun op => op.bufs ⊆ tcRefs τ sig :=
  (List.forall_cons _ _ _).mpr ⟨unary_bufs_sub .., sub171⟩
theorem sub169 : (tail169 : List (HloOp τ sig (Elt F))).Forall fun op => op.bufs ⊆ tcRefs τ sig :=
  (List.forall_cons _ _ _).mpr ⟨unary_bufs_sub .., sub170⟩
theorem sub168 : (tail168 : List (HloOp τ sig (Elt F))).Forall fun op => op.bufs ⊆ tcRefs τ sig :=
  (List.forall_cons _ _ _).mpr ⟨unary_bufs_sub .., sub169⟩
theorem sub167 : (tail167 : List (HloOp τ sig (Elt F))).Forall fun op => op.bufs ⊆ tcRefs τ sig :=
  (List.forall_cons _ _ _).mpr ⟨binary_bufs_sub .., sub168⟩
theorem sub166 : (tail166 : List (HloOp τ sig (Elt F))).Forall fun op => op.bufs ⊆ tcRefs τ sig :=
  (List.forall_cons _ _ _).mpr ⟨nullary_bufs_sub .., sub167⟩
theorem sub165 : (tail165 : List (HloOp τ sig (Elt F))).Forall fun op => op.bufs ⊆ tcRefs τ sig :=
  (List.forall_cons _ _ _).mpr ⟨binary_bufs_sub .., sub166⟩
theorem sub164 : (tail164 : List (HloOp τ sig (Elt F))).Forall fun op => op.bufs ⊆ tcRefs τ sig :=
  (List.forall_cons _ _ _).mpr ⟨binary_bufs_sub .., sub165⟩
theorem sub163 : (tail163 : List (HloOp τ sig (Elt F))).Forall fun op => op.bufs ⊆ tcRefs τ sig :=
  (List.forall_cons _ _ _).mpr ⟨unary_bufs_sub .., sub164⟩
theorem sub162 : (tail162 : List (HloOp τ sig (Elt F))).Forall fun op => op.bufs ⊆ tcRefs τ sig :=
  (List.forall_cons _ _ _).mpr ⟨unary_bufs_sub .., sub163⟩
theorem sub161 : (tail161 : List (HloOp τ sig (Elt F))).Forall fun op => op.bufs ⊆ tcRefs τ sig :=
  (List.forall_cons _ _ _).mpr ⟨binary_bufs_sub .., sub162⟩
theorem sub160 : (tail160 : List (HloOp τ sig (Elt F))).Forall fun op => op.bufs ⊆ tcRefs τ sig :=
  (List.forall_cons _ _ _).mpr ⟨nullary_bufs_sub .., sub161⟩
theorem sub159 : (tail159 : List (HloOp τ sig (Elt F))).Forall fun op => op.bufs ⊆ tcRefs τ sig :=
  (List.forall_cons _ _ _).mpr ⟨ternary_bufs_sub .., sub160⟩
theorem sub158 : (tail158 : List (HloOp τ sig (Elt F))).Forall fun op => op.bufs ⊆ tcRefs τ sig :=
  (List.forall_cons _ _ _).mpr ⟨unary_bufs_sub .., sub159⟩
theorem sub157 : (tail157 : List (HloOp τ sig (Elt F))).Forall fun op => op.bufs ⊆ tcRefs τ sig :=
  (List.forall_cons _ _ _).mpr ⟨unary_bufs_sub .., sub158⟩
theorem sub156 : (tail156 : List (HloOp τ sig (Elt F))).Forall fun op => op.bufs ⊆ tcRefs τ sig :=
  (List.forall_cons _ _ _).mpr ⟨nullary_bufs_sub .., sub157⟩
theorem sub155 : (tail155 : List (HloOp τ sig (Elt F))).Forall fun op => op.bufs ⊆ tcRefs τ sig :=
  (List.forall_cons _ _ _).mpr ⟨binary_bufs_sub .., sub156⟩
theorem sub154 : (tail154 : List (HloOp τ sig (Elt F))).Forall fun op => op.bufs ⊆ tcRefs τ sig :=
  (List.forall_cons _ _ _).mpr ⟨binary_bufs_sub .., sub155⟩
theorem sub153 : (tail153 : List (HloOp τ sig (Elt F))).Forall fun op => op.bufs ⊆ tcRefs τ sig :=
  (List.forall_cons _ _ _).mpr ⟨nullary_bufs_sub .., sub154⟩
theorem sub152 : (tail152 : List (HloOp τ sig (Elt F))).Forall fun op => op.bufs ⊆ tcRefs τ sig :=
  (List.forall_cons _ _ _).mpr ⟨ternary_bufs_sub .., sub153⟩
theorem sub151 : (tail151 : List (HloOp τ sig (Elt F))).Forall fun op => op.bufs ⊆ tcRefs τ sig :=
  (List.forall_cons _ _ _).mpr ⟨unary_bufs_sub .., sub152⟩
theorem sub150 : (tail150 : List (HloOp τ sig (Elt F))).Forall fun op => op.bufs ⊆ tcRefs τ sig :=
  (List.forall_cons _ _ _).mpr ⟨unary_bufs_sub .., sub151⟩
theorem sub149 : (tail149 : List (HloOp τ sig (Elt F))).Forall fun op => op.bufs ⊆ tcRefs τ sig :=
  (List.forall_cons _ _ _).mpr ⟨nullary_bufs_sub .., sub150⟩
theorem sub148 : (tail148 : List (HloOp τ sig (Elt F))).Forall fun op => op.bufs ⊆ tcRefs τ sig :=
  (List.forall_cons _ _ _).mpr ⟨binary_bufs_sub .., sub149⟩
theorem sub147 : (tail147 : List (HloOp τ sig (Elt F))).Forall fun op => op.bufs ⊆ tcRefs τ sig :=
  (List.forall_cons _ _ _).mpr ⟨binary_bufs_sub .., sub148⟩
theorem sub146 : (tail146 : List (HloOp τ sig (Elt F))).Forall fun op => op.bufs ⊆ tcRefs τ sig :=
  (List.forall_cons _ _ _).mpr ⟨unary_bufs_sub .., sub147⟩
theorem sub145 : (tail145 : List (HloOp τ sig (Elt F))).Forall fun op => op.bufs ⊆ tcRefs τ sig :=
  (List.forall_cons _ _ _).mpr ⟨unary_bufs_sub .., sub146⟩
theorem sub144 : (tail144 : List (HloOp τ sig (Elt F))).Forall fun op => op.bufs ⊆ tcRefs τ sig :=
  (List.forall_cons _ _ _).mpr ⟨reshape_bufs_sub .., sub145⟩
theorem sub143 : (tail143 : List (HloOp τ sig (Elt F))).Forall fun op => op.bufs ⊆ tcRefs τ sig :=
  (List.forall_cons _ _ _).mpr ⟨unary_bufs_sub .., sub144⟩
theorem sub142 : (tail142 : List (HloOp τ sig (Elt F))).Forall fun op => op.bufs ⊆ tcRefs τ sig :=
  (List.forall_cons _ _ _).mpr ⟨binary_bufs_sub .., sub143⟩
theorem sub141 : (tail141 : List (HloOp τ sig (Elt F))).Forall fun op => op.bufs ⊆ tcRefs τ sig :=
  (List.forall_cons _ _ _).mpr ⟨unary_bufs_sub .., sub142⟩
theorem sub140 : (tail140 : List (HloOp τ sig (Elt F))).Forall fun op => op.bufs ⊆ tcRefs τ sig :=
  (List.forall_cons _ _ _).mpr ⟨unary_bufs_sub .., sub141⟩
theorem sub139 : (tail139 : List (HloOp τ sig (Elt F))).Forall fun op => op.bufs ⊆ tcRefs τ sig :=
  (List.forall_cons _ _ _).mpr ⟨unary_bufs_sub .., sub140⟩
theorem sub138 : (tail138 : List (HloOp τ sig (Elt F))).Forall fun op => op.bufs ⊆ tcRefs τ sig :=
  (List.forall_cons _ _ _).mpr ⟨binary_bufs_sub .., sub139⟩
theorem sub137 : (tail137 : List (HloOp τ sig (Elt F))).Forall fun op => op.bufs ⊆ tcRefs τ sig :=
  (List.forall_cons _ _ _).mpr ⟨unary_bufs_sub .., sub138⟩
theorem sub136 : (tail136 : List (HloOp τ sig (Elt F))).Forall fun op => op.bufs ⊆ tcRefs τ sig :=
  (List.forall_cons _ _ _).mpr ⟨unary_bufs_sub .., sub137⟩
theorem sub135 : (tail135 : List (HloOp τ sig (Elt F))).Forall fun op => op.bufs ⊆ tcRefs τ sig :=
  (List.forall_cons _ _ _).mpr ⟨binary_bufs_sub .., sub136⟩
theorem sub134 : (tail134 : List (HloOp τ sig (Elt F))).Forall fun op => op.bufs ⊆ tcRefs τ sig :=
  (List.forall_cons _ _ _).mpr ⟨nullary_bufs_sub .., sub135⟩
theorem sub133 : (tail133 : List (HloOp τ sig (Elt F))).Forall fun op => op.bufs ⊆ tcRefs τ sig :=
  (List.forall_cons _ _ _).mpr ⟨binary_bufs_sub .., sub134⟩
theorem sub132 : (tail132 : List (HloOp τ sig (Elt F))).Forall fun op => op.bufs ⊆ tcRefs τ sig :=
  (List.forall_cons _ _ _).mpr ⟨unary_bufs_sub .., sub133⟩
theorem sub131 : (tail131 : List (HloOp τ sig (Elt F))).Forall fun op => op.bufs ⊆ tcRefs τ sig :=
  (List.forall_cons _ _ _).mpr ⟨unary_bufs_sub .., sub132⟩
theorem sub130 : (tail130 : List (HloOp τ sig (Elt F))).Forall fun op => op.bufs ⊆ tcRefs τ sig :=
  (List.forall_cons _ _ _).mpr ⟨unary_bufs_sub .., sub131⟩
theorem sub129 : (tail129 : List (HloOp τ sig (Elt F))).Forall fun op => op.bufs ⊆ tcRefs τ sig :=
  (List.forall_cons _ _ _).mpr ⟨binary_bufs_sub .., sub130⟩
theorem sub128 : (tail128 : List (HloOp τ sig (Elt F))).Forall fun op => op.bufs ⊆ tcRefs τ sig :=
  (List.forall_cons _ _ _).mpr ⟨reshape_bufs_sub .., sub129⟩
theorem sub127 : (tail127 : List (HloOp τ sig (Elt F))).Forall fun op => op.bufs ⊆ tcRefs τ sig :=
  (List.forall_cons _ _ _).mpr ⟨unary_bufs_sub .., sub128⟩
theorem sub126 : (tail126 : List (HloOp τ sig (Elt F))).Forall fun op => op.bufs ⊆ tcRefs τ sig :=
  (List.forall_cons _ _ _).mpr ⟨reshape_bufs_sub .., sub127⟩
theorem sub125 : (tail125 : List (HloOp τ sig (Elt F))).Forall fun op => op.bufs ⊆ tcRefs τ sig :=
  (List.forall_cons _ _ _).mpr ⟨unary_bufs_sub .., sub126⟩
theorem sub124 : (tail124 : List (HloOp τ sig (Elt F))).Forall fun op => op.bufs ⊆ tcRefs τ sig :=
  (List.forall_cons _ _ _).mpr ⟨ternary_bufs_sub .., sub125⟩
theorem sub123 : (tail123 : List (HloOp τ sig (Elt F))).Forall fun op => op.bufs ⊆ tcRefs τ sig :=
  (List.forall_cons _ _ _).mpr ⟨unary_bufs_sub .., sub124⟩
theorem sub122 : (tail122 : List (HloOp τ sig (Elt F))).Forall fun op => op.bufs ⊆ tcRefs τ sig :=
  (List.forall_cons _ _ _).mpr ⟨unary_bufs_sub .., sub123⟩
theorem sub121 : (tail121 : List (HloOp τ sig (Elt F))).Forall fun op => op.bufs ⊆ tcRefs τ sig :=
  (List.forall_cons _ _ _).mpr ⟨nullary_bufs_sub .., sub122⟩
theorem sub120 : (tail120 : List (HloOp τ sig (Elt F))).Forall fun op => op.bufs ⊆ tcRefs τ sig :=
  (List.forall_cons _ _ _).mpr ⟨binary_bufs_sub .., sub121⟩
theorem sub119 : (tail119 : List (HloOp τ sig (Elt F))).Forall fun op => op.bufs ⊆ tcRefs τ sig :=
  (List.forall_cons _ _ _).mpr ⟨binary_bufs_sub .., sub120⟩
theorem sub118 : (tail118 : List (HloOp τ sig (Elt F))).Forall fun op => op.bufs ⊆ tcRefs τ sig :=
  (List.forall_cons _ _ _).mpr ⟨binary_bufs_sub .., sub119⟩
theorem sub117 : (tail117 : List (HloOp τ sig (Elt F))).Forall fun op => op.bufs ⊆ tcRefs τ sig :=
  (List.forall_cons _ _ _).mpr ⟨unary_bufs_sub .., sub118⟩
theorem sub116 : (tail116 : List (HloOp τ sig (Elt F))).Forall fun op => op.bufs ⊆ tcRefs τ sig :=
  (List.forall_cons _ _ _).mpr ⟨binary_bufs_sub .., sub117⟩
theorem sub115 : (tail115 : List (HloOp τ sig (Elt F))).Forall fun op => op.bufs ⊆ tcRefs τ sig :=
  (List.forall_cons _ _ _).mpr ⟨binary_bufs_sub .., sub116⟩
theorem sub114 : (tail114 : List (HloOp τ sig (Elt F))).Forall fun op => op.bufs ⊆ tcRefs τ sig :=
  (List.forall_cons _ _ _).mpr ⟨reshape_bufs_sub .., sub115⟩
theorem sub113 : (tail113 : List (HloOp τ sig (Elt F))).Forall fun op => op.bufs ⊆ tcRefs τ sig :=
  (List.forall_cons _ _ _).mpr ⟨unary_bufs_sub .., sub114⟩
theorem sub112 : (tail112 : List (HloOp τ sig (Elt F))).Forall fun op => op.bufs ⊆ tcRefs τ sig :=
  (List.forall_cons _ _ _).mpr ⟨reshape_bufs_sub .., sub113⟩
theorem sub111 : (tail111 : List (HloOp τ sig (Elt F))).Forall fun op => op.bufs ⊆ tcRefs τ sig :=
  (List.forall_cons _ _ _).mpr ⟨unary_bufs_sub .., sub112⟩
theorem sub110 : (tail110 : List (HloOp τ sig (Elt F))).Forall fun op => op.bufs ⊆ tcRefs τ sig :=
  (List.forall_cons _ _ _).mpr ⟨binary_bufs_sub .., sub111⟩
theorem sub109 : (tail109 : List (HloOp τ sig (Elt F))).Forall fun op => op.bufs ⊆ tcRefs τ sig :=
  (List.forall_cons _ _ _).mpr ⟨reshape_bufs_sub .., sub110⟩
theorem sub108 : (tail108 : List (HloOp τ sig (Elt F))).Forall fun op => op.bufs ⊆ tcRefs τ sig :=
  (List.forall_cons _ _ _).mpr ⟨unary_bufs_sub .., sub109⟩
theorem sub107 : (tail107 : List (HloOp τ sig (Elt F))).Forall fun op => op.bufs ⊆ tcRefs τ sig :=
  (List.forall_cons _ _ _).mpr ⟨reshape_bufs_sub .., sub108⟩
theorem sub106 : (tail106 : List (HloOp τ sig (Elt F))).Forall fun op => op.bufs ⊆ tcRefs τ sig :=
  (List.forall_cons _ _ _).mpr ⟨unary_bufs_sub .., sub107⟩
theorem sub105 : (tail105 : List (HloOp τ sig (Elt F))).Forall fun op => op.bufs ⊆ tcRefs τ sig :=
  (List.forall_cons _ _ _).mpr ⟨binary_bufs_sub .., sub106⟩
theorem sub104 : (tail104 : List (HloOp τ sig (Elt F))).Forall fun op => op.bufs ⊆ tcRefs τ sig :=
  (List.forall_cons _ _ _).mpr ⟨binary_bufs_sub .., sub105⟩
theorem sub103 : (tail103 : List (HloOp τ sig (Elt F))).Forall fun op => op.bufs ⊆ tcRefs τ sig :=
  (List.forall_cons _ _ _).mpr ⟨reshape_bufs_sub .., sub104⟩
theorem sub102 : (tail102 : List (HloOp τ sig (Elt F))).Forall fun op => op.bufs ⊆ tcRefs τ sig :=
  (List.forall_cons _ _ _).mpr ⟨unary_bufs_sub .., sub103⟩
theorem sub101 : (tail101 : List (HloOp τ sig (Elt F))).Forall fun op => op.bufs ⊆ tcRefs τ sig :=
  (List.forall_cons _ _ _).mpr ⟨reshape_bufs_sub .., sub102⟩
theorem sub100 : (tail100 : List (HloOp τ sig (Elt F))).Forall fun op => op.bufs ⊆ tcRefs τ sig :=
  (List.forall_cons _ _ _).mpr ⟨unary_bufs_sub .., sub101⟩
theorem sub99 : (tail99 : List (HloOp τ sig (Elt F))).Forall fun op => op.bufs ⊆ tcRefs τ sig :=
  (List.forall_cons _ _ _).mpr ⟨binary_bufs_sub .., sub100⟩
theorem sub98 : (tail98 : List (HloOp τ sig (Elt F))).Forall fun op => op.bufs ⊆ tcRefs τ sig :=
  (List.forall_cons _ _ _).mpr ⟨reshape_bufs_sub .., sub99⟩
theorem sub97 : (tail97 : List (HloOp τ sig (Elt F))).Forall fun op => op.bufs ⊆ tcRefs τ sig :=
  (List.forall_cons _ _ _).mpr ⟨unary_bufs_sub .., sub98⟩
theorem sub96 : (tail96 : List (HloOp τ sig (Elt F))).Forall fun op => op.bufs ⊆ tcRefs τ sig :=
  (List.forall_cons _ _ _).mpr ⟨reshape_bufs_sub .., sub97⟩
theorem sub95 : (tail95 : List (HloOp τ sig (Elt F))).Forall fun op => op.bufs ⊆ tcRefs τ sig :=
  (List.forall_cons _ _ _).mpr ⟨unary_bufs_sub .., sub96⟩
theorem sub94 : (tail94 : List (HloOp τ sig (Elt F))).Forall fun op => op.bufs ⊆ tcRefs τ sig :=
  (List.forall_cons _ _ _).mpr ⟨binary_bufs_sub .., sub95⟩
theorem sub93 : (tail93 : List (HloOp τ sig (Elt F))).Forall fun op => op.bufs ⊆ tcRefs τ sig :=
  (List.forall_cons _ _ _).mpr ⟨binary_bufs_sub .., sub94⟩
theorem sub92 : (tail92 : List (HloOp τ sig (Elt F))).Forall fun op => op.bufs ⊆ tcRefs τ sig :=
  (List.forall_cons _ _ _).mpr ⟨reshape_bufs_sub .., sub93⟩
theorem sub91 : (tail91 : List (HloOp τ sig (Elt F))).Forall fun op => op.bufs ⊆ tcRefs τ sig :=
  (List.forall_cons _ _ _).mpr ⟨unary_bufs_sub .., sub92⟩
theorem sub90 : (tail90 : List (HloOp τ sig (Elt F))).Forall fun op => op.bufs ⊆ tcRefs τ sig :=
  (List.forall_cons _ _ _).mpr ⟨reshape_bufs_sub .., sub91⟩
theorem sub89 : (tail89 : List (HloOp τ sig (Elt F))).Forall fun op => op.bufs ⊆ tcRefs τ sig :=
  (List.forall_cons _ _ _).mpr ⟨unary_bufs_sub .., sub90⟩
theorem sub88 : (tail88 : List (HloOp τ sig (Elt F))).Forall fun op => op.bufs ⊆ tcRefs τ sig :=
  (List.forall_cons _ _ _).mpr ⟨binary_bufs_sub .., sub89⟩
theorem sub87 : (tail87 : List (HloOp τ sig (Elt F))).Forall fun op => op.bufs ⊆ tcRefs τ sig :=
  (List.forall_cons _ _ _).mpr ⟨reshape_bufs_sub .., sub88⟩
theorem sub86 : (tail86 : List (HloOp τ sig (Elt F))).Forall fun op => op.bufs ⊆ tcRefs τ sig :=
  (List.forall_cons _ _ _).mpr ⟨unary_bufs_sub .., sub87⟩
theorem sub85 : (tail85 : List (HloOp τ sig (Elt F))).Forall fun op => op.bufs ⊆ tcRefs τ sig :=
  (List.forall_cons _ _ _).mpr ⟨reshape_bufs_sub .., sub86⟩
theorem sub84 : (tail84 : List (HloOp τ sig (Elt F))).Forall fun op => op.bufs ⊆ tcRefs τ sig :=
  (List.forall_cons _ _ _).mpr ⟨unary_bufs_sub .., sub85⟩
theorem sub83 : (tail83 : List (HloOp τ sig (Elt F))).Forall fun op => op.bufs ⊆ tcRefs τ sig :=
  (List.forall_cons _ _ _).mpr ⟨binary_bufs_sub .., sub84⟩
theorem sub82 : (tail82 : List (HloOp τ sig (Elt F))).Forall fun op => op.bufs ⊆ tcRefs τ sig :=
  (List.forall_cons _ _ _).mpr ⟨binary_bufs_sub .., sub83⟩
theorem sub81 : (tail81 : List (HloOp τ sig (Elt F))).Forall fun op => op.bufs ⊆ tcRefs τ sig :=
  (List.forall_cons _ _ _).mpr ⟨reshape_bufs_sub .., sub82⟩
theorem sub80 : (tail80 : List (HloOp τ sig (Elt F))).Forall fun op => op.bufs ⊆ tcRefs τ sig :=
  (List.forall_cons _ _ _).mpr ⟨unary_bufs_sub .., sub81⟩
theorem sub79 : (tail79 : List (HloOp τ sig (Elt F))).Forall fun op => op.bufs ⊆ tcRefs τ sig :=
  (List.forall_cons _ _ _).mpr ⟨reshape_bufs_sub .., sub80⟩
theorem sub78 : (tail78 : List (HloOp τ sig (Elt F))).Forall fun op => op.bufs ⊆ tcRefs τ sig :=
  (List.forall_cons _ _ _).mpr ⟨unary_bufs_sub .., sub79⟩
theorem sub77 : (tail77 : List (HloOp τ sig (Elt F))).Forall fun op => op.bufs ⊆ tcRefs τ sig :=
  (List.forall_cons _ _ _).mpr ⟨binary_bufs_sub .., sub78⟩
theorem sub76 : (tail76 : List (HloOp τ sig (Elt F))).Forall fun op => op.bufs ⊆ tcRefs τ sig :=
  (List.forall_cons _ _ _).mpr ⟨reshape_bufs_sub .., sub77⟩
theorem sub75 : (tail75 : List (HloOp τ sig (Elt F))).Forall fun op => op.bufs ⊆ tcRefs τ sig :=
  (List.forall_cons _ _ _).mpr ⟨unary_bufs_sub .., sub76⟩
theorem sub74 : (tail74 : List (HloOp τ sig (Elt F))).Forall fun op => op.bufs ⊆ tcRefs τ sig :=
  (List.forall_cons _ _ _).mpr ⟨reshape_bufs_sub .., sub75⟩
theorem sub73 : (tail73 : List (HloOp τ sig (Elt F))).Forall fun op => op.bufs ⊆ tcRefs τ sig :=
  (List.forall_cons _ _ _).mpr ⟨unary_bufs_sub .., sub74⟩
theorem sub72 : (tail72 : List (HloOp τ sig (Elt F))).Forall fun op => op.bufs ⊆ tcRefs τ sig :=
  (List.forall_cons _ _ _).mpr ⟨binary_bufs_sub .., sub73⟩
theorem sub71 : (tail71 : List (HloOp τ sig (Elt F))).Forall fun op => op.bufs ⊆ tcRefs τ sig :=
  (List.forall_cons _ _ _).mpr ⟨unary_bufs_sub .., sub72⟩
theorem sub70 : (tail70 : List (HloOp τ sig (Elt F))).Forall fun op => op.bufs ⊆ tcRefs τ sig :=
  (List.forall_cons _ _ _).mpr ⟨unary_bufs_sub .., sub71⟩
theorem sub69 : (tail69 : List (HloOp τ sig (Elt F))).Forall fun op => op.bufs ⊆ tcRefs τ sig :=
  (List.forall_cons _ _ _).mpr ⟨unary_bufs_sub .., sub70⟩
theorem sub68 : (tail68 : List (HloOp τ sig (Elt F))).Forall fun op => op.bufs ⊆ tcRefs τ sig :=
  (List.forall_cons _ _ _).mpr ⟨binary_bufs_sub .., sub69⟩
theorem sub67 : (tail67 : List (HloOp τ sig (Elt F))).Forall fun op => op.bufs ⊆ tcRefs τ sig :=
  (List.forall_cons _ _ _).mpr ⟨unary_bufs_sub .., sub68⟩
theorem sub66 : (tail66 : List (HloOp τ sig (Elt F))).Forall fun op => op.bufs ⊆ tcRefs τ sig :=
  (List.forall_cons _ _ _).mpr ⟨unary_bufs_sub .., sub67⟩
theorem sub65 : (tail65 : List (HloOp τ sig (Elt F))).Forall fun op => op.bufs ⊆ tcRefs τ sig :=
  (List.forall_cons _ _ _).mpr ⟨unary_bufs_sub .., sub66⟩
theorem sub64 : (tail64 : List (HloOp τ sig (Elt F))).Forall fun op => op.bufs ⊆ tcRefs τ sig :=
  (List.forall_cons _ _ _).mpr ⟨unary_bufs_sub .., sub65⟩
theorem sub63 : (tail63 : List (HloOp τ sig (Elt F))).Forall fun op => op.bufs ⊆ tcRefs τ sig :=
  (List.forall_cons _ _ _).mpr ⟨binary_bufs_sub .., sub64⟩
theorem sub62 : (tail62 : List (HloOp τ sig (Elt F))).Forall fun op => op.bufs ⊆ tcRefs τ sig :=
  (List.forall_cons _ _ _).mpr ⟨binary_bufs_sub .., sub63⟩
theorem sub61 : (tail61 : List (HloOp τ sig (Elt F))).Forall fun op => op.bufs ⊆ tcRefs τ sig :=
  (List.forall_cons _ _ _).mpr ⟨binary_bufs_sub .., sub62⟩
theorem sub60 : (tail60 : List (HloOp τ sig (Elt F))).Forall fun op => op.bufs ⊆ tcRefs τ sig :=
  (List.forall_cons _ _ _).mpr ⟨unary_bufs_sub .., sub61⟩
theorem sub59 : (tail59 : List (HloOp τ sig (Elt F))).Forall fun op => op.bufs ⊆ tcRefs τ sig :=
  (List.forall_cons _ _ _).mpr ⟨nullary_bufs_sub .., sub60⟩
theorem sub58 : (tail58 : List (HloOp τ sig (Elt F))).Forall fun op => op.bufs ⊆ tcRefs τ sig :=
  (List.forall_cons _ _ _).mpr ⟨binary_bufs_sub .., sub59⟩
theorem sub57 : (tail57 : List (HloOp τ sig (Elt F))).Forall fun op => op.bufs ⊆ tcRefs τ sig :=
  (List.forall_cons _ _ _).mpr ⟨binary_bufs_sub .., sub58⟩
theorem sub56 : (tail56 : List (HloOp τ sig (Elt F))).Forall fun op => op.bufs ⊆ tcRefs τ sig :=
  (List.forall_cons _ _ _).mpr ⟨unary_bufs_sub .., sub57⟩
theorem sub55 : (tail55 : List (HloOp τ sig (Elt F))).Forall fun op => op.bufs ⊆ tcRefs τ sig :=
  (List.forall_cons _ _ _).mpr ⟨nullary_bufs_sub .., sub56⟩
theorem sub54 : (tail54 : List (HloOp τ sig (Elt F))).Forall fun op => op.bufs ⊆ tcRefs τ sig :=
  (List.forall_cons _ _ _).mpr ⟨binary_bufs_sub .., sub55⟩
theorem sub53 : (tail53 : List (HloOp τ sig (Elt F))).Forall fun op => op.bufs ⊆ tcRefs τ sig :=
  (List.forall_cons _ _ _).mpr ⟨unary_bufs_sub .., sub54⟩
theorem sub52 : (tail52 : List (HloOp τ sig (Elt F))).Forall fun op => op.bufs ⊆ tcRefs τ sig :=
  (List.forall_cons _ _ _).mpr ⟨nullary_bufs_sub .., sub53⟩
theorem sub51 : (tail51 : List (HloOp τ sig (Elt F))).Forall fun op => op.bufs ⊆ tcRefs τ sig :=
  (List.forall_cons _ _ _).mpr ⟨unary_bufs_sub .., sub52⟩
theorem sub50 : (tail50 : List (HloOp τ sig (Elt F))).Forall fun op => op.bufs ⊆ tcRefs τ sig :=
  (List.forall_cons _ _ _).mpr ⟨binary_bufs_sub .., sub51⟩
theorem sub49 : (tail49 : List (HloOp τ sig (Elt F))).Forall fun op => op.bufs ⊆ tcRefs τ sig :=
  (List.forall_cons _ _ _).mpr ⟨unary_bufs_sub .., sub50⟩
theorem sub48 : (tail48 : List (HloOp τ sig (Elt F))).Forall fun op => op.bufs ⊆ tcRefs τ sig :=
  (List.forall_cons _ _ _).mpr ⟨nullary_bufs_sub .., sub49⟩
theorem sub47 : (tail47 : List (HloOp τ sig (Elt F))).Forall fun op => op.bufs ⊆ tcRefs τ sig :=
  (List.forall_cons _ _ _).mpr ⟨unary_bufs_sub .., sub48⟩
theorem sub46 : (tail46 : List (HloOp τ sig (Elt F))).Forall fun op => op.bufs ⊆ tcRefs τ sig :=
  (List.forall_cons _ _ _).mpr ⟨binary_bufs_sub .., sub47⟩
theorem sub45 : (tail45 : List (HloOp τ sig (Elt F))).Forall fun op => op.bufs ⊆ tcRefs τ sig :=
  (List.forall_cons _ _ _).mpr ⟨binary_bufs_sub .., sub46⟩
theorem sub44 : (tail44 : List (HloOp τ sig (Elt F))).Forall fun op => op.bufs ⊆ tcRefs τ sig :=
  (List.forall_cons _ _ _).mpr ⟨binary_bufs_sub .., sub45⟩
theorem sub43 : (tail43 : List (HloOp τ sig (Elt F))).Forall fun op => op.bufs ⊆ tcRefs τ sig :=
  (List.forall_cons _ _ _).mpr ⟨unary_bufs_sub .., sub44⟩
theorem sub42 : (tail42 : List (HloOp τ sig (Elt F))).Forall fun op => op.bufs ⊆ tcRefs τ sig :=
  (List.forall_cons _ _ _).mpr ⟨nullary_bufs_sub .., sub43⟩
theorem sub41 : (tail41 : List (HloOp τ sig (Elt F))).Forall fun op => op.bufs ⊆ tcRefs τ sig :=
  (List.forall_cons _ _ _).mpr ⟨binary_bufs_sub .., sub42⟩
theorem sub40 : (tail40 : List (HloOp τ sig (Elt F))).Forall fun op => op.bufs ⊆ tcRefs τ sig :=
  (List.forall_cons _ _ _).mpr ⟨binary_bufs_sub .., sub41⟩
theorem sub39 : (tail39 : List (HloOp τ sig (Elt F))).Forall fun op => op.bufs ⊆ tcRefs τ sig :=
  (List.forall_cons _ _ _).mpr ⟨unary_bufs_sub .., sub40⟩
theorem sub38 : (tail38 : List (HloOp τ sig (Elt F))).Forall fun op => op.bufs ⊆ tcRefs τ sig :=
  (List.forall_cons _ _ _).mpr ⟨nullary_bufs_sub .., sub39⟩
theorem sub37 : (tail37 : List (HloOp τ sig (Elt F))).Forall fun op => op.bufs ⊆ tcRefs τ sig :=
  (List.forall_cons _ _ _).mpr ⟨binary_bufs_sub .., sub38⟩
theorem sub36 : (tail36 : List (HloOp τ sig (Elt F))).Forall fun op => op.bufs ⊆ tcRefs τ sig :=
  (List.forall_cons _ _ _).mpr ⟨unary_bufs_sub .., sub37⟩
theorem sub35 : (tail35 : List (HloOp τ sig (Elt F))).Forall fun op => op.bufs ⊆ tcRefs τ sig :=
  (List.forall_cons _ _ _).mpr ⟨nullary_bufs_sub .., sub36⟩
theorem sub34 : (tail34 : List (HloOp τ sig (Elt F))).Forall fun op => op.bufs ⊆ tcRefs τ sig :=
  (List.forall_cons _ _ _).mpr ⟨unary_bufs_sub .., sub35⟩
theorem sub33 : (tail33 : List (HloOp τ sig (Elt F))).Forall fun op => op.bufs ⊆ tcRefs τ sig :=
  (List.forall_cons _ _ _).mpr ⟨binary_bufs_sub .., sub34⟩
theorem sub32 : (tail32 : List (HloOp τ sig (Elt F))).Forall fun op => op.bufs ⊆ tcRefs τ sig :=
  (List.forall_cons _ _ _).mpr ⟨unary_bufs_sub .., sub33⟩
theorem sub31 : (tail31 : List (HloOp τ sig (Elt F))).Forall fun op => op.bufs ⊆ tcRefs τ sig :=
  (List.forall_cons _ _ _).mpr ⟨nullary_bufs_sub .., sub32⟩
theorem sub30 : (tail30 : List (HloOp τ sig (Elt F))).Forall fun op => op.bufs ⊆ tcRefs τ sig :=
  (List.forall_cons _ _ _).mpr ⟨unary_bufs_sub .., sub31⟩
theorem sub29 : (tail29 : List (HloOp τ sig (Elt F))).Forall fun op => op.bufs ⊆ tcRefs τ sig :=
  (List.forall_cons _ _ _).mpr ⟨unary_bufs_sub .., sub30⟩
theorem sub28 : (tail28 : List (HloOp τ sig (Elt F))).Forall fun op => op.bufs ⊆ tcRefs τ sig :=
  (List.forall_cons _ _ _).mpr ⟨reshape_bufs_sub .., sub29⟩
theorem sub27 : (tail27 : List (HloOp τ sig (Elt F))).Forall fun op => op.bufs ⊆ tcRefs τ sig :=
  (List.forall_cons _ _ _).mpr ⟨unary_bufs_sub .., sub28⟩
theorem sub26 : (tail26 : List (HloOp τ sig (Elt F))).Forall fun op => op.bufs ⊆ tcRefs τ sig :=
  (List.forall_cons _ _ _).mpr ⟨reshape_bufs_sub .., sub27⟩
theorem sub25 : (tail25 : List (HloOp τ sig (Elt F))).Forall fun op => op.bufs ⊆ tcRefs τ sig :=
  (List.forall_cons _ _ _).mpr ⟨unary_bufs_sub .., sub26⟩
theorem sub24 : (tail24 : List (HloOp τ sig (Elt F))).Forall fun op => op.bufs ⊆ tcRefs τ sig :=
  (List.forall_cons _ _ _).mpr ⟨binary_bufs_sub .., sub25⟩
theorem sub23 : (tail23 : List (HloOp τ sig (Elt F))).Forall fun op => op.bufs ⊆ tcRefs τ sig :=
  (List.forall_cons _ _ _).mpr ⟨nullary_bufs_sub .., sub24⟩
theorem sub22 : (tail22 : List (HloOp τ sig (Elt F))).Forall fun op => op.bufs ⊆ tcRefs τ sig :=
  (List.forall_cons _ _ _).mpr ⟨ternary_bufs_sub .., sub23⟩
theorem sub21 : (tail21 : List (HloOp τ sig (Elt F))).Forall fun op => op.bufs ⊆ tcRefs τ sig :=
  (List.forall_cons _ _ _).mpr ⟨unary_bufs_sub .., sub22⟩
theorem sub20 : (tail20 : List (HloOp τ sig (Elt F))).Forall fun op => op.bufs ⊆ tcRefs τ sig :=
  (List.forall_cons _ _ _).mpr ⟨unary_bufs_sub .., sub21⟩
theorem sub19 : (tail19 : List (HloOp τ sig (Elt F))).Forall fun op => op.bufs ⊆ tcRefs τ sig :=
  (List.forall_cons _ _ _).mpr ⟨nullary_bufs_sub .., sub20⟩
theorem sub18 : (tail18 : List (HloOp τ sig (Elt F))).Forall fun op => op.bufs ⊆ tcRefs τ sig :=
  (List.forall_cons _ _ _).mpr ⟨binary_bufs_sub .., sub19⟩
theorem sub17 : (tail17 : List (HloOp τ sig (Elt F))).Forall fun op => op.bufs ⊆ tcRefs τ sig :=
  (List.forall_cons _ _ _).mpr ⟨binary_bufs_sub .., sub18⟩
theorem sub16 : (tail16 : List (HloOp τ sig (Elt F))).Forall fun op => op.bufs ⊆ tcRefs τ sig :=
  (List.forall_cons _ _ _).mpr ⟨binary_bufs_sub .., sub17⟩
theorem sub15 : (tail15 : List (HloOp τ sig (Elt F))).Forall fun op => op.bufs ⊆ tcRefs τ sig :=
  (List.forall_cons _ _ _).mpr ⟨reshape_bufs_sub .., sub16⟩
theorem sub14 : (tail14 : List (HloOp τ sig (Elt F))).Forall fun op => op.bufs ⊆ tcRefs τ sig :=
  (List.forall_cons _ _ _).mpr ⟨unary_bufs_sub .., sub15⟩
theorem sub13 : (tail13 : List (HloOp τ sig (Elt F))).Forall fun op => op.bufs ⊆ tcRefs τ sig :=
  (List.forall_cons _ _ _).mpr ⟨reshape_bufs_sub .., sub14⟩
theorem sub12 : (tail12 : List (HloOp τ sig (Elt F))).Forall fun op => op.bufs ⊆ tcRefs τ sig :=
  (List.forall_cons _ _ _).mpr ⟨unary_bufs_sub .., sub13⟩
theorem sub11 : (tail11 : List (HloOp τ sig (Elt F))).Forall fun op => op.bufs ⊆ tcRefs τ sig :=
  (List.forall_cons _ _ _).mpr ⟨binary_bufs_sub .., sub12⟩
theorem sub10 : (tail10 : List (HloOp τ sig (Elt F))).Forall fun op => op.bufs ⊆ tcRefs τ sig :=
  (List.forall_cons _ _ _).mpr ⟨binary_bufs_sub .., sub11⟩
theorem sub9 : (tail9 : List (HloOp τ sig (Elt F))).Forall fun op => op.bufs ⊆ tcRefs τ sig :=
  (List.forall_cons _ _ _).mpr ⟨reshape_bufs_sub .., sub10⟩
theorem sub8 : (tail8 : List (HloOp τ sig (Elt F))).Forall fun op => op.bufs ⊆ tcRefs τ sig :=
  (List.forall_cons _ _ _).mpr ⟨unary_bufs_sub .., sub9⟩
theorem sub7 : (tail7 : List (HloOp τ sig (Elt F))).Forall fun op => op.bufs ⊆ tcRefs τ sig :=
  (List.forall_cons _ _ _).mpr ⟨reshape_bufs_sub .., sub8⟩
theorem sub6 : (tail6 : List (HloOp τ sig (Elt F))).Forall fun op => op.bufs ⊆ tcRefs τ sig :=
  (List.forall_cons _ _ _).mpr ⟨unary_bufs_sub .., sub7⟩
theorem sub5 : (tail5 : List (HloOp τ sig (Elt F))).Forall fun op => op.bufs ⊆ tcRefs τ sig :=
  (List.forall_cons _ _ _).mpr ⟨unary_bufs_sub .., sub6⟩
theorem sub4 : (tail4 : List (HloOp τ sig (Elt F))).Forall fun op => op.bufs ⊆ tcRefs τ sig :=
  (List.forall_cons _ _ _).mpr ⟨binary_bufs_sub .., sub5⟩
theorem sub3 : (tail3 : List (HloOp τ sig (Elt F))).Forall fun op => op.bufs ⊆ tcRefs τ sig :=
  (List.forall_cons _ _ _).mpr ⟨unary_bufs_sub .., sub4⟩
theorem sub2 : (tail2 : List (HloOp τ sig (Elt F))).Forall fun op => op.bufs ⊆ tcRefs τ sig :=
  (List.forall_cons _ _ _).mpr ⟨nullary_bufs_sub .., sub3⟩
theorem sub1 : (tail1 : List (HloOp τ sig (Elt F))).Forall fun op => op.bufs ⊆ tcRefs τ sig :=
  (List.forall_cons _ _ _).mpr ⟨reshape_bufs_sub .., sub2⟩
theorem sub0 : (tail0 : List (HloOp τ sig (Elt F))).Forall fun op => op.bufs ⊆ tcRefs τ sig :=
  (List.forall_cons _ _ _).mpr ⟨unary_bufs_sub .., sub1⟩

theorem fresh201 : ∀ op ∈ (tail201 : List (HloOp τ sig (Elt F))), op.fresh = ∅ := fun _ h => nomatch h
theorem fresh200 : ∀ op ∈ (tail200 : List (HloOp τ sig (Elt F))), op.fresh = ∅ :=
  List.forall_mem_cons.mpr ⟨rfl, fresh201⟩
theorem fresh199 : ∀ op ∈ (tail199 : List (HloOp τ sig (Elt F))), op.fresh = ∅ :=
  List.forall_mem_cons.mpr ⟨rfl, fresh200⟩
theorem fresh198 : ∀ op ∈ (tail198 : List (HloOp τ sig (Elt F))), op.fresh = ∅ :=
  List.forall_mem_cons.mpr ⟨rfl, fresh199⟩
theorem fresh197 : ∀ op ∈ (tail197 : List (HloOp τ sig (Elt F))), op.fresh = ∅ :=
  List.forall_mem_cons.mpr ⟨rfl, fresh198⟩
theorem fresh196 : ∀ op ∈ (tail196 : List (HloOp τ sig (Elt F))), op.fresh = ∅ :=
  List.forall_mem_cons.mpr ⟨rfl, fresh197⟩
theorem fresh195 : ∀ op ∈ (tail195 : List (HloOp τ sig (Elt F))), op.fresh = ∅ :=
  List.forall_mem_cons.mpr ⟨rfl, fresh196⟩
theorem fresh194 : ∀ op ∈ (tail194 : List (HloOp τ sig (Elt F))), op.fresh = ∅ :=
  List.forall_mem_cons.mpr ⟨rfl, fresh195⟩
theorem fresh193 : ∀ op ∈ (tail193 : List (HloOp τ sig (Elt F))), op.fresh = ∅ :=
  List.forall_mem_cons.mpr ⟨rfl, fresh194⟩
theorem fresh192 : ∀ op ∈ (tail192 : List (HloOp τ sig (Elt F))), op.fresh = ∅ :=
  List.forall_mem_cons.mpr ⟨rfl, fresh193⟩
theorem fresh191 : ∀ op ∈ (tail191 : List (HloOp τ sig (Elt F))), op.fresh = ∅ :=
  List.forall_mem_cons.mpr ⟨rfl, fresh192⟩
theorem fresh190 : ∀ op ∈ (tail190 : List (HloOp τ sig (Elt F))), op.fresh = ∅ :=
  List.forall_mem_cons.mpr ⟨rfl, fresh191⟩
theorem fresh189 : ∀ op ∈ (tail189 : List (HloOp τ sig (Elt F))), op.fresh = ∅ :=
  List.forall_mem_cons.mpr ⟨rfl, fresh190⟩
theorem fresh188 : ∀ op ∈ (tail188 : List (HloOp τ sig (Elt F))), op.fresh = ∅ :=
  List.forall_mem_cons.mpr ⟨rfl, fresh189⟩
theorem fresh187 : ∀ op ∈ (tail187 : List (HloOp τ sig (Elt F))), op.fresh = ∅ :=
  List.forall_mem_cons.mpr ⟨rfl, fresh188⟩
theorem fresh186 : ∀ op ∈ (tail186 : List (HloOp τ sig (Elt F))), op.fresh = ∅ :=
  List.forall_mem_cons.mpr ⟨rfl, fresh187⟩
theorem fresh185 : ∀ op ∈ (tail185 : List (HloOp τ sig (Elt F))), op.fresh = ∅ :=
  List.forall_mem_cons.mpr ⟨rfl, fresh186⟩
theorem fresh184 : ∀ op ∈ (tail184 : List (HloOp τ sig (Elt F))), op.fresh = ∅ :=
  List.forall_mem_cons.mpr ⟨rfl, fresh185⟩
theorem fresh183 : ∀ op ∈ (tail183 : List (HloOp τ sig (Elt F))), op.fresh = ∅ :=
  List.forall_mem_cons.mpr ⟨rfl, fresh184⟩
theorem fresh182 : ∀ op ∈ (tail182 : List (HloOp τ sig (Elt F))), op.fresh = ∅ :=
  List.forall_mem_cons.mpr ⟨rfl, fresh183⟩
theorem fresh181 : ∀ op ∈ (tail181 : List (HloOp τ sig (Elt F))), op.fresh = ∅ :=
  List.forall_mem_cons.mpr ⟨rfl, fresh182⟩
theorem fresh180 : ∀ op ∈ (tail180 : List (HloOp τ sig (Elt F))), op.fresh = ∅ :=
  List.forall_mem_cons.mpr ⟨rfl, fresh181⟩
theorem fresh179 : ∀ op ∈ (tail179 : List (HloOp τ sig (Elt F))), op.fresh = ∅ :=
  List.forall_mem_cons.mpr ⟨rfl, fresh180⟩
theorem fresh178 : ∀ op ∈ (tail178 : List (HloOp τ sig (Elt F))), op.fresh = ∅ :=
  List.forall_mem_cons.mpr ⟨rfl, fresh179⟩
theorem fresh177 : ∀ op ∈ (tail177 : List (HloOp τ sig (Elt F))), op.fresh = ∅ :=
  List.forall_mem_cons.mpr ⟨rfl, fresh178⟩
theorem fresh176 : ∀ op ∈ (tail176 : List (HloOp τ sig (Elt F))), op.fresh = ∅ :=
  List.forall_mem_cons.mpr ⟨rfl, fresh177⟩
theorem fresh175 : ∀ op ∈ (tail175 : List (HloOp τ sig (Elt F))), op.fresh = ∅ :=
  List.forall_mem_cons.mpr ⟨rfl, fresh176⟩
theorem fresh174 : ∀ op ∈ (tail174 : List (HloOp τ sig (Elt F))), op.fresh = ∅ :=
  List.forall_mem_cons.mpr ⟨rfl, fresh175⟩
theorem fresh173 : ∀ op ∈ (tail173 : List (HloOp τ sig (Elt F))), op.fresh = ∅ :=
  List.forall_mem_cons.mpr ⟨rfl, fresh174⟩
theorem fresh172 : ∀ op ∈ (tail172 : List (HloOp τ sig (Elt F))), op.fresh = ∅ :=
  List.forall_mem_cons.mpr ⟨rfl, fresh173⟩
theorem fresh171 : ∀ op ∈ (tail171 : List (HloOp τ sig (Elt F))), op.fresh = ∅ :=
  List.forall_mem_cons.mpr ⟨rfl, fresh172⟩
theorem fresh170 : ∀ op ∈ (tail170 : List (HloOp τ sig (Elt F))), op.fresh = ∅ :=
  List.forall_mem_cons.mpr ⟨rfl, fresh171⟩
theorem fresh169 : ∀ op ∈ (tail169 : List (HloOp τ sig (Elt F))), op.fresh = ∅ :=
  List.forall_mem_cons.mpr ⟨rfl, fresh170⟩
theorem fresh168 : ∀ op ∈ (tail168 : List (HloOp τ sig (Elt F))), op.fresh = ∅ :=
  List.forall_mem_cons.mpr ⟨rfl, fresh169⟩
theorem fresh167 : ∀ op ∈ (tail167 : List (HloOp τ sig (Elt F))), op.fresh = ∅ :=
  List.forall_mem_cons.mpr ⟨rfl, fresh168⟩
theorem fresh166 : ∀ op ∈ (tail166 : List (HloOp τ sig (Elt F))), op.fresh = ∅ :=
  List.forall_mem_cons.mpr ⟨rfl, fresh167⟩
theorem fresh165 : ∀ op ∈ (tail165 : List (HloOp τ sig (Elt F))), op.fresh = ∅ :=
  List.forall_mem_cons.mpr ⟨rfl, fresh166⟩
theorem fresh164 : ∀ op ∈ (tail164 : List (HloOp τ sig (Elt F))), op.fresh = ∅ :=
  List.forall_mem_cons.mpr ⟨rfl, fresh165⟩
theorem fresh163 : ∀ op ∈ (tail163 : List (HloOp τ sig (Elt F))), op.fresh = ∅ :=
  List.forall_mem_cons.mpr ⟨rfl, fresh164⟩
theorem fresh162 : ∀ op ∈ (tail162 : List (HloOp τ sig (Elt F))), op.fresh = ∅ :=
  List.forall_mem_cons.mpr ⟨rfl, fresh163⟩
theorem fresh161 : ∀ op ∈ (tail161 : List (HloOp τ sig (Elt F))), op.fresh = ∅ :=
  List.forall_mem_cons.mpr ⟨rfl, fresh162⟩
theorem fresh160 : ∀ op ∈ (tail160 : List (HloOp τ sig (Elt F))), op.fresh = ∅ :=
  List.forall_mem_cons.mpr ⟨rfl, fresh161⟩
theorem fresh159 : ∀ op ∈ (tail159 : List (HloOp τ sig (Elt F))), op.fresh = ∅ :=
  List.forall_mem_cons.mpr ⟨rfl, fresh160⟩
theorem fresh158 : ∀ op ∈ (tail158 : List (HloOp τ sig (Elt F))), op.fresh = ∅ :=
  List.forall_mem_cons.mpr ⟨rfl, fresh159⟩
theorem fresh157 : ∀ op ∈ (tail157 : List (HloOp τ sig (Elt F))), op.fresh = ∅ :=
  List.forall_mem_cons.mpr ⟨rfl, fresh158⟩
theorem fresh156 : ∀ op ∈ (tail156 : List (HloOp τ sig (Elt F))), op.fresh = ∅ :=
  List.forall_mem_cons.mpr ⟨rfl, fresh157⟩
theorem fresh155 : ∀ op ∈ (tail155 : List (HloOp τ sig (Elt F))), op.fresh = ∅ :=
  List.forall_mem_cons.mpr ⟨rfl, fresh156⟩
theorem fresh154 : ∀ op ∈ (tail154 : List (HloOp τ sig (Elt F))), op.fresh = ∅ :=
  List.forall_mem_cons.mpr ⟨rfl, fresh155⟩
theorem fresh153 : ∀ op ∈ (tail153 : List (HloOp τ sig (Elt F))), op.fresh = ∅ :=
  List.forall_mem_cons.mpr ⟨rfl, fresh154⟩
theorem fresh152 : ∀ op ∈ (tail152 : List (HloOp τ sig (Elt F))), op.fresh = ∅ :=
  List.forall_mem_cons.mpr ⟨rfl, fresh153⟩
theorem fresh151 : ∀ op ∈ (tail151 : List (HloOp τ sig (Elt F))), op.fresh = ∅ :=
  List.forall_mem_cons.mpr ⟨rfl, fresh152⟩
theorem fresh150 : ∀ op ∈ (tail150 : List (HloOp τ sig (Elt F))), op.fresh = ∅ :=
  List.forall_mem_cons.mpr ⟨rfl, fresh151⟩
theorem fresh149 : ∀ op ∈ (tail149 : List (HloOp τ sig (Elt F))), op.fresh = ∅ :=
  List.forall_mem_cons.mpr ⟨rfl, fresh150⟩
theorem fresh148 : ∀ op ∈ (tail148 : List (HloOp τ sig (Elt F))), op.fresh = ∅ :=
  List.forall_mem_cons.mpr ⟨rfl, fresh149⟩
theorem fresh147 : ∀ op ∈ (tail147 : List (HloOp τ sig (Elt F))), op.fresh = ∅ :=
  List.forall_mem_cons.mpr ⟨rfl, fresh148⟩
theorem fresh146 : ∀ op ∈ (tail146 : List (HloOp τ sig (Elt F))), op.fresh = ∅ :=
  List.forall_mem_cons.mpr ⟨rfl, fresh147⟩
theorem fresh145 : ∀ op ∈ (tail145 : List (HloOp τ sig (Elt F))), op.fresh = ∅ :=
  List.forall_mem_cons.mpr ⟨rfl, fresh146⟩
theorem fresh144 : ∀ op ∈ (tail144 : List (HloOp τ sig (Elt F))), op.fresh = ∅ :=
  List.forall_mem_cons.mpr ⟨rfl, fresh145⟩
theorem fresh143 : ∀ op ∈ (tail143 : List (HloOp τ sig (Elt F))), op.fresh = ∅ :=
  List.forall_mem_cons.mpr ⟨rfl, fresh144⟩
theorem fresh142 : ∀ op ∈ (tail142 : List (HloOp τ sig (Elt F))), op.fresh = ∅ :=
  List.forall_mem_cons.mpr ⟨rfl, fresh143⟩
theorem fresh141 : ∀ op ∈ (tail141 : List (HloOp τ sig (Elt F))), op.fresh = ∅ :=
  List.forall_mem_cons.mpr ⟨rfl, fresh142⟩
theorem fresh140 : ∀ op ∈ (tail140 : List (HloOp τ sig (Elt F))), op.fresh = ∅ :=
  List.forall_mem_cons.mpr ⟨rfl, fresh141⟩
theorem fresh139 : ∀ op ∈ (tail139 : List (HloOp τ sig (Elt F))), op.fresh = ∅ :=
  List.forall_mem_cons.mpr ⟨rfl, fresh140⟩
theorem fresh138 : ∀ op ∈ (tail138 : List (HloOp τ sig (Elt F))), op.fresh = ∅ :=
  List.forall_mem_cons.mpr ⟨rfl, fresh139⟩
theorem fresh137 : ∀ op ∈ (tail137 : List (HloOp τ sig (Elt F))), op.fresh = ∅ :=
  List.forall_mem_cons.mpr ⟨rfl, fresh138⟩
theorem fresh136 : ∀ op ∈ (tail136 : List (HloOp τ sig (Elt F))), op.fresh = ∅ :=
  List.forall_mem_cons.mpr ⟨rfl, fresh137⟩
theorem fresh135 : ∀ op ∈ (tail135 : List (HloOp τ sig (Elt F))), op.fresh = ∅ :=
  List.forall_mem_cons.mpr ⟨rfl, fresh136⟩
theorem fresh134 : ∀ op ∈ (tail134 : List (HloOp τ sig (Elt F))), op.fresh = ∅ :=
  List.forall_mem_cons.mpr ⟨rfl, fresh135⟩
theorem fresh133 : ∀ op ∈ (tail133 : List (HloOp τ sig (Elt F))), op.fresh = ∅ :=
  List.forall_mem_cons.mpr ⟨rfl, fresh134⟩
theorem fresh132 : ∀ op ∈ (tail132 : List (HloOp τ sig (Elt F))), op.fresh = ∅ :=
  List.forall_mem_cons.mpr ⟨rfl, fresh133⟩
theorem fresh131 : ∀ op ∈ (tail131 : List (HloOp τ sig (Elt F))), op.fresh = ∅ :=
  List.forall_mem_cons.mpr ⟨rfl, fresh132⟩
theorem fresh130 : ∀ op ∈ (tail130 : List (HloOp τ sig (Elt F))), op.fresh = ∅ :=
  List.forall_mem_cons.mpr ⟨rfl, fresh131⟩
theorem fresh129 : ∀ op ∈ (tail129 : List (HloOp τ sig (Elt F))), op.fresh = ∅ :=
  List.forall_mem_cons.mpr ⟨rfl, fresh130⟩
theorem fresh128 : ∀ op ∈ (tail128 : List (HloOp τ sig (Elt F))), op.fresh = ∅ :=
  List.forall_mem_cons.mpr ⟨rfl, fresh129⟩
theorem fresh127 : ∀ op ∈ (tail127 : List (HloOp τ sig (Elt F))), op.fresh = ∅ :=
  List.forall_mem_cons.mpr ⟨rfl, fresh128⟩
theorem fresh126 : ∀ op ∈ (tail126 : List (HloOp τ sig (Elt F))), op.fresh = ∅ :=
  List.forall_mem_cons.mpr ⟨rfl, fresh127⟩
theorem fresh125 : ∀ op ∈ (tail125 : List (HloOp τ sig (Elt F))), op.fresh = ∅ :=
  List.forall_mem_cons.mpr ⟨rfl, fresh126⟩
theorem fresh124 : ∀ op ∈ (tail124 : List (HloOp τ sig (Elt F))), op.fresh = ∅ :=
  List.forall_mem_cons.mpr ⟨rfl, fresh125⟩
theorem fresh123 : ∀ op ∈ (tail123 : List (HloOp τ sig (Elt F))), op.fresh = ∅ :=
  List.forall_mem_cons.mpr ⟨rfl, fresh124⟩
theorem fresh122 : ∀ op ∈ (tail122 : List (HloOp τ sig (Elt F))), op.fresh = ∅ :=
  List.forall_mem_cons.mpr ⟨rfl, fresh123⟩
theorem fresh121 : ∀ op ∈ (tail121 : List (HloOp τ sig (Elt F))), op.fresh = ∅ :=
  List.forall_mem_cons.mpr ⟨rfl, fresh122⟩
theorem fresh120 : ∀ op ∈ (tail120 : List (HloOp τ sig (Elt F))), op.fresh = ∅ :=
  List.forall_mem_cons.mpr ⟨rfl, fresh121⟩
theorem fresh119 : ∀ op ∈ (tail119 : List (HloOp τ sig (Elt F))), op.fresh = ∅ :=
  List.forall_mem_cons.mpr ⟨rfl, fresh120⟩
theorem fresh118 : ∀ op ∈ (tail118 : List (HloOp τ sig (Elt F))), op.fresh = ∅ :=
  List.forall_mem_cons.mpr ⟨rfl, fresh119⟩
theorem fresh117 : ∀ op ∈ (tail117 : List (HloOp τ sig (Elt F))), op.fresh = ∅ :=
  List.forall_mem_cons.mpr ⟨rfl, fresh118⟩
theorem fresh116 : ∀ op ∈ (tail116 : List (HloOp τ sig (Elt F))), op.fresh = ∅ :=
  List.forall_mem_cons.mpr ⟨rfl, fresh117⟩
theorem fresh115 : ∀ op ∈ (tail115 : List (HloOp τ sig (Elt F))), op.fresh = ∅ :=
  List.forall_mem_cons.mpr ⟨rfl, fresh116⟩
theorem fresh114 : ∀ op ∈ (tail114 : List (HloOp τ sig (Elt F))), op.fresh = ∅ :=
  List.forall_mem_cons.mpr ⟨rfl, fresh115⟩
theorem fresh113 : ∀ op ∈ (tail113 : List (HloOp τ sig (Elt F))), op.fresh = ∅ :=
  List.forall_mem_cons.mpr ⟨rfl, fresh114⟩
theorem fresh112 : ∀ op ∈ (tail112 : List (HloOp τ sig (Elt F))), op.fresh = ∅ :=
  List.forall_mem_cons.mpr ⟨rfl, fresh113⟩
theorem fresh111 : ∀ op ∈ (tail111 : List (HloOp τ sig (Elt F))), op.fresh = ∅ :=
  List.forall_mem_cons.mpr ⟨rfl, fresh112⟩
theorem fresh110 : ∀ op ∈ (tail110 : List (HloOp τ sig (Elt F))), op.fresh = ∅ :=
  List.forall_mem_cons.mpr ⟨rfl, fresh111⟩
theorem fresh109 : ∀ op ∈ (tail109 : List (HloOp τ sig (Elt F))), op.fresh = ∅ :=
  List.forall_mem_cons.mpr ⟨rfl, fresh110⟩
theorem fresh108 : ∀ op ∈ (tail108 : List (HloOp τ sig (Elt F))), op.fresh = ∅ :=
  List.forall_mem_cons.mpr ⟨rfl, fresh109⟩
theorem fresh107 : ∀ op ∈ (tail107 : List (HloOp τ sig (Elt F))), op.fresh = ∅ :=
  List.forall_mem_cons.mpr ⟨rfl, fresh108⟩
theorem fresh106 : ∀ op ∈ (tail106 : List (HloOp τ sig (Elt F))), op.fresh = ∅ :=
  List.forall_mem_cons.mpr ⟨rfl, fresh107⟩
theorem fresh105 : ∀ op ∈ (tail105 : List (HloOp τ sig (Elt F))), op.fresh = ∅ :=
  List.forall_mem_cons.mpr ⟨rfl, fresh106⟩
theorem fresh104 : ∀ op ∈ (tail104 : List (HloOp τ sig (Elt F))), op.fresh = ∅ :=
  List.forall_mem_cons.mpr ⟨rfl, fresh105⟩
theorem fresh103 : ∀ op ∈ (tail103 : List (HloOp τ sig (Elt F))), op.fresh = ∅ :=
  List.forall_mem_cons.mpr ⟨rfl, fresh104⟩
theorem fresh102 : ∀ op ∈ (tail102 : List (HloOp τ sig (Elt F))), op.fresh = ∅ :=
  List.forall_mem_cons.mpr ⟨rfl, fresh103⟩
theorem fresh101 : ∀ op ∈ (tail101 : List (HloOp τ sig (Elt F))), op.fresh = ∅ :=
  List.forall_mem_cons.mpr ⟨rfl, fresh102⟩
theorem fresh100 : ∀ op ∈ (tail100 : List (HloOp τ sig (Elt F))), op.fresh = ∅ :=
  List.forall_mem_cons.mpr ⟨rfl, fresh101⟩
theorem fresh99 : ∀ op ∈ (tail99 : List (HloOp τ sig (Elt F))), op.fresh = ∅ :=
  List.forall_mem_cons.mpr ⟨rfl, fresh100⟩
theorem fresh98 : ∀ op ∈ (tail98 : List (HloOp τ sig (Elt F))), op.fresh = ∅ :=
  List.forall_mem_cons.mpr ⟨rfl, fresh99⟩
theorem fresh97 : ∀ op ∈ (tail97 : List (HloOp τ sig (Elt F))), op.fresh = ∅ :=
  List.forall_mem_cons.mpr ⟨rfl, fresh98⟩
theorem fresh96 : ∀ op ∈ (tail96 : List (HloOp τ sig (Elt F))), op.fresh = ∅ :=
  List.forall_mem_cons.mpr ⟨rfl, fresh97⟩
theorem fresh95 : ∀ op ∈ (tail95 : List (HloOp τ sig (Elt F))), op.fresh = ∅ :=
  List.forall_mem_cons.mpr ⟨rfl, fresh96⟩
theorem fresh94 : ∀ op ∈ (tail94 : List (HloOp τ sig (Elt F))), op.fresh = ∅ :=
  List.forall_mem_cons.mpr ⟨rfl, fresh95⟩
theorem fresh93 : ∀ op ∈ (tail93 : List (HloOp τ sig (Elt F))), op.fresh = ∅ :=
  List.forall_mem_cons.mpr ⟨rfl, fresh94⟩
theorem fresh92 : ∀ op ∈ (tail92 : List (HloOp τ sig (Elt F))), op.fresh = ∅ :=
  List.forall_mem_cons.mpr ⟨rfl, fresh93⟩
theorem fresh91 : ∀ op ∈ (tail91 : List (HloOp τ sig (Elt F))), op.fresh = ∅ :=
  List.forall_mem_cons.mpr ⟨rfl, fresh92⟩
theorem fresh90 : ∀ op ∈ (tail90 : List (HloOp τ sig (Elt F))), op.fresh = ∅ :=
  List.forall_mem_cons.mpr ⟨rfl, fresh91⟩
theorem fresh89 : ∀ op ∈ (tail89 : List (HloOp τ sig (Elt F))), op.fresh = ∅ :=
  List.forall_mem_cons.mpr ⟨rfl, fresh90⟩
theorem fresh88 : ∀ op ∈ (tail88 : List (HloOp τ sig (Elt F))), op.fresh = ∅ :=
  List.forall_mem_cons.mpr ⟨rfl, fresh89⟩
theorem fresh87 : ∀ op ∈ (tail87 : List (HloOp τ sig (Elt F))), op.fresh = ∅ :=
  List.forall_mem_cons.mpr ⟨rfl, fresh88⟩
theorem fresh86 : ∀ op ∈ (tail86 : List (HloOp τ sig (Elt F))), op.fresh = ∅ :=
  List.forall_mem_cons.mpr ⟨rfl, fresh87⟩
theorem fresh85 : ∀ op ∈ (tail85 : List (HloOp τ sig (Elt F))), op.fresh = ∅ :=
  List.forall_mem_cons.mpr ⟨rfl, fresh86⟩
theorem fresh84 : ∀ op ∈ (tail84 : List (HloOp τ sig (Elt F))), op.fresh = ∅ :=
  List.forall_mem_cons.mpr ⟨rfl, fresh85⟩
theorem fresh83 : ∀ op ∈ (tail83 : List (HloOp τ sig (Elt F))), op.fresh = ∅ :=
  List.forall_mem_cons.mpr ⟨rfl, fresh84⟩
theorem fresh82 : ∀ op ∈ (tail82 : List (HloOp τ sig (Elt F))), op.fresh = ∅ :=
  List.forall_mem_cons.mpr ⟨rfl, fresh83⟩
theorem fresh81 : ∀ op ∈ (tail81 : List (HloOp τ sig (Elt F))), op.fresh = ∅ :=
  List.forall_mem_cons.mpr ⟨rfl, fresh82⟩
theorem fresh80 : ∀ op ∈ (tail80 : List (HloOp τ sig (Elt F))), op.fresh = ∅ :=
  List.forall_mem_cons.mpr ⟨rfl, fresh81⟩
theorem fresh79 : ∀ op ∈ (tail79 : List (HloOp τ sig (Elt F))), op.fresh = ∅ :=
  List.forall_mem_cons.mpr ⟨rfl, fresh80⟩
theorem fresh78 : ∀ op ∈ (tail78 : List (HloOp τ sig (Elt F))), op.fresh = ∅ :=
  List.forall_mem_cons.mpr ⟨rfl, fresh79⟩
theorem fresh77 : ∀ op ∈ (tail77 : List (HloOp τ sig (Elt F))), op.fresh = ∅ :=
  List.forall_mem_cons.mpr ⟨rfl, fresh78⟩
theorem fresh76 : ∀ op ∈ (tail76 : List (HloOp τ sig (Elt F))), op.fresh = ∅ :=
  List.forall_mem_cons.mpr ⟨rfl, fresh77⟩
theorem fresh75 : ∀ op ∈ (tail75 : List (HloOp τ sig (Elt F))), op.fresh = ∅ :=
  List.forall_mem_cons.mpr ⟨rfl, fresh76⟩
theorem fresh74 : ∀ op ∈ (tail74 : List (HloOp τ sig (Elt F))), op.fresh = ∅ :=
  List.forall_mem_cons.mpr ⟨rfl, fresh75⟩
theorem fresh73 : ∀ op ∈ (tail73 : List (HloOp τ sig (Elt F))), op.fresh = ∅ :=
  List.forall_mem_cons.mpr ⟨rfl, fresh74⟩
theorem fresh72 : ∀ op ∈ (tail72 : List (HloOp τ sig (Elt F))), op.fresh = ∅ :=
  List.forall_mem_cons.mpr ⟨rfl, fresh73⟩
theorem fresh71 : ∀ op ∈ (tail71 : List (HloOp τ sig (Elt F))), op.fresh = ∅ :=
  List.forall_mem_cons.mpr ⟨rfl, fresh72⟩
theorem fresh70 : ∀ op ∈ (tail70 : List (HloOp τ sig (Elt F))), op.fresh = ∅ :=
  List.forall_mem_cons.mpr ⟨rfl, fresh71⟩
theorem fresh69 : ∀ op ∈ (tail69 : List (HloOp τ sig (Elt F))), op.fresh = ∅ :=
  List.forall_mem_cons.mpr ⟨rfl, fresh70⟩
theorem fresh68 : ∀ op ∈ (tail68 : List (HloOp τ sig (Elt F))), op.fresh = ∅ :=
  List.forall_mem_cons.mpr ⟨rfl, fresh69⟩
theorem fresh67 : ∀ op ∈ (tail67 : List (HloOp τ sig (Elt F))), op.fresh = ∅ :=
  List.forall_mem_cons.mpr ⟨rfl, fresh68⟩
theorem fresh66 : ∀ op ∈ (tail66 : List (HloOp τ sig (Elt F))), op.fresh = ∅ :=
  List.forall_mem_cons.mpr ⟨rfl, fresh67⟩
theorem fresh65 : ∀ op ∈ (tail65 : List (HloOp τ sig (Elt F))), op.fresh = ∅ :=
  List.forall_mem_cons.mpr ⟨rfl, fresh66⟩
theorem fresh64 : ∀ op ∈ (tail64 : List (HloOp τ sig (Elt F))), op.fresh = ∅ :=
  List.forall_mem_cons.mpr ⟨rfl, fresh65⟩
theorem fresh63 : ∀ op ∈ (tail63 : List (HloOp τ sig (Elt F))), op.fresh = ∅ :=
  List.forall_mem_cons.mpr ⟨rfl, fresh64⟩
theorem fresh62 : ∀ op ∈ (tail62 : List (HloOp τ sig (Elt F))), op.fresh = ∅ :=
  List.forall_mem_cons.mpr ⟨rfl, fresh63⟩
theorem fresh61 : ∀ op ∈ (tail61 : List (HloOp τ sig (Elt F))), op.fresh = ∅ :=
  List.forall_mem_cons.mpr ⟨rfl, fresh62⟩
theorem fresh60 : ∀ op ∈ (tail60 : List (HloOp τ sig (Elt F))), op.fresh = ∅ :=
  List.forall_mem_cons.mpr ⟨rfl, fresh61⟩
theorem fresh59 : ∀ op ∈ (tail59 : List (HloOp τ sig (Elt F))), op.fresh = ∅ :=
  List.forall_mem_cons.mpr ⟨rfl, fresh60⟩
theorem fresh58 : ∀ op ∈ (tail58 : List (HloOp τ sig (Elt F))), op.fresh = ∅ :=
  List.forall_mem_cons.mpr ⟨rfl, fresh59⟩
theorem fresh57 : ∀ op ∈ (tail57 : List (HloOp τ sig (Elt F))), op.fresh = ∅ :=
  List.forall_mem_cons.mpr ⟨rfl, fresh58⟩
theorem fresh56 : ∀ op ∈ (tail56 : List (HloOp τ sig (Elt F))), op.fresh = ∅ :=
  List.forall_mem_cons.mpr ⟨rfl, fresh57⟩
theorem fresh55 : ∀ op ∈ (tail55 : List (HloOp τ sig (Elt F))), op.fresh = ∅ :=
  List.forall_mem_cons.mpr ⟨rfl, fresh56⟩
theorem fresh54 : ∀ op ∈ (tail54 : List (HloOp τ sig (Elt F))), op.fresh = ∅ :=
  List.forall_mem_cons.mpr ⟨rfl, fresh55⟩
theorem fresh53 : ∀ op ∈ (tail53 : List (HloOp τ sig (Elt F))), op.fresh = ∅ :=
  List.forall_mem_cons.mpr ⟨rfl, fresh54⟩
theorem fresh52 : ∀ op ∈ (tail52 : List (HloOp τ sig (Elt F))), op.fresh = ∅ :=
  List.forall_mem_cons.mpr ⟨rfl, fresh53⟩
theorem fresh51 : ∀ op ∈ (tail51 : List (HloOp τ sig (Elt F))), op.fresh = ∅ :=
  List.forall_mem_cons.mpr ⟨rfl, fresh52⟩
theorem fresh50 : ∀ op ∈ (tail50 : List (HloOp τ sig (Elt F))), op.fresh = ∅ :=
  List.forall_mem_cons.mpr ⟨rfl, fresh51⟩
theorem fresh49 : ∀ op ∈ (tail49 : List (HloOp τ sig (Elt F))), op.fresh = ∅ :=
  List.forall_mem_cons.mpr ⟨rfl, fresh50⟩
theorem fresh48 : ∀ op ∈ (tail48 : List (HloOp τ sig (Elt F))), op.fresh = ∅ :=
  List.forall_mem_cons.mpr ⟨rfl, fresh49⟩
theorem fresh47 : ∀ op ∈ (tail47 : List (HloOp τ sig (Elt F))), op.fresh = ∅ :=
  List.forall_mem_cons.mpr ⟨rfl, fresh48⟩
theorem fresh46 : ∀ op ∈ (tail46 : List (HloOp τ sig (Elt F))), op.fresh = ∅ :=
  List.forall_mem_cons.mpr ⟨rfl, fresh47⟩
theorem fresh45 : ∀ op ∈ (tail45 : List (HloOp τ sig (Elt F))), op.fresh = ∅ :=
  List.forall_mem_cons.mpr ⟨rfl, fresh46⟩
theorem fresh44 : ∀ op ∈ (tail44 : List (HloOp τ sig (Elt F))), op.fresh = ∅ :=
  List.forall_mem_cons.mpr ⟨rfl, fresh45⟩
theorem fresh43 : ∀ op ∈ (tail43 : List (HloOp τ sig (Elt F))), op.fresh = ∅ :=
  List.forall_mem_cons.mpr ⟨rfl, fresh44⟩
theorem fresh42 : ∀ op ∈ (tail42 : List (HloOp τ sig (Elt F))), op.fresh = ∅ :=
  List.forall_mem_cons.mpr ⟨rfl, fresh43⟩
theorem fresh41 : ∀ op ∈ (tail41 : List (HloOp τ sig (Elt F))), op.fresh = ∅ :=
  List.forall_mem_cons.mpr ⟨rfl, fresh42⟩
theorem fresh40 : ∀ op ∈ (tail40 : List (HloOp τ sig (Elt F))), op.fresh = ∅ :=
  List.forall_mem_cons.mpr ⟨rfl, fresh41⟩
theorem fresh39 : ∀ op ∈ (tail39 : List (HloOp τ sig (Elt F))), op.fresh = ∅ :=
  List.forall_mem_cons.mpr ⟨rfl, fresh40⟩
theorem fresh38 : ∀ op ∈ (tail38 : List (HloOp τ sig (Elt F))), op.fresh = ∅ :=
  List.forall_mem_cons.mpr ⟨rfl, fresh39⟩
theorem fresh37 : ∀ op ∈ (tail37 : List (HloOp τ sig (Elt F))), op.fresh = ∅ :=
  List.forall_mem_cons.mpr ⟨rfl, fresh38⟩
theorem fresh36 : ∀ op ∈ (tail36 : List (HloOp τ sig (Elt F))), op.fresh = ∅ :=
  List.forall_mem_cons.mpr ⟨rfl, fresh37⟩
theorem fresh35 : ∀ op ∈ (tail35 : List (HloOp τ sig (Elt F))), op.fresh = ∅ :=
  List.forall_mem_cons.mpr ⟨rfl, fresh36⟩
theorem fresh34 : ∀ op ∈ (tail34 : List (HloOp τ sig (Elt F))), op.fresh = ∅ :=
  List.forall_mem_cons.mpr ⟨rfl, fresh35⟩
theorem fresh33 : ∀ op ∈ (tail33 : List (HloOp τ sig (Elt F))), op.fresh = ∅ :=
  List.forall_mem_cons.mpr ⟨rfl, fresh34⟩
theorem fresh32 : ∀ op ∈ (tail32 : List (HloOp τ sig (Elt F))), op.fresh = ∅ :=
  List.forall_mem_cons.mpr ⟨rfl, fresh33⟩
theorem fresh31 : ∀ op ∈ (tail31 : List (HloOp τ sig (Elt F))), op.fresh = ∅ :=
  List.forall_mem_cons.mpr ⟨rfl, fresh32⟩
theorem fresh30 : ∀ op ∈ (tail30 : List (HloOp τ sig (Elt F))), op.fresh = ∅ :=
  List.forall_mem_cons.mpr ⟨rfl, fresh31⟩
theorem fresh29 : ∀ op ∈ (tail29 : List (HloOp τ sig (Elt F))), op.fresh = ∅ :=
  List.forall_mem_cons.mpr ⟨rfl, fresh30⟩
theorem fresh28 : ∀ op ∈ (tail28 : List (HloOp τ sig (Elt F))), op.fresh = ∅ :=
  List.forall_mem_cons.mpr ⟨rfl, fresh29⟩
theorem fresh27 : ∀ op ∈ (tail27 : List (HloOp τ sig (Elt F))), op.fresh = ∅ :=
  List.forall_mem_cons.mpr ⟨rfl, fresh28⟩
theorem fresh26 : ∀ op ∈ (tail26 : List (HloOp τ sig (Elt F))), op.fresh = ∅ :=
  List.forall_mem_cons.mpr ⟨rfl, fresh27⟩
theorem fresh25 : ∀ op ∈ (tail25 : List (HloOp τ sig (Elt F))), op.fresh = ∅ :=
  List.forall_mem_cons.mpr ⟨rfl, fresh26⟩
theorem fresh24 : ∀ op ∈ (tail24 : List (HloOp τ sig (Elt F))), op.fresh = ∅ :=
  List.forall_mem_cons.mpr ⟨rfl, fresh25⟩
theorem fresh23 : ∀ op ∈ (tail23 : List (HloOp τ sig (Elt F))), op.fresh = ∅ :=
  List.forall_mem_cons.mpr ⟨rfl, fresh24⟩
theorem fresh22 : ∀ op ∈ (tail22 : List (HloOp τ sig (Elt F))), op.fresh = ∅ :=
  List.forall_mem_cons.mpr ⟨rfl, fresh23⟩
theorem fresh21 : ∀ op ∈ (tail21 : List (HloOp τ sig (Elt F))), op.fresh = ∅ :=
  List.forall_mem_cons.mpr ⟨rfl, fresh22⟩
theorem fresh20 : ∀ op ∈ (tail20 : List (HloOp τ sig (Elt F))), op.fresh = ∅ :=
  List.forall_mem_cons.mpr ⟨rfl, fresh21⟩
theorem fresh19 : ∀ op ∈ (tail19 : List (HloOp τ sig (Elt F))), op.fresh = ∅ :=
  List.forall_mem_cons.mpr ⟨rfl, fresh20⟩
theorem fresh18 : ∀ op ∈ (tail18 : List (HloOp τ sig (Elt F))), op.fresh = ∅ :=
  List.forall_mem_cons.mpr ⟨rfl, fresh19⟩
theorem fresh17 : ∀ op ∈ (tail17 : List (HloOp τ sig (Elt F))), op.fresh = ∅ :=
  List.forall_mem_cons.mpr ⟨rfl, fresh18⟩
theorem fresh16 : ∀ op ∈ (tail16 : List (HloOp τ sig (Elt F))), op.fresh = ∅ :=
  List.forall_mem_cons.mpr ⟨rfl, fresh17⟩
theorem fresh15 : ∀ op ∈ (tail15 : List (HloOp τ sig (Elt F))), op.fresh = ∅ :=
  List.forall_mem_cons.mpr ⟨rfl, fresh16⟩
theorem fresh14 : ∀ op ∈ (tail14 : List (HloOp τ sig (Elt F))), op.fresh = ∅ :=
  List.forall_mem_cons.mpr ⟨rfl, fresh15⟩
theorem fresh13 : ∀ op ∈ (tail13 : List (HloOp τ sig (Elt F))), op.fresh = ∅ :=
  List.forall_mem_cons.mpr ⟨rfl, fresh14⟩
theorem fresh12 : ∀ op ∈ (tail12 : List (HloOp τ sig (Elt F))), op.fresh = ∅ :=
  List.forall_mem_cons.mpr ⟨rfl, fresh13⟩
theorem fresh11 : ∀ op ∈ (tail11 : List (HloOp τ sig (Elt F))), op.fresh = ∅ :=
  List.forall_mem_cons.mpr ⟨rfl, fresh12⟩
theorem fresh10 : ∀ op ∈ (tail10 : List (HloOp τ sig (Elt F))), op.fresh = ∅ :=
  List.forall_mem_cons.mpr ⟨rfl, fresh11⟩
theorem fresh9 : ∀ op ∈ (tail9 : List (HloOp τ sig (Elt F))), op.fresh = ∅ :=
  List.forall_mem_cons.mpr ⟨rfl, fresh10⟩
theorem fresh8 : ∀ op ∈ (tail8 : List (HloOp τ sig (Elt F))), op.fresh = ∅ :=
  List.forall_mem_cons.mpr ⟨rfl, fresh9⟩
theorem fresh7 : ∀ op ∈ (tail7 : List (HloOp τ sig (Elt F))), op.fresh = ∅ :=
  List.forall_mem_cons.mpr ⟨rfl, fresh8⟩
theorem fresh6 : ∀ op ∈ (tail6 : List (HloOp τ sig (Elt F))), op.fresh = ∅ :=
  List.forall_mem_cons.mpr ⟨rfl, fresh7⟩
theorem fresh5 : ∀ op ∈ (tail5 : List (HloOp τ sig (Elt F))), op.fresh = ∅ :=
  List.forall_mem_cons.mpr ⟨rfl, fresh6⟩
theorem fresh4 : ∀ op ∈ (tail4 : List (HloOp τ sig (Elt F))), op.fresh = ∅ :=
  List.forall_mem_cons.mpr ⟨rfl, fresh5⟩
theorem fresh3 : ∀ op ∈ (tail3 : List (HloOp τ sig (Elt F))), op.fresh = ∅ :=
  List.forall_mem_cons.mpr ⟨rfl, fresh4⟩
theorem fresh2 : ∀ op ∈ (tail2 : List (HloOp τ sig (Elt F))), op.fresh = ∅ :=
  List.forall_mem_cons.mpr ⟨rfl, fresh3⟩
theorem fresh1 : ∀ op ∈ (tail1 : List (HloOp τ sig (Elt F))), op.fresh = ∅ :=
  List.forall_mem_cons.mpr ⟨rfl, fresh2⟩
theorem fresh0 : ∀ op ∈ (tail0 : List (HloOp τ sig (Elt F))), op.fresh = ∅ :=
  List.forall_mem_cons.mpr ⟨rfl, fresh1⟩

end Cert.ReferenceIdeal.RefRun

end
-- ==== Proof.RefRunMain.lean ====
/-
  The reference program IS the sequence of its operations: each of its four consecutive windows is the sequence
  of its own operations, and sequences concatenate.
-/
import proofs.«158835_j66340064854039_2_alg».proof.Proof.RefRead
import Idealize.ShloMosaic.Lib.StableHlo.Run
import proofs.«158835_j66340064854039_2_alg».proof.Proof.RefRunTails

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev part0 : List (HloOp τ sig (Elt F)) := [op0, op1, op2, op3, op4, op5, op6, op7, op8, op9, op10, op11, op12, op13, op14, op15, op16, op17, op18, op19, op20, op21, op22, op23, op24, op25, op26, op27, op28, op29, op30, op31, op32, op33, op34, op35, op36, op37, op38, op39, op40, op41, op42, op43, op44, op45, op46, op47, op48, op49, op50, op51, op52, op53, op54, op55, op56, op57, op58, op59, op60, op61]
abbrev part1 : List (HloOp τ sig (Elt F)) := [op62, op63, op64, op65, op66, op67, op68, op69, op70, op71, op72, op73, op74, op75, op76, op77, op78, op79, op80, op81, op82, op83, op84, op85, op86, op87, op88, op89, op90, op91, op92, op93, op94, op95, op96, op97, op98, op99, op100, op101, op102, op103, op104, op105, op106, op107, op108, op109, op110, op111, op112, op113, op114, op115, op116, op117, op118, op119, op120, op121]
abbrev part2 : List (HloOp τ sig (Elt F)) := [op122, op123, op124, op125, op126, op127, op128, op129, op130, op131, op132, op133, op134, op135, op136, op137, op138, op139, op140, op141, op142, op143, op144, op145, op146, op147, op148, op149, op150, op151, op152, op153, op154, op155, op156, op157, op158, op159, op160, op161, op162, op163, op164, op165, op166, op167, op168, op169, op170, op171, op172, op173, op174, op175, op176, op177, op178, op179, op180, op181, op182, op183, op184, op185, op186, op187, op188, op189]
abbrev part3 : List (HloOp τ sig (Elt F)) := [op190, op191, op192, op193, op194, op195, op196, op197, op198, op199, op200]

set_option maxRecDepth 8192 in
set_option maxHeartbeats 4000000 in
theorem main_part0_eq (c : Dev nD) : main_part0 (F := F) c = seq part0 := rfl
set_option maxRecDepth 8192 in
set_option maxHeartbeats 4000000 in
theorem main_part1_eq (c : Dev nD) : main_part1 (F := F) c = seq part1 := rfl
set_option maxRecDepth 8192 in
set_option maxHeartbeats 4000000 in
theorem main_part2_eq (c : Dev nD) : main_part2 (F := F) c = seq part2 := rfl
set_option maxRecDepth 8192 in
set_option maxHeartbeats 4000000 in
theorem main_part3_eq (c : Dev nD) : main_part3 (F := F) c = seq part3 := rfl

set_option maxRecDepth 8192 in
theorem parts_eq : (part0 ++ (part1 ++ (part2 ++ part3)) : List (HloOp τ sig (Elt F))) = tail0 := rfl

set_option maxRecDepth 8192 in
theorem main_eq (c : Dev nD) : main (F := F) c = seq tail0 := by
  rw [← parts_eq, seq_append, seq_append, seq_append, ← main_part0_eq c, ← main_part1_eq c, ← main_part2_eq c, ← main_part3_eq c]
  rfl

end Cert.ReferenceIdeal.RefRun

end
-- ==== Proof.RefRunFin.lean ====
/-
  The reference program's run, assembled: from any buffer contents, after the program the result buffer holds
  the staged result of the argument buffers' contents and the argument buffers are unchanged; so every weakly
  fair execution of the program ends with the result at that value of the arguments.
-/
import proofs.«158835_j66340064854039_2_alg».proof.Proof.RefRead
import Idealize.ShloMosaic.Lib.StableHlo.Run
import proofs.«158835_j66340064854039_2_alg».proof.Proof.RefRunSub
import proofs.«158835_j66340064854039_2_alg».proof.Proof.RefRunMain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 201 operations, in order. -/
abbrev ops : List (HloOp τ sig (Elt F)) := tail0

theorem after_ops (V : Valuation τ sig (Elt F)) :
    after (ops (F := F)) V (Proc.devRef .tc main_v164)
        = Read.val_main_v164 (F := F) (V (Proc.devRef .tc main_arg0)) (V (Proc.devRef .tc main_arg1))
      ∧ after (ops (F := F)) V (Proc.devRef .tc main_arg0) = V (Proc.devRef .tc main_arg0)
      ∧ after (ops (F := F)) V (Proc.devRef .tc main_arg1) = V (Proc.devRef .tc main_arg1) :=
  fin0 _ _ V ⟨rfl, rfl⟩

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of
    @main terminates with the result at the staged value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164)
        = Read.val_main_v164 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v164).trans (after_ops _).1,
      (h c main_arg0).trans (after_ops _).2.1,
      (h c main_arg1).trans (after_ops _).2.2⟩)
    (run_seq scopedRefs_eq scopedSems_eq defs main (fun _ => ops) main_eq (fun _ => sub0) m ρ (fun _ => fresh0))

end Cert.ReferenceIdeal.RefRun

end
-- ==== Proof.RefLoc.lean ====
/-
  Three per-cell terms of the reference program that need no overlap ratio, read at a cell.

  The reference takes a channel of a cell by a slice of width one along the channel axis followed by a reshape
  that drops the unit axis, and takes the two boxes' channels by a slice of the first ten channels followed by a
  reshape to two boxes of five.  A reshape keeps row-major positions, so reading it at an index is arithmetic on
  positions: cell `(n, u, v)` is at position `(7 n + u) 7 + v`, and element `(n, u, v, k, j)` of the two-box
  array is channel `5 k + j` of that cell.  With the channels read, each term is the specification's by unfolding:
  the no-object term (a select on the negated test "target confidence > 0" of the two squared confidence errors
  added, else `0`), the localisation error of a box (two sums over two coordinates, each starting from `0`: squared
  centre errors, squared errors of square-rooted sizes), and the class term (the squared error of channel 10).
-/
import proofs.«158835_j66340064854039_2_alg».proof.Proof.RefRead
import proofs.«158835_j66340064854039_2_alg».proof.Proof.Spec

noncomputable section

open scoped BigOperators

namespace Cert.ReferenceIdeal.RefValue

open Cert.ReferenceIdeal Cert.ReferenceIdeal.Read Cert.BoxLoss Idealize.ShloMosaic Idealize.ShloMosaic.ValueIdx

/-! ## Reading the argument arrays through the program's slices and reshapes

The lemmas of this first part are kept in a namespace of their own. -/

namespace Loc

/-- An index of the argument array with coordinates `n, u, v, c` is the tuple `(n, u, v, c)`. -/
theorem ix4_ext (j : S32768x7x7x11.Idx) (n : Fin 32768) (u v : Fin 7) (c : Fin 11)
    (h0 : (j 0).val = n.val) (h1 : (j 1).val = u.val) (h2 : (j 2).val = v.val) (h3 : (j 3).val = c.val) :
    j = ix4 n u v c := by
  funext a
  match a with
  | ⟨0, _⟩ => exact Fin.ext h0
  | ⟨1, _⟩ => exact Fin.ext h1
  | ⟨2, _⟩ => exact Fin.ext h2
  | ⟨3, _⟩ => exact Fin.ext h3

/-- Row-major position `(7 n + u) 7 + v` of a cell gives back its three coordinates. -/
theorem rm3 (n u v : ℕ) (hu : u < 7) (hv : v < 7) :
    ((n * 7 + u) * 7 + v) / 49 = n ∧ ((n * 7 + u) * 7 + v) / 7 % 7 = u ∧ ((n * 7 + u) * 7 + v) / 1 % 7 = v := by
  omega

/-! ### One channel of a cell: a slice of width one along the channels, then the unit axis dropped -/

/-- The target's confidence channel (channel 4) as a `[32768, 7, 7]` array, at a cell. -/
theorem v1_at (x1 : (⟨S32768x7x7x11, .f32⟩ : BufTy).Contents (Elt Ideal)) (n : Fin 32768) (u v : Fin 7) :
    val_main_v1 (F := Ideal) x1 (ix3 n u v) = cell x1 n u v 4 := by
  have h := rm3 n.val u.val v.val u.isLt v.isLt
  rw [val_main_v1_apply, val_main_v0_apply]
  exact congrArg x1 (ix4_ext _ n u v 4 h.1 h.2.1 h.2.2 rfl)

/-- The prediction's channel 4, at a cell. -/
theorem v6_at (x0 : (⟨S32768x7x7x11, .f32⟩ : BufTy).Contents (Elt Ideal)) (n : Fin 32768) (u v : Fin 7) :
    val_main_v6 (F := Ideal) x0 (ix3 n u v) = cell x0 n u v 4 := by
  have h := rm3 n.val u.val v.val u.isLt v.isLt
  rw [val_main_v6_apply, val_main_v5_apply]
  exact congrArg x0 (ix4_ext _ n u v 4 h.1 h.2.1 h.2.2 rfl)

/-- The target's channel 4 again (the program slices it a second time), at a cell. -/
theorem v8_at (x1 : (⟨S32768x7x7x11, .f32⟩ : BufTy).Contents (Elt Ideal)) (n : Fin 32768) (u v : Fin 7) :
    val_main_v8 (F := Ideal) x1 (ix3 n u v) = cell x1 n u v 4 := by
  have h := rm3 n.val u.val v.val u.isLt v.isLt
  rw [val_main_v8_apply, val_main_v7_apply]
  exact congrArg x1 (ix4_ext _ n u v 4 h.1 h.2.1 h.2.2 rfl)

/-- The prediction's channel 9 (the second box's confidence), at a cell. -/
theorem v12_at (x0 : (⟨S32768x7x7x11, .f32⟩ : BufTy).Contents (Elt Ideal)) (n : Fin 32768) (u v : Fin 7) :
    val_main_v12 (F := Ideal) x0 (ix3 n u v) = cell x0 n u v 9 := by
  have h := rm3 n.val u.val v.val u.isLt v.isLt
  rw [val_main_v12_apply, val_main_v11_apply]
  exact congrArg x0 (ix4_ext _ n u v 9 h.1 h.2.1 h.2.2 rfl)

/-- The target's channel 9, at a cell. -/
theorem v14_at (x1 : (⟨S32768x7x7x11, .f32⟩ : BufTy).Contents (Elt Ideal)) (n : Fin 32768) (u v : Fin 7) :
    val_main_v14 (F := Ideal) x1 (ix3 n u v) = cell x1 n u v 9 := by
  have h := rm3 n.val u.val v.val u.isLt v.isLt
  rw [val_main_v14_apply, val_main_v13_apply]
  exact congrArg x1 (ix4_ext _ n u v 9 h.1 h.2.1 h.2.2 rfl)

/-! ### The two boxes' channels: the first ten channels reshaped to two boxes of five -/

/-- Channel `j` of box `k` of the prediction, read through the slice of the first ten channels and its reshape to
    `[…, 2, 5]`: element `(n, u, v, k, j)` sits at row-major position `((((7 n + u) 7 + v) 2 + k) 5 + j`, which
    in the ten-channel array is cell `(n, u, v)`, channel `5 k + j`. -/
theorem v21_at (x0 : (⟨S32768x7x7x11, .f32⟩ : BufTy).Contents (Elt Ideal)) (i : S32768x7x7x2x5.Idx)
    (n : Fin 32768) (u v : Fin 7) (k : Fin 2) (j : Fin 5)
    (h0 : (i 0).val = n.val) (h1 : (i 1).val = u.val) (h2 : (i 2).val = v.val) (h3 : (i 3).val = k.val)
    (h4 : (i 4).val = j.val) :
    val_main_v21 (F := Ideal) x0 i = cell x0 n u v (ch k j) := by
  have hu := u.isLt; have hv := v.isLt; have hk := k.isLt; have hj := j.isLt
  rw [val_main_v21_apply, val_main_v20_apply]
  show x0 _ = x0 (ix4 n u v (ch k j))
  refine congrArg x0 (ix4_ext _ n u v (ch k j) ?_ ?_ ?_ ?_)
  · show (((((i 0).val * 7 + (i 1).val) * 7 + (i 2).val) * 2 + (i 3).val) * 5 + (i 4).val) / 490 = n.val
    rw [h0, h1, h2, h3, h4]; omega
  · show (((((i 0).val * 7 + (i 1).val) * 7 + (i 2).val) * 2 + (i 3).val) * 5 + (i 4).val) / 70 % 7 = u.val
    rw [h0, h1, h2, h3, h4]; omega
  · show (((((i 0).val * 7 + (i 1).val) * 7 + (i 2).val) * 2 + (i 3).val) * 5 + (i 4).val) / 10 % 7 = v.val
    rw [h0, h1, h2, h3, h4]; omega
  · show (((((i 0).val * 7 + (i 1).val) * 7 + (i 2).val) * 2 + (i 3).val) * 5 + (i 4).val) % 10 = 5 * k.val + j.val
    rw [h0, h1, h2, h3, h4]; omega

/-- The same for the target. -/
theorem v23_at (x1 : (⟨S32768x7x7x11, .f32⟩ : BufTy).Contents (Elt Ideal)) (i : S32768x7x7x2x5.Idx)
    (n : Fin 32768) (u v : Fin 7) (k : Fin 2) (j : Fin 5)
    (h0 : (i 0).val = n.val) (h1 : (i 1).val = u.val) (h2 : (i 2).val = v.val) (h3 : (i 3).val = k.val)
    (h4 : (i 4).val = j.val) :
    val_main_v23 (F := Ideal) x1 i = cell x1 n u v (ch k j) := by
  have hu := u.isLt; have hv := v.isLt; have hk := k.isLt; have hj := j.isLt
  rw [val_main_v23_apply, val_main_v22_apply]
  show x1 _ = x1 (ix4 n u v (ch k j))
  refine congrArg x1 (ix4_ext _ n u v (ch k j) ?_ ?_ ?_ ?_)
  · show (((((i 0).val * 7 + (i 1).val) * 7 + (i 2).val) * 2 + (i 3).val) * 5 + (i 4).val) / 490 = n.val
    rw [h0, h1, h2, h3, h4]; omega
  · show (((((i 0).val * 7 + (i 1).val) * 7 + (i 2).val) * 2 + (i 3).val) * 5 + (i 4).val) / 70 % 7 = u.val
    rw [h0, h1, h2, h3, h4]; omega
  · show (((((i 0).val * 7 + (i 1).val) * 7 + (i 2).val) * 2 + (i 3).val) * 5 + (i 4).val) / 10 % 7 = v.val
    rw [h0, h1, h2, h3, h4]; omega
  · show (((((i 0).val * 7 + (i 1).val) * 7 + (i 2).val) * 2 + (i 3).val) * 5 + (i 4).val) % 10 = 5 * k.val + j.val
    rw [h0, h1, h2, h3, h4]; omega

/-! ### The localisation error of a box -/

/-- One squared centre error: coordinate `j` (of two) of box `k`. -/
theorem v140_at (x0 x1 : (⟨S32768x7x7x11, .f32⟩ : BufTy).Contents (Elt Ideal)) (n : Fin 32768) (u v : Fin 7)
    (k j : Fin 2) :
    val_main_v140 (F := Ideal) x0 x1 (idx_main_v141 (ix4 n u v k) j)
      = Cert.BoxLoss.sq (cell x0 n u v (ch k ⟨j.val, by have := j.isLt; omega⟩)
          - cell x1 n u v (ch k ⟨j.val, by have := j.isLt; omega⟩)) := by
  rw [val_main_v140_apply, val_main_v139_apply, val_main_v137_apply, val_main_v138_apply,
    v21_at x0 _ n u v k ⟨j.val, by have := j.isLt; omega⟩ rfl rfl rfl rfl rfl,
    v23_at x1 _ n u v k ⟨j.val, by have := j.isLt; omega⟩ rfl rfl rfl rfl rfl]
  rfl

/-- One squared error of the square-rooted sizes: size `j` (of two) of box `k`, channels `2 + j`. -/
theorem v147_at (x0 x1 : (⟨S32768x7x7x11, .f32⟩ : BufTy).Contents (Elt Ideal)) (n : Fin 32768) (u v : Fin 7)
    (k j : Fin 2) :
    val_main_v147 (F := Ideal) x0 x1 (idx_main_v148 (ix4 n u v k) j)
      = Cert.BoxLoss.sq (Ideal.sqrt (cell x0 n u v (ch k ⟨2 + j.val, by have := j.isLt; omega⟩))
          - Ideal.sqrt (cell x1 n u v (ch k ⟨2 + j.val, by have := j.isLt; omega⟩))) := by
  rw [val_main_v147_apply, val_main_v146_apply, val_main_v143_apply, val_main_v145_apply, val_main_v142_apply,
    val_main_v144_apply,
    v21_at x0 _ n u v k ⟨2 + j.val, by have := j.isLt; omega⟩ rfl rfl rfl rfl rfl,
    v23_at x1 _ n u v k ⟨2 + j.val, by have := j.isLt; omega⟩ rfl rfl rfl rfl rfl]
  rfl

end Loc

open Loc

/-! ## The three terms -/

/-- THE NO-OBJECT TERM of the reference at a cell: where the target's confidence is not positive, the two squared
    confidence errors added; elsewhere `0`. -/
theorem v18_at (x0 x1 : (⟨S32768x7x7x11, .f32⟩ : BufTy).Contents (Elt Ideal)) (n : Fin 32768) (u v : Fin 7) :
    val_main_v18 (F := Ideal) x0 x1 (ix3 n u v) = nooT (cell x0 n u v) (cell x1 n u v) := by
  rw [val_main_v18_apply, val_main_v4_apply, val_main_v3_apply, val_main_v17_apply, val_main_v10_apply,
    val_main_v16_apply, val_main_v9_apply, val_main_v15_apply, v1_at, v6_at, v8_at, v12_at, v14_at,
    val_main_v2_apply, val_main_cst_apply, val_main_call0_v1_apply, val_main_call0_v0_apply, val_main_cst_0_apply]
  rfl

/-- THE LOCALISATION ERROR of box `k` at a cell: the two squared centre errors added, plus the two squared errors
    of the square-rooted sizes added (each sum starts from `0`). -/
theorem v149_at (x0 x1 : (⟨S32768x7x7x11, .f32⟩ : BufTy).Contents (Elt Ideal)) (n : Fin 32768) (u v : Fin 7)
    (k : Fin 2) :
    val_main_v149 (F := Ideal) x0 x1 (ix4 n u v k) = locSq (cell x0 n u v) (cell x1 n u v) k := by
  have e141 : val_main_v141 (F := Ideal) x0 x1 (ix4 n u v k)
      = ∑ j : Fin 2, Cert.BoxLoss.sq (cell x0 n u v (ch k ⟨j.val, by have := j.isLt; omega⟩)
          - cell x1 n u v (ch k ⟨j.val, by have := j.isLt; omega⟩)) := by
    rw [val_main_v141_apply, val_main_cst_16_apply, Ideal.ofBits_def, Ideal.ofBits_zero_f32, zero_add]
    exact Finset.sum_congr rfl (fun j _ => v140_at x0 x1 n u v k j)
  have e148 : val_main_v148 (F := Ideal) x0 x1 (ix4 n u v k)
      = ∑ j : Fin 2, Cert.BoxLoss.sq (Ideal.sqrt (cell x0 n u v (ch k ⟨2 + j.val, by have := j.isLt; omega⟩))
          - Ideal.sqrt (cell x1 n u v (ch k ⟨2 + j.val, by have := j.isLt; omega⟩))) := by
    rw [val_main_v148_apply, val_main_cst_17_apply, Ideal.ofBits_def, Ideal.ofBits_zero_f32, zero_add]
    exact Finset.sum_congr rfl (fun j _ => v147_at x0 x1 n u v k j)
  rw [val_main_v149_apply, e141, e148]
  rfl

/-! ### The class term -/

/-- THE CLASS TERM at a cell: the squared error of channel 10. -/
theorem v155_at (x0 x1 : (⟨S32768x7x7x11, .f32⟩ : BufTy).Contents (Elt Ideal)) (n : Fin 32768) (u v : Fin 7)
    (e : Fin 1) :
    val_main_v155 (F := Ideal) x0 x1 (ix4 n u v e) = clsT (cell x0 n u v) (cell x1 n u v) := by
  have he : 10 + e.val = 10 := by have := e.isLt; omega
  have a0 : val_main_v152 (F := Ideal) x0 (ix4 n u v e) = cell x0 n u v 10 := by
    rw [val_main_v152_apply]
    exact congrArg x0 (ix4_ext _ n u v 10 rfl rfl rfl he)
  have a1 : val_main_v153 (F := Ideal) x1 (ix4 n u v e) = cell x1 n u v 10 := by
    rw [val_main_v153_apply]
    exact congrArg x1 (ix4_ext _ n u v 10 rfl rfl rfl he)
  rw [val_main_v155_apply, val_main_v154_apply, a0, a1]
  rfl

end Cert.ReferenceIdeal.RefValue

end
-- ==== Proof.RefBase.lean ====
/-
  The reference's leaf reads: each slice (and reshape) of an argument array, read at an index given by its
  coordinates, is a channel of the cell at that grid position.  The reshape of the first ten channels to
  (box, field) sends (k, j) to channel 5k + j.  Every index equation is checked coordinate by coordinate,
  each a statement of linear arithmetic with division by literals.
-/
import proofs.«158835_j66340064854039_2_alg».proof.Proof.RefRead
import proofs.«158835_j66340064854039_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue.Iou

open Cert.ReferenceIdeal Cert.ReferenceIdeal.Read Cert.BoxLoss Idealize.ShloMosaic Idealize.ShloMosaic.ValueIdx

abbrev Arr := (⟨S32768x7x7x11, .f32⟩ : BufTy).Contents (Elt Ideal)

theorem v1_at (x1 : Arr) (n : Fin 32768) (u v : Fin 7) :
    val_main_v1 (F := Ideal) x1 (ix3 n u v) = cell x1 n u v 4 := by
  rw [val_main_v1_apply, val_main_v0_apply]
  exact congrArg x1 (funext fun d => match d with
      | ⟨0, _⟩ => Fin.ext (show (((n.val * 7 + u.val) * 7 + v.val) / 49) = n.val by omega)
      | ⟨1, _⟩ => Fin.ext (show (((n.val * 7 + u.val) * 7 + v.val) / 7 % 7) = u.val by omega)
      | ⟨2, _⟩ => Fin.ext (show (((n.val * 7 + u.val) * 7 + v.val) / 1 % 7) = v.val by omega)
      | ⟨3, _⟩ => Fin.ext (show 4 + 0 = 4 by omega)
      : idx_main_v0 (idx_main_v1 (ix3 n u v)) = ix4 n u v (4 : Fin 11))

theorem v6_at (x0 : Arr) (n : Fin 32768) (u v : Fin 7) :
    val_main_v6 (F := Ideal) x0 (ix3 n u v) = cell x0 n u v 4 := by
  rw [val_main_v6_apply, val_main_v5_apply]
  exact congrArg x0 (funext fun d => match d with
      | ⟨0, _⟩ => Fin.ext (show (((n.val * 7 + u.val) * 7 + v.val) / 49) = n.val by omega)
      | ⟨1, _⟩ => Fin.ext (show (((n.val * 7 + u.val) * 7 + v.val) / 7 % 7) = u.val by omega)
      | ⟨2, _⟩ => Fin.ext (show (((n.val * 7 + u.val) * 7 + v.val) / 1 % 7) = v.val by omega)
      | ⟨3, _⟩ => Fin.ext (show 4 + 0 = 4 by omega)
      : idx_main_v5 (idx_main_v6 (ix3 n u v)) = ix4 n u v (4 : Fin 11))

theorem v8_at (x1 : Arr) (n : Fin 32768) (u v : Fin 7) :
    val_main_v8 (F := Ideal) x1 (ix3 n u v) = cell x1 n u v 4 := by
  rw [val_main_v8_apply, val_main_v7_apply]
  exact congrArg x1 (funext fun d => match d with
      | ⟨0, _⟩ => Fin.ext (show (((n.val * 7 + u.val) * 7 + v.val) / 49) = n.val by omega)
      | ⟨1, _⟩ => Fin.ext (show (((n.val * 7 + u.val) * 7 + v.val) / 7 % 7) = u.val by omega)
      | ⟨2, _⟩ => Fin.ext (show (((n.val * 7 + u.val) * 7 + v.val) / 1 % 7) = v.val by omega)
      | ⟨3, _⟩ => Fin.ext (show 4 + 0 = 4 by omega)
      : idx_main_v7 (idx_main_v8 (ix3 n u v)) = ix4 n u v (4 : Fin 11))

theorem v12_at (x0 : Arr) (n : Fin 32768) (u v : Fin 7) :
    val_main_v12 (F := Ideal) x0 (ix3 n u v) = cell x0 n u v 9 := by
  rw [val_main_v12_apply, val_main_v11_apply]
  exact congrArg x0 (funext fun d => match d with
      | ⟨0, _⟩ => Fin.ext (show (((n.val * 7 + u.val) * 7 + v.val) / 49) = n.val by omega)
      | ⟨1, _⟩ => Fin.ext (show (((n.val * 7 + u.val) * 7 + v.val) / 7 % 7) = u.val by omega)
      | ⟨2, _⟩ => Fin.ext (show (((n.val * 7 + u.val) * 7 + v.val) / 1 % 7) = v.val by omega)
      | ⟨3, _⟩ => Fin.ext (show 9 + 0 = 9 by omega)
      : idx_main_v11 (idx_main_v12 (ix3 n u v)) = ix4 n u v (9 : Fin 11))

theorem v14_at (x1 : Arr) (n : Fin 32768) (u v : Fin 7) :
    val_main_v14 (F := Ideal) x1 (ix3 n u v) = cell x1 n u v 9 := by
  rw [val_main_v14_apply, val_main_v13_apply]
  exact congrArg x1 (funext fun d => match d with
      | ⟨0, _⟩ => Fin.ext (show (((n.val * 7 + u.val) * 7 + v.val) / 49) = n.val by omega)
      | ⟨1, _⟩ => Fin.ext (show (((n.val * 7 + u.val) * 7 + v.val) / 7 % 7) = u.val by omega)
      | ⟨2, _⟩ => Fin.ext (show (((n.val * 7 + u.val) * 7 + v.val) / 1 % 7) = v.val by omega)
      | ⟨3, _⟩ => Fin.ext (show 9 + 0 = 9 by omega)
      : idx_main_v13 (idx_main_v14 (ix3 n u v)) = ix4 n u v (9 : Fin 11))

theorem v21_at (x0 : Arr) (n : Fin 32768) (u v : Fin 7) (k : Fin 2) (j : Fin 5) :
    val_main_v21 (F := Ideal) x0 (ix5 n u v k j) = cell x0 n u v (ch k j) := by
  rw [val_main_v21_apply, val_main_v20_apply]
  exact congrArg x0 (funext fun d => match d with
      | ⟨0, _⟩ => Fin.ext (show (((((n.val * 7 + u.val) * 7 + v.val) * 2 + k.val) * 5 + j.val) / 490) = n.val by omega)
      | ⟨1, _⟩ => Fin.ext (show (((((n.val * 7 + u.val) * 7 + v.val) * 2 + k.val) * 5 + j.val) / 70 % 7) = u.val by omega)
      | ⟨2, _⟩ => Fin.ext (show (((((n.val * 7 + u.val) * 7 + v.val) * 2 + k.val) * 5 + j.val) / 10 % 7) = v.val by omega)
      | ⟨3, _⟩ => Fin.ext (show (((((n.val * 7 + u.val) * 7 + v.val) * 2 + k.val) * 5 + j.val) % 10) = 5 * k.val + j.val by omega)
      : idx_main_v20 (idx_main_v21 (ix5 n u v k j)) = ix4 n u v (ch k j))

theorem v23_at (x1 : Arr) (n : Fin 32768) (u v : Fin 7) (k : Fin 2) (j : Fin 5) :
    val_main_v23 (F := Ideal) x1 (ix5 n u v k j) = cell x1 n u v (ch k j) := by
  rw [val_main_v23_apply, val_main_v22_apply]
  exact congrArg x1 (funext fun d => match d with
      | ⟨0, _⟩ => Fin.ext (show (((((n.val * 7 + u.val) * 7 + v.val) * 2 + k.val) * 5 + j.val) / 490) = n.val by omega)
      | ⟨1, _⟩ => Fin.ext (show (((((n.val * 7 + u.val) * 7 + v.val) * 2 + k.val) * 5 + j.val) / 70 % 7) = u.val by omega)
      | ⟨2, _⟩ => Fin.ext (show (((((n.val * 7 + u.val) * 7 + v.val) * 2 + k.val) * 5 + j.val) / 10 % 7) = v.val by omega)
      | ⟨3, _⟩ => Fin.ext (show (((((n.val * 7 + u.val) * 7 + v.val) * 2 + k.val) * 5 + j.val) % 10) = 5 * k.val + j.val by omega)
      : idx_main_v22 (idx_main_v23 (ix5 n u v k j)) = ix4 n u v (ch k j))

theorem v24_at (x1 : Arr) (n : Fin 32768) (u v : Fin 7) (j : Fin 5) :
    val_main_v24 (F := Ideal) x1 (ix4 n u v j) = cell x1 n u v (ch 0 j) := by
  rw [val_main_v24_apply]
  exact congrArg x1 (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show j.val = 5 * 0 + j.val by omega)
      : idx_main_v24 (ix4 n u v j) = ix4 n u v (ch 0 j))

theorem v152_at (x0 : Arr) (n : Fin 32768) (u v : Fin 7) (c : Fin 1) :
    val_main_v152 (F := Ideal) x0 (ix4 n u v c) = cell x0 n u v 10 := by
  rw [val_main_v152_apply]
  exact congrArg x0 (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show 10 + c.val = 10 by omega)
      : idx_main_v152 (ix4 n u v c) = ix4 n u v (10 : Fin 11))

theorem v153_at (x1 : Arr) (n : Fin 32768) (u v : Fin 7) (c : Fin 1) :
    val_main_v153 (F := Ideal) x1 (ix4 n u v c) = cell x1 n u v 10 := by
  rw [val_main_v153_apply]
  exact congrArg x1 (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show 10 + c.val = 10 by omega)
      : idx_main_v153 (ix4 n u v c) = ix4 n u v (10 : Fin 11))

end Cert.ReferenceIdeal.RefValue.Iou

end
-- ==== Proof.RefCorners.lean ====
/-
  The boxes' corners as the reference computes them.  For the predicted boxes (arrays of shape [.., box, 2]) and
  for the first target box (shape [.., 2]): centre * 64 and size * 448, the low corner centre*64 - half*(size*448),
  the high corner with a plus, and the concatenation [low, high] on the last axis, read on either half.
-/
import proofs.«158835_j66340064854039_2_alg».proof.Proof.RefRead
import proofs.«158835_j66340064854039_2_alg».proof.Proof.Spec
import Idealize.ShloMosaic.Lib.ValueIdx
import Idealize.ShloMosaic.Lib.Pipeline.Value
import Idealize.ShloMosaic.PureOps.Ideal.Laws
import proofs.«158835_j66340064854039_2_alg».proof.Proof.RefBase

noncomputable section

open scoped BigOperators

namespace Cert.ReferenceIdeal.RefValue.Iou

open Cert.ReferenceIdeal Cert.ReferenceIdeal.Read Cert.BoxLoss Idealize.ShloMosaic Idealize.ShloMosaic.ValueIdx

/-! ## Predicted boxes -/

theorem v27_at (x0 : Arr) (n : Fin 32768) (u v : Fin 7) (k a : Fin 2) :
    val_main_v27 (F := Ideal) x0 (ix5 n u v k a) = (cell x0 n u v) (ch k (⟨a.val, by omega⟩ : Fin 5)) * c64 := by
  rw [val_main_v27_apply, val_main_v25_apply, val_main_v26_apply, val_main_cst_2_apply]
  exact congrArg (· * c64) ((congrArg (val_main_v21 (F := Ideal) x0)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show k.val = k.val by omega)
      | ⟨4, _⟩ => Fin.ext (show a.val = a.val by omega)
      : idx_main_v25 (ix5 n u v k a) = ix5 n u v k (⟨a.val, by omega⟩ : Fin 5))).trans (v21_at x0 n u v k (⟨a.val, by omega⟩ : Fin 5)))

theorem v30_at (x0 : Arr) (n : Fin 32768) (u v : Fin 7) (k a : Fin 2) :
    val_main_v30 (F := Ideal) x0 (ix5 n u v k a) = (cell x0 n u v) (ch k (⟨2 + a.val, by omega⟩ : Fin 5)) * c448 := by
  rw [val_main_v30_apply, val_main_v28_apply, val_main_v29_apply, val_main_cst_3_apply]
  exact congrArg (· * c448) ((congrArg (val_main_v21 (F := Ideal) x0)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show k.val = k.val by omega)
      | ⟨4, _⟩ => Fin.ext (show 2 + a.val = 2 + a.val by omega)
      : idx_main_v28 (ix5 n u v k a) = ix5 n u v k (⟨2 + a.val, by omega⟩ : Fin 5))).trans (v21_at x0 n u v k (⟨2 + a.val, by omega⟩ : Fin 5)))

theorem v33_at (x0 : Arr) (n : Fin 32768) (u v : Fin 7) (k a : Fin 2) :
    val_main_v33 (F := Ideal) x0 (ix5 n u v k a) = lo ((cell x0 n u v) (ch k (⟨a.val, by omega⟩ : Fin 5))) ((cell x0 n u v) (ch k (⟨2 + a.val, by omega⟩ : Fin 5))) := by
  rw [val_main_v33_apply, val_main_v32_apply, val_main_v31_apply, val_main_cst_4_apply, v27_at, v30_at]
  rfl

theorem v36_at (x0 : Arr) (n : Fin 32768) (u v : Fin 7) (k a : Fin 2) :
    val_main_v36 (F := Ideal) x0 (ix5 n u v k a) = hi ((cell x0 n u v) (ch k (⟨a.val, by omega⟩ : Fin 5))) ((cell x0 n u v) (ch k (⟨2 + a.val, by omega⟩ : Fin 5))) := by
  rw [val_main_v36_apply, val_main_v35_apply, val_main_v34_apply, val_main_cst_5_apply, v27_at, v30_at]
  rfl

/-- The joined corners on their first half: the low corner. -/
theorem v37_lo (x0 : Arr) (n : Fin 32768) (u v : Fin 7) (k a : Fin 2) :
    val_main_v37 (F := Ideal) x0 (ix5 n u v k (⟨a.val, by omega⟩ : Fin 4))
      = lo ((cell x0 n u v) (ch k (⟨a.val, by omega⟩ : Fin 5))) ((cell x0 n u v) (ch k (⟨2 + a.val, by omega⟩ : Fin 5))) := by
  unfold val_main_v37
  refine (concatenate_pair_apply_left (t := S32768x7x7x2x4) (s₁ := S32768x7x7x2x2) (s₂ := S32768x7x7x2x2) 4 _ _ _ _ rfl (ix5 n u v k a) (fun b => ?_)).trans (v33_at x0 n u v k a)
  match b with
  | ⟨0, _⟩ => rfl
  | ⟨1, _⟩ => rfl
  | ⟨2, _⟩ => rfl
  | ⟨3, _⟩ => rfl
  | ⟨4, _⟩ => rfl

/-- The joined corners on their second half: the high corner. -/
theorem v37_hi (x0 : Arr) (n : Fin 32768) (u v : Fin 7) (k a : Fin 2) :
    val_main_v37 (F := Ideal) x0 (ix5 n u v k (⟨a.val + 2, by omega⟩ : Fin 4))
      = hi ((cell x0 n u v) (ch k (⟨a.val, by omega⟩ : Fin 5))) ((cell x0 n u v) (ch k (⟨2 + a.val, by omega⟩ : Fin 5))) := by
  unfold val_main_v37
  refine (concatenate_pair_apply_right (t := S32768x7x7x2x4) (s₁ := S32768x7x7x2x2) (s₂ := S32768x7x7x2x2) 4 _ _ _ _ rfl rfl (ix5 n u v k a) (fun b hb => ?_) rfl).trans (v36_at x0 n u v k a)
  match b, hb with
  | ⟨0, _⟩, _ => rfl
  | ⟨1, _⟩, _ => rfl
  | ⟨2, _⟩, _ => rfl
  | ⟨3, _⟩, _ => rfl
  | ⟨4, _⟩, hb => exact absurd rfl hb

/-! ## The first target box -/

theorem v40_at (x1 : Arr) (n : Fin 32768) (u v : Fin 7) (a : Fin 2) :
    val_main_v40 (F := Ideal) x1 (ix4 n u v a) = (cell x1 n u v) (ch 0 (⟨a.val, by omega⟩ : Fin 5)) * c64 := by
  rw [val_main_v40_apply, val_main_v38_apply, val_main_v39_apply, val_main_cst_6_apply]
  exact congrArg (· * c64) ((congrArg (val_main_v24 (F := Ideal) x1)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show a.val = a.val by omega)
      : idx_main_v38 (ix4 n u v a) = ix4 n u v (⟨a.val, by omega⟩ : Fin 5))).trans (v24_at x1 n u v (⟨a.val, by omega⟩ : Fin 5)))

theorem v43_at (x1 : Arr) (n : Fin 32768) (u v : Fin 7) (a : Fin 2) :
    val_main_v43 (F := Ideal) x1 (ix4 n u v a) = (cell x1 n u v) (ch 0 (⟨2 + a.val, by omega⟩ : Fin 5)) * c448 := by
  rw [val_main_v43_apply, val_main_v41_apply, val_main_v42_apply, val_main_cst_7_apply]
  exact congrArg (· * c448) ((congrArg (val_main_v24 (F := Ideal) x1)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show 2 + a.val = 2 + a.val by omega)
      : idx_main_v41 (ix4 n u v a) = ix4 n u v (⟨2 + a.val, by omega⟩ : Fin 5))).trans (v24_at x1 n u v (⟨2 + a.val, by omega⟩ : Fin 5)))

theorem v46_at (x1 : Arr) (n : Fin 32768) (u v : Fin 7) (a : Fin 2) :
    val_main_v46 (F := Ideal) x1 (ix4 n u v a) = lo ((cell x1 n u v) (ch 0 (⟨a.val, by omega⟩ : Fin 5))) ((cell x1 n u v) (ch 0 (⟨2 + a.val, by omega⟩ : Fin 5))) := by
  rw [val_main_v46_apply, val_main_v45_apply, val_main_v44_apply, val_main_cst_8_apply, v40_at, v43_at]
  rfl

theorem v49_at (x1 : Arr) (n : Fin 32768) (u v : Fin 7) (a : Fin 2) :
    val_main_v49 (F := Ideal) x1 (ix4 n u v a) = hi ((cell x1 n u v) (ch 0 (⟨a.val, by omega⟩ : Fin 5))) ((cell x1 n u v) (ch 0 (⟨2 + a.val, by omega⟩ : Fin 5))) := by
  rw [val_main_v49_apply, val_main_v48_apply, val_main_v47_apply, val_main_cst_9_apply, v40_at, v43_at]
  rfl

theorem v50_lo (x1 : Arr) (n : Fin 32768) (u v : Fin 7) (a : Fin 2) :
    val_main_v50 (F := Ideal) x1 (ix4 n u v (⟨a.val, by omega⟩ : Fin 4))
      = lo ((cell x1 n u v) (ch 0 (⟨a.val, by omega⟩ : Fin 5))) ((cell x1 n u v) (ch 0 (⟨2 + a.val, by omega⟩ : Fin 5))) := by
  unfold val_main_v50
  refine (concatenate_pair_apply_left (t := S32768x7x7x4) (s₁ := S32768x7x7x2) (s₂ := S32768x7x7x2) 3 _ _ _ _ rfl (ix4 n u v a) (fun b => ?_)).trans (v46_at x1 n u v a)
  match b with
  | ⟨0, _⟩ => rfl
  | ⟨1, _⟩ => rfl
  | ⟨2, _⟩ => rfl
  | ⟨3, _⟩ => rfl

theorem v50_hi (x1 : Arr) (n : Fin 32768) (u v : Fin 7) (a : Fin 2) :
    val_main_v50 (F := Ideal) x1 (ix4 n u v (⟨a.val + 2, by omega⟩ : Fin 4))
      = hi ((cell x1 n u v) (ch 0 (⟨a.val, by omega⟩ : Fin 5))) ((cell x1 n u v) (ch 0 (⟨2 + a.val, by omega⟩ : Fin 5))) := by
  unfold val_main_v50
  refine (concatenate_pair_apply_right (t := S32768x7x7x4) (s₁ := S32768x7x7x2) (s₂ := S32768x7x7x2) 3 _ _ _ _ rfl rfl (ix4 n u v a) (fun b hb => ?_) rfl).trans (v49_at x1 n u v a)
  match b, hb with
  | ⟨0, _⟩, _ => rfl
  | ⟨1, _⟩, _ => rfl
  | ⟨2, _⟩, _ => rfl
  | ⟨3, _⟩, hb => exact absurd rfl hb

end Cert.ReferenceIdeal.RefValue.Iou

end
-- ==== Proof.RefIou.lean ====
/-
  The overlap ratio as the reference computes it.  The larger low corner and the smaller high corner of predicted
  box k and the first target box give the intersection's edges on each axis; their differences multiply to the
  intersection's area; the boxes' own corner differences multiply to their areas; the ratio is
  intersection / (area + area - intersection) where both extents are positive and zero elsewhere.
-/
import proofs.«158835_j66340064854039_2_alg».proof.Proof.RefRead
import proofs.«158835_j66340064854039_2_alg».proof.Proof.Spec
import Idealize.ShloMosaic.Lib.ValueIdx
import Idealize.ShloMosaic.Lib.Pipeline.Value
import Idealize.ShloMosaic.PureOps.Ideal.Laws
import proofs.«158835_j66340064854039_2_alg».proof.Proof.RefBase
import proofs.«158835_j66340064854039_2_alg».proof.Proof.RefCorners

noncomputable section

open scoped BigOperators

namespace Cert.ReferenceIdeal.RefValue.Iou

open Cert.ReferenceIdeal Cert.ReferenceIdeal.Read Cert.BoxLoss Idealize.ShloMosaic Idealize.ShloMosaic.ValueIdx

/-- The intersection's low edge on axis a (a = 0: x, a = 1: y). -/
theorem v55_at (x0 x1 : Arr) (n : Fin 32768) (u v : Fin 7) (k a : Fin 2) :
    val_main_v55 (F := Ideal) x0 x1 (ix5 n u v k a) = ltC (cell x0 n u v) (cell x1 n u v) k (⟨a.val, by omega⟩ : Fin 5) (⟨2 + a.val, by omega⟩ : Fin 5) := by
  rw [val_main_v55_apply, val_main_v52_apply, val_main_v54_apply, val_main_v53_apply, val_main_v51_apply]
  have e1 := (congrArg (val_main_v37 (F := Ideal) x0)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show k.val = k.val by omega)
      | ⟨4, _⟩ => Fin.ext (show a.val = a.val by omega)
      : idx_main_v52 (ix5 n u v k a) = ix5 n u v k (⟨a.val, by omega⟩ : Fin 4))).trans (v37_lo x0 n u v k a)
  have e2 := (congrArg (val_main_v50 (F := Ideal) x1)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show a.val = a.val by omega)
      : idx_main_v51 (idx_main_v53 (idx_main_v54 (ix5 n u v k a))) = ix4 n u v (⟨a.val, by omega⟩ : Fin 4))).trans (v50_lo x1 n u v a)
  rw [e1, e2]
  rfl

/-- The intersection's high edge on axis a. -/
theorem v59_at (x0 x1 : Arr) (n : Fin 32768) (u v : Fin 7) (k a : Fin 2) :
    val_main_v59 (F := Ideal) x0 x1 (ix5 n u v k a) = rbC (cell x0 n u v) (cell x1 n u v) k (⟨a.val, by omega⟩ : Fin 5) (⟨2 + a.val, by omega⟩ : Fin 5) := by
  rw [val_main_v59_apply, val_main_v56_apply, val_main_v58_apply, val_main_v57_apply, val_main_v51_apply]
  have e1 := (congrArg (val_main_v37 (F := Ideal) x0)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show k.val = k.val by omega)
      | ⟨4, _⟩ => Fin.ext (show 2 + a.val = a.val + 2 by omega)
      : idx_main_v56 (ix5 n u v k a) = ix5 n u v k (⟨a.val + 2, by omega⟩ : Fin 4))).trans (v37_hi x0 n u v k a)
  have e2 := (congrArg (val_main_v50 (F := Ideal) x1)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show (2 + a.val) = a.val + 2 by omega)
      : idx_main_v51 (idx_main_v57 (idx_main_v58 (ix5 n u v k a))) = ix4 n u v (⟨a.val + 2, by omega⟩ : Fin 4))).trans (v50_hi x1 n u v a)
  rw [e1, e2]
  rfl

theorem v61_at (x0 x1 : Arr) (n : Fin 32768) (u v : Fin 7) (k : Fin 2) :
    val_main_v61 (F := Ideal) x0 x1 (ix4 n u v k) = ltC (cell x0 n u v) (cell x1 n u v) k 0 2 := by
  rw [val_main_v61_apply, val_main_v60_apply]
  exact (congrArg (val_main_v55 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 0 = 0 by omega)
      : idx_main_v60 (idx_main_v61 (ix4 n u v k)) = ix5 n u v k (0 : Fin 2))).trans (v55_at x0 x1 n u v k 0)

theorem v63_at (x0 x1 : Arr) (n : Fin 32768) (u v : Fin 7) (k : Fin 2) :
    val_main_v63 (F := Ideal) x0 x1 (ix4 n u v k) = rbC (cell x0 n u v) (cell x1 n u v) k 0 2 := by
  rw [val_main_v63_apply, val_main_v62_apply]
  exact (congrArg (val_main_v59 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 0 = 0 by omega)
      : idx_main_v62 (idx_main_v63 (ix4 n u v k)) = ix5 n u v k (0 : Fin 2))).trans (v59_at x0 x1 n u v k 0)

theorem v66_at (x0 x1 : Arr) (n : Fin 32768) (u v : Fin 7) (k : Fin 2) :
    val_main_v66 (F := Ideal) x0 x1 (ix4 n u v k) = ltC (cell x0 n u v) (cell x1 n u v) k 1 3 := by
  rw [val_main_v66_apply, val_main_v65_apply]
  exact (congrArg (val_main_v55 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 1 + 0 = 1 by omega)
      : idx_main_v65 (idx_main_v66 (ix4 n u v k)) = ix5 n u v k (1 : Fin 2))).trans (v55_at x0 x1 n u v k 1)

theorem v68_at (x0 x1 : Arr) (n : Fin 32768) (u v : Fin 7) (k : Fin 2) :
    val_main_v68 (F := Ideal) x0 x1 (ix4 n u v k) = rbC (cell x0 n u v) (cell x1 n u v) k 1 3 := by
  rw [val_main_v68_apply, val_main_v67_apply]
  exact (congrArg (val_main_v59 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 1 + 0 = 1 by omega)
      : idx_main_v67 (idx_main_v68 (ix4 n u v k)) = ix5 n u v k (1 : Fin 2))).trans (v59_at x0 x1 n u v k 1)

theorem v72_at (x0 x1 : Arr) (n : Fin 32768) (u v : Fin 7) (k : Fin 2) :
    val_main_v72 (F := Ideal) x0 x1 (ix4 n u v k) = rbC (cell x0 n u v) (cell x1 n u v) k 0 2 := by
  rw [val_main_v72_apply, val_main_v71_apply]
  exact (congrArg (val_main_v59 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 0 = 0 by omega)
      : idx_main_v71 (idx_main_v72 (ix4 n u v k)) = ix5 n u v k (0 : Fin 2))).trans (v59_at x0 x1 n u v k 0)

theorem v74_at (x0 x1 : Arr) (n : Fin 32768) (u v : Fin 7) (k : Fin 2) :
    val_main_v74 (F := Ideal) x0 x1 (ix4 n u v k) = ltC (cell x0 n u v) (cell x1 n u v) k 0 2 := by
  rw [val_main_v74_apply, val_main_v73_apply]
  exact (congrArg (val_main_v55 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 0 = 0 by omega)
      : idx_main_v73 (idx_main_v74 (ix4 n u v k)) = ix5 n u v k (0 : Fin 2))).trans (v55_at x0 x1 n u v k 0)

theorem v77_at (x0 x1 : Arr) (n : Fin 32768) (u v : Fin 7) (k : Fin 2) :
    val_main_v77 (F := Ideal) x0 x1 (ix4 n u v k) = rbC (cell x0 n u v) (cell x1 n u v) k 1 3 := by
  rw [val_main_v77_apply, val_main_v76_apply]
  exact (congrArg (val_main_v59 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 1 + 0 = 1 by omega)
      : idx_main_v76 (idx_main_v77 (ix4 n u v k)) = ix5 n u v k (1 : Fin 2))).trans (v59_at x0 x1 n u v k 1)

theorem v79_at (x0 x1 : Arr) (n : Fin 32768) (u v : Fin 7) (k : Fin 2) :
    val_main_v79 (F := Ideal) x0 x1 (ix4 n u v k) = ltC (cell x0 n u v) (cell x1 n u v) k 1 3 := by
  rw [val_main_v79_apply, val_main_v78_apply]
  exact (congrArg (val_main_v55 (F := Ideal) x0 x1)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 1 + 0 = 1 by omega)
      : idx_main_v78 (idx_main_v79 (ix4 n u v k)) = ix5 n u v k (1 : Fin 2))).trans (v55_at x0 x1 n u v k 1)

/-- Both extents of the intersection are positive. -/
theorem v70_at (x0 x1 : Arr) (n : Fin 32768) (u v : Fin 7) (k : Fin 2) :
    val_main_v70 (F := Ideal) x0 x1 (ix4 n u v k)
      = IntOp.andi (FloatOps.cmpf (F := Ideal) .olt (ltC (cell x0 n u v) (cell x1 n u v) k 0 2) (rbC (cell x0 n u v) (cell x1 n u v) k 0 2))
          (FloatOps.cmpf (F := Ideal) .olt (ltC (cell x0 n u v) (cell x1 n u v) k 1 3) (rbC (cell x0 n u v) (cell x1 n u v) k 1 3)) := by
  rw [val_main_v70_apply, val_main_v64_apply, val_main_v69_apply, v61_at, v63_at, v66_at, v68_at]

/-- The intersection's area. -/
theorem v81_at (x0 x1 : Arr) (n : Fin 32768) (u v : Fin 7) (k : Fin 2) :
    val_main_v81 (F := Ideal) x0 x1 (ix4 n u v k) = inter (cell x0 n u v) (cell x1 n u v) k := by
  rw [val_main_v81_apply, val_main_v75_apply, val_main_v80_apply, v72_at, v74_at, v77_at, v79_at]
  rfl

theorem v83_at (x0 : Arr) (n : Fin 32768) (u v : Fin 7) (k : Fin 2) :
    val_main_v83 (F := Ideal) x0 (ix4 n u v k) = hi ((cell x0 n u v) (ch k 0)) ((cell x0 n u v) (ch k 2)) := by
  rw [val_main_v83_apply, val_main_v82_apply]
  exact (congrArg (val_main_v37 (F := Ideal) x0)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 2 + 0 = 2 by omega)
      : idx_main_v82 (idx_main_v83 (ix4 n u v k)) = ix5 n u v k (⟨(0 : Fin 2).val + 2, by omega⟩ : Fin 4))).trans (v37_hi x0 n u v k 0)

theorem v85_at (x0 : Arr) (n : Fin 32768) (u v : Fin 7) (k : Fin 2) :
    val_main_v85 (F := Ideal) x0 (ix4 n u v k) = lo ((cell x0 n u v) (ch k 0)) ((cell x0 n u v) (ch k 2)) := by
  rw [val_main_v85_apply, val_main_v84_apply]
  exact (congrArg (val_main_v37 (F := Ideal) x0)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 0 = 0 by omega)
      : idx_main_v84 (idx_main_v85 (ix4 n u v k)) = ix5 n u v k (⟨(0 : Fin 2).val, by omega⟩ : Fin 4))).trans (v37_lo x0 n u v k 0)

theorem v88_at (x0 : Arr) (n : Fin 32768) (u v : Fin 7) (k : Fin 2) :
    val_main_v88 (F := Ideal) x0 (ix4 n u v k) = hi ((cell x0 n u v) (ch k 1)) ((cell x0 n u v) (ch k 3)) := by
  rw [val_main_v88_apply, val_main_v87_apply]
  exact (congrArg (val_main_v37 (F := Ideal) x0)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 3 + 0 = 3 by omega)
      : idx_main_v87 (idx_main_v88 (ix4 n u v k)) = ix5 n u v k (⟨(1 : Fin 2).val + 2, by omega⟩ : Fin 4))).trans (v37_hi x0 n u v k 1)

theorem v90_at (x0 : Arr) (n : Fin 32768) (u v : Fin 7) (k : Fin 2) :
    val_main_v90 (F := Ideal) x0 (ix4 n u v k) = lo ((cell x0 n u v) (ch k 1)) ((cell x0 n u v) (ch k 3)) := by
  rw [val_main_v90_apply, val_main_v89_apply]
  exact (congrArg (val_main_v37 (F := Ideal) x0)
    (funext fun d => match d with
      | ⟨0, _⟩ => Fin.ext (show ((((n.val * 7 + u.val) * 7 + v.val) * 2 + k.val) / 98) = n.val by omega)
      | ⟨1, _⟩ => Fin.ext (show ((((n.val * 7 + u.val) * 7 + v.val) * 2 + k.val) / 14 % 7) = u.val by omega)
      | ⟨2, _⟩ => Fin.ext (show ((((n.val * 7 + u.val) * 7 + v.val) * 2 + k.val) / 2 % 7) = v.val by omega)
      | ⟨3, _⟩ => Fin.ext (show ((((n.val * 7 + u.val) * 7 + v.val) * 2 + k.val) / 1 % 2) = k.val by omega)
      | ⟨4, _⟩ => Fin.ext (show 1 + 0 = 1 by omega)
      : idx_main_v89 (idx_main_v90 (ix4 n u v k)) = ix5 n u v k (⟨(1 : Fin 2).val, by omega⟩ : Fin 4))).trans (v37_lo x0 n u v k 1)

/-- The predicted box's area. -/
theorem v92_at (x0 : Arr) (n : Fin 32768) (u v : Fin 7) (k : Fin 2) :
    val_main_v92 (F := Ideal) x0 (ix4 n u v k) = area (cell x0 n u v) k := by
  rw [val_main_v92_apply, val_main_v86_apply, val_main_v91_apply, v83_at, v85_at, v88_at, v90_at]
  rfl

theorem v94_at (x1 : Arr) (n : Fin 32768) (u v : Fin 7) (z : Fin 1) :
    val_main_v94 (F := Ideal) x1 (ix4 n u v z) = hi ((cell x1 n u v) (ch 0 0)) ((cell x1 n u v) (ch 0 2)) := by
  rw [val_main_v94_apply, val_main_v93_apply, val_main_v51_apply]
  exact (congrArg (val_main_v50 (F := Ideal) x1)
    (funext fun d => match d with
      | ⟨0, _⟩ => Fin.ext (show (((((n.val * 7 + u.val) * 7 + v.val) * 1 + z.val) / 49)) = n.val by omega)
      | ⟨1, _⟩ => Fin.ext (show (((((n.val * 7 + u.val) * 7 + v.val) * 1 + z.val) / 7 % 7)) = u.val by omega)
      | ⟨2, _⟩ => Fin.ext (show (((((n.val * 7 + u.val) * 7 + v.val) * 1 + z.val) / 1 % 7)) = v.val by omega)
      | ⟨3, _⟩ => Fin.ext (show (2 + 0) = 2 by omega)
      : idx_main_v51 (idx_main_v93 (idx_main_v94 (ix4 n u v z))) = ix4 n u v (⟨(0 : Fin 2).val + 2, by omega⟩ : Fin 4))).trans (v50_hi x1 n u v 0)

theorem v96_at (x1 : Arr) (n : Fin 32768) (u v : Fin 7) (z : Fin 1) :
    val_main_v96 (F := Ideal) x1 (ix4 n u v z) = lo ((cell x1 n u v) (ch 0 0)) ((cell x1 n u v) (ch 0 2)) := by
  rw [val_main_v96_apply, val_main_v95_apply, val_main_v51_apply]
  exact (congrArg (val_main_v50 (F := Ideal) x1)
    (funext fun d => match d with
      | ⟨0, _⟩ => Fin.ext (show (((((n.val * 7 + u.val) * 7 + v.val) * 1 + z.val) / 49)) = n.val by omega)
      | ⟨1, _⟩ => Fin.ext (show (((((n.val * 7 + u.val) * 7 + v.val) * 1 + z.val) / 7 % 7)) = u.val by omega)
      | ⟨2, _⟩ => Fin.ext (show (((((n.val * 7 + u.val) * 7 + v.val) * 1 + z.val) / 1 % 7)) = v.val by omega)
      | ⟨3, _⟩ => Fin.ext (show 0 = 0 by omega)
      : idx_main_v51 (idx_main_v95 (idx_main_v96 (ix4 n u v z))) = ix4 n u v (⟨(0 : Fin 2).val, by omega⟩ : Fin 4))).trans (v50_lo x1 n u v 0)

theorem v99_at (x1 : Arr) (n : Fin 32768) (u v : Fin 7) (z : Fin 1) :
    val_main_v99 (F := Ideal) x1 (ix4 n u v z) = hi ((cell x1 n u v) (ch 0 1)) ((cell x1 n u v) (ch 0 3)) := by
  rw [val_main_v99_apply, val_main_v98_apply, val_main_v51_apply]
  exact (congrArg (val_main_v50 (F := Ideal) x1)
    (funext fun d => match d with
      | ⟨0, _⟩ => Fin.ext (show (((((n.val * 7 + u.val) * 7 + v.val) * 1 + z.val) / 49)) = n.val by omega)
      | ⟨1, _⟩ => Fin.ext (show (((((n.val * 7 + u.val) * 7 + v.val) * 1 + z.val) / 7 % 7)) = u.val by omega)
      | ⟨2, _⟩ => Fin.ext (show (((((n.val * 7 + u.val) * 7 + v.val) * 1 + z.val) / 1 % 7)) = v.val by omega)
      | ⟨3, _⟩ => Fin.ext (show (3 + 0) = 3 by omega)
      : idx_main_v51 (idx_main_v98 (idx_main_v99 (ix4 n u v z))) = ix4 n u v (⟨(1 : Fin 2).val + 2, by omega⟩ : Fin 4))).trans (v50_hi x1 n u v 1)

theorem v101_at (x1 : Arr) (n : Fin 32768) (u v : Fin 7) (z : Fin 1) :
    val_main_v101 (F := Ideal) x1 (ix4 n u v z) = lo ((cell x1 n u v) (ch 0 1)) ((cell x1 n u v) (ch 0 3)) := by
  rw [val_main_v101_apply, val_main_v100_apply, val_main_v51_apply]
  exact (congrArg (val_main_v50 (F := Ideal) x1)
    (funext fun d => match d with
      | ⟨0, _⟩ => Fin.ext (show (((((n.val * 7 + u.val) * 7 + v.val) * 1 + z.val) / 49)) = n.val by omega)
      | ⟨1, _⟩ => Fin.ext (show (((((n.val * 7 + u.val) * 7 + v.val) * 1 + z.val) / 7 % 7)) = u.val by omega)
      | ⟨2, _⟩ => Fin.ext (show (((((n.val * 7 + u.val) * 7 + v.val) * 1 + z.val) / 1 % 7)) = v.val by omega)
      | ⟨3, _⟩ => Fin.ext (show (1 + 0) = 1 by omega)
      : idx_main_v51 (idx_main_v100 (idx_main_v101 (ix4 n u v z))) = ix4 n u v (⟨(1 : Fin 2).val, by omega⟩ : Fin 4))).trans (v50_lo x1 n u v 1)

/-- The first target box's area, on the unit box axis and broadcast to both boxes. -/
theorem v103_at (x1 : Arr) (n : Fin 32768) (u v : Fin 7) (z : Fin 1) :
    val_main_v103 (F := Ideal) x1 (ix4 n u v z) = area (cell x1 n u v) 0 := by
  rw [val_main_v103_apply, val_main_v97_apply, val_main_v102_apply, v94_at, v96_at, v99_at, v101_at]
  rfl

theorem v104_at (x1 : Arr) (n : Fin 32768) (u v : Fin 7) (k : Fin 2) :
    val_main_v104 (F := Ideal) x1 (ix4 n u v k) = area (cell x1 n u v) 0 := by
  rw [val_main_v104_apply]
  exact (congrArg (val_main_v103 (F := Ideal) x1)
    (funext fun d => match d with
      | ⟨0, _⟩ => Fin.ext (show n.val = n.val by omega)
      | ⟨1, _⟩ => Fin.ext (show u.val = u.val by omega)
      | ⟨2, _⟩ => Fin.ext (show v.val = v.val by omega)
      | ⟨3, _⟩ => Fin.ext (show 0 = 0 by omega)
      : idx_main_v104 (ix4 n u v k) = ix4 n u v (0 : Fin 1))).trans (v103_at x1 n u v 0)

end Cert.ReferenceIdeal.RefValue.Iou

namespace Cert.ReferenceIdeal.RefValue

open Cert.ReferenceIdeal Cert.ReferenceIdeal.Read Cert.BoxLoss Idealize.ShloMosaic Idealize.ShloMosaic.ValueIdx
open Cert.ReferenceIdeal.RefValue.Iou

/-- THE OVERLAP RATIO of predicted box k with the first target box. -/
theorem v108_at (x0 x1 : (⟨S32768x7x7x11, .f32⟩ : BufTy).Contents (Elt Ideal)) (n : Fin 32768) (u v : Fin 7) (k : Fin 2) :
    val_main_v108 (F := Ideal) x0 x1 (ix4 n u v k) = iou (cell x0 n u v) (cell x1 n u v) k := by
  rw [val_main_v108_apply, val_main_v107_apply, val_main_v106_apply, val_main_v105_apply, val_main_call1_v1_apply,
    val_main_call1_v0_apply, val_main_cst_10_apply, v70_at, v81_at, v92_at, v104_at]
  rfl

end Cert.ReferenceIdeal.RefValue

end
-- ==== Proof.RefMasks.lean ====
/-
  The reference's masks and its larger overlap ratio, read at a grid position.

  At image `n`, grid position `(u, v)`, with `P` the predicted cell and `T` the target cell there: the comparison
  of the target confidence with 0 is "the cell holds an object"; the two overlap ratios are cut out of the array of
  ratios and compared ("box 0 wins"); the bit and its complement are joined along a new box axis, which is the
  responsible-box bit of box `k` (the first piece at k = 0, the second at k = 1); the maximum of the ratios over
  the box axis, taken from −∞, is the larger ratio; and the two products "object and responsible", "object and
  not responsible" are the masks of the per-box terms.
-/
import proofs.«158835_j66340064854039_2_alg».proof.Proof.RefIou

noncomputable section

open scoped BigOperators

namespace Cert.ReferenceIdeal.RefValue

open Cert.ReferenceIdeal Cert.ReferenceIdeal.Gen Cert.ReferenceIdeal.Read Cert.BoxLoss Idealize.ShloMosaic Idealize.ShloMosaic.ValueIdx

open Iou

namespace Masks

/-- A fold of a commutative associative operation over the two-element index set. -/
theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = {0, 1} from by decide, Finset.fold_insert (by decide),
    Finset.fold_singleton]

/-- The word of −∞ denotes the least extended real. -/
theorem ofBits_neg_inf : Ideal.ofBits .f32 0xFF800000#32 = ⊥ := by simp [Ideal.ofBits, Ideal.ieee]

/-- The word of +0 denotes 0. -/
theorem ofBits_zero : Ideal.ofBits .f32 0x00000000#32 = 0 := by simp [Ideal.ofBits, Ideal.ieee]

/-- The index over `(n, u, v)` with box coordinate `k` inserted on the last axis. -/
theorem lift_box (h : S32768x7x7x2.Reduces [3] S32768x7x7) (n : Fin 32768) (u v : Fin 7) (k : Fin 2) :
    h.lift (ix3 n u v) k = ix4 n u v k := by
  funext a
  match a with
  | ⟨0, _⟩ => rfl
  | ⟨1, _⟩ => rfl
  | ⟨2, _⟩ => rfl
  | ⟨3, _⟩ => rfl

/-- "The cell holds an object". -/
theorem v3_at (x1 : Arr) (n : Fin 32768) (u v : Fin 7) :
    val_main_v3 (F := Ideal) x1 (ix3 n u v) = coo (cell x1 n u v) := by
  rw [val_main_v3_apply, v1_at, val_main_v2_apply, val_main_cst_apply]
  rfl

/-- The overlap ratio of box 0. -/
theorem v110_at (x0 x1 : Arr) (n : Fin 32768) (u v : Fin 7) :
    val_main_v110 (F := Ideal) x0 x1 (ix3 n u v) = iou (cell x0 n u v) (cell x1 n u v) 0 := by
  rw [val_main_v110_apply, val_main_v109_apply]
  exact (congrArg (val_main_v108 (F := Ideal) x0 x1) (funext fun a => match a with
      | ⟨0, _⟩ => Fin.ext (show ((n.val * 7 + u.val) * 7 + v.val) / 49 = n.val by omega)
      | ⟨1, _⟩ => Fin.ext (show ((n.val * 7 + u.val) * 7 + v.val) / 7 % 7 = u.val by omega)
      | ⟨2, _⟩ => Fin.ext (show ((n.val * 7 + u.val) * 7 + v.val) / 1 % 7 = v.val by omega)
      | ⟨3, _⟩ => rfl
      : idx_main_v109 (idx_main_v110 (ix3 n u v)) = ix4 n u v 0)).trans (v108_at x0 x1 n u v 0)

/-- The overlap ratio of box 1. -/
theorem v112_at (x0 x1 : Arr) (n : Fin 32768) (u v : Fin 7) :
    val_main_v112 (F := Ideal) x0 x1 (ix3 n u v) = iou (cell x0 n u v) (cell x1 n u v) 1 := by
  rw [val_main_v112_apply, val_main_v111_apply]
  exact (congrArg (val_main_v108 (F := Ideal) x0 x1) (funext fun a => match a with
      | ⟨0, _⟩ => Fin.ext (show ((n.val * 7 + u.val) * 7 + v.val) / 49 = n.val by omega)
      | ⟨1, _⟩ => Fin.ext (show ((n.val * 7 + u.val) * 7 + v.val) / 7 % 7 = u.val by omega)
      | ⟨2, _⟩ => Fin.ext (show ((n.val * 7 + u.val) * 7 + v.val) / 1 % 7 = v.val by omega)
      | ⟨3, _⟩ => rfl
      : idx_main_v111 (idx_main_v112 (ix3 n u v)) = ix4 n u v 1)).trans (v108_at x0 x1 n u v 1)

/-- "Box 0 wins". -/
theorem v113_at (x0 x1 : Arr) (n : Fin 32768) (u v : Fin 7) :
    val_main_v113 (F := Ideal) x0 x1 (ix3 n u v) = wins (cell x0 n u v) (cell x1 n u v) := by
  rw [val_main_v113_apply, v110_at, v112_at]
  rfl

/-- The responsible-box bit: the two pieces joined along the box axis. -/
theorem v117_at (x0 x1 : Arr) (n : Fin 32768) (u v : Fin 7) (k : Fin 2) :
    val_main_v117 (F := Ideal) x0 x1 (ix4 n u v k) = resp (cell x0 n u v) (cell x1 n u v) k := by
  unfold val_main_v117 resp
  by_cases hk : k.val < 1
  · rw [if_pos hk]
    refine (concatenate_pair_apply_left (3 : Fin 4) (val_main_v115 (F := Ideal) x0 x1) (val_main_v116 (F := Ideal) x0 x1)
      concatenates_S32768x7x7x1_S32768x7x7x1_S32768x7x7x2_d3 (ix4 n u v k) rfl (ix4 n u v 0) fun b => ?_).trans ?_
    · match b with
      | ⟨0, _⟩ => rfl
      | ⟨1, _⟩ => rfl
      | ⟨2, _⟩ => rfl
      | ⟨3, _⟩ => show 0 = k.val; omega
    · rw [val_main_v115_apply]
      exact (congrArg (val_main_v113 (F := Ideal) x0 x1) (funext fun a => match a with
      | ⟨0, _⟩ => rfl
      | ⟨1, _⟩ => rfl
      | ⟨2, _⟩ => rfl
      : idx_main_v115 (ix4 n u v 0) = ix3 n u v)).trans
        (v113_at x0 x1 n u v)
  · rw [if_neg hk]
    refine (concatenate_pair_apply_right (3 : Fin 4) (val_main_v115 (F := Ideal) x0 x1) (val_main_v116 (F := Ideal) x0 x1)
      concatenates_S32768x7x7x1_S32768x7x7x1_S32768x7x7x2_d3 (ix4 n u v k) rfl rfl (ix4 n u v 0) (fun b hb => ?_) ?_).trans ?_
    · match b, hb with
      | ⟨0, _⟩, _ => rfl
      | ⟨1, _⟩, _ => rfl
      | ⟨2, _⟩, _ => rfl
      | ⟨3, _⟩, hb => exact absurd rfl hb
    · show 0 + 1 = k.val
      have := k.isLt
      omega
    · rw [val_main_v116_apply, val_main_v114_apply]
      exact congrArg (~~~ ·) ((congrArg (val_main_v113 (F := Ideal) x0 x1)
        (funext fun a => match a with
      | ⟨0, _⟩ => rfl
      | ⟨1, _⟩ => rfl
      | ⟨2, _⟩ => rfl
      : idx_main_v116 (ix4 n u v 0) = ix3 n u v)).trans (v113_at x0 x1 n u v))

/-- The larger overlap ratio: the maximum over the box axis, from −∞. -/
theorem v118_at (x0 x1 : Arr) (n : Fin 32768) (u v : Fin 7) :
    val_main_v118 (F := Ideal) x0 x1 (ix3 n u v) = best (cell x0 n u v) (cell x1 n u v) := by
  have hR : S32768x7x7x2.Reduces [3] S32768x7x7 := by decide
  unfold val_main_v118
  have h1 := Host.reduce_eq_fold_single (s := S32768x7x7x2) (t := S32768x7x7) (a := (3 : Fin 4)) (u := S_)
    (FloatOps.maximumf (F := Ideal) (φ := .f32)) (val_main_v108 (F := Ideal) x0 x1) (val_main_cst_11 (F := Ideal))
    reducesTo_S32768x7x7x2_S32768x7x7_d3 hR h_S_ (ix3 n u v)
  refine h1.trans ?_
  refine (fold_fin2 (FloatOps.maximumf (F := Ideal) (φ := .f32)) _ _).trans ?_
  show max (val_main_v108 (F := Ideal) x0 x1 (hR.lift (ix3 n u v) (0 : Fin 2)))
      (max (val_main_v108 (F := Ideal) x0 x1 (hR.lift (ix3 n u v) (1 : Fin 2))) (Ideal.ofBits .f32 0xFF800000#32)) = _
  rw [lift_box, lift_box, v108_at, v108_at, ofBits_neg_inf, max_bot_right]
  rfl

/-- "Object cell", spread over the box axis. -/
theorem v120_at (x1 : Arr) (n : Fin 32768) (u v : Fin 7) (k : Fin 2) :
    val_main_v120 (F := Ideal) x1 (ix4 n u v k) = coo (cell x1 n u v) := by
  rw [val_main_v120_apply, val_main_v119_apply]
  exact (congrArg (val_main_v3 (F := Ideal) x1) (funext fun a => match a with
      | ⟨0, _⟩ => rfl
      | ⟨1, _⟩ => rfl
      | ⟨2, _⟩ => rfl
      : idx_main_v119 (idx_main_v120 (ix4 n u v k)) = ix3 n u v)).trans
    (v3_at x1 n u v)

/-- The same, as the reference forms it a second time. -/
theorem v124_at (x1 : Arr) (n : Fin 32768) (u v : Fin 7) (k : Fin 2) :
    val_main_v124 (F := Ideal) x1 (ix4 n u v k) = coo (cell x1 n u v) := by
  rw [val_main_v124_apply, val_main_v122_apply]
  exact (congrArg (val_main_v3 (F := Ideal) x1) (funext fun a => match a with
      | ⟨0, _⟩ => rfl
      | ⟨1, _⟩ => rfl
      | ⟨2, _⟩ => rfl
      : idx_main_v122 (idx_main_v124 (ix4 n u v k)) = ix3 n u v)).trans
    (v3_at x1 n u v)

/-- "Object cell and box `k` responsible". -/
theorem v121_at (x0 x1 : Arr) (n : Fin 32768) (u v : Fin 7) (k : Fin 2) :
    val_main_v121 (F := Ideal) x0 x1 (ix4 n u v k)
      = IntOp.andi (coo (cell x1 n u v)) (resp (cell x0 n u v) (cell x1 n u v) k) := by
  rw [val_main_v121_apply, v120_at, v117_at]

/-- "Object cell and box `k` not responsible". -/
theorem v125_at (x0 x1 : Arr) (n : Fin 32768) (u v : Fin 7) (k : Fin 2) :
    val_main_v125 (F := Ideal) x0 x1 (ix4 n u v k)
      = IntOp.andi (coo (cell x1 n u v)) (~~~(resp (cell x0 n u v) (cell x1 n u v) k)) := by
  rw [val_main_v125_apply, v124_at, val_main_v123_apply, v117_at]

/-- The larger ratio, spread over the box axis. -/
theorem v129_at (x0 x1 : Arr) (n : Fin 32768) (u v : Fin 7) (k : Fin 2) :
    val_main_v129 (F := Ideal) x0 x1 (ix4 n u v k) = best (cell x0 n u v) (cell x1 n u v) := by
  rw [val_main_v129_apply, val_main_v128_apply]
  exact (congrArg (val_main_v118 (F := Ideal) x0 x1) (funext fun a => match a with
      | ⟨0, _⟩ => rfl
      | ⟨1, _⟩ => rfl
      | ⟨2, _⟩ => rfl
      : idx_main_v128 (idx_main_v129 (ix4 n u v k)) = ix3 n u v)).trans
    (v118_at x0 x1 n u v)

end Masks

end Cert.ReferenceIdeal.RefValue

end
-- ==== Proof.RefTerms.lean ====
/-
  The reference's per-box terms, read at a grid position.

  At image `n`, grid position `(u, v)`, with `P` the predicted cell and `T` the target cell there.  The confidence
  of box `k` is field 4 of the (box, field) view of the first ten channels, channel 5·k + 4.  Each "where" keeps
  its term on its mask and the constant 0 elsewhere: the squared distance of the confidence from the larger ratio on
  "object and responsible" (contain), the squared confidence on "object and not responsible" (not-contain), the
  localisation error on "object and responsible" (localise).
-/
import proofs.«158835_j66340064854039_2_alg».proof.Proof.RefMasks
import proofs.«158835_j66340064854039_2_alg».proof.Proof.RefLoc

noncomputable section

open scoped BigOperators

namespace Cert.ReferenceIdeal.RefValue

open Cert.ReferenceIdeal Cert.ReferenceIdeal.Gen Cert.ReferenceIdeal.Read Cert.BoxLoss Idealize.ShloMosaic Idealize.ShloMosaic.ValueIdx

open Iou Masks

namespace Masks

/-- The confidence of box `k`. -/
theorem v127_at (x0 : Arr) (n : Fin 32768) (u v : Fin 7) (k : Fin 2) :
    val_main_v127 (F := Ideal) x0 (ix4 n u v k) = cell x0 n u v (ch k 4) := by
  rw [val_main_v127_apply, val_main_v126_apply]
  exact (congrArg (val_main_v21 (F := Ideal) x0) (funext fun a => match a with
      | ⟨0, _⟩ => Fin.ext (show (((n.val * 7 + u.val) * 7 + v.val) * 2 + k.val) / 98 = n.val by omega)
      | ⟨1, _⟩ => Fin.ext (show (((n.val * 7 + u.val) * 7 + v.val) * 2 + k.val) / 14 % 7 = u.val by omega)
      | ⟨2, _⟩ => Fin.ext (show (((n.val * 7 + u.val) * 7 + v.val) * 2 + k.val) / 2 % 7 = v.val by omega)
      | ⟨3, _⟩ => Fin.ext (show (((n.val * 7 + u.val) * 7 + v.val) * 2 + k.val) / 1 % 2 = k.val by omega)
      | ⟨4, _⟩ => rfl
      : idx_main_v126 (idx_main_v127 (ix4 n u v k)) = ix5 n u v k 4)).trans (v21_at x0 n u v k 4)

end Masks

/-- The contain term. -/
theorem v132_at (x0 x1 : Arr) (n : Fin 32768) (u v : Fin 7) (k : Fin 2) :
    val_main_v132 (F := Ideal) x0 x1 (ix4 n u v k) = contT (cell x0 n u v) (cell x1 n u v) k := by
  rw [val_main_v132_apply, v121_at, val_main_v131_apply, val_main_v130_apply, v127_at, v129_at,
    val_main_call2_v1_apply, val_main_call2_v0_apply, val_main_cst_12_apply]
  rfl

/-- The not-contain term. -/
theorem v135_at (x0 x1 : Arr) (n : Fin 32768) (u v : Fin 7) (k : Fin 2) :
    val_main_v135 (F := Ideal) x0 x1 (ix4 n u v k) = notcT (cell x0 n u v) (cell x1 n u v) k := by
  rw [val_main_v135_apply, v125_at, val_main_v134_apply, v127_at, val_main_call3_v1_apply,
    val_main_call3_v0_apply, val_main_cst_14_apply]
  rfl

/-- The localisation term. -/
theorem v150_at (x0 x1 : Arr) (n : Fin 32768) (u v : Fin 7) (k : Fin 2) :
    val_main_v150 (F := Ideal) x0 x1 (ix4 n u v k) = locT (cell x0 n u v) (cell x1 n u v) k := by
  rw [val_main_v150_apply, v121_at, v149_at, val_main_call4_v1_apply, val_main_call4_v0_apply,
    val_main_cst_18_apply]
  rfl

end Cert.ReferenceIdeal.RefValue

end
-- ==== Proof.RefTotal.lean ====
/-
  The reference program's result is the loss of the specification.

  The reference computes five arrays of per-cell terms (no-object, contain, not-contain, localise, class), adds up
  each of them over the whole array starting from `0`, and combines the five sums as
  `(5 · Σ localise + Σ contain + ½ · Σ not-contain + ½ · Σ no-object + Σ class) / 32768`.  Given that each term array,
  read at a cell (and a box), is the specification's term of the predicted and the target cell there, every sum is
  the specification's whole-array sum — the initial value `0` drops out, and the summands agree index by index,
  every index being the tuple of its coordinates — and the closing scalar operations are, one for one, the
  operations of the specification's formula.
-/
import proofs.«158835_j66340064854039_2_alg».proof.Proof.RefRead
import proofs.«158835_j66340064854039_2_alg».proof.Proof.Spec
import proofs.«158835_j66340064854039_2_alg».proof.Proof.RefLoc
import proofs.«158835_j66340064854039_2_alg».proof.Proof.RefTerms

noncomputable section

open scoped BigOperators

namespace Cert.ReferenceIdeal.RefValue

open Cert.ReferenceIdeal Cert.ReferenceIdeal.Read Cert.BoxLoss Idealize.ShloMosaic Idealize.ShloMosaic.ValueIdx

/-- THE REFERENCE'S RESULT IS THE LOSS, given its five per-cell term arrays: each of the reference's five sums starts
    from the word that denotes `0` and adds every element of its term array, so it is the whole-array sum of that
    term over the cells (and boxes); the closing scalar operations then form
    `(5 · Σ localise + Σ contain + ½ · Σ not-contain + ½ · Σ no-object + Σ class) / 32768` in exactly that order. -/
theorem ref_eq_of (x0 x1 : (⟨S32768x7x7x11, .f32⟩ : BufTy).Contents (Elt Ideal))
    (h18 : ∀ (n : Fin 32768) (u v : Fin 7),
      val_main_v18 (F := Ideal) x0 x1 (ix3 n u v) = nooT (cell x0 n u v) (cell x1 n u v))
    (h132 : ∀ (n : Fin 32768) (u v : Fin 7) (k : Fin 2),
      val_main_v132 (F := Ideal) x0 x1 (ix4 n u v k) = contT (cell x0 n u v) (cell x1 n u v) k)
    (h135 : ∀ (n : Fin 32768) (u v : Fin 7) (k : Fin 2),
      val_main_v135 (F := Ideal) x0 x1 (ix4 n u v k) = notcT (cell x0 n u v) (cell x1 n u v) k)
    (h150 : ∀ (n : Fin 32768) (u v : Fin 7) (k : Fin 2),
      val_main_v150 (F := Ideal) x0 x1 (ix4 n u v k) = locT (cell x0 n u v) (cell x1 n u v) k)
    (h155 : ∀ (n : Fin 32768) (u v : Fin 7) (e : Fin 1),
      val_main_v155 (F := Ideal) x0 x1 (ix4 n u v e) = clsT (cell x0 n u v) (cell x1 n u v)) :
    val_main_v164 (F := Ideal) x0 x1 = fun _ => total x0 x1 := by
  funext i
  have s19 : val_main_v19 (F := Ideal) x0 x1 i
      = ∑ j : SCell.Idx, nooT (cell x0 (j 0) (j 1) (j 2)) (cell x1 (j 0) (j 1) (j 2)) := by
    rw [val_main_v19_apply, val_main_cst_1_apply, Ideal.ofBits_def, Ideal.ofBits_zero_f32, zero_add]
    exact Finset.sum_congr rfl (fun j _ =>
      (congrArg (val_main_v18 (F := Ideal) x0 x1) (eq_ix3 j)).trans (h18 (j 0) (j 1) (j 2)))
  have s133 : val_main_v133 (F := Ideal) x0 x1 i
      = ∑ j : SBox.Idx, contT (cell x0 (j 0) (j 1) (j 2)) (cell x1 (j 0) (j 1) (j 2)) (j 3) := by
    rw [val_main_v133_apply, val_main_cst_13_apply, Ideal.ofBits_def, Ideal.ofBits_zero_f32, zero_add]
    exact Finset.sum_congr rfl (fun j _ =>
      (congrArg (val_main_v132 (F := Ideal) x0 x1) (eq_ix4 j)).trans (h132 (j 0) (j 1) (j 2) (j 3)))
  have s136 : val_main_v136 (F := Ideal) x0 x1 i
      = ∑ j : SBox.Idx, notcT (cell x0 (j 0) (j 1) (j 2)) (cell x1 (j 0) (j 1) (j 2)) (j 3) := by
    rw [val_main_v136_apply, val_main_cst_15_apply, Ideal.ofBits_def, Ideal.ofBits_zero_f32, zero_add]
    exact Finset.sum_congr rfl (fun j _ =>
      (congrArg (val_main_v135 (F := Ideal) x0 x1) (eq_ix4 j)).trans (h135 (j 0) (j 1) (j 2) (j 3)))
  have s151 : val_main_v151 (F := Ideal) x0 x1 i
      = ∑ j : SBox.Idx, locT (cell x0 (j 0) (j 1) (j 2)) (cell x1 (j 0) (j 1) (j 2)) (j 3) := by
    rw [val_main_v151_apply, val_main_cst_19_apply, Ideal.ofBits_def, Ideal.ofBits_zero_f32, zero_add]
    exact Finset.sum_congr rfl (fun j _ =>
      (congrArg (val_main_v150 (F := Ideal) x0 x1) (eq_ix4 j)).trans (h150 (j 0) (j 1) (j 2) (j 3)))
  have s156 : val_main_v156 (F := Ideal) x0 x1 i
      = ∑ j : SCell1.Idx, clsT (cell x0 (j 0) (j 1) (j 2)) (cell x1 (j 0) (j 1) (j 2)) := by
    rw [val_main_v156_apply, val_main_cst_20_apply, Ideal.ofBits_def, Ideal.ofBits_zero_f32, zero_add]
    exact Finset.sum_congr rfl (fun j _ =>
      (congrArg (val_main_v155 (F := Ideal) x0 x1) (eq_ix4 j)).trans (h155 (j 0) (j 1) (j 2) (j 3)))
  show Ideal.div
      (((((c5 * val_main_v151 (F := Ideal) x0 x1 i) + val_main_v133 (F := Ideal) x0 x1 i)
        + cHalf * val_main_v136 (F := Ideal) x0 x1 i) + cHalf * val_main_v19 (F := Ideal) x0 x1 i)
        + val_main_v156 (F := Ideal) x0 x1 i) cN = total x0 x1
  rw [s19, s133, s136, s151, s156]
  rfl

/-- THE REFERENCE'S RESULT IS THE LOSS: the five per-cell term arrays are the specification's terms. -/
theorem ref_eq (x0 x1 : (⟨S32768x7x7x11, .f32⟩ : BufTy).Contents (Elt Ideal)) :
    val_main_v164 (F := Ideal) x0 x1 = fun _ => total x0 x1 :=
  ref_eq_of x0 x1 (v18_at x0 x1) (v132_at x0 x1) (v135_at x0 x1) (v150_at x0 x1) (v155_at x0 x1)

end Cert.ReferenceIdeal.RefValue

end
-- ==== Proof.lean ====
/-
  The certificate: a detection loss (localisation, confidence and class terms over 32768 · 7 · 7 grid cells of two
  boxes each) computed by a tiled kernel equals, as extended reals, the same loss computed by whole-array sums.

  Both programs compute, per cell, the same five terms (Spec.lean).  The reference sums each term over the whole
  array, weights the five sums by 5, 1, ½, ½, 1 and divides by 32768 (`total`).  The kernel walks the flattened
  cells in 392 blocks of 4096, weights each block's five sums at once, accumulates the blocks of each half of the
  array in a one-element buffer and lets the host add the two halves and divide (`totalBlocks`).  The two agree
  because sums over the extended reals may be regrouped freely and a nonnegative REAL factor (5, ½) distributes over
  any sum of extended reals — the only law used; no finiteness of the terms is needed, so the precondition is never
  opened (a square root of a negative size reads as −∞ here and the corresponding square as +∞, on both sides alike).
    frames        — generated, for the two kernel programs; the reference's is its run (RefRunA … RefRunFin: the 201 host
                    operations taken one at a time, each buffer still to be read named by its stage) with the result dropped;
    preserves     — the idealization rewrote nothing;
    algebraic     — the kernel's run ends at `totalBlocks` (Acc.lean over Pieces, Body, BodyAt, BlockRead),
                    the reference's at `total` (RefTotal.lean), and `total = totalBlocks` (Blocks.lean).
-/
import proofs.«158835_j66340064854039_2_alg».proof.Defs
import proofs.«158835_j66340064854039_2_alg».proof.Proof.Gen.Kernel
import proofs.«158835_j66340064854039_2_alg».proof.Proof.Gen.Kernel.Skeleton
import proofs.«158835_j66340064854039_2_alg».proof.Proof.Gen.Kernel.Launch
import proofs.«158835_j66340064854039_2_alg».proof.Proof.Gen.Kernel.Points
import proofs.«158835_j66340064854039_2_alg».proof.Proof.Gen.Kernel.Frame
import proofs.«158835_j66340064854039_2_alg».proof.Proof.Gen.KernelIdeal
import proofs.«158835_j66340064854039_2_alg».proof.Proof.Gen.KernelIdeal.Skeleton
import proofs.«158835_j66340064854039_2_alg».proof.Proof.Gen.KernelIdeal.Launch
import proofs.«158835_j66340064854039_2_alg».proof.Proof.Gen.KernelIdeal.Points
import proofs.«158835_j66340064854039_2_alg».proof.Proof.Gen.KernelIdeal.Frame
import proofs.«158835_j66340064854039_2_alg».proof.Proof.Gen.ReferenceIdeal
import proofs.«158835_j66340064854039_2_alg».proof.Proof.Gen.Pre_finite_inputs
import proofs.«158835_j66340064854039_2_alg».proof.Proof.Spec
import proofs.«158835_j66340064854039_2_alg».proof.Proof.Blocks
import proofs.«158835_j66340064854039_2_alg».proof.Proof.Acc
import proofs.«158835_j66340064854039_2_alg».proof.Proof.RefRunFin
import proofs.«158835_j66340064854039_2_alg».proof.Proof.RefTotal
import Idealize.ShloMosaic.Adequacy
import Idealize.ShloMosaic.Init

noncomputable section

namespace Cert.Proof

open Idealize.ShloMosaic Idealize.SL.Sem

/-- The kernel's frame at the word level: generated. -/
theorem frame_k : Cert.frame_Kernel (hKernel := Cert.Kernel.Gen.facts) (hPre_finite_inputs := Cert.Pre_finite_inputs.Gen.facts) :=
  fun m ρ _ => Cert.Kernel.Gen.frame m ρ
/-- The idealized kernel's frame: generated. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ
/-- The reference's frame: its run, with what it says of the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories that agree on the two arguments both programs end at the same loss: the kernel at its block form,
    the reference at its whole-array form, and the two forms are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.BoxLoss.totalBlocks (Cert.KernelIdeal.Acc.argA m c) (Cert.KernelIdeal.Acc.argB m c),
    Cert.KernelIdeal.Acc.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.ref_eq, (hagree c).1, (hagree c).2, Cert.BoxLoss.total_eq_totalBlocks]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
